-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v105)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v105) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v158) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S2x800000 : Shape := ⟨2, ![2, 800000]⟩
abbrev S3x96x96 : Shape := ⟨3, ![3, 96, 96]⟩
abbrev S3x96 : Shape := ⟨2, ![3, 96]⟩
abbrev S_ : Shape := ⟨0, ![]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S3x96x96 : S_.BroadcastsInDim S3x96x96 (![] : Fin 0 → Fin S3x96x96.rank)
  reducesTo_S3x96x96_S_d0_1_2 : S3x96x96.ReducesTo [0, 1, 2] S_
  bcast_S_S3x96 : S_.BroadcastsInDim S3x96 (![] : Fin 0 → Fin S3x96.rank)
  reducesTo_S3x96_S_d0_1 : S3x96.ReducesTo [0, 1] S_

variable [Facts]

def fn_part1 {F : FTy → Type} [FloatOps F] (main_arg5 : FVec F S3x96 .f32) (main_arg6 : FVec F S3x96 .f32) (main_arg7 : FVec F S3x96 .f32) (main_v13 : IVec S_ 1) (main_v16 : IVec S3x96x96 1) : IVec S_ 1 :=
  let main_c_5 : IVec S_ 1 := constantI S_ 1 1#1
  let main_v17 : IVec S_ 1 := (fun x v => Host.reduce IntOp.andi x v reducesTo_S3x96x96_S_d0_1_2 h_S_) main_v16 main_c_5
  let main_v18 : IVec S_ 1 := andi main_v13 main_v17
  let main_v19 : FVec F S3x96 .f32 := Host.absf main_arg5
  let main_cst_6 : FVec F S_ .f32 := constant S_ .f32 0x7F800000#32
  let main_v20 : FVec F S3x96 .f32 := broadcastInDim S3x96 ![] bcast_S_S3x96 main_cst_6
  let main_v21 : IVec S3x96 1 := cmpf .olt main_v19 main_v20
  let main_c_7 : IVec S_ 1 := constantI S_ 1 1#1
  let main_v22 : IVec S_ 1 := (fun x v => Host.reduce IntOp.andi x v reducesTo_S3x96_S_d0_1 h_S_) main_v21 main_c_7
  let main_v23 : IVec S_ 1 := andi main_v18 main_v22
  let main_v24 : FVec F S3x96 .f32 := Host.absf main_arg6
  let main_cst_8 : FVec F S_ .f32 := constant S_ .f32 0x7F800000#32
  let main_v25 : FVec F S3x96 .f32 := broadcastInDim S3x96 ![] bcast_S_S3x96 main_cst_8
  let main_v26 : IVec S3x96 1 := cmpf .olt main_v24 main_v25
  let main_c_9 : IVec S_ 1 := constantI S_ 1 1#1
  let main_v27 : IVec S_ 1 := (fun x v => Host.reduce IntOp.andi x v reducesTo_S3x96_S_d0_1 h_S_) main_v26 main_c_9
  let main_v28 : IVec S_ 1 := andi main_v23 main_v27
  let main_v29 : FVec F S3x96 .f32 := Host.absf main_arg7
  let main_cst_10 : FVec F S_ .f32 := constant S_ .f32 0x7F800000#32
  let main_v30 : FVec F S3x96 .f32 := broadcastInDim S3x96 ![] bcast_S_S3x96 main_cst_10
  let main_v31 : IVec S3x96 1 := cmpf .olt main_v29 main_v30
  let main_c_11 : IVec S_ 1 := constantI S_ 1 1#1
  let main_v32 : IVec S_ 1 := (fun x v => Host.reduce IntOp.andi x v reducesTo_S3x96_S_d0_1 h_S_) main_v31 main_c_11
  let main_v33 : IVec S_ 1 := andi main_v28 main_v32
  main_v33

def fn {F : FTy → Type} [FloatOps F] (main_arg0 : FVec F S50000x96 .f32) (main_arg1 : IVec S2x800000 32) (main_arg2 : FVec F S3x96x96 .f32) (main_arg3 : FVec F S3x96 .f32) (main_arg4 : FVec F S3x96x96 .f32) (main_arg5 : FVec F S3x96 .f32) (main_arg6 : FVec F S3x96 .f32) (main_arg7 : FVec F S3x96 .f32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S3x96x96 .f32 := Host.absf main_arg2
  let main_cst_0 : FVec F S_ .f32 := constant S_ .f32 0x7F800000#32
  let main_v5 : FVec F S3x96x96 .f32 := broadcastInDim S3x96x96 ![] bcast_S_S3x96x96 main_cst_0
  let main_v6 : IVec S3x96x96 1 := cmpf .olt main_v4 main_v5
  let main_c_1 : IVec S_ 1 := constantI S_ 1 1#1
  let main_v7 : IVec S_ 1 := (fun x v => Host.reduce IntOp.andi x v reducesTo_S3x96x96_S_d0_1_2 h_S_) main_v6 main_c_1
  let main_v8 : IVec S_ 1 := andi main_v3 main_v7
  let main_v9 : FVec F S3x96 .f32 := Host.absf main_arg3
  let main_cst_2 : FVec F S_ .f32 := constant S_ .f32 0x7F800000#32
  let main_v10 : FVec F S3x96 .f32 := broadcastInDim S3x96 ![] bcast_S_S3x96 main_cst_2
  let main_v11 : IVec S3x96 1 := cmpf .olt main_v9 main_v10
  let main_c_3 : IVec S_ 1 := constantI S_ 1 1#1
  let main_v12 : IVec S_ 1 := (fun x v => Host.reduce IntOp.andi x v reducesTo_S3x96_S_d0_1 h_S_) main_v11 main_c_3
  let main_v13 : IVec S_ 1 := andi main_v8 main_v12
  let main_v14 : FVec F S3x96x96 .f32 := Host.absf main_arg4
  let main_cst_4 : FVec F S_ .f32 := constant S_ .f32 0x7F800000#32
  let main_v15 : FVec F S3x96x96 .f32 := broadcastInDim S3x96x96 ![] bcast_S_S3x96x96 main_cst_4
  let main_v16 : IVec S3x96x96 1 := cmpf .olt main_v14 main_v15
  fn_part1 (F := F) main_arg5 main_arg6 main_arg7 main_v13 main_v16
-- ==== Kernel.lean ====
abbrev S50000x96 : Shape := ⟨2, ![50000, 96]⟩
abbrev S2x800000 : Shape := ⟨2, ![2, 800000]⟩
abbrev S3x96x96 : Shape := ⟨3, ![3, 96, 96]⟩
abbrev S3x96 : Shape := ⟨2, ![3, 96]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x96 : Shape := ⟨2, ![800000, 96]⟩
abbrev S1x96x96 : Shape := ⟨3, ![1, 96, 96]⟩
abbrev S96x96 : Shape := ⟨2, ![96, 96]⟩
abbrev S1x96 : Shape := ⟨2, ![1, 96]⟩
abbrev S96 : Shape := ⟨1, ![96]⟩
abbrev S5000x96 : Shape := ⟨2, ![5000, 96]⟩

abbrev nBuf : Space → Nat
  | .hbm => 195
  | .vmem => 54
  | .smem => 0
  | _ => 0

abbrev hbmTy0_0 (i : Nat) : BufTy := match i % 128 with
  | 0 => ⟨S50000x96, .f32⟩
  | 1 => ⟨S2x800000, .i32⟩
  | 2 => ⟨S3x96x96, .f32⟩
  | 3 => ⟨S3x96, .f32⟩
  | 4 => ⟨S3x96x96, .f32⟩
  | 5 => ⟨S3x96, .f32⟩
  | 6 => ⟨S3x96, .f32⟩
  | 7 => ⟨S3x96, .f32⟩
  | 8 => ⟨S1x800000, .i32⟩
  | 9 => ⟨S800000, .i32⟩
  | 10 => ⟨S1x800000, .i32⟩
  | 11 => ⟨S800000, .i32⟩
  | 12 => ⟨S_, .i32⟩
  | 13 => ⟨S800000, .i32⟩
  | 14 => ⟨S800000, .i1⟩
  | 15 => ⟨S_, .i32⟩
  | 16 => ⟨S800000, .i32⟩
  | 17 => ⟨S800000, .i32⟩
  | 18 => ⟨S800000, .i32⟩
  | 19 => ⟨S800000x1, .i32⟩
  | 20 => ⟨S800000x96, .f32⟩
  | 21 => ⟨S_, .f32⟩
  | 22 => ⟨S50000x96, .f32⟩
  | 23 => ⟨S800000x1, .i32⟩
  | 24 => ⟨S50000x96, .f32⟩
  | 25 => ⟨S1x96x96, .f32⟩
  | 26 => ⟨S96x96, .f32⟩
  | 27 => ⟨S1x96, .f32⟩
  | 28 => ⟨S96, .f32⟩
  | 29 => ⟨S1x96x96, .f32⟩
  | 30 => ⟨S96x96, .f32⟩
  | 31 => ⟨S1x96, .f32⟩
  | 32 => ⟨S96, .f32⟩
  | 33 => ⟨S1x96, .f32⟩
  | 34 => ⟨S1x96, .f32⟩
  | 35 => ⟨S50000x96, .f32⟩
  | 36 => ⟨S_, .f32⟩
  | 37 => ⟨S96, .f32⟩
  | 38 => ⟨S_, .f32⟩
  | 39 => ⟨S96, .f32⟩
  | 40 => ⟨S96, .f32⟩
  | 41 => ⟨S_, .i32⟩
  | 42 => ⟨S_, .f32⟩
  | 43 => ⟨S96, .f32⟩
  | 44 => ⟨S1x96, .f32⟩
  | 45 => ⟨S_, .f32⟩
  | 46 => ⟨S1x96, .f32⟩
  | 47 => ⟨S1x96, .f32⟩
  | 48 => ⟨S50000x96, .f32⟩
  | 49 => ⟨S50000x96, .f32⟩
  | 50 => ⟨S50000x96, .f32⟩
  | 51 => ⟨S_, .f32⟩
  | 52 => ⟨S_, .f32⟩
  | 53 => ⟨S_, .f32⟩
  | 54 => ⟨S_, .f32⟩
  | 55 => ⟨S96, .f32⟩
  | 56 => ⟨S96, .f32⟩
  | 57 => ⟨S96, .f32⟩
  | 58 => ⟨S_, .f32⟩
  | 59 => ⟨S_, .i1⟩
  | 60 => ⟨S_, .f32⟩
  | 61 => ⟨S_, .f32⟩
  | 62 => ⟨S96, .f32⟩
  | 63 => ⟨S96, .f32⟩
  | 64 => ⟨S1x96, .f32⟩
  | 65 => ⟨S96, .f32⟩
  | 66 => ⟨S1x96, .f32⟩
  | 67 => ⟨S96, .f32⟩
  | 68 => ⟨S1x96, .f32⟩
  | 69 => ⟨S1x96, .f32⟩
  | 70 => ⟨S1x96, .f32⟩
  | 71 => ⟨S1x96, .f32⟩
  | 72 => ⟨S50000x96, .f32⟩
  | 73 => ⟨S_, .i32⟩
  | 74 => ⟨S800000, .i32⟩
  | 75 => ⟨S800000, .i1⟩
  | 76 => ⟨S_, .i32⟩
  | 77 => ⟨S800000, .i32⟩
  | 78 => ⟨S800000, .i32⟩
  | 79 => ⟨S800000, .i32⟩
  | 80 => ⟨S800000x1, .i32⟩
  | 81 => ⟨S800000x96, .f32⟩
  | 82 => ⟨S_, .f32⟩
  | 83 => ⟨S50000x96, .f32⟩
  | 84 => ⟨S800000x1, .i32⟩
  | 85 => ⟨S50000x96, .f32⟩
  | 86 => ⟨S1x96x96, .f32⟩
  | 87 => ⟨S96x96, .f32⟩
  | 88 => ⟨S1x96, .f32⟩
  | 89 => ⟨S96, .f32⟩
  | 90 => ⟨S1x96x96, .f32⟩
  | 91 => ⟨S96x96, .f32⟩
  | 92 => ⟨S1x96, .f32⟩
  | 93 => ⟨S96, .f32⟩
  | 94 => ⟨S1x96, .f32⟩
  | 95 => ⟨S1x96, .f32⟩
  | 96 => ⟨S50000x96, .f32⟩
  | 97 => ⟨S_, .f32⟩
  | 98 => ⟨S96, .f32⟩
  | 99 => ⟨S_, .f32⟩
  | 100 => ⟨S96, .f32⟩
  | 101 => ⟨S96, .f32⟩
  | 102 => ⟨S_, .i32⟩
  | 103 => ⟨S_, .f32⟩
  | 104 => ⟨S96, .f32⟩
  | 105 => ⟨S1x96, .f32⟩
  | 106 => ⟨S_, .f32⟩
  | 107 => ⟨S1x96, .f32⟩
  | 108 => ⟨S1x96, .f32⟩
  | 109 => ⟨S50000x96, .f32⟩
  | 110 => ⟨S50000x96, .f32⟩
  | 111 => ⟨S50000x96, .f32⟩
  | 112 => ⟨S_, .f32⟩
  | 113 => ⟨S_, .f32⟩
  | 114 => ⟨S_, .f32⟩
  | 115 => ⟨S_, .f32⟩
  | 116 => ⟨S96, .f32⟩
  | 117 => ⟨S96, .f32⟩
  | 118 => ⟨S96, .f32⟩
  | 119 => ⟨S_, .f32⟩
  | 120 => ⟨S_, .i1⟩
  | 121 => ⟨S_, .f32⟩
  | 122 => ⟨S_, .f32⟩
  | 123 => ⟨S96, .f32⟩
  | 124 => ⟨S96, .f32⟩
  | 125 => ⟨S1x96, .f32⟩
  | 126 => ⟨S96, .f32⟩
  | 127 => ⟨S1x96, .f32⟩
  | _ => ⟨S50000x96, .f32⟩

abbrev hbmTy0_1 (i : Nat) : BufTy := match i % 128 with
  | 0 => ⟨S96, .f32⟩
  | 1 => ⟨S1x96, .f32⟩
  | 2 => ⟨S1x96, .f32⟩
  | 3 => ⟨S1x96, .f32⟩
  | 4 => ⟨S1x96, .f32⟩
  | 5 => ⟨S50000x96, .f32⟩
  | 6 => ⟨S_, .i32⟩
  | 7 => ⟨S800000, .i32⟩
  | 8 => ⟨S800000, .i1⟩
  | 9 => ⟨S_, .i32⟩
  | 10 => ⟨S800000, .i32⟩
  | 11 => ⟨S800000, .i32⟩
  | 12 => ⟨S800000, .i32⟩
  | 13 => ⟨S800000x1, .i32⟩
  | 14 => ⟨S800000x96, .f32⟩
  | 15 => ⟨S_, .f32⟩
  | 16 => ⟨S50000x96, .f32⟩
  | 17 => ⟨S800000x1, .i32⟩
  | 18 => ⟨S50000x96, .f32⟩
  | 19 => ⟨S1x96x96, .f32⟩
  | 20 => ⟨S96x96, .f32⟩
  | 21 => ⟨S1x96, .f32⟩
  | 22 => ⟨S96, .f32⟩
  | 23 => ⟨S1x96x96, .f32⟩
  | 24 => ⟨S96x96, .f32⟩
  | 25 => ⟨S1x96, .f32⟩
  | 26 => ⟨S96, .f32⟩
  | 27 => ⟨S1x96, .f32⟩
  | 28 => ⟨S1x96, .f32⟩
  | 29 => ⟨S50000x96, .f32⟩
  | 30 => ⟨S_, .f32⟩
  | 31 => ⟨S96, .f32⟩
  | 32 => ⟨S_, .f32⟩
  | 33 => ⟨S96, .f32⟩
  | 34 => ⟨S96, .f32⟩
  | 35 => ⟨S_, .i32⟩
  | 36 => ⟨S_, .f32⟩
  | 37 => ⟨S96, .f32⟩
  | 38 => ⟨S1x96, .f32⟩
  | 39 => ⟨S_, .f32⟩
  | 40 => ⟨S1x96, .f32⟩
  | 41 => ⟨S1x96, .f32⟩
  | 42 => ⟨S50000x96, .f32⟩
  | 43 => ⟨S50000x96, .f32⟩
  | 44 => ⟨S50000x96, .f32⟩
  | 45 => ⟨S_, .f32⟩
  | 46 => ⟨S_, .f32⟩
  | 47 => ⟨S_, .f32⟩
  | 48 => ⟨S_, .f32⟩
  | 49 => ⟨S96, .f32⟩
  | 50 => ⟨S96, .f32⟩
  | 51 => ⟨S96, .f32⟩
  | 52 => ⟨S_, .f32⟩
  | 53 => ⟨S_, .i1⟩
  | 54 => ⟨S_, .f32⟩
  | 55 => ⟨S_, .f32⟩
  | 56 => ⟨S96, .f32⟩
  | 57 => ⟨S96, .f32⟩
  | 58 => ⟨S1x96, .f32⟩
  | 59 => ⟨S96, .f32⟩
  | 60 => ⟨S1x96, .f32⟩
  | 61 => ⟨S96, .f32⟩
  | 62 => ⟨S1x96, .f32⟩
  | 63 => ⟨S1x96, .f32⟩
  | 64 => ⟨S1x96, .f32⟩
  | 65 => ⟨S1x96, .f32⟩
  | 66 => ⟨S50000x96, .f32⟩
  | _ => ⟨S50000x96, .f32⟩

abbrev hbmTy (i : Nat) : BufTy := match i / 128 with
  | 0 => hbmTy0_0 i
  | 1 => hbmTy0_1 i
  | _ => ⟨S50000x96, .f32⟩

abbrev bufTy : (tb : Table) → Fin (tcTables nBuf tb) → BufTy
  | .hbm, ⟨i, _⟩ => hbmTy i
  | .local _ .vmem, ⟨0, _⟩ => ⟨S5000x96, .f32⟩
  | .local _ .vmem, ⟨1, _⟩ => ⟨S5000x96, .f32⟩
  | .local _ .vmem, ⟨2, _⟩ => ⟨S5000x96, .f32⟩
  | .local _ .vmem, ⟨3, _⟩ => ⟨S5000x96, .f32⟩
  | .local _ .vmem, ⟨4, _⟩ => ⟨S96x96, .f32⟩
  | .local _ .vmem, ⟨5, _⟩ => ⟨S1x96, .f32⟩
  | .local _ .vmem, ⟨6, _⟩ => ⟨S96x96, .f32⟩
  | .local _ .vmem, ⟨7, _⟩ => ⟨S1x96, .f32⟩
  | .local _ .vmem, ⟨8, _⟩ => ⟨S5000x96, .f32⟩
  | .local _ .vmem, ⟨9, _⟩ => ⟨S5000x96, .f32⟩
  | .local _ .vmem, ⟨10, _⟩ => ⟨S5000x96, .f32⟩
  | .local _ .vmem, ⟨11, _⟩ => ⟨S5000x96, .f32⟩
  | .local _ .vmem, ⟨12, _⟩ => ⟨S1x96, .f32⟩
  | .local _ .vmem, ⟨13, _⟩ => ⟨S1x96, .f32⟩
  | .local _ .vmem, ⟨14, _⟩ => ⟨S1x96, .f32⟩
  | .local _ .vmem, ⟨15, _⟩ => ⟨S1x96, .f32⟩
  | .local _ .vmem, ⟨16, _⟩ => ⟨S5000x96, .f32⟩
  | .local _ .vmem, ⟨17, _⟩ => ⟨S5000x96, .f32⟩
  | .local _ .vmem, ⟨18, _⟩ => ⟨S5000x96, .f32⟩
  | .local _ .vmem, ⟨19, _⟩ => ⟨S5000x96, .f32⟩
  | .local _ .vmem, ⟨20, _⟩ => ⟨S5000x96, .f32⟩
  | .local _ .vmem, ⟨21, _⟩ => ⟨S5000x96, .f32⟩
  | .local _ .vmem, ⟨22, _⟩ => ⟨S96x96, .f32⟩
  | .local _ .vmem, ⟨23, _⟩ => ⟨S1x96, .f32⟩
  | .local _ .vmem, ⟨24, _⟩ => ⟨S96x96, .f32⟩
  | .local _ .vmem, ⟨25, _⟩ => ⟨S1x96, .f32⟩
  | .local _ .vmem, ⟨26, _⟩ => ⟨S5000x96, .f32⟩
  | .local _ .vmem, ⟨27, _⟩ => ⟨S5000x96, .f32⟩
  | .local _ .vmem, ⟨28, _⟩ => ⟨S5000x96, .f32⟩
  | .local _ .vmem, ⟨29, _⟩ => ⟨S5000x96, .f32⟩
  | .local _ .vmem, ⟨30, _⟩ => ⟨S1x96, .f32⟩
  | .local _ .vmem, ⟨31, _⟩ => ⟨S1x96, .f32⟩
  | .local _ .vmem, ⟨32, _⟩ => ⟨S1x96, .f32⟩
  | .local _ .vmem, ⟨33, _⟩ => ⟨S1x96, .f32⟩
  | .local _ .vmem, ⟨34, _⟩ => ⟨S5000x96, .f32⟩
  | .local _ .vmem, ⟨35, _⟩ => ⟨S5000x96, .f32⟩
  | .local _ .vmem, ⟨36, _⟩ => ⟨S5000x96, .f32⟩
  | .local _ .vmem, ⟨37, _⟩ => ⟨S5000x96, .f32⟩
  | .local _ .vmem, ⟨38, _⟩ => ⟨S5000x96, .f32⟩
  | .local _ .vmem, ⟨39, _⟩ => ⟨S5000x96, .f32⟩
  | .local _ .vmem, ⟨40, _⟩ => ⟨S96x96, .f32⟩
  | .local _ .vmem, ⟨41, _⟩ => ⟨S1x96, .f32⟩
  | .local _ .vmem, ⟨42, _⟩ => ⟨S96x96, .f32⟩
  | .local _ .vmem, ⟨43, _⟩ => ⟨S1x96, .f32⟩
  | .local _ .vmem, ⟨44, _⟩ => ⟨S5000x96, .f32⟩
  | .local _ .vmem, ⟨45, _⟩ => ⟨S5000x96, .f32⟩
  | .local _ .vmem, ⟨46, _⟩ => ⟨S5000x96, .f32⟩
  | .local _ .vmem, ⟨47, _⟩ => ⟨S5000x96, .f32⟩
  | .local _ .vmem, ⟨48, _⟩ => ⟨S1x96, .f32⟩
  | .local _ .vmem, ⟨49, _⟩ => ⟨S1x96, .f32⟩
  | .local _ .vmem, ⟨50, _⟩ => ⟨S1x96, .f32⟩
  | .local _ .vmem, ⟨51, _⟩ => ⟨S1x96, .f32⟩
  | .local _ .vmem, ⟨52, _⟩ => ⟨S5000x96, .f32⟩
  | .local _ .vmem, ⟨53, _⟩ => ⟨S5000x96, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_1 : Ref sig .tc := ⟨.hbm, 36, rfl⟩
abbrev main_v25 : Ref sig .tc := ⟨.hbm, 37, rfl⟩
abbrev main_cst_2 : Ref sig .tc := ⟨.hbm, 38, rfl⟩
abbrev main_v26 : Ref sig .tc := ⟨.hbm, 39, rfl⟩
abbrev main_v27 : Ref sig .tc := ⟨.hbm, 40, rfl⟩
abbrev main_c_3 : Ref sig .tc := ⟨.hbm, 41, rfl⟩
abbrev main_call0_cst : Ref sig .tc := ⟨.hbm, 42, rfl⟩
abbrev main_call0_v0 : Ref sig .tc := ⟨.hbm, 43, rfl⟩
abbrev main_call0_v1 : Ref sig .tc := ⟨.hbm, 44, rfl⟩
abbrev main_call0_cst_0 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_call0_v5 : Ref sig .tc := ⟨.hbm, 49, rfl⟩
abbrev main_call0_v6 : Ref sig .tc := ⟨.hbm, 50, rfl⟩
abbrev main_call0_v7 : Ref sig .tc := ⟨.hbm, 51, rfl⟩
abbrev main_call0_cst_1 : Ref sig .tc := ⟨.hbm, 52, rfl⟩
abbrev main_call0_v8 : Ref sig .tc := ⟨.hbm, 53, rfl⟩
abbrev main_call0_cst_2 : Ref sig .tc := ⟨.hbm, 54, rfl⟩
abbrev main_call0_v9 : Ref sig .tc := ⟨.hbm, 55, rfl⟩
abbrev main_call0_v10 : Ref sig .tc := ⟨.hbm, 56, rfl⟩
abbrev main_call0_v11 : Ref sig .tc := ⟨.hbm, 57, rfl⟩
abbrev main_call0_cst_3 : Ref sig .tc := ⟨.hbm, 58, rfl⟩
abbrev main_call0_v12 : Ref sig .tc := ⟨.hbm, 59, rfl⟩
abbrev main_call0_cst_4 : Ref sig .tc := ⟨.hbm, 60, rfl⟩
abbrev main_call0_call0_v0 : Ref sig .tc := ⟨.hbm, 61, rfl⟩
abbrev main_call0_call0_v1 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_c_4 : Ref sig .tc := ⟨.hbm, 73, rfl⟩
abbrev main_v38 : Ref sig .tc := ⟨.hbm, 74, rfl⟩
abbrev main_v39 : Ref sig .tc := ⟨.hbm, 75, rfl⟩
abbrev main_c_5 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_cst_6 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_cst_7 : Ref sig .tc := ⟨.hbm, 97, rfl⟩
abbrev main_v59 : Ref sig .tc := ⟨.hbm, 98, rfl⟩
abbrev main_cst_8 : Ref sig .tc := ⟨.hbm, 99, rfl⟩
abbrev main_v60 : Ref sig .tc := ⟨.hbm, 100, rfl⟩
abbrev main_v61 : Ref sig .tc := ⟨.hbm, 101, rfl⟩
abbrev main_c_9 : Ref sig .tc := ⟨.hbm, 102, rfl⟩
abbrev main_call1_cst : Ref sig .tc := ⟨.hbm, 103, rfl⟩
abbrev main_call1_v0 : Ref sig .tc := ⟨.hbm, 104, rfl⟩
abbrev main_call1_v1 : Ref sig .tc := ⟨.hbm, 105, rfl⟩
abbrev main_call1_cst_0 : Ref sig .tc := ⟨.hbm, 106, rfl⟩
abbrev main_call1_v2 : Ref sig .tc := ⟨.hbm, 107, rfl⟩
abbrev main_call1_v3 : Ref sig .tc := ⟨.hbm, 108, rfl⟩
abbrev main_call1_v4 : Ref sig .tc := ⟨.hbm, 109, rfl⟩
abbrev main_call1_v5 : Ref sig .tc := ⟨.hbm, 110, rfl⟩
abbrev main_call1_v6 : Ref sig .tc := ⟨.hbm, 111, rfl⟩
abbrev main_call1_v7 : Ref sig .tc := ⟨.hbm, 112, rfl⟩
abbrev main_call1_cst_1 : Ref sig .tc := ⟨.hbm, 113, rfl⟩
abbrev main_call1_v8 : Ref sig .tc := ⟨.hbm, 114, rfl⟩
abbrev main_call1_cst_2 : Ref sig .tc := ⟨.hbm, 115, rfl⟩
abbrev main_call1_v9 : Ref sig .tc := ⟨.hbm, 116, rfl⟩
abbrev main_call1_v10 : Ref sig .tc := ⟨.hbm, 117, rfl⟩
abbrev main_call1_v11 : Ref sig .tc := ⟨.hbm, 118, rfl⟩
abbrev main_call1_cst_3 : Ref sig .tc := ⟨.hbm, 119, rfl⟩
abbrev main_call1_v12 : Ref sig .tc := ⟨.hbm, 120, rfl⟩
abbrev main_call1_cst_4 : Ref sig .tc := ⟨.hbm, 121, rfl⟩
abbrev main_call1_call0_v0 : Ref sig .tc := ⟨.hbm, 122, rfl⟩
abbrev main_call1_call0_v1 : Ref sig .tc := ⟨.hbm, 123, rfl⟩
abbrev main_v62 : Ref sig .tc := ⟨.hbm, 124, rfl⟩
abbrev main_v63 : Ref sig .tc := ⟨.hbm, 125, rfl⟩
abbrev main_v64 : Ref sig .tc := ⟨.hbm, 126, rfl⟩
abbrev main_v65 : Ref sig .tc := ⟨.hbm, 127, rfl⟩
abbrev main_v66 : Ref sig .tc := ⟨.hbm, 128, rfl⟩
abbrev main_v67 : Ref sig .tc := ⟨.hbm, 129, rfl⟩
abbrev main_v68 : Ref sig .tc := ⟨.hbm, 130, rfl⟩
abbrev main_v69 : Ref sig .tc := ⟨.hbm, 131, rfl⟩
abbrev main_v70 : Ref sig .tc := ⟨.hbm, 132, rfl⟩
abbrev main_v71 : Ref sig .tc := ⟨.hbm, 133, rfl⟩
abbrev main_c_10 : Ref sig .tc := ⟨.hbm, 134, rfl⟩
abbrev main_v72 : Ref sig .tc := ⟨.hbm, 135, rfl⟩
abbrev main_v73 : Ref sig .tc := ⟨.hbm, 136, rfl⟩
abbrev main_c_11 : Ref sig .tc := ⟨.hbm, 137, rfl⟩
abbrev main_v74 : Ref sig .tc := ⟨.hbm, 138, rfl⟩
abbrev main_v75 : Ref sig .tc := ⟨.hbm, 139, rfl⟩
abbrev main_v76 : Ref sig .tc := ⟨.hbm, 140, rfl⟩
abbrev main_v77 : Ref sig .tc := ⟨.hbm, 141, rfl⟩
abbrev main_v78 : Ref sig .tc := ⟨.hbm, 142, rfl⟩
abbrev main_cst_12 : Ref sig .tc := ⟨.hbm, 143, rfl⟩
abbrev main_v79 : Ref sig .tc := ⟨.hbm, 144, rfl⟩
abbrev main_v80 : Ref sig .tc := ⟨.hbm, 145, rfl⟩
abbrev main_v81 : Ref sig .tc := ⟨.hbm, 146, rfl⟩
abbrev main_v82 : Ref sig .tc := ⟨.hbm, 147, rfl⟩
abbrev main_v83 : Ref sig .tc := ⟨.hbm, 148, rfl⟩
abbrev main_v84 : Ref sig .tc := ⟨.hbm, 149, rfl⟩
abbrev main_v85 : Ref sig .tc := ⟨.hbm, 150, rfl⟩
abbrev main_v86 : Ref sig .tc := ⟨.hbm, 151, rfl⟩
abbrev main_v87 : Ref sig .tc := ⟨.hbm, 152, rfl⟩
abbrev main_v88 : Ref sig .tc := ⟨.hbm, 153, rfl⟩
abbrev main_v89 : Ref sig .tc := ⟨.hbm, 154, rfl⟩
abbrev main_v90 : Ref sig .tc := ⟨.hbm, 155, rfl⟩
abbrev main_v91 : Ref sig .tc := ⟨.hbm, 156, rfl⟩
abbrev main_v92 : Ref sig .tc := ⟨.hbm, 157, rfl⟩
abbrev main_cst_13 : Ref sig .tc := ⟨.hbm, 158, rfl⟩
abbrev main_v93 : Ref sig .tc := ⟨.hbm, 159, rfl⟩
abbrev main_cst_14 : Ref sig .tc := ⟨.hbm, 160, rfl⟩
abbrev main_v94 : Ref sig .tc := ⟨.hbm, 161, rfl⟩
abbrev main_v95 : Ref sig .tc := ⟨.hbm, 162, rfl⟩
abbrev main_c_15 : Ref sig .tc := ⟨.hbm, 163, rfl⟩
abbrev main_call2_cst : Ref sig .tc := ⟨.hbm, 164, rfl⟩
abbrev main_call2_v0 : Ref sig .tc := ⟨.hbm, 165, rfl⟩
abbrev main_call2_v1 : Ref sig .tc := ⟨.hbm, 166, rfl⟩
abbrev main_call2_cst_0 : Ref sig .tc := ⟨.hbm, 167, rfl⟩
abbrev main_call2_v2 : Ref sig .tc := ⟨.hbm, 168, rfl⟩
abbrev main_call2_v3 : Ref sig .tc := ⟨.hbm, 169, rfl⟩
abbrev main_call2_v4 : Ref sig .tc := ⟨.hbm, 170, rfl⟩
abbrev main_call2_v5 : Ref sig .tc := ⟨.hbm, 171, rfl⟩
abbrev main_call2_v6 : Ref sig .tc := ⟨.hbm, 172, rfl⟩
abbrev main_call2_v7 : Ref sig .tc := ⟨.hbm, 173, rfl⟩
abbrev main_call2_cst_1 : Ref sig .tc := ⟨.hbm, 174, rfl⟩
abbrev main_call2_v8 : Ref sig .tc := ⟨.hbm, 175, rfl⟩
abbrev main_call2_cst_2 : Ref sig .tc := ⟨.hbm, 176, rfl⟩
abbrev main_call2_v9 : Ref sig .tc := ⟨.hbm, 177, rfl⟩
abbrev main_call2_v10 : Ref sig .tc := ⟨.hbm, 178, rfl⟩
abbrev main_call2_v11 : Ref sig .tc := ⟨.hbm, 179, rfl⟩
abbrev main_call2_cst_3 : Ref sig .tc := ⟨.hbm, 180, rfl⟩
abbrev main_call2_v12 : Ref sig .tc := ⟨.hbm, 181, rfl⟩
abbrev main_call2_cst_4 : Ref sig .tc := ⟨.hbm, 182, rfl⟩
abbrev main_call2_call0_v0 : Ref sig .tc := ⟨.hbm, 183, rfl⟩
abbrev main_call2_call0_v1 : Ref sig .tc := ⟨.hbm, 184, rfl⟩
abbrev main_v96 : Ref sig .tc := ⟨.hbm, 185, rfl⟩
abbrev main_v97 : Ref sig .tc := ⟨.hbm, 186, rfl⟩
abbrev main_v98 : Ref sig .tc := ⟨.hbm, 187, rfl⟩
abbrev main_v99 : Ref sig .tc := ⟨.hbm, 188, rfl⟩
abbrev main_v100 : Ref sig .tc := ⟨.hbm, 189, rfl⟩
abbrev main_v101 : Ref sig .tc := ⟨.hbm, 190, rfl⟩
abbrev main_v102 : Ref sig .tc := ⟨.hbm, 191, rfl⟩
abbrev main_v103 : Ref sig .tc := ⟨.hbm, 192, rfl⟩
abbrev main_v104 : Ref sig .tc := ⟨.hbm, 193, rfl⟩
abbrev main_v105 : Ref sig .tc := ⟨.hbm, 194, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg6_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg5_0 : Ref sig .tc := ⟨.vmem, 43, rfl⟩
abbrev cc4_stg6_0 : Ref sig .tc := ⟨.vmem, 44, rfl⟩
abbrev cc4_stg6_1 : Ref sig .tc := ⟨.vmem, 45, rfl⟩
abbrev cc5_stg0_0 : Ref sig .tc := ⟨.vmem, 46, rfl⟩
abbrev cc5_stg0_1 : Ref sig .tc := ⟨.vmem, 47, rfl⟩
abbrev cc5_stg1_0 : Ref sig .tc := ⟨.vmem, 48, rfl⟩
abbrev cc5_stg2_0 : Ref sig .tc := ⟨.vmem, 49, rfl⟩
abbrev cc5_stg3_0 : Ref sig .tc := ⟨.vmem, 50, rfl⟩
abbrev cc5_stg4_0 : Ref sig .tc := ⟨.vmem, 51, rfl⟩
abbrev cc5_stg5_0 : Ref sig .tc := ⟨.vmem, 52, rfl⟩
abbrev cc5_stg5_1 : Ref sig .tc := ⟨.vmem, 53, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem6_1 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem3_0 : DmaSem sig := 41
abbrev cc4_sem4_0 : DmaSem sig := 42
abbrev cc4_sem5_0 : DmaSem sig := 43
abbrev cc4_sem6_0 : DmaSem sig := 44
abbrev cc4_sem6_1 : DmaSem sig := 45
abbrev cc5_sem0_0 : DmaSem sig := 46
abbrev cc5_sem0_1 : DmaSem sig := 47
abbrev cc5_sem1_0 : DmaSem sig := 48
abbrev cc5_sem2_0 : DmaSem sig := 49
abbrev cc5_sem3_0 : DmaSem sig := 50
abbrev cc5_sem4_0 : DmaSem sig := 51
abbrev cc5_sem5_0 : DmaSem sig := 52
abbrev cc5_sem5_1 : DmaSem sig := 53

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S96x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S96x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x96 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x96 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x96 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x96 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x96 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x96 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x96 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x96 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S96x96 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x96 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S96x96 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x96 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x96 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x96 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x96 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x96 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x96 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x96 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x96 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x96 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x96 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S96x96 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x96 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S96x96 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x96 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x96 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x96 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x96 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x96 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x96 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x96 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x96 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x96 : S_.BroadcastsInDim S50000x96 (![] : Fin 0 → Fin S50000x96.rank)
  slices_S3x96x96_S1x96x96_0_0_0 : S3x96x96.Slices ![0, 0, 0] S1x96x96
  shapeCasts_S1x96x96_S96x96 : S1x96x96.ShapeCasts S96x96
  slices_S3x96_S1x96_0_0 : S3x96.Slices ![0, 0] S1x96
  shapeCasts_S1x96_S96 : S1x96.ShapeCasts S96
  shapeCasts_S96_S1x96 : S96.ShapeCasts S1x96
  inb_S5000x96_S5000x96_0_0 : ∀ a, (![0, 0] : Fin 2 → Nat) a + S5000x96.size a ≤ S5000x96.size a
  h_S5000x96 : 0 < S5000x96.numel
  shapeCasts_S5000x96_S5000x96 : S5000x96.ShapeCasts S5000x96
  inb_S96x96_S96x96_0_0 : ∀ a, (![0, 0] : Fin 2 → Nat) a + S96x96.size a ≤ S96x96.size a
  h_S96x96 : 0 < S96x96.numel
  shapeCasts_S96x96_S96x96 : S96x96.ShapeCasts S96x96
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S5000x96 : S1x96.Broadcasts S5000x96
  reducesTo_S50000x96_S96_d0 : S50000x96.ReducesTo [0] S96
  h_S_ : 0 < S_.numel
  bcast_S_S96 : S_.BroadcastsInDim S96 (![] : Fin 0 → Fin S96.rank)
  bcast_S96_S1x96_1 : S96.BroadcastsInDim S1x96 (![1] : Fin 1 → Fin S1x96.rank)
  bcast_S_S1x96 : S_.BroadcastsInDim S1x96 (![] : Fin 0 → Fin S1x96.rank)
  bcast_S1x96_S50000x96_0_1 : S1x96.BroadcastsInDim S50000x96 (![0, 1] : Fin 2 → Fin S50000x96.rank)
  slices_S3x96x96_S1x96x96_1_0_0 : S3x96x96.Slices ![1, 0, 0] S1x96x96
  slices_S3x96_S1x96_1_0 : S3x96.Slices ![1, 0] S1x96
  slices_S3x96x96_S1x96x96_2_0_0 : S3x96x96.Slices ![2, 0, 0] S1x96x96
  slices_S3x96_S1x96_2_0 : S3x96.Slices ![2, 0] S1x96
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S5000x96_S96x96_S5000x96_1_0_0_1_n_n_wf : DotDims.WF S5000x96 S96x96 S5000x96 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x96.size a ≤ S50000x96.size a
  hwx0_0 : ∀ i : grid0.Coords, EltTy.bits .f32 = 32 ∨ (Rect.block (s := S50000x96) S5000x96.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x96.size a ≤ S50000x96.size a
  hwx0_1 : ∀ i : grid0.Coords, EltTy.bits .f32 = 32 ∨ (Rect.block (s := S50000x96) S5000x96.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S96x96.size a ≤ S96x96.size a
  hwx0_2 : ∀ i : grid0.Coords, EltTy.bits .f32 = 32 ∨ (Rect.block (s := S96x96) S96x96.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x96.size a ≤ S1x96.size a
  hwx0_3 : ∀ i : grid0.Coords, EltTy.bits .f32 = 32 ∨ (Rect.block (s := S1x96) S1x96.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S96x96.size a ≤ S96x96.size a
  hwx0_4 : ∀ i : grid0.Coords, EltTy.bits .f32 = 32 ∨ (Rect.block (s := S96x96) S96x96.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x96.size a ≤ S1x96.size a
  hwx0_5 : ∀ i : grid0.Coords, EltTy.bits .f32 = 32 ∨ (Rect.block (s := S1x96) S1x96.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x96.size a ≤ S50000x96.size a
  hwx0_6 : ∀ i : grid0.Coords, EltTy.bits .f32 = 32 ∨ (Rect.block (s := S50000x96) S5000x96.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x96.size a ≤ S50000x96.size a
  hwx1_0 : ∀ i : grid1.Coords, EltTy.bits .f32 = 32 ∨ (Rect.block (s := S50000x96) S5000x96.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x96.size a ≤ S1x96.size a
  hwx1_1 : ∀ i : grid1.Coords, EltTy.bits .f32 = 32 ∨ (Rect.block (s := S1x96) S1x96.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x96.size a ≤ S1x96.size a
  hwx1_2 : ∀ i : grid1.Coords, EltTy.bits .f32 = 32 ∨ (Rect.block (s := S1x96) S1x96.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x96.size a ≤ S1x96.size a
  hwx1_3 : ∀ i : grid1.Coords, EltTy.bits .f32 = 32 ∨ (Rect.block (s := S1x96) S1x96.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x96.size a ≤ S1x96.size a
  hwx1_4 : ∀ i : grid1.Coords, EltTy.bits .f32 = 32 ∨ (Rect.block (s := S1x96) S1x96.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x96.size a ≤ S50000x96.size a
  hwx1_5 : ∀ i : grid1.Coords, EltTy.bits .f32 = 32 ∨ (Rect.block (s := S50000x96) S5000x96.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x96.size a ≤ S50000x96.size a
  hwx2_0 : ∀ i : grid2.Coords, EltTy.bits .f32 = 32 ∨ (Rect.block (s := S50000x96) S5000x96.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x96.size a ≤ S50000x96.size a
  hwx2_1 : ∀ i : grid2.Coords, EltTy.bits .f32 = 32 ∨ (Rect.block (s := S50000x96) S5000x96.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S96x96.size a ≤ S96x96.size a
  hwx2_2 : ∀ i : grid2.Coords, EltTy.bits .f32 = 32 ∨ (Rect.block (s := S96x96) S96x96.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x96.size a ≤ S1x96.size a
  hwx2_3 : ∀ i : grid2.Coords, EltTy.bits .f32 = 32 ∨ (Rect.block (s := S1x96) S1x96.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S96x96.size a ≤ S96x96.size a
  hwx2_4 : ∀ i : grid2.Coords, EltTy.bits .f32 = 32 ∨ (Rect.block (s := S96x96) S96x96.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x96.size a ≤ S1x96.size a
  hwx2_5 : ∀ i : grid2.Coords, EltTy.bits .f32 = 32 ∨ (Rect.block (s := S1x96) S1x96.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x96.size a ≤ S50000x96.size a
  hwx2_6 : ∀ i : grid2.Coords, EltTy.bits .f32 = 32 ∨ (Rect.block (s := S50000x96) S5000x96.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x96.size a ≤ S50000x96.size a
  hwx3_0 : ∀ i : grid3.Coords, EltTy.bits .f32 = 32 ∨ (Rect.block (s := S50000x96) S5000x96.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x96.size a ≤ S1x96.size a
  hwx3_1 : ∀ i : grid3.Coords, EltTy.bits .f32 = 32 ∨ (Rect.block (s := S1x96) S1x96.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x96.size a ≤ S1x96.size a
  hwx3_2 : ∀ i : grid3.Coords, EltTy.bits .f32 = 32 ∨ (Rect.block (s := S1x96) S1x96.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x96.size a ≤ S1x96.size a
  hwx3_3 : ∀ i : grid3.Coords, EltTy.bits .f32 = 32 ∨ (Rect.block (s := S1x96) S1x96.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x96.size a ≤ S1x96.size a
  hwx3_4 : ∀ i : grid3.Coords, EltTy.bits .f32 = 32 ∨ (Rect.block (s := S1x96) S1x96.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x96.size a ≤ S50000x96.size a
  hwx3_5 : ∀ i : grid3.Coords, EltTy.bits .f32 = 32 ∨ (Rect.block (s := S50000x96) S5000x96.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x96.size a ≤ S50000x96.size a
  hwx4_0 : ∀ i : grid4.Coords, EltTy.bits .f32 = 32 ∨ (Rect.block (s := S50000x96) S5000x96.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x96.size a ≤ S50000x96.size a
  hwx4_1 : ∀ i : grid4.Coords, EltTy.bits .f32 = 32 ∨ (Rect.block (s := S50000x96) S5000x96.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S96x96.size a ≤ S96x96.size a
  hwx4_2 : ∀ i : grid4.Coords, EltTy.bits .f32 = 32 ∨ (Rect.block (s := S96x96) S96x96.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x96.size a ≤ S1x96.size a
  hwx4_3 : ∀ i : grid4.Coords, EltTy.bits .f32 = 32 ∨ (Rect.block (s := S1x96) S1x96.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S96x96.size a ≤ S96x96.size a
  hwx4_4 : ∀ i : grid4.Coords, EltTy.bits .f32 = 32 ∨ (Rect.block (s := S96x96) S96x96.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x96.size a ≤ S1x96.size a
  hwx4_5 : ∀ i : grid4.Coords, EltTy.bits .f32 = 32 ∨ (Rect.block (s := S1x96) S1x96.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x96.size a ≤ S50000x96.size a
  hwx4_6 : ∀ i : grid4.Coords, EltTy.bits .f32 = 32 ∨ (Rect.block (s := S50000x96) S5000x96.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x96.size a ≤ S50000x96.size a
  hwx5_0 : ∀ i : grid5.Coords, EltTy.bits .f32 = 32 ∨ (Rect.block (s := S50000x96) S5000x96.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x96.size a ≤ S1x96.size a
  hwx5_1 : ∀ i : grid5.Coords, EltTy.bits .f32 = 32 ∨ (Rect.block (s := S1x96) S1x96.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x96.size a ≤ S1x96.size a
  hwx5_2 : ∀ i : grid5.Coords, EltTy.bits .f32 = 32 ∨ (Rect.block (s := S1x96) S1x96.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x96.size a ≤ S1x96.size a
  hwx5_3 : ∀ i : grid5.Coords, EltTy.bits .f32 = 32 ∨ (Rect.block (s := S1x96) S1x96.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x96.size a ≤ S1x96.size a
  hwx5_4 : ∀ i : grid5.Coords, EltTy.bits .f32 = 32 ∨ (Rect.block (s := S1x96) S1x96.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x96.size a ≤ S50000x96.size a
  hwx5_5 : ∀ i : grid5.Coords, EltTy.bits .f32 = 32 ∨ (Rect.block (s := S50000x96) S5000x96.size (cc5_transform_5 i) (hinb5_5 i)).WholeWords (EltTy.packing .f32)

variable [Facts₀]

def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S5000x96_S96x96_S5000x96_1_0_0_1_n_n : DotDims S5000x96 S96x96 S5000x96 where
  lhsContracting := [1]
  rhsContracting := [0]
  lhsNonContracting := [0]
  rhsNonContracting := [1]
  lhsBatch := []
  rhsBatch := []
  wf := dot_S5000x96_S96x96_S5000x96_1_0_0_1_n_n_wf

abbrev win0_0 : Pipeline.Window sig grid0 :=
  Pipeline.Window.ofSpec (Memref.whole main_arg0) S5000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x96.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S96x96.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S1x96.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S96x96.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1x96.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S5000x96.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v24) S5000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S1x96.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v34) S1x96.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v35) S1x96.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S1x96.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37) S5000x96.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v37) S5000x96.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v47) S5000x96.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v49) S96x96.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v56) S1x96.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v53) S96x96.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v57) S1x96.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v58) S5000x96.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v58) S5000x96.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v67) S1x96.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v68) S1x96.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v69) S1x96.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v70) S1x96.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v71) S5000x96.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v71) S5000x96.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v81) S5000x96.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v83) S96x96.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v90) S1x96.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v87) S96x96.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v91) S1x96.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v92) S5000x96.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v92) S5000x96.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v101) S1x96.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v102) S1x96.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v103) S1x96.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v104) S1x96.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v105) S5000x96.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S50000x96 : Shape := ⟨2, ![50000, 96]⟩
abbrev S2x800000 : Shape := ⟨2, ![2, 800000]⟩
abbrev S3x96x96 : Shape := ⟨3, ![3, 96, 96]⟩
abbrev S3x96 : Shape := ⟨2, ![3, 96]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x96 : Shape := ⟨2, ![800000, 96]⟩
abbrev S1x96x96 : Shape := ⟨3, ![1, 96, 96]⟩
abbrev S96x96 : Shape := ⟨2, ![96, 96]⟩
abbrev S1x96 : Shape := ⟨2, ![1, 96]⟩
abbrev S96 : Shape := ⟨1, ![96]⟩

abbrev nBuf : Space → Nat
  | .hbm => 261
  | .vmem => 0
  | .smem => 0
  | _ => 0

abbrev hbmTy0_0 (i : Nat) : BufTy := match i % 128 with
  | 0 => ⟨S50000x96, .f32⟩
  | 1 => ⟨S2x800000, .i32⟩
  | 2 => ⟨S3x96x96, .f32⟩
  | 3 => ⟨S3x96, .f32⟩
  | 4 => ⟨S3x96x96, .f32⟩
  | 5 => ⟨S3x96, .f32⟩
  | 6 => ⟨S3x96, .f32⟩
  | 7 => ⟨S3x96, .f32⟩
  | 8 => ⟨S1x800000, .i32⟩
  | 9 => ⟨S800000, .i32⟩
  | 10 => ⟨S1x800000, .i32⟩
  | 11 => ⟨S800000, .i32⟩
  | 12 => ⟨S_, .i32⟩
  | 13 => ⟨S800000, .i32⟩
  | 14 => ⟨S800000, .i1⟩
  | 15 => ⟨S_, .i32⟩
  | 16 => ⟨S800000, .i32⟩
  | 17 => ⟨S800000, .i32⟩
  | 18 => ⟨S800000, .i32⟩
  | 19 => ⟨S800000x1, .i32⟩
  | 20 => ⟨S800000x96, .f32⟩
  | 21 => ⟨S_, .f32⟩
  | 22 => ⟨S50000x96, .f32⟩
  | 23 => ⟨S800000x1, .i32⟩
  | 24 => ⟨S50000x96, .f32⟩
  | 25 => ⟨S50000x96, .f32⟩
  | 26 => ⟨S1x96x96, .f32⟩
  | 27 => ⟨S96x96, .f32⟩
  | 28 => ⟨S50000x96, .f32⟩
  | 29 => ⟨S1x96, .f32⟩
  | 30 => ⟨S96, .f32⟩
  | 31 => ⟨S1x96, .f32⟩
  | 32 => ⟨S50000x96, .f32⟩
  | 33 => ⟨S50000x96, .f32⟩
  | 34 => ⟨S_, .f32⟩
  | 35 => ⟨S50000x96, .f32⟩
  | 36 => ⟨S50000x96, .f32⟩
  | 37 => ⟨S1x96x96, .f32⟩
  | 38 => ⟨S96x96, .f32⟩
  | 39 => ⟨S50000x96, .f32⟩
  | 40 => ⟨S1x96, .f32⟩
  | 41 => ⟨S96, .f32⟩
  | 42 => ⟨S1x96, .f32⟩
  | 43 => ⟨S50000x96, .f32⟩
  | 44 => ⟨S50000x96, .f32⟩
  | 45 => ⟨S_, .f32⟩
  | 46 => ⟨S96, .f32⟩
  | 47 => ⟨S_, .f32⟩
  | 48 => ⟨S96, .f32⟩
  | 49 => ⟨S96, .f32⟩
  | 50 => ⟨S_, .i32⟩
  | 51 => ⟨S_, .f32⟩
  | 52 => ⟨S96, .f32⟩
  | 53 => ⟨S1x96, .f32⟩
  | 54 => ⟨S_, .f32⟩
  | 55 => ⟨S1x96, .f32⟩
  | 56 => ⟨S1x96, .f32⟩
  | 57 => ⟨S50000x96, .f32⟩
  | 58 => ⟨S50000x96, .f32⟩
  | 59 => ⟨S50000x96, .f32⟩
  | 60 => ⟨S_, .f32⟩
  | 61 => ⟨S_, .f32⟩
  | 62 => ⟨S_, .f32⟩
  | 63 => ⟨S_, .f32⟩
  | 64 => ⟨S96, .f32⟩
  | 65 => ⟨S96, .f32⟩
  | 66 => ⟨S96, .f32⟩
  | 67 => ⟨S_, .f32⟩
  | 68 => ⟨S_, .i1⟩
  | 69 => ⟨S_, .f32⟩
  | 70 => ⟨S_, .f32⟩
  | 71 => ⟨S96, .f32⟩
  | 72 => ⟨S96, .f32⟩
  | 73 => ⟨S1x96, .f32⟩
  | 74 => ⟨S50000x96, .f32⟩
  | 75 => ⟨S50000x96, .f32⟩
  | 76 => ⟨S_, .f32⟩
  | 77 => ⟨S96, .f32⟩
  | 78 => ⟨S96, .f32⟩
  | 79 => ⟨S96, .f32⟩
  | 80 => ⟨S1x96, .f32⟩
  | 81 => ⟨S50000x96, .f32⟩
  | 82 => ⟨S50000x96, .f32⟩
  | 83 => ⟨S1x96, .f32⟩
  | 84 => ⟨S96, .f32⟩
  | 85 => ⟨S1x96, .f32⟩
  | 86 => ⟨S50000x96, .f32⟩
  | 87 => ⟨S50000x96, .f32⟩
  | 88 => ⟨S1x96, .f32⟩
  | 89 => ⟨S96, .f32⟩
  | 90 => ⟨S1x96, .f32⟩
  | 91 => ⟨S50000x96, .f32⟩
  | 92 => ⟨S50000x96, .f32⟩
  | 93 => ⟨S_, .f32⟩
  | 94 => ⟨S50000x96, .f32⟩
  | 95 => ⟨S50000x96, .f32⟩
  | 96 => ⟨S_, .i32⟩
  | 97 => ⟨S800000, .i32⟩
  | 98 => ⟨S800000, .i1⟩
  | 99 => ⟨S_, .i32⟩
  | 100 => ⟨S800000, .i32⟩
  | 101 => ⟨S800000, .i32⟩
  | 102 => ⟨S800000, .i32⟩
  | 103 => ⟨S800000x1, .i32⟩
  | 104 => ⟨S800000x96, .f32⟩
  | 105 => ⟨S_, .f32⟩
  | 106 => ⟨S50000x96, .f32⟩
  | 107 => ⟨S800000x1, .i32⟩
  | 108 => ⟨S50000x96, .f32⟩
  | 109 => ⟨S50000x96, .f32⟩
  | 110 => ⟨S1x96x96, .f32⟩
  | 111 => ⟨S96x96, .f32⟩
  | 112 => ⟨S50000x96, .f32⟩
  | 113 => ⟨S1x96, .f32⟩
  | 114 => ⟨S96, .f32⟩
  | 115 => ⟨S1x96, .f32⟩
  | 116 => ⟨S50000x96, .f32⟩
  | 117 => ⟨S50000x96, .f32⟩
  | 118 => ⟨S_, .f32⟩
  | 119 => ⟨S50000x96, .f32⟩
  | 120 => ⟨S50000x96, .f32⟩
  | 121 => ⟨S1x96x96, .f32⟩
  | 122 => ⟨S96x96, .f32⟩
  | 123 => ⟨S50000x96, .f32⟩
  | 124 => ⟨S1x96, .f32⟩
  | 125 => ⟨S96, .f32⟩
  | 126 => ⟨S1x96, .f32⟩
  | 127 => ⟨S50000x96, .f32⟩
  | _ => ⟨S50000x96, .f32⟩

abbrev hbmTy0_1 (i : Nat) : BufTy := match i % 128 with
  | 0 => ⟨S50000x96, .f32⟩
  | 1 => ⟨S_, .f32⟩
  | 2 => ⟨S96, .f32⟩
  | 3 => ⟨S_, .f32⟩
  | 4 => ⟨S96, .f32⟩
  | 5 => ⟨S96, .f32⟩
  | 6 => ⟨S_, .i32⟩
  | 7 => ⟨S_, .f32⟩
  | 8 => ⟨S96, .f32⟩
  | 9 => ⟨S1x96, .f32⟩
  | 10 => ⟨S_, .f32⟩
  | 11 => ⟨S1x96, .f32⟩
  | 12 => ⟨S1x96, .f32⟩
  | 13 => ⟨S50000x96, .f32⟩
  | 14 => ⟨S50000x96, .f32⟩
  | 15 => ⟨S50000x96, .f32⟩
  | 16 => ⟨S_, .f32⟩
  | 17 => ⟨S_, .f32⟩
  | 18 => ⟨S_, .f32⟩
  | 19 => ⟨S_, .f32⟩
  | 20 => ⟨S96, .f32⟩
  | 21 => ⟨S96, .f32⟩
  | 22 => ⟨S96, .f32⟩
  | 23 => ⟨S_, .f32⟩
  | 24 => ⟨S_, .i1⟩
  | 25 => ⟨S_, .f32⟩
  | 26 => ⟨S_, .f32⟩
  | 27 => ⟨S96, .f32⟩
  | 28 => ⟨S96, .f32⟩
  | 29 => ⟨S1x96, .f32⟩
  | 30 => ⟨S50000x96, .f32⟩
  | 31 => ⟨S50000x96, .f32⟩
  | 32 => ⟨S_, .f32⟩
  | 33 => ⟨S96, .f32⟩
  | 34 => ⟨S96, .f32⟩
  | 35 => ⟨S96, .f32⟩
  | 36 => ⟨S1x96, .f32⟩
  | 37 => ⟨S50000x96, .f32⟩
  | 38 => ⟨S50000x96, .f32⟩
  | 39 => ⟨S1x96, .f32⟩
  | 40 => ⟨S96, .f32⟩
  | 41 => ⟨S1x96, .f32⟩
  | 42 => ⟨S50000x96, .f32⟩
  | 43 => ⟨S50000x96, .f32⟩
  | 44 => ⟨S1x96, .f32⟩
  | 45 => ⟨S96, .f32⟩
  | 46 => ⟨S1x96, .f32⟩
  | 47 => ⟨S50000x96, .f32⟩
  | 48 => ⟨S50000x96, .f32⟩
  | 49 => ⟨S_, .f32⟩
  | 50 => ⟨S50000x96, .f32⟩
  | 51 => ⟨S50000x96, .f32⟩
  | 52 => ⟨S_, .i32⟩
  | 53 => ⟨S800000, .i32⟩
  | 54 => ⟨S800000, .i1⟩
  | 55 => ⟨S_, .i32⟩
  | 56 => ⟨S800000, .i32⟩
  | 57 => ⟨S800000, .i32⟩
  | 58 => ⟨S800000, .i32⟩
  | 59 => ⟨S800000x1, .i32⟩
  | 60 => ⟨S800000x96, .f32⟩
  | 61 => ⟨S_, .f32⟩
  | 62 => ⟨S50000x96, .f32⟩
  | 63 => ⟨S800000x1, .i32⟩
  | 64 => ⟨S50000x96, .f32⟩
  | 65 => ⟨S50000x96, .f32⟩
  | 66 => ⟨S1x96x96, .f32⟩
  | 67 => ⟨S96x96, .f32⟩
  | 68 => ⟨S50000x96, .f32⟩
  | 69 => ⟨S1x96, .f32⟩
  | 70 => ⟨S96, .f32⟩
  | 71 => ⟨S1x96, .f32⟩
  | 72 => ⟨S50000x96, .f32⟩
  | 73 => ⟨S50000x96, .f32⟩
  | 74 => ⟨S_, .f32⟩
  | 75 => ⟨S50000x96, .f32⟩
  | 76 => ⟨S50000x96, .f32⟩
  | 77 => ⟨S1x96x96, .f32⟩
  | 78 => ⟨S96x96, .f32⟩
  | 79 => ⟨S50000x96, .f32⟩
  | 80 => ⟨S1x96, .f32⟩
  | 81 => ⟨S96, .f32⟩
  | 82 => ⟨S1x96, .f32⟩
  | 83 => ⟨S50000x96, .f32⟩
  | 84 => ⟨S50000x96, .f32⟩
  | 85 => ⟨S_, .f32⟩
  | 86 => ⟨S96, .f32⟩
  | 87 => ⟨S_, .f32⟩
  | 88 => ⟨S96, .f32⟩
  | 89 => ⟨S96, .f32⟩
  | 90 => ⟨S_, .i32⟩
  | 91 => ⟨S_, .f32⟩
  | 92 => ⟨S96, .f32⟩
  | 93 => ⟨S1x96, .f32⟩
  | 94 => ⟨S_, .f32⟩
  | 95 => ⟨S1x96, .f32⟩
  | 96 => ⟨S1x96, .f32⟩
  | 97 => ⟨S50000x96, .f32⟩
  | 98 => ⟨S50000x96, .f32⟩
  | 99 => ⟨S50000x96, .f32⟩
  | 100 => ⟨S_, .f32⟩
  | 101 => ⟨S_, .f32⟩
  | 102 => ⟨S_, .f32⟩
  | 103 => ⟨S_, .f32⟩
  | 104 => ⟨S96, .f32⟩
  | 105 => ⟨S96, .f32⟩
  | 106 => ⟨S96, .f32⟩
  | 107 => ⟨S_, .f32⟩
  | 108 => ⟨S_, .i1⟩
  | 109 => ⟨S_, .f32⟩
  | 110 => ⟨S_, .f32⟩
  | 111 => ⟨S96, .f32⟩
  | 112 => ⟨S96, .f32⟩
  | 113 => ⟨S1x96, .f32⟩
  | 114 => ⟨S50000x96, .f32⟩
  | 115 => ⟨S50000x96, .f32⟩
  | 116 => ⟨S_, .f32⟩
  | 117 => ⟨S96, .f32⟩
  | 118 => ⟨S96, .f32⟩
  | 119 => ⟨S96, .f32⟩
  | 120 => ⟨S1x96, .f32⟩
  | 121 => ⟨S50000x96, .f32⟩
  | 122 => ⟨S50000x96, .f32⟩
  | 123 => ⟨S1x96, .f32⟩
  | 124 => ⟨S96, .f32⟩
  | 125 => ⟨S1x96, .f32⟩
  | 126 => ⟨S50000x96, .f32⟩
  | 127 => ⟨S50000x96, .f32⟩
  | _ => ⟨S50000x96, .f32⟩

abbrev hbmTy0_2 (i : Nat) : BufTy := match i % 128 with
  | 0 => ⟨S1x96, .f32⟩
  | 1 => ⟨S96, .f32⟩
  | 2 => ⟨S1x96, .f32⟩
  | 3 => ⟨S50000x96, .f32⟩
  | 4 => ⟨S50000x96, .f32⟩
  | _ => ⟨S50000x96, .f32⟩

abbrev hbmTy (i : Nat) : BufTy := match i / 128 with
  | 0 => hbmTy0_0 i
  | 1 => hbmTy0_1 i
  | 2 => hbmTy0_2 i
  | _ => ⟨S50000x96, .f32⟩

abbrev bufTy : (tb : Table) → Fin (tcTables nBuf tb) → BufTy
  | .hbm, ⟨i, _⟩ => hbmTy i
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_call0_cst : Ref sig .tc := ⟨.hbm, 34, rfl⟩
abbrev main_call0_v0 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_1 : Ref sig .tc := ⟨.hbm, 45, rfl⟩
abbrev main_v32 : Ref sig .tc := ⟨.hbm, 46, rfl⟩
abbrev main_cst_2 : Ref sig .tc := ⟨.hbm, 47, rfl⟩
abbrev main_v33 : Ref sig .tc := ⟨.hbm, 48, rfl⟩
abbrev main_v34 : Ref sig .tc := ⟨.hbm, 49, rfl⟩
abbrev main_c_3 : Ref sig .tc := ⟨.hbm, 50, rfl⟩
abbrev main_call1_cst : Ref sig .tc := ⟨.hbm, 51, rfl⟩
abbrev main_call1_v0 : Ref sig .tc := ⟨.hbm, 52, rfl⟩
abbrev main_call1_v1 : Ref sig .tc := ⟨.hbm, 53, rfl⟩
abbrev main_call1_cst_0 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_v5 : Ref sig .tc := ⟨.hbm, 58, rfl⟩
abbrev main_call1_v6 : Ref sig .tc := ⟨.hbm, 59, rfl⟩
abbrev main_call1_v7 : Ref sig .tc := ⟨.hbm, 60, rfl⟩
abbrev main_call1_cst_1 : Ref sig .tc := ⟨.hbm, 61, rfl⟩
abbrev main_call1_v8 : Ref sig .tc := ⟨.hbm, 62, rfl⟩
abbrev main_call1_cst_2 : Ref sig .tc := ⟨.hbm, 63, rfl⟩
abbrev main_call1_v9 : Ref sig .tc := ⟨.hbm, 64, rfl⟩
abbrev main_call1_v10 : Ref sig .tc := ⟨.hbm, 65, rfl⟩
abbrev main_call1_v11 : Ref sig .tc := ⟨.hbm, 66, rfl⟩
abbrev main_call1_cst_3 : Ref sig .tc := ⟨.hbm, 67, rfl⟩
abbrev main_call1_v12 : Ref sig .tc := ⟨.hbm, 68, rfl⟩
abbrev main_call1_cst_4 : Ref sig .tc := ⟨.hbm, 69, rfl⟩
abbrev main_call1_call0_v0 : Ref sig .tc := ⟨.hbm, 70, rfl⟩
abbrev main_call1_call0_v1 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_cst_4 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_call2_cst : Ref sig .tc := ⟨.hbm, 93, rfl⟩
abbrev main_call2_v0 : Ref sig .tc := ⟨.hbm, 94, rfl⟩
abbrev main_v55 : Ref sig .tc := ⟨.hbm, 95, rfl⟩
abbrev main_c_5 : Ref sig .tc := ⟨.hbm, 96, rfl⟩
abbrev main_v56 : Ref sig .tc := ⟨.hbm, 97, rfl⟩
abbrev main_v57 : Ref sig .tc := ⟨.hbm, 98, rfl⟩
abbrev main_c_6 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_cst_7 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_call3_cst : Ref sig .tc := ⟨.hbm, 118, rfl⟩
abbrev main_call3_v0 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_cst_8 : Ref sig .tc := ⟨.hbm, 129, rfl⟩
abbrev main_v84 : Ref sig .tc := ⟨.hbm, 130, rfl⟩
abbrev main_cst_9 : Ref sig .tc := ⟨.hbm, 131, rfl⟩
abbrev main_v85 : Ref sig .tc := ⟨.hbm, 132, rfl⟩
abbrev main_v86 : Ref sig .tc := ⟨.hbm, 133, rfl⟩
abbrev main_c_10 : Ref sig .tc := ⟨.hbm, 134, rfl⟩
abbrev main_call4_cst : Ref sig .tc := ⟨.hbm, 135, rfl⟩
abbrev main_call4_v0 : Ref sig .tc := ⟨.hbm, 136, rfl⟩
abbrev main_call4_v1 : Ref sig .tc := ⟨.hbm, 137, rfl⟩
abbrev main_call4_cst_0 : Ref sig .tc := ⟨.hbm, 138, rfl⟩
abbrev main_call4_v2 : Ref sig .tc := ⟨.hbm, 139, rfl⟩
abbrev main_call4_v3 : Ref sig .tc := ⟨.hbm, 140, rfl⟩
abbrev main_call4_v4 : Ref sig .tc := ⟨.hbm, 141, rfl⟩
abbrev main_call4_v5 : Ref sig .tc := ⟨.hbm, 142, rfl⟩
abbrev main_call4_v6 : Ref sig .tc := ⟨.hbm, 143, rfl⟩
abbrev main_call4_v7 : Ref sig .tc := ⟨.hbm, 144, rfl⟩
abbrev main_call4_cst_1 : Ref sig .tc := ⟨.hbm, 145, rfl⟩
abbrev main_call4_v8 : Ref sig .tc := ⟨.hbm, 146, rfl⟩
abbrev main_call4_cst_2 : Ref sig .tc := ⟨.hbm, 147, rfl⟩
abbrev main_call4_v9 : Ref sig .tc := ⟨.hbm, 148, rfl⟩
abbrev main_call4_v10 : Ref sig .tc := ⟨.hbm, 149, rfl⟩
abbrev main_call4_v11 : Ref sig .tc := ⟨.hbm, 150, rfl⟩
abbrev main_call4_cst_3 : Ref sig .tc := ⟨.hbm, 151, rfl⟩
abbrev main_call4_v12 : Ref sig .tc := ⟨.hbm, 152, rfl⟩
abbrev main_call4_cst_4 : Ref sig .tc := ⟨.hbm, 153, rfl⟩
abbrev main_call4_call0_v0 : Ref sig .tc := ⟨.hbm, 154, rfl⟩
abbrev main_call4_call0_v1 : Ref sig .tc := ⟨.hbm, 155, rfl⟩
abbrev main_v87 : Ref sig .tc := ⟨.hbm, 156, rfl⟩
abbrev main_v88 : Ref sig .tc := ⟨.hbm, 157, rfl⟩
abbrev main_v89 : Ref sig .tc := ⟨.hbm, 158, rfl⟩
abbrev main_v90 : Ref sig .tc := ⟨.hbm, 159, rfl⟩
abbrev main_cst_11 : Ref sig .tc := ⟨.hbm, 160, rfl⟩
abbrev main_v91 : Ref sig .tc := ⟨.hbm, 161, rfl⟩
abbrev main_v92 : Ref sig .tc := ⟨.hbm, 162, rfl⟩
abbrev main_v93 : Ref sig .tc := ⟨.hbm, 163, rfl⟩
abbrev main_v94 : Ref sig .tc := ⟨.hbm, 164, rfl⟩
abbrev main_v95 : Ref sig .tc := ⟨.hbm, 165, rfl⟩
abbrev main_v96 : Ref sig .tc := ⟨.hbm, 166, rfl⟩
abbrev main_v97 : Ref sig .tc := ⟨.hbm, 167, rfl⟩
abbrev main_v98 : Ref sig .tc := ⟨.hbm, 168, rfl⟩
abbrev main_v99 : Ref sig .tc := ⟨.hbm, 169, rfl⟩
abbrev main_v100 : Ref sig .tc := ⟨.hbm, 170, rfl⟩
abbrev main_v101 : Ref sig .tc := ⟨.hbm, 171, rfl⟩
abbrev main_v102 : Ref sig .tc := ⟨.hbm, 172, rfl⟩
abbrev main_v103 : Ref sig .tc := ⟨.hbm, 173, rfl⟩
abbrev main_v104 : Ref sig .tc := ⟨.hbm, 174, rfl⟩
abbrev main_v105 : Ref sig .tc := ⟨.hbm, 175, rfl⟩
abbrev main_v106 : Ref sig .tc := ⟨.hbm, 176, rfl⟩
abbrev main_call5_cst : Ref sig .tc := ⟨.hbm, 177, rfl⟩
abbrev main_call5_v0 : Ref sig .tc := ⟨.hbm, 178, rfl⟩
abbrev main_v107 : Ref sig .tc := ⟨.hbm, 179, rfl⟩
abbrev main_c_12 : Ref sig .tc := ⟨.hbm, 180, rfl⟩
abbrev main_v108 : Ref sig .tc := ⟨.hbm, 181, rfl⟩
abbrev main_v109 : Ref sig .tc := ⟨.hbm, 182, rfl⟩
abbrev main_c_13 : Ref sig .tc := ⟨.hbm, 183, rfl⟩
abbrev main_v110 : Ref sig .tc := ⟨.hbm, 184, rfl⟩
abbrev main_v111 : Ref sig .tc := ⟨.hbm, 185, rfl⟩
abbrev main_v112 : Ref sig .tc := ⟨.hbm, 186, rfl⟩
abbrev main_v113 : Ref sig .tc := ⟨.hbm, 187, rfl⟩
abbrev main_v114 : Ref sig .tc := ⟨.hbm, 188, rfl⟩
abbrev main_cst_14 : Ref sig .tc := ⟨.hbm, 189, rfl⟩
abbrev main_v115 : Ref sig .tc := ⟨.hbm, 190, rfl⟩
abbrev main_v116 : Ref sig .tc := ⟨.hbm, 191, rfl⟩
abbrev main_v117 : Ref sig .tc := ⟨.hbm, 192, rfl⟩
abbrev main_v118 : Ref sig .tc := ⟨.hbm, 193, rfl⟩
abbrev main_v119 : Ref sig .tc := ⟨.hbm, 194, rfl⟩
abbrev main_v120 : Ref sig .tc := ⟨.hbm, 195, rfl⟩
abbrev main_v121 : Ref sig .tc := ⟨.hbm, 196, rfl⟩
abbrev main_v122 : Ref sig .tc := ⟨.hbm, 197, rfl⟩
abbrev main_v123 : Ref sig .tc := ⟨.hbm, 198, rfl⟩
abbrev main_v124 : Ref sig .tc := ⟨.hbm, 199, rfl⟩
abbrev main_v125 : Ref sig .tc := ⟨.hbm, 200, rfl⟩
abbrev main_v126 : Ref sig .tc := ⟨.hbm, 201, rfl⟩
abbrev main_call6_cst : Ref sig .tc := ⟨.hbm, 202, rfl⟩
abbrev main_call6_v0 : Ref sig .tc := ⟨.hbm, 203, rfl⟩
abbrev main_v127 : Ref sig .tc := ⟨.hbm, 204, rfl⟩
abbrev main_v128 : Ref sig .tc := ⟨.hbm, 205, rfl⟩
abbrev main_v129 : Ref sig .tc := ⟨.hbm, 206, rfl⟩
abbrev main_v130 : Ref sig .tc := ⟨.hbm, 207, rfl⟩
abbrev main_v131 : Ref sig .tc := ⟨.hbm, 208, rfl⟩
abbrev main_v132 : Ref sig .tc := ⟨.hbm, 209, rfl⟩
abbrev main_v133 : Ref sig .tc := ⟨.hbm, 210, rfl⟩
abbrev main_v134 : Ref sig .tc := ⟨.hbm, 211, rfl⟩
abbrev main_v135 : Ref sig .tc := ⟨.hbm, 212, rfl⟩
abbrev main_cst_15 : Ref sig .tc := ⟨.hbm, 213, rfl⟩
abbrev main_v136 : Ref sig .tc := ⟨.hbm, 214, rfl⟩
abbrev main_cst_16 : Ref sig .tc := ⟨.hbm, 215, rfl⟩
abbrev main_v137 : Ref sig .tc := ⟨.hbm, 216, rfl⟩
abbrev main_v138 : Ref sig .tc := ⟨.hbm, 217, rfl⟩
abbrev main_c_17 : Ref sig .tc := ⟨.hbm, 218, rfl⟩
abbrev main_call7_cst : Ref sig .tc := ⟨.hbm, 219, rfl⟩
abbrev main_call7_v0 : Ref sig .tc := ⟨.hbm, 220, rfl⟩
abbrev main_call7_v1 : Ref sig .tc := ⟨.hbm, 221, rfl⟩
abbrev main_call7_cst_0 : Ref sig .tc := ⟨.hbm, 222, rfl⟩
abbrev main_call7_v2 : Ref sig .tc := ⟨.hbm, 223, rfl⟩
abbrev main_call7_v3 : Ref sig .tc := ⟨.hbm, 224, rfl⟩
abbrev main_call7_v4 : Ref sig .tc := ⟨.hbm, 225, rfl⟩
abbrev main_call7_v5 : Ref sig .tc := ⟨.hbm, 226, rfl⟩
abbrev main_call7_v6 : Ref sig .tc := ⟨.hbm, 227, rfl⟩
abbrev main_call7_v7 : Ref sig .tc := ⟨.hbm, 228, rfl⟩
abbrev main_call7_cst_1 : Ref sig .tc := ⟨.hbm, 229, rfl⟩
abbrev main_call7_v8 : Ref sig .tc := ⟨.hbm, 230, rfl⟩
abbrev main_call7_cst_2 : Ref sig .tc := ⟨.hbm, 231, rfl⟩
abbrev main_call7_v9 : Ref sig .tc := ⟨.hbm, 232, rfl⟩
abbrev main_call7_v10 : Ref sig .tc := ⟨.hbm, 233, rfl⟩
abbrev main_call7_v11 : Ref sig .tc := ⟨.hbm, 234, rfl⟩
abbrev main_call7_cst_3 : Ref sig .tc := ⟨.hbm, 235, rfl⟩
abbrev main_call7_v12 : Ref sig .tc := ⟨.hbm, 236, rfl⟩
abbrev main_call7_cst_4 : Ref sig .tc := ⟨.hbm, 237, rfl⟩
abbrev main_call7_call0_v0 : Ref sig .tc := ⟨.hbm, 238, rfl⟩
abbrev main_call7_call0_v1 : Ref sig .tc := ⟨.hbm, 239, rfl⟩
abbrev main_v139 : Ref sig .tc := ⟨.hbm, 240, rfl⟩
abbrev main_v140 : Ref sig .tc := ⟨.hbm, 241, rfl⟩
abbrev main_v141 : Ref sig .tc := ⟨.hbm, 242, rfl⟩
abbrev main_v142 : Ref sig .tc := ⟨.hbm, 243, rfl⟩
abbrev main_cst_18 : Ref sig .tc := ⟨.hbm, 244, rfl⟩
abbrev main_v143 : Ref sig .tc := ⟨.hbm, 245, rfl⟩
abbrev main_v144 : Ref sig .tc := ⟨.hbm, 246, rfl⟩
abbrev main_v145 : Ref sig .tc := ⟨.hbm, 247, rfl⟩
abbrev main_v146 : Ref sig .tc := ⟨.hbm, 248, rfl⟩
abbrev main_v147 : Ref sig .tc := ⟨.hbm, 249, rfl⟩
abbrev main_v148 : Ref sig .tc := ⟨.hbm, 250, rfl⟩
abbrev main_v149 : Ref sig .tc := ⟨.hbm, 251, rfl⟩
abbrev main_v150 : Ref sig .tc := ⟨.hbm, 252, rfl⟩
abbrev main_v151 : Ref sig .tc := ⟨.hbm, 253, rfl⟩
abbrev main_v152 : Ref sig .tc := ⟨.hbm, 254, rfl⟩
abbrev main_v153 : Ref sig .tc := ⟨.hbm, 255, rfl⟩
abbrev main_v154 : Ref sig .tc := ⟨.hbm, 256, rfl⟩
abbrev main_v155 : Ref sig .tc := ⟨.hbm, 257, rfl⟩
abbrev main_v156 : Ref sig .tc := ⟨.hbm, 258, rfl⟩
abbrev main_v157 : Ref sig .tc := ⟨.hbm, 259, rfl⟩
abbrev main_v158 : Ref sig .tc := ⟨.hbm, 260, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x96 : S_.BroadcastsInDim S50000x96 (![] : Fin 0 → Fin S50000x96.rank)
  slices_S3x96x96_S1x96x96_0_0_0 : S3x96x96.Slices ![0, 0, 0] S1x96x96
  shapeCasts_S1x96x96_S96x96 : S1x96x96.ShapeCasts S96x96
  slices_S3x96_S1x96_0_0 : S3x96.Slices ![0, 0] S1x96
  shapeCasts_S1x96_S96 : S1x96.ShapeCasts S96
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  reducesTo_S50000x96_S96_d0 : S50000x96.ReducesTo [0] S96
  h_S_ : 0 < S_.numel
  bcast_S_S96 : S_.BroadcastsInDim S96 (![] : Fin 0 → Fin S96.rank)
  bcast_S_S1x96 : S_.BroadcastsInDim S1x96 (![] : Fin 0 → Fin S1x96.rank)
  slices_S3x96x96_S1x96x96_1_0_0 : S3x96x96.Slices ![1, 0, 0] S1x96x96
  slices_S3x96_S1x96_1_0 : S3x96.Slices ![1, 0] S1x96
  slices_S3x96x96_S1x96x96_2_0_0 : S3x96x96.Slices ![2, 0, 0] S1x96x96
  slices_S3x96_S1x96_2_0 : S3x96.Slices ![2, 0] S1x96
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S50000x96_S96x96_S50000x96_1_0_0_1_n_n_wf : DotDims.WF S50000x96 S96x96 S50000x96 [1] [0] [0] [1] [] []

variable [Facts₀]

def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf

class Facts : Prop extends Facts₀ where

variable [Facts]
-- ==== Proof.KRun.lean ====
/-
  The run of the six-kernel program with its result kept.

  Every weakly fair execution of the program from a memory with zero counters terminates without a fault; at the end the
  result array holds what the last boundary's contents give it and the eight argument arrays are as launched.  The
  boundary contents are the fold of the program's eighteen segments over the launch memory: a stretch of array
  operations rewrites the buffers it writes, a kernel launch leaves each of its arrays at what its write-backs leave.
-/
import proofs.«164872_j81217831568100_1_alg».proof.Proof.Gen.KernelIdeal.Frame

set_option maxRecDepth 16384

noncomputable section

namespace Cert.KernelIdeal.KRun

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this statement, which unfolds plain
-- definitions in a metavariable's type
set_option backward.isDefEq.respectTransparency.types false in
/-- The run: the result array at the last boundary's contents, the arguments as launched. -/
theorem run_out : θ_run defs (onTc (τ := τ) (main (F := F))) ⟨m, fun _ => 0, ρ⟩ (fun r => ∀ c : Dev nD,
      r.2.mem ((c.tc : Thread nD τ).loc main_v105) = W18 m ρ c (Proc.devRef .tc main_v105)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c =>
      ⟨h c _ (mem_uc main_v105 (by decide)),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c),
       (h c _ (mem_uc main_arg3 (by decide))).trans (W18_main_arg3 m ρ c),
       (h c _ (mem_uc main_arg4 (by decide))).trans (W18_main_arg4 m ρ c),
       (h c _ (mem_uc main_arg5 (by decide))).trans (W18_main_arg5 m ρ c),
       (h c _ (mem_uc main_arg6 (by decide))).trans (W18_main_arg6 m ρ c),
       (h c _ (mem_uc main_arg7 (by decide))).trans (W18_main_arg7 m ρ c)⟩)

end Cert.KernelIdeal.KRun

end
-- ==== Proof.KKeeps.lean ====
/-
  What each stretch of array operations writes, and that it keeps every other buffer.
-/
import proofs.«164872_j81217831568100_1_alg».proof.Proof.Gen.KernelIdeal.Launch
import Idealize.ShloMosaic.Lib.StableHlo.Run

set_option maxRecDepth 16384

noncomputable section

namespace Cert.KernelIdeal.KVal

open Cert.KernelIdeal Cert.KernelIdeal.Gen Idealize.ShloMosaic Idealize.ShloMosaic.TcCoe Idealize.SL.Sem

variable {F : FTy → Type} [FloatOps F]

/-- The buffers `hostOps0` writes. -/
abbrev hostOps0_W : List (Ref sig .tc) := [main_v0, main_v1, main_v2, main_v3, main_c, main_v4, main_v5, main_c_0, main_v6, main_v7, main_v8, main_v9, main_v10, main_cst, main_v11, main_v12, main_v13, main_v14, main_v15, main_v16, main_v17, main_v18, main_v19, main_v20, main_v21, main_v22, main_v23]
theorem hostOps0_writes : (hostOps0 : List (HloOp τ sig (Elt F))).Forall fun op => op.writes ⊆ (hostOps0_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- Any other buffer keeps its contents through `hostOps0`. -/
theorem hostOps0_keeps (W : Valuation τ sig (Elt F)) (r : Ref sig .tc) (h : r ∉ hostOps0_W) : StableHlo.after hostOps0 W (Proc.devRef .tc r) = W (Proc.devRef .tc r) :=
  StableHlo.after_of_writes_sub hostOps0 W hostOps0_writes h

/-- The buffers `hostOps1` writes. -/
abbrev hostOps1_W : List (Ref sig .tc) := [main_cst_1, main_v25, main_cst_2, main_v26, main_v27, main_c_3]
theorem hostOps1_writes : (hostOps1 : List (HloOp τ sig (Elt F))).Forall fun op => op.writes ⊆ (hostOps1_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- Any other buffer keeps its contents through `hostOps1`. -/
theorem hostOps1_keeps (W : Valuation τ sig (Elt F)) (r : Ref sig .tc) (h : r ∉ hostOps1_W) : StableHlo.after hostOps1 W (Proc.devRef .tc r) = W (Proc.devRef .tc r) :=
  StableHlo.after_of_writes_sub hostOps1 W hostOps1_writes h

/-- The buffers `hostOps1_1` writes. -/
abbrev hostOps1_1_W : List (Ref sig .tc) := [main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v28]
theorem hostOps1_1_writes : (hostOps1_1 : List (HloOp τ sig (Elt F))).Forall fun op => op.writes ⊆ (hostOps1_1_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- Any other buffer keeps its contents through `hostOps1_1`. -/
theorem hostOps1_1_keeps (W : Valuation τ sig (Elt F)) (r : Ref sig .tc) (h : r ∉ hostOps1_1_W) : StableHlo.after hostOps1_1 W (Proc.devRef .tc r) = W (Proc.devRef .tc r) :=
  StableHlo.after_of_writes_sub hostOps1_1 W hostOps1_1_writes h

/-- The buffers `hostOps1_2` writes. -/
abbrev hostOps1_2_W : List (Ref sig .tc) := [main_v29, main_v30, main_v31, main_v32, main_v33, main_v34, main_v35, main_v36]
theorem hostOps1_2_writes : (hostOps1_2 : List (HloOp τ sig (Elt F))).Forall fun op => op.writes ⊆ (hostOps1_2_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- Any other buffer keeps its contents through `hostOps1_2`. -/
theorem hostOps1_2_keeps (W : Valuation τ sig (Elt F)) (r : Ref sig .tc) (h : r ∉ hostOps1_2_W) : StableHlo.after hostOps1_2 W (Proc.devRef .tc r) = W (Proc.devRef .tc r) :=
  StableHlo.after_of_writes_sub hostOps1_2 W hostOps1_2_writes h

/-- The buffers `hostOps2` writes. -/
abbrev hostOps2_W : List (Ref sig .tc) := [main_c_4, main_v38, main_v39, main_c_5, main_v40, main_v41, main_v42, main_v43, main_v44, main_cst_6, main_v45, main_v46, main_v47, main_v48, main_v49, main_v50, main_v51, main_v52, main_v53, main_v54, main_v55, main_v56, main_v57]
theorem hostOps2_writes : (hostOps2 : List (HloOp τ sig (Elt F))).Forall fun op => op.writes ⊆ (hostOps2_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- Any other buffer keeps its contents through `hostOps2`. -/
theorem hostOps2_keeps (W : Valuation τ sig (Elt F)) (r : Ref sig .tc) (h : r ∉ hostOps2_W) : StableHlo.after hostOps2 W (Proc.devRef .tc r) = W (Proc.devRef .tc r) :=
  StableHlo.after_of_writes_sub hostOps2 W hostOps2_writes h

/-- The buffers `hostOps3` writes. -/
abbrev hostOps3_W : List (Ref sig .tc) := [main_cst_7, main_v59, main_cst_8, main_v60, main_v61, main_c_9]
theorem hostOps3_writes : (hostOps3 : List (HloOp τ sig (Elt F))).Forall fun op => op.writes ⊆ (hostOps3_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- Any other buffer keeps its contents through `hostOps3`. -/
theorem hostOps3_keeps (W : Valuation τ sig (Elt F)) (r : Ref sig .tc) (h : r ∉ hostOps3_W) : StableHlo.after hostOps3 W (Proc.devRef .tc r) = W (Proc.devRef .tc r) :=
  StableHlo.after_of_writes_sub hostOps3 W hostOps3_writes h

/-- The buffers `hostOps3_1` writes. -/
abbrev hostOps3_1_W : List (Ref sig .tc) := [main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v62]
theorem hostOps3_1_writes : (hostOps3_1 : List (HloOp τ sig (Elt F))).Forall fun op => op.writes ⊆ (hostOps3_1_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- Any other buffer keeps its contents through `hostOps3_1`. -/
theorem hostOps3_1_keeps (W : Valuation τ sig (Elt F)) (r : Ref sig .tc) (h : r ∉ hostOps3_1_W) : StableHlo.after hostOps3_1 W (Proc.devRef .tc r) = W (Proc.devRef .tc r) :=
  StableHlo.after_of_writes_sub hostOps3_1 W hostOps3_1_writes h

/-- The buffers `hostOps3_2` writes. -/
abbrev hostOps3_2_W : List (Ref sig .tc) := [main_v63, main_v64, main_v65, main_v66, main_v67, main_v68, main_v69, main_v70]
theorem hostOps3_2_writes : (hostOps3_2 : List (HloOp τ sig (Elt F))).Forall fun op => op.writes ⊆ (hostOps3_2_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- Any other buffer keeps its contents through `hostOps3_2`. -/
theorem hostOps3_2_keeps (W : Valuation τ sig (Elt F)) (r : Ref sig .tc) (h : r ∉ hostOps3_2_W) : StableHlo.after hostOps3_2 W (Proc.devRef .tc r) = W (Proc.devRef .tc r) :=
  StableHlo.after_of_writes_sub hostOps3_2 W hostOps3_2_writes h

/-- The buffers `hostOps4` writes. -/
abbrev hostOps4_W : List (Ref sig .tc) := [main_c_10, main_v72, main_v73, main_c_11, main_v74, main_v75, main_v76, main_v77, main_v78, main_cst_12, main_v79, main_v80, main_v81, main_v82, main_v83, main_v84, main_v85, main_v86, main_v87, main_v88, main_v89, main_v90, main_v91]
theorem hostOps4_writes : (hostOps4 : List (HloOp τ sig (Elt F))).Forall fun op => op.writes ⊆ (hostOps4_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- Any other buffer keeps its contents through `hostOps4`. -/
theorem hostOps4_keeps (W : Valuation τ sig (Elt F)) (r : Ref sig .tc) (h : r ∉ hostOps4_W) : StableHlo.after hostOps4 W (Proc.devRef .tc r) = W (Proc.devRef .tc r) :=
  StableHlo.after_of_writes_sub hostOps4 W hostOps4_writes h

/-- The buffers `hostOps5` writes. -/
abbrev hostOps5_W : List (Ref sig .tc) := [main_cst_13, main_v93, main_cst_14, main_v94, main_v95, main_c_15]
theorem hostOps5_writes : (hostOps5 : List (HloOp τ sig (Elt F))).Forall fun op => op.writes ⊆ (hostOps5_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- Any other buffer keeps its contents through `hostOps5`. -/
theorem hostOps5_keeps (W : Valuation τ sig (Elt F)) (r : Ref sig .tc) (h : r ∉ hostOps5_W) : StableHlo.after hostOps5 W (Proc.devRef .tc r) = W (Proc.devRef .tc r) :=
  StableHlo.after_of_writes_sub hostOps5 W hostOps5_writes h

/-- The buffers `hostOps5_1` writes. -/
abbrev hostOps5_1_W : List (Ref sig .tc) := [main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v96]
theorem hostOps5_1_writes : (hostOps5_1 : List (HloOp τ sig (Elt F))).Forall fun op => op.writes ⊆ (hostOps5_1_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- Any other buffer keeps its contents through `hostOps5_1`. -/
theorem hostOps5_1_keeps (W : Valuation τ sig (Elt F)) (r : Ref sig .tc) (h : r ∉ hostOps5_1_W) : StableHlo.after hostOps5_1 W (Proc.devRef .tc r) = W (Proc.devRef .tc r) :=
  StableHlo.after_of_writes_sub hostOps5_1 W hostOps5_1_writes h

/-- The buffers `hostOps5_2` writes. -/
abbrev hostOps5_2_W : List (Ref sig .tc) := [main_v97, main_v98, main_v99, main_v100, main_v101, main_v102, main_v103, main_v104]
theorem hostOps5_2_writes : (hostOps5_2 : List (HloOp τ sig (Elt F))).Forall fun op => op.writes ⊆ (hostOps5_2_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- Any other buffer keeps its contents through `hostOps5_2`. -/
theorem hostOps5_2_keeps (W : Valuation τ sig (Elt F)) (r : Ref sig .tc) (h : r ∉ hostOps5_2_W) : StableHlo.after hostOps5_2 W (Proc.devRef .tc r) = W (Proc.devRef .tc r) :=
  StableHlo.after_of_writes_sub hostOps5_2 W hostOps5_2_writes h

end Cert.KernelIdeal.KVal

end
-- ==== Proof.LibInnerProducts.lean ====
/-
  A matrix product and a sum along the last axis, read at an index on the extended reals.

  At the ideal values a matrix product of an `[M, K]` matrix with a `[K, N]` matrix, accumulated into zero, holds at
  `(p, f)` the inner product of row `p` of the left factor with column `f` of the right factor: the sum over `d` of
  `a (p, d) · w (d, f)`, with no rounding and no order of summation left in it. A sum of an `[a, b, c]` array along its
  last axis holds at `(p, q)` the sum over `f` of the array at `(p, q, f)`. Both are the library's general statements
  with the contraction index and the inserted coordinate written as a plain `Fin`.
-/
import Idealize.ShloMosaic.PureOps.Ideal.Laws
import Idealize.ShloMosaic.Lib.ValueIdx

noncomputable section

namespace Idealize.ShloMosaic.InnerProducts

open Idealize.ShloMosaic Idealize.ShloMosaic.ValueIdx
open scoped BigOperators

/-- An `[M, K]` by `[K, N]` matrix product into the zero accumulator is, at `(p, f)`, the inner product of row `p` of
    the left factor with column `f` of the right factor. `D` is any record of the plain dimension numbers (contract the
    left factor's columns with the right factor's rows, no batch axis). -/
theorem matmul_zero_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    matmul D prec a w (constant (F := Ideal) ⟨2, ![M, N]⟩ .f32 0x00000000#32) (ix2 p f)
      = ∑ d : Fin K, a (ix2 p d) * w (ix2 d f) := by
  subst hD
  refine (Ideal.matmul_constant_zero_apply (DotDims.plain M K N) prec a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- The host's `dot_general` with the same plain dimension numbers is the same inner product (it has no accumulator). -/
theorem dotGeneral_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    Host.dotGeneral D prec a w (ix2 p f) = ∑ d : Fin K, a (ix2 p d) * w (ix2 d f) := by
  subst hD
  refine (Ideal.dotGeneral_apply (DotDims.plain M K N) prec .single a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- A float sum of an `[a, b, c]` array along its last axis is, at `(p, q)`, the sum over `f` of the array at
    `(p, q, f)`. -/
theorem lane_sum_apply {a b c : ℕ} {φ : FTy} (x : FVec Ideal ⟨3, ![a, b, c]⟩ φ) (acc : BitVec φ.bits)
    (h : (⟨3, ![a, b, c]⟩ : Shape).Reduces [2] ⟨2, ![a, b]⟩) (hφ : FKind.Formats φ)
    (hacc : acc = FKind.add.neutral φ hφ) (p : Fin a) (q : Fin b) :
    multiReduction .add [2] ⟨2, ![a, b]⟩ x acc h hφ hacc (ix2 p q) = ∑ f : Fin c, x (ix3 p q f) := by
  refine (Ideal.multiReduction_add_single x acc h hφ hacc (ix2 p q)).trans ?_
  show ∑ f : Fin c, x (h.lift (ix2 p q) f) = ∑ f : Fin c, x (ix3 p q f)
  refine Finset.sum_congr rfl fun f _ => congrArg x (funext fun ax => Fin.ext ?_)
  match ax with
  | ⟨0, _⟩ => rfl
  | ⟨1, _⟩ => rfl
  | ⟨2, _⟩ => rfl

end Idealize.ShloMosaic.InnerProducts

end
-- ==== Proof.LibInDimRow.lean ====
/-
  Two broadcasts of a bias row, read at an index given by coordinates.

  A vector [b] placed on axis 1 of [1, b] reads entry j at (0, j); a row [1, b] spread over [a, b] with its axes kept in
  place reads its one row at (i, j), whatever the row i.  Both are the host's broadcast_in_dim: a broadcast never moves a
  coordinate, it reads the operand at the same coordinate on each axis the operand really has and at 0 on an operand
  axis of extent one.
-/
import Idealize.ShloMosaic.Lib.Pipeline.Value
import Idealize.ShloMosaic.Lib.ValueIdx

namespace Cert.LibInDimRow

open Idealize.ShloMosaic Idealize.ShloMosaic.ValueIdx

variable {α : Type}

/-- [b] placed on axis 1 of [1, b]: entry (u, j) is the operand at j. -/
theorem inDim_b_1b_apply {b : ℕ} (v : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h v (ix2 u j) = v (ix1 j) := by
  refine broadcastInDim_apply _ h v (ix2 u j) (ix1 j) fun ax => ?_
  match ax with
  | ⟨0, _⟩ =>
    show j.val = if b = 1 then 0 else j.val
    split
    · have := j.isLt; omega
    · rfl

/-- A row [1, b] spread over [a, b], axes kept in place: entry (i, j) is the row at (0, j). -/
theorem inDim_1b_ab_apply {a b : ℕ} (v : (⟨2, ![1, b]⟩ : Shape).Idx → α)
    (h : (⟨2, ![1, b]⟩ : Shape).BroadcastsInDim ⟨2, ![a, b]⟩ ![0, 1]) (i : Fin a) (j : Fin b) :
    broadcastInDim ⟨2, ![a, b]⟩ ![0, 1] h v (ix2 i j) = v (ix2 (0 : Fin 1) j) := by
  refine broadcastInDim_apply _ h v (ix2 i j) (ix2 (0 : Fin 1) j) fun ax => ?_
  match ax with
  | ⟨0, _⟩ =>
    show (0 : ℕ) = if (1 : ℕ) = 1 then 0 else _
    rw [if_pos rfl]
  | ⟨1, _⟩ =>
    show j.val = if b = 1 then 0 else j.val
    split
    · have := j.isLt; omega
    · rfl

end Cert.LibInDimRow
-- ==== Proof.LibRowLayers.lean ====
/-
  Dense layers followed by a rectifier, read as functions of rows on the extended reals.

  A layer with one factor sends a matrix x [M, K], a weight w [K, N] and a bias b [N] to the matrix whose entry
  (p, f) is max (sum over d of x (p, d) * w (d, f) + b f, 0): entry (p, f) depends on row p of x only. A layer with three
  factors adds three such inner products, ((x1.w1 + x2.w2) + x3.w3) + b, in that order of additions, before the
  rectifier. Each is stated twice: in the form a vector unit computes it (operands narrowed to bf16 first, which changes
  nothing on the extended reals; a matrix product into a zero accumulator; the bias recast to a row and spread over the
  rows; the maximum with a spread scalar zero) and in the form of the host's array operations (dot_general; the bias
  placed on axis 1 of [1, N] and spread over [M, N]; the maximum with a spread rank-0 zero). No law of arithmetic is
  needed: both forms are the same tree of sums, products and maxima at every index.
-/
import Idealize.ShloMosaic.PureOps.Ideal.Laws
import Idealize.ShloMosaic.Lib.ValueIdx
import Idealize.ShloMosaic.Lib.ValueLayout
import Idealize.ShloMosaic.Lib.Pipeline.Value
import proofs.«164872_j81217831568100_1_alg».proof.Proof.LibInnerProducts
import proofs.«164872_j81217831568100_1_alg».proof.Proof.LibInDimRow

noncomputable section

namespace Cert.LibRowLayers

open Idealize.ShloMosaic Idealize.ShloMosaic.ValueIdx Idealize.ShloMosaic.InnerProducts
open scoped BigOperators

/-- Row p of x against column f of w: the sum over d of x (p, d) * w (d, f). -/
def inner {M K N : ℕ} (x : FVec Ideal ⟨2, ![M, K]⟩ .f32) (w : FVec Ideal ⟨2, ![K, N]⟩ .f32) (p : Fin M) (f : Fin N) : EReal :=
  ∑ d : Fin K, x (ix2 p d) * w (ix2 d f)

/-- The one-factor layer: entry (p, f) is max (x_p . w_f + b f, 0). -/
def layer1 {M K N : ℕ} (x : FVec Ideal ⟨2, ![M, K]⟩ .f32) (w : FVec Ideal ⟨2, ![K, N]⟩ .f32)
    (b : FVec Ideal ⟨1, ![N]⟩ .f32) : FVec Ideal ⟨2, ![M, N]⟩ .f32 :=
  fun i => max (inner x w (i 0) (i 1) + b (ix1 (i 1))) (Ideal.ofBits .f32 0x00000000#32)

/-- The three-factor layer: entry (p, f) is max (((x1_p . w1_f + x2_p . w2_f) + x3_p . w3_f) + b f, 0). -/
def layer3 {M K1 K2 K3 N : ℕ} (x1 : FVec Ideal ⟨2, ![M, K1]⟩ .f32) (w1 : FVec Ideal ⟨2, ![K1, N]⟩ .f32)
    (x2 : FVec Ideal ⟨2, ![M, K2]⟩ .f32) (w2 : FVec Ideal ⟨2, ![K2, N]⟩ .f32)
    (x3 : FVec Ideal ⟨2, ![M, K3]⟩ .f32) (w3 : FVec Ideal ⟨2, ![K3, N]⟩ .f32)
    (b : FVec Ideal ⟨1, ![N]⟩ .f32) : FVec Ideal ⟨2, ![M, N]⟩ .f32 :=
  fun i => max (((inner x1 w1 (i 0) (i 1) + inner x2 w2 (i 0) (i 1)) + inner x3 w3 (i 0) (i 1)) + b (ix1 (i 1)))
    (Ideal.ofBits .f32 0x00000000#32)

/-- A matrix product of bf16-narrowed operands into the zero accumulator, at (p, f), is the inner product. -/
theorem narrowed_matmul_apply {M K N : ℕ} (D : DotDims ⟨2, ![M, K]⟩ ⟨2, ![K, N]⟩ ⟨2, ![M, N]⟩)
    (hD : D = DotDims.plain M K N) (prec : Option ContractPrecision)
    (x : FVec Ideal ⟨2, ![M, K]⟩ .f32) (w : FVec Ideal ⟨2, ![K, N]⟩ .f32) (hn : FTy.bf16.bits < FTy.f32.bits)
    (p : Fin M) (f : Fin N) :
    matmul D prec (truncf .bf16 x hn) (truncf .bf16 w hn) (constant (F := Ideal) ⟨2, ![M, N]⟩ .f32 0x00000000#32) (ix2 p f)
      = inner x w p f :=
  matmul_zero_apply D hD prec (truncf .bf16 x hn) (truncf .bf16 w hn) p f

/-- The bias as the vector unit spreads it: recast [N] to [1, N], then spread over [M, N]. -/
theorem row_bias_apply {M N : ℕ} (b : FVec Ideal ⟨1, ![N]⟩ .f32)
    (hc : (⟨1, ![N]⟩ : Shape).ShapeCasts ⟨2, ![1, N]⟩) (hb : (⟨2, ![1, N]⟩ : Shape).Broadcasts ⟨2, ![M, N]⟩)
    (p : Fin M) (f : Fin N) :
    broadcastTo ⟨2, ![M, N]⟩ (shapeCast ⟨2, ![1, N]⟩ b hc) hb (ix2 p f) = b (ix1 f) := by
  rw [broadcastTo_1b_ab_apply _ hb p f, shapeCast_a_1a_apply b hc 0 f]

/-- The bias as the host spreads it: placed on axis 1 of [1, N], then spread over [M, N]. -/
theorem host_bias_apply {M N : ℕ} (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (f : Fin N) :
    broadcastInDim ⟨2, ![M, N]⟩ ![0, 1] h2 (broadcastInDim ⟨2, ![1, N]⟩ ![1] h1 b) (ix2 p f) = b (ix1 f) := by
  rw [Cert.LibInDimRow.inDim_1b_ab_apply _ h2 p f, Cert.LibInDimRow.inDim_b_1b_apply b h1 0 f]

/-- A rank-0 value spread over a matrix reads that value everywhere. -/
theorem host_scalar_apply {M N : ℕ} (v : FVec Ideal ⟨0, ![]⟩ .f32)
    (h0 : (⟨0, ![]⟩ : Shape).BroadcastsInDim ⟨2, ![M, N]⟩ ![]) (i : (⟨2, ![M, N]⟩ : Shape).Idx) :
    broadcastInDim ⟨2, ![M, N]⟩ ![] h0 v i = v ix0 :=
  broadcastInDim_apply _ h0 v i ix0 fun ax => ax.elim0

/-- The one-factor layer as a vector unit computes it. -/
theorem unit_layer1 {M K N : ℕ} (D : DotDims ⟨2, ![M, K]⟩ ⟨2, ![K, N]⟩ ⟨2, ![M, N]⟩)
    (hD : D = DotDims.plain M K N) (prec : Option ContractPrecision)
    (x : FVec Ideal ⟨2, ![M, K]⟩ .f32) (w : FVec Ideal ⟨2, ![K, N]⟩ .f32) (b : FVec Ideal ⟨1, ![N]⟩ .f32)
    (hn : FTy.bf16.bits < FTy.f32.bits)
    (hc : (⟨1, ![N]⟩ : Shape).ShapeCasts ⟨2, ![1, N]⟩) (hb : (⟨2, ![1, N]⟩ : Shape).Broadcasts ⟨2, ![M, N]⟩) :
    maximumf (addf (matmul D prec (truncf .bf16 x hn) (truncf .bf16 w hn) (constant (F := Ideal) ⟨2, ![M, N]⟩ .f32 0x00000000#32))
        (broadcastTo ⟨2, ![M, N]⟩ (shapeCast ⟨2, ![1, N]⟩ b hc) hb))
      (broadcast ⟨2, ![M, N]⟩ (Scalar.ofBits (F := Ideal) .f32 0x00000000#32))
    = layer1 x w b := by
  funext i
  obtain ⟨p, f, rfl⟩ : ∃ (p : Fin M) (f : Fin N), i = ix2 p f := ⟨i 0, i 1, eq_ix2 i⟩
  rw [maximumf_apply, addf_apply, narrowed_matmul_apply D hD prec x w hn p f, row_bias_apply b hc hb p f, broadcast_apply]
  rfl

/-- The one-factor layer as the host's array operations compute it. -/
theorem host_layer1 {M K N : ℕ} (D : DotDims ⟨2, ![M, K]⟩ ⟨2, ![K, N]⟩ ⟨2, ![M, N]⟩)
    (hD : D = DotDims.plain M K N) (prec : Option ContractPrecision)
    (x : FVec Ideal ⟨2, ![M, K]⟩ .f32) (w : FVec Ideal ⟨2, ![K, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf (Host.dotGeneral D prec x w) (broadcastInDim ⟨2, ![M, N]⟩ ![0, 1] h2 (broadcastInDim ⟨2, ![1, N]⟩ ![1] h1 b)))
      (broadcastInDim ⟨2, ![M, N]⟩ ![] h0 (constant (F := Ideal) ⟨0, ![]⟩ .f32 0x00000000#32))
    = layer1 x w b := by
  funext i
  obtain ⟨p, f, rfl⟩ : ∃ (p : Fin M) (f : Fin N), i = ix2 p f := ⟨i 0, i 1, eq_ix2 i⟩
  rw [maximumf_apply, addf_apply, dotGeneral_apply D hD prec x w p f, host_bias_apply b h1 h2 p f, host_scalar_apply _ h0]
  rfl

/-- The three-factor layer as a vector unit computes it. -/
theorem unit_layer3 {M K1 K2 K3 N : ℕ}
    (D1 : DotDims ⟨2, ![M, K1]⟩ ⟨2, ![K1, N]⟩ ⟨2, ![M, N]⟩) (hD1 : D1 = DotDims.plain M K1 N)
    (D2 : DotDims ⟨2, ![M, K2]⟩ ⟨2, ![K2, N]⟩ ⟨2, ![M, N]⟩) (hD2 : D2 = DotDims.plain M K2 N)
    (D3 : DotDims ⟨2, ![M, K3]⟩ ⟨2, ![K3, N]⟩ ⟨2, ![M, N]⟩) (hD3 : D3 = DotDims.plain M K3 N)
    (prec : Option ContractPrecision)
    (x1 : FVec Ideal ⟨2, ![M, K1]⟩ .f32) (w1 : FVec Ideal ⟨2, ![K1, N]⟩ .f32)
    (x2 : FVec Ideal ⟨2, ![M, K2]⟩ .f32) (w2 : FVec Ideal ⟨2, ![K2, N]⟩ .f32)
    (x3 : FVec Ideal ⟨2, ![M, K3]⟩ .f32) (w3 : FVec Ideal ⟨2, ![K3, N]⟩ .f32)
    (b : FVec Ideal ⟨1, ![N]⟩ .f32) (hn : FTy.bf16.bits < FTy.f32.bits)
    (hc : (⟨1, ![N]⟩ : Shape).ShapeCasts ⟨2, ![1, N]⟩) (hb : (⟨2, ![1, N]⟩ : Shape).Broadcasts ⟨2, ![M, N]⟩) :
    maximumf (addf (addf (addf
          (matmul D1 prec (truncf .bf16 x1 hn) (truncf .bf16 w1 hn) (constant (F := Ideal) ⟨2, ![M, N]⟩ .f32 0x00000000#32))
          (matmul D2 prec (truncf .bf16 x2 hn) (truncf .bf16 w2 hn) (constant (F := Ideal) ⟨2, ![M, N]⟩ .f32 0x00000000#32)))
          (matmul D3 prec (truncf .bf16 x3 hn) (truncf .bf16 w3 hn) (constant (F := Ideal) ⟨2, ![M, N]⟩ .f32 0x00000000#32)))
        (broadcastTo ⟨2, ![M, N]⟩ (shapeCast ⟨2, ![1, N]⟩ b hc) hb))
      (broadcast ⟨2, ![M, N]⟩ (Scalar.ofBits (F := Ideal) .f32 0x00000000#32))
    = layer3 x1 w1 x2 w2 x3 w3 b := by
  funext i
  obtain ⟨p, f, rfl⟩ : ∃ (p : Fin M) (f : Fin N), i = ix2 p f := ⟨i 0, i 1, eq_ix2 i⟩
  rw [maximumf_apply, addf_apply, addf_apply, addf_apply, narrowed_matmul_apply D1 hD1 prec x1 w1 hn p f,
    narrowed_matmul_apply D2 hD2 prec x2 w2 hn p f, narrowed_matmul_apply D3 hD3 prec x3 w3 hn p f,
    row_bias_apply b hc hb p f, broadcast_apply]
  rfl

/-- The three-factor layer as the host's array operations compute it. -/
theorem host_layer3 {M K1 K2 K3 N : ℕ}
    (D1 : DotDims ⟨2, ![M, K1]⟩ ⟨2, ![K1, N]⟩ ⟨2, ![M, N]⟩) (hD1 : D1 = DotDims.plain M K1 N)
    (D2 : DotDims ⟨2, ![M, K2]⟩ ⟨2, ![K2, N]⟩ ⟨2, ![M, N]⟩) (hD2 : D2 = DotDims.plain M K2 N)
    (D3 : DotDims ⟨2, ![M, K3]⟩ ⟨2, ![K3, N]⟩ ⟨2, ![M, N]⟩) (hD3 : D3 = DotDims.plain M K3 N)
    (prec : Option ContractPrecision)
    (x1 : FVec Ideal ⟨2, ![M, K1]⟩ .f32) (w1 : FVec Ideal ⟨2, ![K1, N]⟩ .f32)
    (x2 : FVec Ideal ⟨2, ![M, K2]⟩ .f32) (w2 : FVec Ideal ⟨2, ![K2, N]⟩ .f32)
    (x3 : FVec Ideal ⟨2, ![M, K3]⟩ .f32) (w3 : FVec Ideal ⟨2, ![K3, N]⟩ .f32)
    (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf (addf (addf (Host.dotGeneral D1 prec x1 w1) (Host.dotGeneral D2 prec x2 w2)) (Host.dotGeneral D3 prec x3 w3))
        (broadcastInDim ⟨2, ![M, N]⟩ ![0, 1] h2 (broadcastInDim ⟨2, ![1, N]⟩ ![1] h1 b)))
      (broadcastInDim ⟨2, ![M, N]⟩ ![] h0 (constant (F := Ideal) ⟨0, ![]⟩ .f32 0x00000000#32))
    = layer3 x1 w1 x2 w2 x3 w3 b := by
  funext i
  obtain ⟨p, f, rfl⟩ : ∃ (p : Fin M) (f : Fin N), i = ix2 p f := ⟨i 0, i 1, eq_ix2 i⟩
  rw [maximumf_apply, addf_apply, addf_apply, addf_apply, dotGeneral_apply D1 hD1 prec x1 w1 p f,
    dotGeneral_apply D2 hD2 prec x2 w2 p f, dotGeneral_apply D3 hD3 prec x3 w3 p f,
    host_bias_apply b h1 h2 p f, host_scalar_apply _ h0]
  rfl

end Cert.LibRowLayers

end
-- ==== Proof.Net.lean ====
/-
  A three-layer graph network on 50000 nodes with 96 channels, as functions of rows on the extended reals.

  One layer sends the node features h [n, 96] to
      z  = max ((h + agg h) . w1 + b1, 0) . w2 + b2          (a two-layer perceptron applied to every row)
      h' = (z - mean z) * rsqrt (var z + eps) * gamma + beta   (a normalisation with column statistics)
  followed, in every layer but the last, by max (., 0).  Here agg sums the rows of h over each node's incoming edges,
  and mean, var are statistics of the columns of z; the three are carried as parameters (functions of a whole matrix),
  since both programs compute them by the same array operations.  What is spelt out index by index is the part the two
  programs arrange differently: entry (p, f) of z depends on row p of h and of agg h only, and entry (p, f) of h' on
  entry (p, f) of z and on column f of the statistics and of the parameters.  The biases and the statistics are rows
  [1, 96], read at (0, f).
-/
import Idealize.ShloMosaic.PureOps.Ideal.Laws
import Idealize.ShloMosaic.Lib.ValueIdx
import Idealize.ShloMosaic.Lib.ValueLayout
import Idealize.ShloMosaic.Lib.Pipeline.Value
import proofs.«164872_j81217831568100_1_alg».proof.Proof.LibInnerProducts
import proofs.«164872_j81217831568100_1_alg».proof.Proof.LibInDimRow
import proofs.«164872_j81217831568100_1_alg».proof.Proof.LibRowLayers

noncomputable section

namespace Cert.Gin

open Idealize.ShloMosaic Idealize.ShloMosaic.ValueIdx Cert.LibRowLayers
open scoped BigOperators

/-- A matrix of M rows and 96 channels. -/
abbrev Mat (M : ℕ) := FVec Ideal ⟨2, ![M, 96]⟩ .f32
/-- A 96 by 96 weight. -/
abbrev Sq := FVec Ideal ⟨2, ![96, 96]⟩ .f32
/-- A row of 96 channels. -/
abbrev Row := FVec Ideal ⟨2, ![1, 96]⟩ .f32

/-- The hidden activations: entry (p, k) is max ((h + agg)_p . w1_k + b1 k, 0). -/
def hidden {M : ℕ} (h agg : Mat M) (w1 : Sq) (b1 : Row) : Mat M :=
  fun j => max (Cert.LibRowLayers.inner (addf h agg) w1 (j 0) (j 1) + b1 (ix2 (0 : Fin 1) (j 1))) (Ideal.ofBits .f32 0x00000000#32)

/-- The perceptron's output: entry (p, f) is hidden_p . w2_f + b2 f. -/
def mlp {M : ℕ} (h agg : Mat M) (w1 : Sq) (b1 : Row) (w2 : Sq) (b2 : Row) : Mat M :=
  fun i => Cert.LibRowLayers.inner (hidden h agg w1 b1) w2 (i 0) (i 1) + b2 (ix2 (0 : Fin 1) (i 1))

/-- The normalisation: entry (p, f) is ((z (p, f) - mean f) * rsqrt (var f + eps)) * gamma f + beta f. -/
def affine {M : ℕ} (z : Mat M) (mean var gamma beta : Row) : Mat M :=
  fun i => ((z i - mean (ix2 (0 : Fin 1) (i 1))) * Ideal.rsqrt (var (ix2 (0 : Fin 1) (i 1)) + Ideal.ofBits .f32 0x3727C5AC#32))
    * gamma (ix2 (0 : Fin 1) (i 1)) + beta (ix2 (0 : Fin 1) (i 1))

/-- The rectifier, entry by entry. -/
def rect {M : ℕ} (z : Mat M) : Mat M := fun i => max (z i) (Ideal.ofBits .f32 0x00000000#32)

/-- One layer's parameters. -/
structure Params where
  w1 : Sq
  b1 : Row
  w2 : Sq
  b2 : Row
  gamma : Row
  beta : Row

/-- One layer before its rectifier, over the aggregation and the column statistics as parameters. -/
def layer (aggF : Mat 50000 → Mat 50000) (meanF varF : Mat 50000 → Row) (P : Params) (h : Mat 50000) : Mat 50000 :=
  affine (mlp h (aggF h) P.w1 P.b1 P.w2 P.b2) (meanF (mlp h (aggF h) P.w1 P.b1 P.w2 P.b2))
    (varF (mlp h (aggF h) P.w1 P.b1 P.w2 P.b2)) P.gamma P.beta

/-- The network: three layers, a rectifier after the first two. -/
def net (aggF : Mat 50000 → Mat 50000) (meanF varF : Mat 50000 → Row) (P0 P1 P2 : Params) (x : Mat 50000) : Mat 50000 :=
  layer aggF meanF varF P2 (rect (layer aggF meanF varF P1 (rect (layer aggF meanF varF P0 x))))

/-- Entry (q, f) of the perceptron on a matrix whose row q is row p of another matrix is entry (p, f) of the perceptron on
    that other matrix: the perceptron acts on rows. -/
theorem mlp_row {M M' : ℕ} (H A : Mat M) (H' A' : Mat M') (w1 : Sq) (b1 : Row) (w2 : Sq) (b2 : Row)
    (p : Fin M) (q : Fin M') (f : Fin 96)
    (hH : ∀ d : Fin 96, H' (ix2 q d) = H (ix2 p d)) (hA : ∀ d : Fin 96, A' (ix2 q d) = A (ix2 p d)) :
    mlp H' A' w1 b1 w2 b2 (ix2 q f) = mlp H A w1 b1 w2 b2 (ix2 p f) := by
  have hh : ∀ k : Fin 96, hidden H' A' w1 b1 (ix2 q k) = hidden H A w1 b1 (ix2 p k) := fun k => by
    show max (Cert.LibRowLayers.inner (addf H' A') w1 q k + b1 (ix2 (0 : Fin 1) k)) _ = max (Cert.LibRowLayers.inner (addf H A) w1 p k + b1 (ix2 (0 : Fin 1) k)) _
    unfold Cert.LibRowLayers.inner
    simp only [addf_apply, hH, hA]
  show Cert.LibRowLayers.inner (hidden H' A' w1 b1) w2 q f + b2 (ix2 (0 : Fin 1) f) = Cert.LibRowLayers.inner (hidden H A w1 b1) w2 p f + b2 (ix2 (0 : Fin 1) f)
  unfold Cert.LibRowLayers.inner
  simp only [hh]

end Cert.Gin

end
-- ==== Proof.KTerms.lean ====
/-
  The array operations the six launches sit among, as functions of the argument arrays on the extended reals.

  The two ends of every edge are the two rows of the edge array; a negative source index wraps by the number of nodes.
  The aggregation gathers the source rows of a node matrix along the edges and adds each into its destination row of a
  zero matrix.  The column mean of a matrix is its column sum over 50000; the column variance is the column sum of the
  squared deviations from that mean over 50000 - ddof, with ddof the integer the program passes (zero), and a not-a-number
  row were the divisor not positive.  Layer k's weights are slice k of the stacked weights recast to 96 by 96; its biases,
  scale and shift are slice k of the stacked vectors recast to a vector of 96 and then to a row.
-/
import proofs.«164872_j81217831568100_1_alg».proof.KernelIdeal
import proofs.«164872_j81217831568100_1_alg».proof.Proof.Gen.KernelIdeal
import proofs.«164872_j81217831568100_1_alg».proof.Proof.Net
import Idealize.ShloMosaic.PureOps.Ideal

noncomputable section

namespace Cert.KernelIdeal.KVal

open Cert.KernelIdeal Idealize.ShloMosaic Cert.KernelIdeal.Facts₀

/-- The edge array: two rows of 800000 node indices. -/
abbrev Edges := (⟨S2x800000, .i32⟩ : BufTy).Contents (Elt Ideal)
/-- One end of every edge. -/
abbrev Ends := (⟨S800000, .i32⟩ : BufTy).Contents (Elt Ideal)
/-- A rank-0 integer. -/
abbrev Int0 := (⟨S_, .i32⟩ : BufTy).Contents (Elt Ideal)
/-- Stacked weights and stacked vectors of the three layers. -/
abbrev Mats := FVec Ideal S3x96x96 .f32
abbrev Vecs := FVec Ideal S3x96 .f32

/-- The sources: row 0 of the edge array. -/
def srcK (ei : Edges) : Ends :=
  shapeCast S800000 (extractStridedSlice S1x800000 ![0, 0] ei slices_S2x800000_S1x800000_0_0) shapeCasts_S1x800000_S800000
/-- The destinations: row 1 of the edge array. -/
def dstK (ei : Edges) : Ends :=
  shapeCast S800000 (extractStridedSlice S1x800000 ![1, 0] ei slices_S2x800000_S1x800000_1_0) shapeCasts_S1x800000_S800000

/-- The aggregation over the edges with sources s and destinations d. -/
def aggOf (s d : Ends) (h : Cert.Gin.Mat 50000) : Cert.Gin.Mat 50000 :=
  Host.scatterAdd scatter_S50000x96_S800000x1_S800000x96_1_0_0_1
    (broadcastInDim S50000x96 ![] bcast_S_S50000x96 (constant (F := Ideal) S_ .f32 0x00000000#32))
    (broadcastInDim S800000x1 ![0] bcast_S800000_S800000x1_0 d)
    (Host.gather gather_S50000x96_S800000x1_S800000x96_1_0_n_n_0_1_196 h
      (broadcastInDim S800000x1 ![0] bcast_S800000_S800000x1_0
        (select (cmpi .slt s (broadcastInDim S800000 ![] bcast_S_S800000 (constantI S_ 32 0#32)))
          (addi s (broadcastInDim S800000 ![] bcast_S_S800000 (constantI S_ 32 50000#32))) s)))

/-- The column sums. -/
def colSum (z : Cert.Gin.Mat 50000) : FVec Ideal S96 .f32 :=
  Host.reduceAdd z (constant (F := Ideal) S_ .f32 0x00000000#32) reducesTo_S50000x96_S96_d0 h_S_

/-- The column means. -/
def meanVecK (z : Cert.Gin.Mat 50000) : FVec Ideal S96 .f32 :=
  Host.divf (colSum z) (broadcastInDim S96 ![] bcast_S_S96 (constant (F := Ideal) S_ .f32 0x47435000#32))

/-- The deviations from the column means, the means taken as a row. -/
def devK (z : Cert.Gin.Mat 50000) : Cert.Gin.Mat 50000 :=
  subf z (broadcastInDim S50000x96 ![0, 1] bcast_S1x96_S50000x96_0_1
    (Host.divf (broadcastInDim S1x96 ![1] bcast_S96_S1x96_1 (colSum z))
      (broadcastInDim S1x96 ![] bcast_S_S1x96 (constant (F := Ideal) S_ .f32 0x47435000#32))))

/-- The divisor of the variance: 50000 minus the correction. -/
def dofK (c : Int0) : FVec Ideal S_ .f32 :=
  subf (constant (F := Ideal) S_ .f32 0x47435000#32) (sitofp .f32 c)

/-- The column variances with correction c. -/
def varVecK (z : Cert.Gin.Mat 50000) (c : Int0) : FVec Ideal S96 .f32 :=
  select (broadcastInDim S96 ![] bcast_S_S96 (cmpf .ogt (dofK c) (constant (F := Ideal) S_ .f32 0x00000000#32)))
    (Host.divf (colSum (mulf (devK z) (devK z))) (broadcastInDim S96 ![] bcast_S_S96 (dofK c)))
    (broadcastInDim S96 ![] bcast_S_S96 (constant (F := Ideal) S_ .f32 0x7FC00000#32))

/-- A vector of 96 recast to a row. -/
def rowK (v : FVec Ideal S96 .f32) : Cert.Gin.Row := shapeCast S1x96 v shapeCasts_S96_S1x96

/-- Slice k of the stacked weights, as a 96 by 96 matrix. -/
def mat0 (W : Mats) : Cert.Gin.Sq := shapeCast S96x96 (extractStridedSlice S1x96x96 ![0, 0, 0] W slices_S3x96x96_S1x96x96_0_0_0) shapeCasts_S1x96x96_S96x96
def mat1 (W : Mats) : Cert.Gin.Sq := shapeCast S96x96 (extractStridedSlice S1x96x96 ![1, 0, 0] W slices_S3x96x96_S1x96x96_1_0_0) shapeCasts_S1x96x96_S96x96
def mat2 (W : Mats) : Cert.Gin.Sq := shapeCast S96x96 (extractStridedSlice S1x96x96 ![2, 0, 0] W slices_S3x96x96_S1x96x96_2_0_0) shapeCasts_S1x96x96_S96x96

/-- Slice k of the stacked vectors, as a vector of 96. -/
def vec0 (b : Vecs) : FVec Ideal S96 .f32 := shapeCast S96 (extractStridedSlice S1x96 ![0, 0] b slices_S3x96_S1x96_0_0) shapeCasts_S1x96_S96
def vec1 (b : Vecs) : FVec Ideal S96 .f32 := shapeCast S96 (extractStridedSlice S1x96 ![1, 0] b slices_S3x96_S1x96_1_0) shapeCasts_S1x96_S96
def vec2 (b : Vecs) : FVec Ideal S96 .f32 := shapeCast S96 (extractStridedSlice S1x96 ![2, 0] b slices_S3x96_S1x96_2_0) shapeCasts_S1x96_S96

end Cert.KernelIdeal.KVal

end
-- ==== Proof.KStretch.lean ====
/-
  What each stretch of array operations computes, for any contents it starts from.

  Before a perceptron launch: the aggregation of the layer's input along the edges, and the layer's weights and bias rows
  cut out of the stacked parameters.  After it: the column means of its output, the integer correction zero, the column
  variances, and then the four rows the normalisation launch reads (mean, variance, scale, shift).
-/
import proofs.«164872_j81217831568100_1_alg».proof.Proof.Gen.KernelIdeal.Launch
import proofs.«164872_j81217831568100_1_alg».proof.Proof.KTerms
import Idealize.ShloMosaic.Lib.StableHlo.Run

set_option maxRecDepth 16384

noncomputable section

namespace Cert.KernelIdeal.KVal

open Cert.KernelIdeal Cert.KernelIdeal.Gen Idealize.ShloMosaic Idealize.ShloMosaic.TcCoe Idealize.SL.Sem Idealize.ShloMosaic.StableHlo

attribute [local irreducible] Host.reduceAdd Host.gather Host.scatterAdd

set_option maxHeartbeats 2000000 in
theorem s0_src (W : Valuation τ sig (Elt Ideal)) :
    StableHlo.after (hostOps0 (F := Ideal)) W (Proc.devRef .tc main_v1) = srcK (W (Proc.devRef .tc main_arg1)) := by
  after_results
  first | rfl | done

set_option maxHeartbeats 2000000 in
theorem s0_dst (W : Valuation τ sig (Elt Ideal)) :
    StableHlo.after (hostOps0 (F := Ideal)) W (Proc.devRef .tc main_v3) = dstK (W (Proc.devRef .tc main_arg1)) := by
  after_results
  first | rfl | done

set_option maxHeartbeats 2000000 in
theorem s0_agg (W : Valuation τ sig (Elt Ideal)) :
    StableHlo.after (hostOps0 (F := Ideal)) W (Proc.devRef .tc main_v13) = aggOf (srcK (W (Proc.devRef .tc main_arg1))) (dstK (W (Proc.devRef .tc main_arg1))) (W (Proc.devRef .tc main_arg0)) := by
  after_results
  first | rfl | done

set_option maxHeartbeats 2000000 in
theorem s0_w1 (W : Valuation τ sig (Elt Ideal)) :
    StableHlo.after (hostOps0 (F := Ideal)) W (Proc.devRef .tc main_v15) = mat0 (W (Proc.devRef .tc main_arg2)) := by
  after_results
  first | rfl | done

set_option maxHeartbeats 2000000 in
theorem s0_b1 (W : Valuation τ sig (Elt Ideal)) :
    StableHlo.after (hostOps0 (F := Ideal)) W (Proc.devRef .tc main_v22) = rowK (vec0 (W (Proc.devRef .tc main_arg3))) := by
  after_results
  first | rfl | done

set_option maxHeartbeats 2000000 in
theorem s0_w2 (W : Valuation τ sig (Elt Ideal)) :
    StableHlo.after (hostOps0 (F := Ideal)) W (Proc.devRef .tc main_v19) = mat0 (W (Proc.devRef .tc main_arg4)) := by
  after_results
  first | rfl | done

set_option maxHeartbeats 2000000 in
theorem s0_b2 (W : Valuation τ sig (Elt Ideal)) :
    StableHlo.after (hostOps0 (F := Ideal)) W (Proc.devRef .tc main_v23) = rowK (vec0 (W (Proc.devRef .tc main_arg5))) := by
  after_results
  first | rfl | done

set_option maxHeartbeats 2000000 in
theorem s0_mean (W : Valuation τ sig (Elt Ideal)) :
    StableHlo.after (hostOps1 (F := Ideal)) W (Proc.devRef .tc main_v27) = meanVecK (W (Proc.devRef .tc main_v24)) := by
  after_results
  first | rfl | done

set_option maxHeartbeats 2000000 in
theorem s0_ddof (W : Valuation τ sig (Elt Ideal)) :
    StableHlo.after (hostOps1 (F := Ideal)) W (Proc.devRef .tc main_c_3) = (constantI S_ 32 0#32 : Int0) := by
  after_results
  first | rfl | done

set_option maxHeartbeats 2000000 in
theorem s0_var (W : Valuation τ sig (Elt Ideal)) :
    StableHlo.after (hostOps1_1 (F := Ideal)) W (Proc.devRef .tc main_v28) = varVecK (W (Proc.devRef .tc main_v24)) (W (Proc.devRef .tc main_c_3)) := by
  after_results
  first | rfl | done

set_option maxHeartbeats 2000000 in
theorem s0_meanRow (W : Valuation τ sig (Elt Ideal)) :
    StableHlo.after (hostOps1_2 (F := Ideal)) W (Proc.devRef .tc main_v33) = rowK (W (Proc.devRef .tc main_v27)) := by
  after_results
  first | rfl | done

set_option maxHeartbeats 2000000 in
theorem s0_varRow (W : Valuation τ sig (Elt Ideal)) :
    StableHlo.after (hostOps1_2 (F := Ideal)) W (Proc.devRef .tc main_v34) = rowK (W (Proc.devRef .tc main_v28)) := by
  after_results
  first | rfl | done

set_option maxHeartbeats 2000000 in
theorem s0_gamma (W : Valuation τ sig (Elt Ideal)) :
    StableHlo.after (hostOps1_2 (F := Ideal)) W (Proc.devRef .tc main_v35) = rowK (vec0 (W (Proc.devRef .tc main_arg6))) := by
  after_results
  first | rfl | done

set_option maxHeartbeats 2000000 in
theorem s0_beta (W : Valuation τ sig (Elt Ideal)) :
    StableHlo.after (hostOps1_2 (F := Ideal)) W (Proc.devRef .tc main_v36) = rowK (vec0 (W (Proc.devRef .tc main_arg7))) := by
  after_results
  first | rfl | done

set_option maxHeartbeats 2000000 in
theorem s1_agg (W : Valuation τ sig (Elt Ideal)) :
    StableHlo.after (hostOps2 (F := Ideal)) W (Proc.devRef .tc main_v47) = aggOf (W (Proc.devRef .tc main_v1)) (W (Proc.devRef .tc main_v3)) (W (Proc.devRef .tc main_v37)) := by
  after_results
  first | rfl | done

set_option maxHeartbeats 2000000 in
theorem s1_w1 (W : Valuation τ sig (Elt Ideal)) :
    StableHlo.after (hostOps2 (F := Ideal)) W (Proc.devRef .tc main_v49) = mat1 (W (Proc.devRef .tc main_arg2)) := by
  after_results
  first | rfl | done

set_option maxHeartbeats 2000000 in
theorem s1_b1 (W : Valuation τ sig (Elt Ideal)) :
    StableHlo.after (hostOps2 (F := Ideal)) W (Proc.devRef .tc main_v56) = rowK (vec1 (W (Proc.devRef .tc main_arg3))) := by
  after_results
  first | rfl | done

set_option maxHeartbeats 2000000 in
theorem s1_w2 (W : Valuation τ sig (Elt Ideal)) :
    StableHlo.after (hostOps2 (F := Ideal)) W (Proc.devRef .tc main_v53) = mat1 (W (Proc.devRef .tc main_arg4)) := by
  after_results
  first | rfl | done

set_option maxHeartbeats 2000000 in
theorem s1_b2 (W : Valuation τ sig (Elt Ideal)) :
    StableHlo.after (hostOps2 (F := Ideal)) W (Proc.devRef .tc main_v57) = rowK (vec1 (W (Proc.devRef .tc main_arg5))) := by
  after_results
  first | rfl | done

set_option maxHeartbeats 2000000 in
theorem s1_mean (W : Valuation τ sig (Elt Ideal)) :
    StableHlo.after (hostOps3 (F := Ideal)) W (Proc.devRef .tc main_v61) = meanVecK (W (Proc.devRef .tc main_v58)) := by
  after_results
  first | rfl | done

set_option maxHeartbeats 2000000 in
theorem s1_ddof (W : Valuation τ sig (Elt Ideal)) :
    StableHlo.after (hostOps3 (F := Ideal)) W (Proc.devRef .tc main_c_9) = (constantI S_ 32 0#32 : Int0) := by
  after_results
  first | rfl | done

set_option maxHeartbeats 2000000 in
theorem s1_var (W : Valuation τ sig (Elt Ideal)) :
    StableHlo.after (hostOps3_1 (F := Ideal)) W (Proc.devRef .tc main_v62) = varVecK (W (Proc.devRef .tc main_v58)) (W (Proc.devRef .tc main_c_9)) := by
  after_results
  first | rfl | done

set_option maxHeartbeats 2000000 in
theorem s1_meanRow (W : Valuation τ sig (Elt Ideal)) :
    StableHlo.after (hostOps3_2 (F := Ideal)) W (Proc.devRef .tc main_v67) = rowK (W (Proc.devRef .tc main_v61)) := by
  after_results
  first | rfl | done

set_option maxHeartbeats 2000000 in
theorem s1_varRow (W : Valuation τ sig (Elt Ideal)) :
    StableHlo.after (hostOps3_2 (F := Ideal)) W (Proc.devRef .tc main_v68) = rowK (W (Proc.devRef .tc main_v62)) := by
  after_results
  first | rfl | done

set_option maxHeartbeats 2000000 in
theorem s1_gamma (W : Valuation τ sig (Elt Ideal)) :
    StableHlo.after (hostOps3_2 (F := Ideal)) W (Proc.devRef .tc main_v69) = rowK (vec1 (W (Proc.devRef .tc main_arg6))) := by
  after_results
  first | rfl | done

set_option maxHeartbeats 2000000 in
theorem s1_beta (W : Valuation τ sig (Elt Ideal)) :
    StableHlo.after (hostOps3_2 (F := Ideal)) W (Proc.devRef .tc main_v70) = rowK (vec1 (W (Proc.devRef .tc main_arg7))) := by
  after_results
  first | rfl | done

set_option maxHeartbeats 2000000 in
theorem s2_agg (W : Valuation τ sig (Elt Ideal)) :
    StableHlo.after (hostOps4 (F := Ideal)) W (Proc.devRef .tc main_v81) = aggOf (W (Proc.devRef .tc main_v1)) (W (Proc.devRef .tc main_v3)) (W (Proc.devRef .tc main_v71)) := by
  after_results
  first | rfl | done

set_option maxHeartbeats 2000000 in
theorem s2_w1 (W : Valuation τ sig (Elt Ideal)) :
    StableHlo.after (hostOps4 (F := Ideal)) W (Proc.devRef .tc main_v83) = mat2 (W (Proc.devRef .tc main_arg2)) := by
  after_results
  first | rfl | done

set_option maxHeartbeats 2000000 in
theorem s2_b1 (W : Valuation τ sig (Elt Ideal)) :
    StableHlo.after (hostOps4 (F := Ideal)) W (Proc.devRef .tc main_v90) = rowK (vec2 (W (Proc.devRef .tc main_arg3))) := by
  after_results
  first | rfl | done

set_option maxHeartbeats 2000000 in
theorem s2_w2 (W : Valuation τ sig (Elt Ideal)) :
    StableHlo.after (hostOps4 (F := Ideal)) W (Proc.devRef .tc main_v87) = mat2 (W (Proc.devRef .tc main_arg4)) := by
  after_results
  first | rfl | done

set_option maxHeartbeats 2000000 in
theorem s2_b2 (W : Valuation τ sig (Elt Ideal)) :
    StableHlo.after (hostOps4 (F := Ideal)) W (Proc.devRef .tc main_v91) = rowK (vec2 (W (Proc.devRef .tc main_arg5))) := by
  after_results
  first | rfl | done

set_option maxHeartbeats 2000000 in
theorem s2_mean (W : Valuation τ sig (Elt Ideal)) :
    StableHlo.after (hostOps5 (F := Ideal)) W (Proc.devRef .tc main_v95) = meanVecK (W (Proc.devRef .tc main_v92)) := by
  after_results
  first | rfl | done

set_option maxHeartbeats 2000000 in
theorem s2_ddof (W : Valuation τ sig (Elt Ideal)) :
    StableHlo.after (hostOps5 (F := Ideal)) W (Proc.devRef .tc main_c_15) = (constantI S_ 32 0#32 : Int0) := by
  after_results
  first | rfl | done

set_option maxHeartbeats 2000000 in
theorem s2_var (W : Valuation τ sig (Elt Ideal)) :
    StableHlo.after (hostOps5_1 (F := Ideal)) W (Proc.devRef .tc main_v96) = varVecK (W (Proc.devRef .tc main_v92)) (W (Proc.devRef .tc main_c_15)) := by
  after_results
  first | rfl | done

set_option maxHeartbeats 2000000 in
theorem s2_meanRow (W : Valuation τ sig (Elt Ideal)) :
    StableHlo.after (hostOps5_2 (F := Ideal)) W (Proc.devRef .tc main_v101) = rowK (W (Proc.devRef .tc main_v95)) := by
  after_results
  first | rfl | done

set_option maxHeartbeats 2000000 in
theorem s2_varRow (W : Valuation τ sig (Elt Ideal)) :
    StableHlo.after (hostOps5_2 (F := Ideal)) W (Proc.devRef .tc main_v102) = rowK (W (Proc.devRef .tc main_v96)) := by
  after_results
  first | rfl | done

set_option maxHeartbeats 2000000 in
theorem s2_gamma (W : Valuation τ sig (Elt Ideal)) :
    StableHlo.after (hostOps5_2 (F := Ideal)) W (Proc.devRef .tc main_v103) = rowK (vec2 (W (Proc.devRef .tc main_arg6))) := by
  after_results
  first | rfl | done

set_option maxHeartbeats 2000000 in
theorem s2_beta (W : Valuation τ sig (Elt Ideal)) :
    StableHlo.after (hostOps5_2 (F := Ideal)) W (Proc.devRef .tc main_v104) = rowK (vec2 (W (Proc.devRef .tc main_arg7))) := by
  after_results
  first | rfl | done

end Cert.KernelIdeal.KVal

end
-- ==== Proof.KBody.lean ====
/-
  The two kernel bodies on one block of 5000 rows, as functions of rows on the extended reals.

  The perceptron's body adds its two row blocks, multiplies by the first weight into a zero accumulator, adds the first
  bias row spread over the rows, takes the maximum with zero, multiplies by the second weight and adds the second bias
  row: entry (p, f) is the inner product of the hidden row p with column f of the second weight, plus the bias at f.
  The normalisation's body subtracts the mean row, multiplies by rsqrt (var + eps), by the scale row, and adds the shift
  row, every row spread over the rows of the block: entry (p, f) reads column f of each row.
-/
import proofs.«164872_j81217831568100_1_alg».proof.Proof.Gen.KernelIdeal.Skeleton
import proofs.«164872_j81217831568100_1_alg».proof.Proof.Net
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KVal

open Cert.KernelIdeal Idealize.ShloMosaic Idealize.ShloMosaic.ValueIdx
open Idealize.ShloMosaic.InnerProducts Cert.KernelIdeal.Facts₀
open scoped BigOperators

/-- The block's matrix product is the plain one: left columns against right rows, no batch axis. -/
theorem dot_plain : dot_S5000x96_S96x96_S5000x96_1_0_0_1_n_n = DotDims.plain 5000 96 96 := rfl

/-- The perceptron's body on a block is the perceptron of the block's rows. -/
theorem block_mlp (x0 x1 : FVec Ideal S5000x96 .f32) (x2 : FVec Ideal S96x96 .f32) (x3 : FVec Ideal S1x96 .f32)
    (x4 : FVec Ideal S96x96 .f32) (x5 : FVec Ideal S1x96 .f32) :
    addf (matmul dot_S5000x96_S96x96_S5000x96_1_0_0_1_n_n none
        (maximumf (addf (matmul dot_S5000x96_S96x96_S5000x96_1_0_0_1_n_n none (addf x0 x1) x2 (constant (F := Ideal) S5000x96 .f32 0x00000000#32))
          (broadcastTo S5000x96 x3 broadcasts_S1x96_S5000x96)) (broadcast S5000x96 (Scalar.ofBits (F := Ideal) .f32 0x00000000#32)))
        x4 (constant (F := Ideal) S5000x96 .f32 0x00000000#32)) (broadcastTo S5000x96 x5 broadcasts_S1x96_S5000x96)
      = Cert.Gin.mlp x0 x1 x2 x3 x4 x5 := by
  funext i
  obtain ⟨p, f, rfl⟩ : ∃ (p : Fin 5000) (f : Fin 96), i = ix2 p f := ⟨i 0, i 1, eq_ix2 i⟩
  rw [addf_apply, matmul_zero_apply _ dot_plain none _ x4 p f, broadcastTo_1b_ab_apply x5 _ p f]
  show _ = (∑ d : Fin 96, Cert.Gin.hidden x0 x1 x2 x3 (ix2 p d) * x4 (ix2 d f)) + x5 (ix2 (0 : Fin 1) f)
  refine congrArg (· + x5 (ix2 (0 : Fin 1) f)) (Finset.sum_congr rfl fun d _ => congrArg (· * x4 (ix2 d f)) ?_)
  rw [maximumf_apply, addf_apply, matmul_zero_apply _ dot_plain none (addf x0 x1) x2 p d, broadcastTo_1b_ab_apply x3 _ p d, broadcast_apply]
  rfl

/-- The normalisation's body on a block, before its rectifier, is the normalisation of the block's entries. -/
theorem block_affine (z : FVec Ideal S5000x96 .f32) (var mean gamma beta : FVec Ideal S1x96 .f32) :
    addf (mulf (mulf (subf z (broadcastTo S5000x96 mean broadcasts_S1x96_S5000x96))
        (broadcastTo S5000x96 (rsqrt (addf var (broadcast S1x96 (Scalar.ofBits (F := Ideal) .f32 0x3727C5AC#32)))) broadcasts_S1x96_S5000x96))
        (broadcastTo S5000x96 gamma broadcasts_S1x96_S5000x96)) (broadcastTo S5000x96 beta broadcasts_S1x96_S5000x96)
      = Cert.Gin.affine z mean var gamma beta := by
  funext i
  obtain ⟨p, f, rfl⟩ : ∃ (p : Fin 5000) (f : Fin 96), i = ix2 p f := ⟨i 0, i 1, eq_ix2 i⟩
  rw [addf_apply, mulf_apply, mulf_apply, subf_apply, broadcastTo_1b_ab_apply mean _ p f, broadcastTo_1b_ab_apply _ _ p f,
    broadcastTo_1b_ab_apply gamma _ p f, broadcastTo_1b_ab_apply beta _ p f]
  rfl

/-- The maximum with a spread zero is the rectifier. -/
theorem block_rect (v : FVec Ideal S5000x96 .f32) :
    maximumf v (broadcast S5000x96 (Scalar.ofBits (F := Ideal) .f32 0x00000000#32)) = Cert.Gin.rect v := rfl

/-- The perceptron acts on rows: entry (q, f) on matrices whose row q is row p of two others, with the same weights and
    biases, is entry (p, f) on those others. -/
theorem mlp_at {M M' : ℕ} (H A : Cert.Gin.Mat M) (H' A' : Cert.Gin.Mat M') (w1 w1' : Cert.Gin.Sq) (b1 b1' : Cert.Gin.Row)
    (w2 w2' : Cert.Gin.Sq) (b2 b2' : Cert.Gin.Row) (p : Fin M) (q : Fin M') (f : Fin 96)
    (hH : ∀ d : Fin 96, H' (ix2 q d) = H (ix2 p d)) (hA : ∀ d : Fin 96, A' (ix2 q d) = A (ix2 p d))
    (hw1 : w1' = w1) (hb1 : b1' = b1) (hw2 : w2' = w2) (hb2 : b2' = b2) :
    Cert.Gin.mlp H' A' w1' b1' w2' b2' (ix2 q f) = Cert.Gin.mlp H A w1 b1 w2 b2 (ix2 p f) := by
  subst hw1 hb1 hw2 hb2
  exact Cert.Gin.mlp_row H A H' A' _ _ _ _ p q f hH hA

/-- The normalisation acts on entries: entry (q, f) on a matrix whose entry (q, f) is entry (p, f) of another, with the
    same rows, is entry (p, f) on that other. -/
theorem affine_at {M M' : ℕ} (Z : Cert.Gin.Mat M) (Z' : Cert.Gin.Mat M') (mean mean' var var' gamma gamma' beta beta' : Cert.Gin.Row)
    (p : Fin M) (q : Fin M') (f : Fin 96) (hZ : Z' (ix2 q f) = Z (ix2 p f))
    (hm : mean' = mean) (hv : var' = var) (hg : gamma' = gamma) (hb : beta' = beta) :
    Cert.Gin.affine Z' mean' var' gamma' beta' (ix2 q f) = Cert.Gin.affine Z mean var gamma beta (ix2 p f) := by
  subst hm hv hg hb
  show ((Z' (ix2 q f) - _) * _) * _ + _ = ((Z (ix2 p f) - _) * _) * _ + _
  rw [hZ]
  rfl

/-- The first kernel's stored value. -/
theorem pay0 (x0 x1 : Vec Ideal S5000x96 .f32) (x2 : Vec Ideal S96x96 .f32) (x3 : Vec Ideal S1x96 .f32)
    (x4 : Vec Ideal S96x96 .f32) (x5 : Vec Ideal S1x96 .f32) : Gen.k0_pay1 x0 x1 x2 x3 x4 x5 = Cert.Gin.mlp x0 x1 x2 x3 x4 x5 := by
  unfold Gen.k0_pay1
  simp only [shapeCast_self]
  exact block_mlp x0 x1 x2 x3 x4 x5

theorem pay2 (x0 x1 : Vec Ideal S5000x96 .f32) (x2 : Vec Ideal S96x96 .f32) (x3 : Vec Ideal S1x96 .f32)
    (x4 : Vec Ideal S96x96 .f32) (x5 : Vec Ideal S1x96 .f32) : Gen.k2_pay1 x0 x1 x2 x3 x4 x5 = Cert.Gin.mlp x0 x1 x2 x3 x4 x5 := by
  unfold Gen.k2_pay1
  simp only [shapeCast_self]
  exact block_mlp x0 x1 x2 x3 x4 x5

theorem pay4 (x0 x1 : Vec Ideal S5000x96 .f32) (x2 : Vec Ideal S96x96 .f32) (x3 : Vec Ideal S1x96 .f32)
    (x4 : Vec Ideal S96x96 .f32) (x5 : Vec Ideal S1x96 .f32) : Gen.k4_pay1 x0 x1 x2 x3 x4 x5 = Cert.Gin.mlp x0 x1 x2 x3 x4 x5 := by
  unfold Gen.k4_pay1
  simp only [shapeCast_self]
  exact block_mlp x0 x1 x2 x3 x4 x5

/-- The second kernel's stored value: the normalisation, then the rectifier (its variance row is its second operand, its
    mean row its third). -/
theorem pay1 (z : Vec Ideal S5000x96 .f32) (var mean gamma beta : Vec Ideal S1x96 .f32) :
    Gen.k1_pay1 z var mean gamma beta = Cert.Gin.rect (Cert.Gin.affine z mean var gamma beta) := by
  unfold Gen.k1_pay1
  simp only [shapeCast_self]
  rw [block_rect, block_affine]

theorem pay3 (z : Vec Ideal S5000x96 .f32) (var mean gamma beta : Vec Ideal S1x96 .f32) :
    Gen.k3_pay1 z var mean gamma beta = Cert.Gin.rect (Cert.Gin.affine z mean var gamma beta) := by
  unfold Gen.k3_pay1
  simp only [shapeCast_self]
  rw [block_rect, block_affine]

/-- The last kernel's stored value: the normalisation alone. -/
theorem pay5 (z : Vec Ideal S5000x96 .f32) (var mean gamma beta : Vec Ideal S1x96 .f32) :
    Gen.k5_pay1 z var mean gamma beta = Cert.Gin.affine z mean var gamma beta := by
  unfold Gen.k5_pay1
  simp only [shapeCast_self]
  exact block_affine z var mean gamma beta

end Cert.KernelIdeal.KVal

end
-- ==== Proof.KLaunch0.lean ====
/-
  What the first perceptron launch leaves in its output array.

  The launch runs the body once per block of 5000 rows, ten blocks in all, and writes block t of the output back at
  rows 5000 t .. 5000 t + 4999.  The two row operands move with the output block; the weights and the bias rows are whole
  at every point.  Since the perceptron acts on rows, what point t writes back is block t of the perceptron of the whole
  arrays, and the ten blocks tile the array: it ends holding the perceptron of the arrays as the launch finds them.
-/
import proofs.«164872_j81217831568100_1_alg».proof.Proof.Gen.KernelIdeal.Frame
import proofs.«164872_j81217831568100_1_alg».proof.Proof.KBody
import Idealize.ShloMosaic.Lib.Pipeline.Value

set_option maxRecDepth 16384

noncomputable section

namespace Cert.KernelIdeal.KVal

open Cert.KernelIdeal Cert.KernelIdeal.Gen Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

theorem zero_offsets0 : (![0, 0] : Fin 2 → Nat) = fun _ => 0 := funext fun a => by fin_cases a <;> rfl

/-- The index maps over the grid: the row operands' block row is the output's, which is the point's number; every other
    block index is zero. -/
theorem index_maps0 : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (1 : Fin 2) = 0 ∧ win0_6.index t (0 : Fin 2) = t.val ∧ t.val < 10 :=
  (by decide +kernel : ∀ t : Fin grid0.N, _)

/-- Every block row is some point's. -/
theorem index_onto0 : ∀ q : Fin 10, ∃ t : Fin cfg0.N, win0_6.index t = ![q.val, 0] :=
  (by decide +kernel : ∀ q : Fin 10, ∃ t : Fin grid0.N, win0_6.index t = ![q.val, 0])

/-- What point t writes back is block t of the perceptron of the arrays as the launch finds them. -/
theorem flushed0 (c : Dev nD) (t : Fin cfg0.N) :
    (dat0 V c).flushed 6 t = ((cfg0.win 6).blk t).view.read (Elt Ideal)
      (Cert.Gin.mlp (V c main_arg0) (V c main_v13) (V c main_v15) (V c main_v22) (V c main_v19) (V c main_v23)) := by
  show (cfg0.win 6).cut (grid0.coords t) ((dat0 V c).after 6 t) = _
  rw [after0_6]
  unfold out0_6
  rw [View.canon_unit_zero zero_offsets0]
  simp only [View.ld_unit_zero (S := S5000x96) zero_offsets0, View.ld_unit_zero (S := S96x96) zero_offsets0, View.ld_unit_zero (S := S1x96) zero_offsets0]
  rw [pay0]
  obtain ⟨e00, e01, e10, e11, e20, e21, e30, e31, e40, e41, e50, e51, e61, e60, ht⟩ := index_maps0 t
  have w1 : iblk0 V c 2 t = V c main_v15 := by
    funext y
    show V c main_v15 (((cfg0.win 2).blk t).view.emb y) = V c main_v15 y
    refine congrArg _ (funext fun a => Fin.ext ?_)
    match a with
    | ⟨0, _⟩ => show win0_2.index t (0 : Fin 2) * 96 + 1 * (y 0).val = (y 0).val; omega
    | ⟨1, _⟩ => show win0_2.index t (1 : Fin 2) * 96 + 1 * (y 1).val = (y 1).val; omega
  have b1 : iblk0 V c 3 t = V c main_v22 := by
    funext y
    show V c main_v22 (((cfg0.win 3).blk t).view.emb y) = V c main_v22 y
    refine congrArg _ (funext fun a => Fin.ext ?_)
    match a with
    | ⟨0, _⟩ => show win0_3.index t (0 : Fin 2) * 1 + 1 * (y 0).val = (y 0).val; omega
    | ⟨1, _⟩ => show win0_3.index t (1 : Fin 2) * 96 + 1 * (y 1).val = (y 1).val; omega
  have w2 : iblk0 V c 4 t = V c main_v19 := by
    funext y
    show V c main_v19 (((cfg0.win 4).blk t).view.emb y) = V c main_v19 y
    refine congrArg _ (funext fun a => Fin.ext ?_)
    match a with
    | ⟨0, _⟩ => show win0_4.index t (0 : Fin 2) * 96 + 1 * (y 0).val = (y 0).val; omega
    | ⟨1, _⟩ => show win0_4.index t (1 : Fin 2) * 96 + 1 * (y 1).val = (y 1).val; omega
  have b2 : iblk0 V c 5 t = V c main_v23 := by
    funext y
    show V c main_v23 (((cfg0.win 5).blk t).view.emb y) = V c main_v23 y
    refine congrArg _ (funext fun a => Fin.ext ?_)
    match a with
    | ⟨0, _⟩ => show win0_5.index t (0 : Fin 2) * 1 + 1 * (y 0).val = (y 0).val; omega
    | ⟨1, _⟩ => show win0_5.index t (1 : Fin 2) * 96 + 1 * (y 1).val = (y 1).val; omega
  funext j
  have hj0 : (j 0).val < 5000 := (j 0).isLt
  have hj1 : (j 1).val < 96 := (j 1).isLt
  show Cert.Gin.mlp (iblk0 V c 0 t) (iblk0 V c 1 t) (iblk0 V c 2 t) (iblk0 V c 3 t) (iblk0 V c 4 t) (iblk0 V c 5 t) j
    = Cert.Gin.mlp (V c main_arg0) (V c main_v13) (V c main_v15) (V c main_v22) (V c main_v19) (V c main_v23) (((cfg0.win 6).blk t).view.emb j)
  have hp : win0_6.index t (0 : Fin 2) * 5000 + (j 0).val < 50000 := by omega
  have hemb : ((cfg0.win 6).blk t).view.emb j = ix2 (⟨win0_6.index t (0 : Fin 2) * 5000 + (j 0).val, hp⟩ : Fin 50000) (⟨(j 1).val, hj1⟩ : Fin 96) := by
    funext a; apply Fin.ext
    match a with
    | ⟨0, _⟩ => show win0_6.index t (0 : Fin 2) * 5000 + 1 * (j 0).val = win0_6.index t (0 : Fin 2) * 5000 + (j 0).val; omega
    | ⟨1, _⟩ => show win0_6.index t (1 : Fin 2) * 96 + 1 * (j 1).val = (j 1).val; omega
  have hjj : j = ix2 (⟨(j 0).val, hj0⟩ : Fin 5000) (⟨(j 1).val, hj1⟩ : Fin 96) := by
    funext a; apply Fin.ext
    match a with
    | ⟨0, _⟩ => rfl
    | ⟨1, _⟩ => rfl
  rw [hemb]
  refine (congrArg _ hjj).trans ?_
  refine mlp_at _ _ _ _ _ _ _ _ _ _ _ _ _ _ _ (fun d => ?_) (fun d => ?_) w1 b1 w2 b2
  · show V c main_arg0 (((cfg0.win 0).blk t).view.emb (ix2 (⟨(j 0).val, hj0⟩ : Fin 5000) d)) = V c main_arg0 (ix2 (⟨win0_6.index t (0 : Fin 2) * 5000 + (j 0).val, hp⟩ : Fin 50000) d)
    refine congrArg _ (funext fun a => Fin.ext ?_)
    match a with
    | ⟨0, _⟩ => show win0_0.index t (0 : Fin 2) * 5000 + 1 * (j 0).val = win0_6.index t (0 : Fin 2) * 5000 + (j 0).val; omega
    | ⟨1, _⟩ => show win0_0.index t (1 : Fin 2) * 96 + 1 * d.val = d.val; omega
  · show V c main_v13 (((cfg0.win 1).blk t).view.emb (ix2 (⟨(j 0).val, hj0⟩ : Fin 5000) d)) = V c main_v13 (ix2 (⟨win0_6.index t (0 : Fin 2) * 5000 + (j 0).val, hp⟩ : Fin 50000) d)
    refine congrArg _ (funext fun a => Fin.ext ?_)
    match a with
    | ⟨0, _⟩ => show win0_1.index t (0 : Fin 2) * 5000 + 1 * (j 0).val = win0_6.index t (0 : Fin 2) * 5000 + (j 0).val; omega
    | ⟨1, _⟩ => show win0_1.index t (1 : Fin 2) * 96 + 1 * d.val = d.val; omega

/-- An index of the output array is in point t's block iff each coordinate is in the block's range on its axis. -/
theorem mem_block0 (t : Fin cfg0.N) (i : S50000x96.Idx) :
    i ∈ ((cfg0.win 6).blk t).view.set ↔ ∀ a : Fin 2, win0_6.index t a * S5000x96.size a ≤ (i a).val ∧ (i a).val < win0_6.index t a * S5000x96.size a + S5000x96.size a := by
  show i ∈ ((View.whole main_v24).slice (win0_6.rect t)).set ↔ _
  rw [View.set_slice_whole, Rect.mem_set_unit]
  exact Iff.rfl

/-- The ten blocks tile the array: row r is in block r / 5000. -/
theorem covered0 (i : S50000x96.Idx) : ∃ t : Fin cfg0.N, (cfg0.win 6).flush t = true ∧ i ∈ ((cfg0.win 6).blk t).view.set := by
  have hi0 : (i 0).val < 50000 := (i 0).isLt
  have hi1 : (i 1).val < 96 := (i 1).isLt
  obtain ⟨t, ht⟩ := index_onto0 ⟨(i 0).val / 5000, by omega⟩
  have q0 : win0_6.index t (0 : Fin 2) = (i 0).val / 5000 := congrFun ht 0
  have q1 : win0_6.index t (1 : Fin 2) = 0 := congrFun ht 1
  refine ⟨t, flush0_6 t, ?_⟩
  rw [mem_block0]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 96 ≤ (i 1).val ∧ (i 1).val < win0_6.index t (1 : Fin 2) * 96 + 96; omega

/-- The output array after the launch: the perceptron of the arrays as the launch finds them. -/
theorem out0 (c : Dev nD) : (dat0 V c).arrAt 6 cfg0.N
    = Cert.Gin.mlp (V c main_arg0) (V c main_v13) (V c main_v15) (V c main_v22) (V c main_v19) (V c main_v23) :=
  (dat0 V c).arrAt_eq_of_cover 6 _ (fun t _ => flushed0 V c t) (covered0)

end Cert.KernelIdeal.KVal

end
-- ==== Proof.KLaunch1.lean ====
/-
  What the first normalisation launch leaves in its output array.

  The launch runs the body once per block of 5000 rows, ten blocks in all, and writes block t of the output back at
  rows 5000 t .. 5000 t + 4999.  The matrix operand moves with the output block; the four rows (mean, variance, scale,
  shift) are whole at every point.  The normalisation and the rectifier act entry by entry, so what point t writes back is
  block t of the normalised, rectified whole matrix, and the ten blocks tile the array.
-/
import proofs.«164872_j81217831568100_1_alg».proof.Proof.Gen.KernelIdeal.Frame
import proofs.«164872_j81217831568100_1_alg».proof.Proof.KBody
import Idealize.ShloMosaic.Lib.Pipeline.Value

set_option maxRecDepth 16384

noncomputable section

namespace Cert.KernelIdeal.KVal

open Cert.KernelIdeal Cert.KernelIdeal.Gen Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

theorem zero_offsets1 : (![0, 0] : Fin 2 → Nat) = fun _ => 0 := funext fun a => by fin_cases a <;> rfl

/-- The index maps over the grid: the matrix operand's block row is the output's, which is the point's number; every
    other block index is zero. -/
theorem index_maps1 : ∀ t : Fin cfg1.N,
    win1_0.index t (0 : Fin 2) = win1_5.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (1 : Fin 2) = 0 ∧ win1_5.index t (0 : Fin 2) = t.val ∧ t.val < 10 :=
  (by decide +kernel : ∀ t : Fin grid1.N, _)

/-- Every block row is some point's. -/
theorem index_onto1 : ∀ q : Fin 10, ∃ t : Fin cfg1.N, win1_5.index t = ![q.val, 0] :=
  (by decide +kernel : ∀ q : Fin 10, ∃ t : Fin grid1.N, win1_5.index t = ![q.val, 0])

/-- What point t writes back is block t of the normalised, rectified matrix of the arrays as the launch finds them. -/
theorem flushed1 (c : Dev nD) (t : Fin cfg1.N) :
    (dat1 V c).flushed 5 t = ((cfg1.win 5).blk t).view.read (Elt Ideal)
      (Cert.Gin.rect (Cert.Gin.affine (V c main_v24) (V c main_v33) (V c main_v34) (V c main_v35) (V c main_v36))) := by
  show (cfg1.win 5).cut (grid1.coords t) ((dat1 V c).after 5 t) = _
  rw [after1_5]
  unfold out1_5
  rw [View.canon_unit_zero zero_offsets1]
  simp only [View.ld_unit_zero (S := S5000x96) zero_offsets1, View.ld_unit_zero (S := S1x96) zero_offsets1]
  rw [pay1]
  obtain ⟨e00, e01, e10, e11, e20, e21, e30, e31, e40, e41, e51, e50, ht⟩ := index_maps1 t
  have r1 : iblk1 V c 1 t = V c main_v33 := by
    funext y
    show V c main_v33 (((cfg1.win 1).blk t).view.emb y) = V c main_v33 y
    refine congrArg _ (funext fun a => Fin.ext ?_)
    match a with
    | ⟨0, _⟩ => show win1_1.index t (0 : Fin 2) * 1 + 1 * (y 0).val = (y 0).val; omega
    | ⟨1, _⟩ => show win1_1.index t (1 : Fin 2) * 96 + 1 * (y 1).val = (y 1).val; omega
  have r2 : iblk1 V c 2 t = V c main_v34 := by
    funext y
    show V c main_v34 (((cfg1.win 2).blk t).view.emb y) = V c main_v34 y
    refine congrArg _ (funext fun a => Fin.ext ?_)
    match a with
    | ⟨0, _⟩ => show win1_2.index t (0 : Fin 2) * 1 + 1 * (y 0).val = (y 0).val; omega
    | ⟨1, _⟩ => show win1_2.index t (1 : Fin 2) * 96 + 1 * (y 1).val = (y 1).val; omega
  have r3 : iblk1 V c 3 t = V c main_v35 := by
    funext y
    show V c main_v35 (((cfg1.win 3).blk t).view.emb y) = V c main_v35 y
    refine congrArg _ (funext fun a => Fin.ext ?_)
    match a with
    | ⟨0, _⟩ => show win1_3.index t (0 : Fin 2) * 1 + 1 * (y 0).val = (y 0).val; omega
    | ⟨1, _⟩ => show win1_3.index t (1 : Fin 2) * 96 + 1 * (y 1).val = (y 1).val; omega
  have r4 : iblk1 V c 4 t = V c main_v36 := by
    funext y
    show V c main_v36 (((cfg1.win 4).blk t).view.emb y) = V c main_v36 y
    refine congrArg _ (funext fun a => Fin.ext ?_)
    match a with
    | ⟨0, _⟩ => show win1_4.index t (0 : Fin 2) * 1 + 1 * (y 0).val = (y 0).val; omega
    | ⟨1, _⟩ => show win1_4.index t (1 : Fin 2) * 96 + 1 * (y 1).val = (y 1).val; omega
  funext j
  have hj0 : (j 0).val < 5000 := (j 0).isLt
  have hj1 : (j 1).val < 96 := (j 1).isLt
  have hp : win1_5.index t (0 : Fin 2) * 5000 + (j 0).val < 50000 := by omega
  have hemb : ((cfg1.win 5).blk t).view.emb j = ix2 (⟨win1_5.index t (0 : Fin 2) * 5000 + (j 0).val, hp⟩ : Fin 50000) (⟨(j 1).val, hj1⟩ : Fin 96) := by
    funext a; apply Fin.ext
    match a with
    | ⟨0, _⟩ => show win1_5.index t (0 : Fin 2) * 5000 + 1 * (j 0).val = win1_5.index t (0 : Fin 2) * 5000 + (j 0).val; omega
    | ⟨1, _⟩ => show win1_5.index t (1 : Fin 2) * 96 + 1 * (j 1).val = (j 1).val; omega
  have hjj : j = ix2 (⟨(j 0).val, hj0⟩ : Fin 5000) (⟨(j 1).val, hj1⟩ : Fin 96) := by
    funext a; apply Fin.ext
    match a with
    | ⟨0, _⟩ => rfl
    | ⟨1, _⟩ => rfl
  have key : Cert.Gin.affine (iblk1 V c 0 t) (iblk1 V c 1 t) (iblk1 V c 2 t) (iblk1 V c 3 t) (iblk1 V c 4 t) j
      = Cert.Gin.affine (V c main_v24) (V c main_v33) (V c main_v34) (V c main_v35) (V c main_v36) (((cfg1.win 5).blk t).view.emb j) := by
    rw [hemb]
    refine (congrArg _ hjj).trans ?_
    refine affine_at _ _ _ _ _ _ _ _ _ _ _ _ _ ?_ r1 r2 r3 r4
    show V c main_v24 (((cfg1.win 0).blk t).view.emb (ix2 (⟨(j 0).val, hj0⟩ : Fin 5000) (⟨(j 1).val, hj1⟩ : Fin 96))) = V c main_v24 (ix2 (⟨win1_5.index t (0 : Fin 2) * 5000 + (j 0).val, hp⟩ : Fin 50000) (⟨(j 1).val, hj1⟩ : Fin 96))
    refine congrArg _ (funext fun a => Fin.ext ?_)
    match a with
    | ⟨0, _⟩ => show win1_0.index t (0 : Fin 2) * 5000 + 1 * (j 0).val = win1_5.index t (0 : Fin 2) * 5000 + (j 0).val; omega
    | ⟨1, _⟩ => show win1_0.index t (1 : Fin 2) * 96 + 1 * (j 1).val = (j 1).val; omega
  show max (Cert.Gin.affine (iblk1 V c 0 t) (iblk1 V c 1 t) (iblk1 V c 2 t) (iblk1 V c 3 t) (iblk1 V c 4 t) j) (Ideal.ofBits .f32 0x00000000#32)
    = max (Cert.Gin.affine (V c main_v24) (V c main_v33) (V c main_v34) (V c main_v35) (V c main_v36) (((cfg1.win 5).blk t).view.emb j)) (Ideal.ofBits .f32 0x00000000#32)
  rw [key]

/-- An index of the output array is in point t's block iff each coordinate is in the block's range on its axis. -/
theorem mem_block1 (t : Fin cfg1.N) (i : S50000x96.Idx) :
    i ∈ ((cfg1.win 5).blk t).view.set ↔ ∀ a : Fin 2, win1_5.index t a * S5000x96.size a ≤ (i a).val ∧ (i a).val < win1_5.index t a * S5000x96.size a + S5000x96.size a := by
  show i ∈ ((View.whole main_v37).slice (win1_5.rect t)).set ↔ _
  rw [View.set_slice_whole, Rect.mem_set_unit]
  exact Iff.rfl

/-- The ten blocks tile the array: row r is in block r / 5000. -/
theorem covered1 (i : S50000x96.Idx) : ∃ t : Fin cfg1.N, (cfg1.win 5).flush t = true ∧ i ∈ ((cfg1.win 5).blk t).view.set := by
  have hi0 : (i 0).val < 50000 := (i 0).isLt
  have hi1 : (i 1).val < 96 := (i 1).isLt
  obtain ⟨t, ht⟩ := index_onto1 ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_block1]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 96 ≤ (i 1).val ∧ (i 1).val < win1_5.index t (1 : Fin 2) * 96 + 96; omega

/-- The output array after the launch. -/
theorem out1 (c : Dev nD) : (dat1 V c).arrAt 5 cfg1.N
    = Cert.Gin.rect (Cert.Gin.affine (V c main_v24) (V c main_v33) (V c main_v34) (V c main_v35) (V c main_v36)) :=
  (dat1 V c).arrAt_eq_of_cover 5 _ (fun t _ => flushed1 V c t) (covered1)

end Cert.KernelIdeal.KVal

end
-- ==== Proof.KLaunch2.lean ====
/-
  What the second perceptron launch leaves in its output array.

  The launch runs the body once per block of 5000 rows, ten blocks in all, and writes block t of the output back at
  rows 5000 t .. 5000 t + 4999.  The two row operands move with the output block; the weights and the bias rows are whole
  at every point.  Since the perceptron acts on rows, what point t writes back is block t of the perceptron of the whole
  arrays, and the ten blocks tile the array: it ends holding the perceptron of the arrays as the launch finds them.
-/
import proofs.«164872_j81217831568100_1_alg».proof.Proof.Gen.KernelIdeal.Frame
import proofs.«164872_j81217831568100_1_alg».proof.Proof.KBody
import Idealize.ShloMosaic.Lib.Pipeline.Value

set_option maxRecDepth 16384

noncomputable section

namespace Cert.KernelIdeal.KVal

open Cert.KernelIdeal Cert.KernelIdeal.Gen Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

theorem zero_offsets2 : (![0, 0] : Fin 2 → Nat) = fun _ => 0 := funext fun a => by fin_cases a <;> rfl

/-- The index maps over the grid: the row operands' block row is the output's, which is the point's number; every other
    block index is zero. -/
theorem index_maps2 : ∀ t : Fin cfg2.N,
    win2_0.index t (0 : Fin 2) = win2_6.index t (0 : Fin 2) ∧ win2_0.index t (1 : Fin 2) = 0
    ∧ win2_1.index t (0 : Fin 2) = win2_6.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (1 : Fin 2) = 0 ∧ win2_6.index t (0 : Fin 2) = t.val ∧ t.val < 10 :=
  (by decide +kernel : ∀ t : Fin grid2.N, _)

/-- Every block row is some point's. -/
theorem index_onto2 : ∀ q : Fin 10, ∃ t : Fin cfg2.N, win2_6.index t = ![q.val, 0] :=
  (by decide +kernel : ∀ q : Fin 10, ∃ t : Fin grid2.N, win2_6.index t = ![q.val, 0])

/-- What point t writes back is block t of the perceptron of the arrays as the launch finds them. -/
theorem flushed2 (c : Dev nD) (t : Fin cfg2.N) :
    (dat2 V c).flushed 6 t = ((cfg2.win 6).blk t).view.read (Elt Ideal)
      (Cert.Gin.mlp (V c main_v37) (V c main_v47) (V c main_v49) (V c main_v56) (V c main_v53) (V c main_v57)) := by
  show (cfg2.win 6).cut (grid2.coords t) ((dat2 V c).after 6 t) = _
  rw [after2_6]
  unfold out2_6
  rw [View.canon_unit_zero zero_offsets2]
  simp only [View.ld_unit_zero (S := S5000x96) zero_offsets2, View.ld_unit_zero (S := S96x96) zero_offsets2, View.ld_unit_zero (S := S1x96) zero_offsets2]
  rw [pay2]
  obtain ⟨e00, e01, e10, e11, e20, e21, e30, e31, e40, e41, e50, e51, e61, e60, ht⟩ := index_maps2 t
  have w1 : iblk2 V c 2 t = V c main_v49 := by
    funext y
    show V c main_v49 (((cfg2.win 2).blk t).view.emb y) = V c main_v49 y
    refine congrArg _ (funext fun a => Fin.ext ?_)
    match a with
    | ⟨0, _⟩ => show win2_2.index t (0 : Fin 2) * 96 + 1 * (y 0).val = (y 0).val; omega
    | ⟨1, _⟩ => show win2_2.index t (1 : Fin 2) * 96 + 1 * (y 1).val = (y 1).val; omega
  have b1 : iblk2 V c 3 t = V c main_v56 := by
    funext y
    show V c main_v56 (((cfg2.win 3).blk t).view.emb y) = V c main_v56 y
    refine congrArg _ (funext fun a => Fin.ext ?_)
    match a with
    | ⟨0, _⟩ => show win2_3.index t (0 : Fin 2) * 1 + 1 * (y 0).val = (y 0).val; omega
    | ⟨1, _⟩ => show win2_3.index t (1 : Fin 2) * 96 + 1 * (y 1).val = (y 1).val; omega
  have w2 : iblk2 V c 4 t = V c main_v53 := by
    funext y
    show V c main_v53 (((cfg2.win 4).blk t).view.emb y) = V c main_v53 y
    refine congrArg _ (funext fun a => Fin.ext ?_)
    match a with
    | ⟨0, _⟩ => show win2_4.index t (0 : Fin 2) * 96 + 1 * (y 0).val = (y 0).val; omega
    | ⟨1, _⟩ => show win2_4.index t (1 : Fin 2) * 96 + 1 * (y 1).val = (y 1).val; omega
  have b2 : iblk2 V c 5 t = V c main_v57 := by
    funext y
    show V c main_v57 (((cfg2.win 5).blk t).view.emb y) = V c main_v57 y
    refine congrArg _ (funext fun a => Fin.ext ?_)
    match a with
    | ⟨0, _⟩ => show win2_5.index t (0 : Fin 2) * 1 + 1 * (y 0).val = (y 0).val; omega
    | ⟨1, _⟩ => show win2_5.index t (1 : Fin 2) * 96 + 1 * (y 1).val = (y 1).val; omega
  funext j
  have hj0 : (j 0).val < 5000 := (j 0).isLt
  have hj1 : (j 1).val < 96 := (j 1).isLt
  show Cert.Gin.mlp (iblk2 V c 0 t) (iblk2 V c 1 t) (iblk2 V c 2 t) (iblk2 V c 3 t) (iblk2 V c 4 t) (iblk2 V c 5 t) j
    = Cert.Gin.mlp (V c main_v37) (V c main_v47) (V c main_v49) (V c main_v56) (V c main_v53) (V c main_v57) (((cfg2.win 6).blk t).view.emb j)
  have hp : win2_6.index t (0 : Fin 2) * 5000 + (j 0).val < 50000 := by omega
  have hemb : ((cfg2.win 6).blk t).view.emb j = ix2 (⟨win2_6.index t (0 : Fin 2) * 5000 + (j 0).val, hp⟩ : Fin 50000) (⟨(j 1).val, hj1⟩ : Fin 96) := by
    funext a; apply Fin.ext
    match a with
    | ⟨0, _⟩ => show win2_6.index t (0 : Fin 2) * 5000 + 1 * (j 0).val = win2_6.index t (0 : Fin 2) * 5000 + (j 0).val; omega
    | ⟨1, _⟩ => show win2_6.index t (1 : Fin 2) * 96 + 1 * (j 1).val = (j 1).val; omega
  have hjj : j = ix2 (⟨(j 0).val, hj0⟩ : Fin 5000) (⟨(j 1).val, hj1⟩ : Fin 96) := by
    funext a; apply Fin.ext
    match a with
    | ⟨0, _⟩ => rfl
    | ⟨1, _⟩ => rfl
  rw [hemb]
  refine (congrArg _ hjj).trans ?_
  refine mlp_at _ _ _ _ _ _ _ _ _ _ _ _ _ _ _ (fun d => ?_) (fun d => ?_) w1 b1 w2 b2
  · show V c main_v37 (((cfg2.win 0).blk t).view.emb (ix2 (⟨(j 0).val, hj0⟩ : Fin 5000) d)) = V c main_v37 (ix2 (⟨win2_6.index t (0 : Fin 2) * 5000 + (j 0).val, hp⟩ : Fin 50000) d)
    refine congrArg _ (funext fun a => Fin.ext ?_)
    match a with
    | ⟨0, _⟩ => show win2_0.index t (0 : Fin 2) * 5000 + 1 * (j 0).val = win2_6.index t (0 : Fin 2) * 5000 + (j 0).val; omega
    | ⟨1, _⟩ => show win2_0.index t (1 : Fin 2) * 96 + 1 * d.val = d.val; omega
  · show V c main_v47 (((cfg2.win 1).blk t).view.emb (ix2 (⟨(j 0).val, hj0⟩ : Fin 5000) d)) = V c main_v47 (ix2 (⟨win2_6.index t (0 : Fin 2) * 5000 + (j 0).val, hp⟩ : Fin 50000) d)
    refine congrArg _ (funext fun a => Fin.ext ?_)
    match a with
    | ⟨0, _⟩ => show win2_1.index t (0 : Fin 2) * 5000 + 1 * (j 0).val = win2_6.index t (0 : Fin 2) * 5000 + (j 0).val; omega
    | ⟨1, _⟩ => show win2_1.index t (1 : Fin 2) * 96 + 1 * d.val = d.val; omega

/-- An index of the output array is in point t's block iff each coordinate is in the block's range on its axis. -/
theorem mem_block2 (t : Fin cfg2.N) (i : S50000x96.Idx) :
    i ∈ ((cfg2.win 6).blk t).view.set ↔ ∀ a : Fin 2, win2_6.index t a * S5000x96.size a ≤ (i a).val ∧ (i a).val < win2_6.index t a * S5000x96.size a + S5000x96.size a := by
  show i ∈ ((View.whole main_v58).slice (win2_6.rect t)).set ↔ _
  rw [View.set_slice_whole, Rect.mem_set_unit]
  exact Iff.rfl

/-- The ten blocks tile the array: row r is in block r / 5000. -/
theorem covered2 (i : S50000x96.Idx) : ∃ t : Fin cfg2.N, (cfg2.win 6).flush t = true ∧ i ∈ ((cfg2.win 6).blk t).view.set := by
  have hi0 : (i 0).val < 50000 := (i 0).isLt
  have hi1 : (i 1).val < 96 := (i 1).isLt
  obtain ⟨t, ht⟩ := index_onto2 ⟨(i 0).val / 5000, by omega⟩
  have q0 : win2_6.index t (0 : Fin 2) = (i 0).val / 5000 := congrFun ht 0
  have q1 : win2_6.index t (1 : Fin 2) = 0 := congrFun ht 1
  refine ⟨t, flush2_6 t, ?_⟩
  rw [mem_block2]
  intro a
  match a with
  | ⟨0, _⟩ => show win2_6.index t (0 : Fin 2) * 5000 ≤ (i 0).val ∧ (i 0).val < win2_6.index t (0 : Fin 2) * 5000 + 5000; omega
  | ⟨1, _⟩ => show win2_6.index t (1 : Fin 2) * 96 ≤ (i 1).val ∧ (i 1).val < win2_6.index t (1 : Fin 2) * 96 + 96; omega

/-- The output array after the launch: the perceptron of the arrays as the launch finds them. -/
theorem out2 (c : Dev nD) : (dat2 V c).arrAt 6 cfg2.N
    = Cert.Gin.mlp (V c main_v37) (V c main_v47) (V c main_v49) (V c main_v56) (V c main_v53) (V c main_v57) :=
  (dat2 V c).arrAt_eq_of_cover 6 _ (fun t _ => flushed2 V c t) (covered2)

end Cert.KernelIdeal.KVal

end
-- ==== Proof.KLaunch3.lean ====
/-
  What the second normalisation launch leaves in its output array.

  The launch runs the body once per block of 5000 rows, ten blocks in all, and writes block t of the output back at
  rows 5000 t .. 5000 t + 4999.  The matrix operand moves with the output block; the four rows (mean, variance, scale,
  shift) are whole at every point.  The normalisation and the rectifier act entry by entry, so what point t writes back is
  block t of the normalised, rectified whole matrix, and the ten blocks tile the array.
-/
import proofs.«164872_j81217831568100_1_alg».proof.Proof.Gen.KernelIdeal.Frame
import proofs.«164872_j81217831568100_1_alg».proof.Proof.KBody
import Idealize.ShloMosaic.Lib.Pipeline.Value

set_option maxRecDepth 16384

noncomputable section

namespace Cert.KernelIdeal.KVal

open Cert.KernelIdeal Cert.KernelIdeal.Gen Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

theorem zero_offsets3 : (![0, 0] : Fin 2 → Nat) = fun _ => 0 := funext fun a => by fin_cases a <;> rfl

/-- The index maps over the grid: the matrix operand's block row is the output's, which is the point's number; every
    other block index is zero. -/
theorem index_maps3 : ∀ t : Fin cfg3.N,
    win3_0.index t (0 : Fin 2) = win3_5.index t (0 : Fin 2) ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (1 : Fin 2) = 0 ∧ win3_5.index t (0 : Fin 2) = t.val ∧ t.val < 10 :=
  (by decide +kernel : ∀ t : Fin grid3.N, _)

/-- Every block row is some point's. -/
theorem index_onto3 : ∀ q : Fin 10, ∃ t : Fin cfg3.N, win3_5.index t = ![q.val, 0] :=
  (by decide +kernel : ∀ q : Fin 10, ∃ t : Fin grid3.N, win3_5.index t = ![q.val, 0])

/-- What point t writes back is block t of the normalised, rectified matrix of the arrays as the launch finds them. -/
theorem flushed3 (c : Dev nD) (t : Fin cfg3.N) :
    (dat3 V c).flushed 5 t = ((cfg3.win 5).blk t).view.read (Elt Ideal)
      (Cert.Gin.rect (Cert.Gin.affine (V c main_v58) (V c main_v67) (V c main_v68) (V c main_v69) (V c main_v70))) := by
  show (cfg3.win 5).cut (grid3.coords t) ((dat3 V c).after 5 t) = _
  rw [after3_5]
  unfold out3_5
  rw [View.canon_unit_zero zero_offsets3]
  simp only [View.ld_unit_zero (S := S5000x96) zero_offsets3, View.ld_unit_zero (S := S1x96) zero_offsets3]
  rw [pay3]
  obtain ⟨e00, e01, e10, e11, e20, e21, e30, e31, e40, e41, e51, e50, ht⟩ := index_maps3 t
  have r1 : iblk3 V c 1 t = V c main_v67 := by
    funext y
    show V c main_v67 (((cfg3.win 1).blk t).view.emb y) = V c main_v67 y
    refine congrArg _ (funext fun a => Fin.ext ?_)
    match a with
    | ⟨0, _⟩ => show win3_1.index t (0 : Fin 2) * 1 + 1 * (y 0).val = (y 0).val; omega
    | ⟨1, _⟩ => show win3_1.index t (1 : Fin 2) * 96 + 1 * (y 1).val = (y 1).val; omega
  have r2 : iblk3 V c 2 t = V c main_v68 := by
    funext y
    show V c main_v68 (((cfg3.win 2).blk t).view.emb y) = V c main_v68 y
    refine congrArg _ (funext fun a => Fin.ext ?_)
    match a with
    | ⟨0, _⟩ => show win3_2.index t (0 : Fin 2) * 1 + 1 * (y 0).val = (y 0).val; omega
    | ⟨1, _⟩ => show win3_2.index t (1 : Fin 2) * 96 + 1 * (y 1).val = (y 1).val; omega
  have r3 : iblk3 V c 3 t = V c main_v69 := by
    funext y
    show V c main_v69 (((cfg3.win 3).blk t).view.emb y) = V c main_v69 y
    refine congrArg _ (funext fun a => Fin.ext ?_)
    match a with
    | ⟨0, _⟩ => show win3_3.index t (0 : Fin 2) * 1 + 1 * (y 0).val = (y 0).val; omega
    | ⟨1, _⟩ => show win3_3.index t (1 : Fin 2) * 96 + 1 * (y 1).val = (y 1).val; omega
  have r4 : iblk3 V c 4 t = V c main_v70 := by
    funext y
    show V c main_v70 (((cfg3.win 4).blk t).view.emb y) = V c main_v70 y
    refine congrArg _ (funext fun a => Fin.ext ?_)
    match a with
    | ⟨0, _⟩ => show win3_4.index t (0 : Fin 2) * 1 + 1 * (y 0).val = (y 0).val; omega
    | ⟨1, _⟩ => show win3_4.index t (1 : Fin 2) * 96 + 1 * (y 1).val = (y 1).val; omega
  funext j
  have hj0 : (j 0).val < 5000 := (j 0).isLt
  have hj1 : (j 1).val < 96 := (j 1).isLt
  have hp : win3_5.index t (0 : Fin 2) * 5000 + (j 0).val < 50000 := by omega
  have hemb : ((cfg3.win 5).blk t).view.emb j = ix2 (⟨win3_5.index t (0 : Fin 2) * 5000 + (j 0).val, hp⟩ : Fin 50000) (⟨(j 1).val, hj1⟩ : Fin 96) := by
    funext a; apply Fin.ext
    match a with
    | ⟨0, _⟩ => show win3_5.index t (0 : Fin 2) * 5000 + 1 * (j 0).val = win3_5.index t (0 : Fin 2) * 5000 + (j 0).val; omega
    | ⟨1, _⟩ => show win3_5.index t (1 : Fin 2) * 96 + 1 * (j 1).val = (j 1).val; omega
  have hjj : j = ix2 (⟨(j 0).val, hj0⟩ : Fin 5000) (⟨(j 1).val, hj1⟩ : Fin 96) := by
    funext a; apply Fin.ext
    match a with
    | ⟨0, _⟩ => rfl
    | ⟨1, _⟩ => rfl
  have key : Cert.Gin.affine (iblk3 V c 0 t) (iblk3 V c 1 t) (iblk3 V c 2 t) (iblk3 V c 3 t) (iblk3 V c 4 t) j
      = Cert.Gin.affine (V c main_v58) (V c main_v67) (V c main_v68) (V c main_v69) (V c main_v70) (((cfg3.win 5).blk t).view.emb j) := by
    rw [hemb]
    refine (congrArg _ hjj).trans ?_
    refine affine_at _ _ _ _ _ _ _ _ _ _ _ _ _ ?_ r1 r2 r3 r4
    show V c main_v58 (((cfg3.win 0).blk t).view.emb (ix2 (⟨(j 0).val, hj0⟩ : Fin 5000) (⟨(j 1).val, hj1⟩ : Fin 96))) = V c main_v58 (ix2 (⟨win3_5.index t (0 : Fin 2) * 5000 + (j 0).val, hp⟩ : Fin 50000) (⟨(j 1).val, hj1⟩ : Fin 96))
    refine congrArg _ (funext fun a => Fin.ext ?_)
    match a with
    | ⟨0, _⟩ => show win3_0.index t (0 : Fin 2) * 5000 + 1 * (j 0).val = win3_5.index t (0 : Fin 2) * 5000 + (j 0).val; omega
    | ⟨1, _⟩ => show win3_0.index t (1 : Fin 2) * 96 + 1 * (j 1).val = (j 1).val; omega
  show max (Cert.Gin.affine (iblk3 V c 0 t) (iblk3 V c 1 t) (iblk3 V c 2 t) (iblk3 V c 3 t) (iblk3 V c 4 t) j) (Ideal.ofBits .f32 0x00000000#32)
    = max (Cert.Gin.affine (V c main_v58) (V c main_v67) (V c main_v68) (V c main_v69) (V c main_v70) (((cfg3.win 5).blk t).view.emb j)) (Ideal.ofBits .f32 0x00000000#32)
  rw [key]

/-- An index of the output array is in point t's block iff each coordinate is in the block's range on its axis. -/
theorem mem_block3 (t : Fin cfg3.N) (i : S50000x96.Idx) :
    i ∈ ((cfg3.win 5).blk t).view.set ↔ ∀ a : Fin 2, win3_5.index t a * S5000x96.size a ≤ (i a).val ∧ (i a).val < win3_5.index t a * S5000x96.size a + S5000x96.size a := by
  show i ∈ ((View.whole main_v71).slice (win3_5.rect t)).set ↔ _
  rw [View.set_slice_whole, Rect.mem_set_unit]
  exact Iff.rfl

/-- The ten blocks tile the array: row r is in block r / 5000. -/
theorem covered3 (i : S50000x96.Idx) : ∃ t : Fin cfg3.N, (cfg3.win 5).flush t = true ∧ i ∈ ((cfg3.win 5).blk t).view.set := by
  have hi0 : (i 0).val < 50000 := (i 0).isLt
  have hi1 : (i 1).val < 96 := (i 1).isLt
  obtain ⟨t, ht⟩ := index_onto3 ⟨(i 0).val / 5000, by omega⟩
  have q0 : win3_5.index t (0 : Fin 2) = (i 0).val / 5000 := congrFun ht 0
  have q1 : win3_5.index t (1 : Fin 2) = 0 := congrFun ht 1
  refine ⟨t, flush3_5 t, ?_⟩
  rw [mem_block3]
  intro a
  match a with
  | ⟨0, _⟩ => show win3_5.index t (0 : Fin 2) * 5000 ≤ (i 0).val ∧ (i 0).val < win3_5.index t (0 : Fin 2) * 5000 + 5000; omega
  | ⟨1, _⟩ => show win3_5.index t (1 : Fin 2) * 96 ≤ (i 1).val ∧ (i 1).val < win3_5.index t (1 : Fin 2) * 96 + 96; omega

/-- The output array after the launch. -/
theorem out3 (c : Dev nD) : (dat3 V c).arrAt 5 cfg3.N
    = Cert.Gin.rect (Cert.Gin.affine (V c main_v58) (V c main_v67) (V c main_v68) (V c main_v69) (V c main_v70)) :=
  (dat3 V c).arrAt_eq_of_cover 5 _ (fun t _ => flushed3 V c t) (covered3)

end Cert.KernelIdeal.KVal

end
-- ==== Proof.KLaunch4.lean ====
/-
  What the third perceptron launch leaves in its output array.

  The launch runs the body once per block of 5000 rows, ten blocks in all, and writes block t of the output back at
  rows 5000 t .. 5000 t + 4999.  The two row operands move with the output block; the weights and the bias rows are whole
  at every point.  Since the perceptron acts on rows, what point t writes back is block t of the perceptron of the whole
  arrays, and the ten blocks tile the array: it ends holding the perceptron of the arrays as the launch finds them.
-/
import proofs.«164872_j81217831568100_1_alg».proof.Proof.Gen.KernelIdeal.Frame
import proofs.«164872_j81217831568100_1_alg».proof.Proof.KBody
import Idealize.ShloMosaic.Lib.Pipeline.Value

set_option maxRecDepth 16384

noncomputable section

namespace Cert.KernelIdeal.KVal

open Cert.KernelIdeal Cert.KernelIdeal.Gen Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

theorem zero_offsets4 : (![0, 0] : Fin 2 → Nat) = fun _ => 0 := funext fun a => by fin_cases a <;> rfl

/-- The index maps over the grid: the row operands' block row is the output's, which is the point's number; every other
    block index is zero. -/
theorem index_maps4 : ∀ t : Fin cfg4.N,
    win4_0.index t (0 : Fin 2) = win4_6.index t (0 : Fin 2) ∧ win4_0.index t (1 : Fin 2) = 0
    ∧ win4_1.index t (0 : Fin 2) = win4_6.index t (0 : Fin 2) ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (1 : Fin 2) = 0 ∧ win4_6.index t (0 : Fin 2) = t.val ∧ t.val < 10 :=
  (by decide +kernel : ∀ t : Fin grid4.N, _)

/-- Every block row is some point's. -/
theorem index_onto4 : ∀ q : Fin 10, ∃ t : Fin cfg4.N, win4_6.index t = ![q.val, 0] :=
  (by decide +kernel : ∀ q : Fin 10, ∃ t : Fin grid4.N, win4_6.index t = ![q.val, 0])

/-- What point t writes back is block t of the perceptron of the arrays as the launch finds them. -/
theorem flushed4 (c : Dev nD) (t : Fin cfg4.N) :
    (dat4 V c).flushed 6 t = ((cfg4.win 6).blk t).view.read (Elt Ideal)
      (Cert.Gin.mlp (V c main_v71) (V c main_v81) (V c main_v83) (V c main_v90) (V c main_v87) (V c main_v91)) := by
  show (cfg4.win 6).cut (grid4.coords t) ((dat4 V c).after 6 t) = _
  rw [after4_6]
  unfold out4_6
  rw [View.canon_unit_zero zero_offsets4]
  simp only [View.ld_unit_zero (S := S5000x96) zero_offsets4, View.ld_unit_zero (S := S96x96) zero_offsets4, View.ld_unit_zero (S := S1x96) zero_offsets4]
  rw [pay4]
  obtain ⟨e00, e01, e10, e11, e20, e21, e30, e31, e40, e41, e50, e51, e61, e60, ht⟩ := index_maps4 t
  have w1 : iblk4 V c 2 t = V c main_v83 := by
    funext y
    show V c main_v83 (((cfg4.win 2).blk t).view.emb y) = V c main_v83 y
    refine congrArg _ (funext fun a => Fin.ext ?_)
    match a with
    | ⟨0, _⟩ => show win4_2.index t (0 : Fin 2) * 96 + 1 * (y 0).val = (y 0).val; omega
    | ⟨1, _⟩ => show win4_2.index t (1 : Fin 2) * 96 + 1 * (y 1).val = (y 1).val; omega
  have b1 : iblk4 V c 3 t = V c main_v90 := by
    funext y
    show V c main_v90 (((cfg4.win 3).blk t).view.emb y) = V c main_v90 y
    refine congrArg _ (funext fun a => Fin.ext ?_)
    match a with
    | ⟨0, _⟩ => show win4_3.index t (0 : Fin 2) * 1 + 1 * (y 0).val = (y 0).val; omega
    | ⟨1, _⟩ => show win4_3.index t (1 : Fin 2) * 96 + 1 * (y 1).val = (y 1).val; omega
  have w2 : iblk4 V c 4 t = V c main_v87 := by
    funext y
    show V c main_v87 (((cfg4.win 4).blk t).view.emb y) = V c main_v87 y
    refine congrArg _ (funext fun a => Fin.ext ?_)
    match a with
    | ⟨0, _⟩ => show win4_4.index t (0 : Fin 2) * 96 + 1 * (y 0).val = (y 0).val; omega
    | ⟨1, _⟩ => show win4_4.index t (1 : Fin 2) * 96 + 1 * (y 1).val = (y 1).val; omega
  have b2 : iblk4 V c 5 t = V c main_v91 := by
    funext y
    show V c main_v91 (((cfg4.win 5).blk t).view.emb y) = V c main_v91 y
    refine congrArg _ (funext fun a => Fin.ext ?_)
    match a with
    | ⟨0, _⟩ => show win4_5.index t (0 : Fin 2) * 1 + 1 * (y 0).val = (y 0).val; omega
    | ⟨1, _⟩ => show win4_5.index t (1 : Fin 2) * 96 + 1 * (y 1).val = (y 1).val; omega
  funext j
  have hj0 : (j 0).val < 5000 := (j 0).isLt
  have hj1 : (j 1).val < 96 := (j 1).isLt
  show Cert.Gin.mlp (iblk4 V c 0 t) (iblk4 V c 1 t) (iblk4 V c 2 t) (iblk4 V c 3 t) (iblk4 V c 4 t) (iblk4 V c 5 t) j
    = Cert.Gin.mlp (V c main_v71) (V c main_v81) (V c main_v83) (V c main_v90) (V c main_v87) (V c main_v91) (((cfg4.win 6).blk t).view.emb j)
  have hp : win4_6.index t (0 : Fin 2) * 5000 + (j 0).val < 50000 := by omega
  have hemb : ((cfg4.win 6).blk t).view.emb j = ix2 (⟨win4_6.index t (0 : Fin 2) * 5000 + (j 0).val, hp⟩ : Fin 50000) (⟨(j 1).val, hj1⟩ : Fin 96) := by
    funext a; apply Fin.ext
    match a with
    | ⟨0, _⟩ => show win4_6.index t (0 : Fin 2) * 5000 + 1 * (j 0).val = win4_6.index t (0 : Fin 2) * 5000 + (j 0).val; omega
    | ⟨1, _⟩ => show win4_6.index t (1 : Fin 2) * 96 + 1 * (j 1).val = (j 1).val; omega
  have hjj : j = ix2 (⟨(j 0).val, hj0⟩ : Fin 5000) (⟨(j 1).val, hj1⟩ : Fin 96) := by
    funext a; apply Fin.ext
    match a with
    | ⟨0, _⟩ => rfl
    | ⟨1, _⟩ => rfl
  rw [hemb]
  refine (congrArg _ hjj).trans ?_
  refine mlp_at _ _ _ _ _ _ _ _ _ _ _ _ _ _ _ (fun d => ?_) (fun d => ?_) w1 b1 w2 b2
  · show V c main_v71 (((cfg4.win 0).blk t).view.emb (ix2 (⟨(j 0).val, hj0⟩ : Fin 5000) d)) = V c main_v71 (ix2 (⟨win4_6.index t (0 : Fin 2) * 5000 + (j 0).val, hp⟩ : Fin 50000) d)
    refine congrArg _ (funext fun a => Fin.ext ?_)
    match a with
    | ⟨0, _⟩ => show win4_0.index t (0 : Fin 2) * 5000 + 1 * (j 0).val = win4_6.index t (0 : Fin 2) * 5000 + (j 0).val; omega
    | ⟨1, _⟩ => show win4_0.index t (1 : Fin 2) * 96 + 1 * d.val = d.val; omega
  · show V c main_v81 (((cfg4.win 1).blk t).view.emb (ix2 (⟨(j 0).val, hj0⟩ : Fin 5000) d)) = V c main_v81 (ix2 (⟨win4_6.index t (0 : Fin 2) * 5000 + (j 0).val, hp⟩ : Fin 50000) d)
    refine congrArg _ (funext fun a => Fin.ext ?_)
    match a with
    | ⟨0, _⟩ => show win4_1.index t (0 : Fin 2) * 5000 + 1 * (j 0).val = win4_6.index t (0 : Fin 2) * 5000 + (j 0).val; omega
    | ⟨1, _⟩ => show win4_1.index t (1 : Fin 2) * 96 + 1 * d.val = d.val; omega

/-- An index of the output array is in point t's block iff each coordinate is in the block's range on its axis. -/
theorem mem_block4 (t : Fin cfg4.N) (i : S50000x96.Idx) :
    i ∈ ((cfg4.win 6).blk t).view.set ↔ ∀ a : Fin 2, win4_6.index t a * S5000x96.size a ≤ (i a).val ∧ (i a).val < win4_6.index t a * S5000x96.size a + S5000x96.size a := by
  show i ∈ ((View.whole main_v92).slice (win4_6.rect t)).set ↔ _
  rw [View.set_slice_whole, Rect.mem_set_unit]
  exact Iff.rfl

/-- The ten blocks tile the array: row r is in block r / 5000. -/
theorem covered4 (i : S50000x96.Idx) : ∃ t : Fin cfg4.N, (cfg4.win 6).flush t = true ∧ i ∈ ((cfg4.win 6).blk t).view.set := by
  have hi0 : (i 0).val < 50000 := (i 0).isLt
  have hi1 : (i 1).val < 96 := (i 1).isLt
  obtain ⟨t, ht⟩ := index_onto4 ⟨(i 0).val / 5000, by omega⟩
  have q0 : win4_6.index t (0 : Fin 2) = (i 0).val / 5000 := congrFun ht 0
  have q1 : win4_6.index t (1 : Fin 2) = 0 := congrFun ht 1
  refine ⟨t, flush4_6 t, ?_⟩
  rw [mem_block4]
  intro a
  match a with
  | ⟨0, _⟩ => show win4_6.index t (0 : Fin 2) * 5000 ≤ (i 0).val ∧ (i 0).val < win4_6.index t (0 : Fin 2) * 5000 + 5000; omega
  | ⟨1, _⟩ => show win4_6.index t (1 : Fin 2) * 96 ≤ (i 1).val ∧ (i 1).val < win4_6.index t (1 : Fin 2) * 96 + 96; omega

/-- The output array after the launch: the perceptron of the arrays as the launch finds them. -/
theorem out4 (c : Dev nD) : (dat4 V c).arrAt 6 cfg4.N
    = Cert.Gin.mlp (V c main_v71) (V c main_v81) (V c main_v83) (V c main_v90) (V c main_v87) (V c main_v91) :=
  (dat4 V c).arrAt_eq_of_cover 6 _ (fun t _ => flushed4 V c t) (covered4)

end Cert.KernelIdeal.KVal

end
-- ==== Proof.KLaunch5.lean ====
/-
  What the third normalisation launch leaves in its output array.

  The launch runs the body once per block of 5000 rows, ten blocks in all, and writes block t of the output back at
  rows 5000 t .. 5000 t + 4999.  The matrix operand moves with the output block; the four rows (mean, variance, scale,
  shift) are whole at every point.  The normalisation acts entry by entry, so what point t writes back is
  block t of the normalised whole matrix, and the ten blocks tile the array.
-/
import proofs.«164872_j81217831568100_1_alg».proof.Proof.Gen.KernelIdeal.Frame
import proofs.«164872_j81217831568100_1_alg».proof.Proof.KBody
import Idealize.ShloMosaic.Lib.Pipeline.Value

set_option maxRecDepth 16384

noncomputable section

namespace Cert.KernelIdeal.KVal

open Cert.KernelIdeal Cert.KernelIdeal.Gen Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

theorem zero_offsets5 : (![0, 0] : Fin 2 → Nat) = fun _ => 0 := funext fun a => by fin_cases a <;> rfl

/-- The index maps over the grid: the matrix operand's block row is the output's, which is the point's number; every
    other block index is zero. -/
theorem index_maps5 : ∀ t : Fin cfg5.N,
    win5_0.index t (0 : Fin 2) = win5_5.index t (0 : Fin 2) ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (1 : Fin 2) = 0 ∧ win5_5.index t (0 : Fin 2) = t.val ∧ t.val < 10 :=
  (by decide +kernel : ∀ t : Fin grid5.N, _)

/-- Every block row is some point's. -/
theorem index_onto5 : ∀ q : Fin 10, ∃ t : Fin cfg5.N, win5_5.index t = ![q.val, 0] :=
  (by decide +kernel : ∀ q : Fin 10, ∃ t : Fin grid5.N, win5_5.index t = ![q.val, 0])

/-- What point t writes back is block t of the normalised matrix of the arrays as the launch finds them. -/
theorem flushed5 (c : Dev nD) (t : Fin cfg5.N) :
    (dat5 V c).flushed 5 t = ((cfg5.win 5).blk t).view.read (Elt Ideal)
      (Cert.Gin.affine (V c main_v92) (V c main_v101) (V c main_v102) (V c main_v103) (V c main_v104)) := by
  show (cfg5.win 5).cut (grid5.coords t) ((dat5 V c).after 5 t) = _
  rw [after5_5]
  unfold out5_5
  rw [View.canon_unit_zero zero_offsets5]
  simp only [View.ld_unit_zero (S := S5000x96) zero_offsets5, View.ld_unit_zero (S := S1x96) zero_offsets5]
  rw [pay5]
  obtain ⟨e00, e01, e10, e11, e20, e21, e30, e31, e40, e41, e51, e50, ht⟩ := index_maps5 t
  have r1 : iblk5 V c 1 t = V c main_v101 := by
    funext y
    show V c main_v101 (((cfg5.win 1).blk t).view.emb y) = V c main_v101 y
    refine congrArg _ (funext fun a => Fin.ext ?_)
    match a with
    | ⟨0, _⟩ => show win5_1.index t (0 : Fin 2) * 1 + 1 * (y 0).val = (y 0).val; omega
    | ⟨1, _⟩ => show win5_1.index t (1 : Fin 2) * 96 + 1 * (y 1).val = (y 1).val; omega
  have r2 : iblk5 V c 2 t = V c main_v102 := by
    funext y
    show V c main_v102 (((cfg5.win 2).blk t).view.emb y) = V c main_v102 y
    refine congrArg _ (funext fun a => Fin.ext ?_)
    match a with
    | ⟨0, _⟩ => show win5_2.index t (0 : Fin 2) * 1 + 1 * (y 0).val = (y 0).val; omega
    | ⟨1, _⟩ => show win5_2.index t (1 : Fin 2) * 96 + 1 * (y 1).val = (y 1).val; omega
  have r3 : iblk5 V c 3 t = V c main_v103 := by
    funext y
    show V c main_v103 (((cfg5.win 3).blk t).view.emb y) = V c main_v103 y
    refine congrArg _ (funext fun a => Fin.ext ?_)
    match a with
    | ⟨0, _⟩ => show win5_3.index t (0 : Fin 2) * 1 + 1 * (y 0).val = (y 0).val; omega
    | ⟨1, _⟩ => show win5_3.index t (1 : Fin 2) * 96 + 1 * (y 1).val = (y 1).val; omega
  have r4 : iblk5 V c 4 t = V c main_v104 := by
    funext y
    show V c main_v104 (((cfg5.win 4).blk t).view.emb y) = V c main_v104 y
    refine congrArg _ (funext fun a => Fin.ext ?_)
    match a with
    | ⟨0, _⟩ => show win5_4.index t (0 : Fin 2) * 1 + 1 * (y 0).val = (y 0).val; omega
    | ⟨1, _⟩ => show win5_4.index t (1 : Fin 2) * 96 + 1 * (y 1).val = (y 1).val; omega
  funext j
  have hj0 : (j 0).val < 5000 := (j 0).isLt
  have hj1 : (j 1).val < 96 := (j 1).isLt
  have hp : win5_5.index t (0 : Fin 2) * 5000 + (j 0).val < 50000 := by omega
  have hemb : ((cfg5.win 5).blk t).view.emb j = ix2 (⟨win5_5.index t (0 : Fin 2) * 5000 + (j 0).val, hp⟩ : Fin 50000) (⟨(j 1).val, hj1⟩ : Fin 96) := by
    funext a; apply Fin.ext
    match a with
    | ⟨0, _⟩ => show win5_5.index t (0 : Fin 2) * 5000 + 1 * (j 0).val = win5_5.index t (0 : Fin 2) * 5000 + (j 0).val; omega
    | ⟨1, _⟩ => show win5_5.index t (1 : Fin 2) * 96 + 1 * (j 1).val = (j 1).val; omega
  have hjj : j = ix2 (⟨(j 0).val, hj0⟩ : Fin 5000) (⟨(j 1).val, hj1⟩ : Fin 96) := by
    funext a; apply Fin.ext
    match a with
    | ⟨0, _⟩ => rfl
    | ⟨1, _⟩ => rfl
  have key : Cert.Gin.affine (iblk5 V c 0 t) (iblk5 V c 1 t) (iblk5 V c 2 t) (iblk5 V c 3 t) (iblk5 V c 4 t) j
      = Cert.Gin.affine (V c main_v92) (V c main_v101) (V c main_v102) (V c main_v103) (V c main_v104) (((cfg5.win 5).blk t).view.emb j) := by
    rw [hemb]
    refine (congrArg _ hjj).trans ?_
    refine affine_at _ _ _ _ _ _ _ _ _ _ _ _ _ ?_ r1 r2 r3 r4
    show V c main_v92 (((cfg5.win 0).blk t).view.emb (ix2 (⟨(j 0).val, hj0⟩ : Fin 5000) (⟨(j 1).val, hj1⟩ : Fin 96))) = V c main_v92 (ix2 (⟨win5_5.index t (0 : Fin 2) * 5000 + (j 0).val, hp⟩ : Fin 50000) (⟨(j 1).val, hj1⟩ : Fin 96))
    refine congrArg _ (funext fun a => Fin.ext ?_)
    match a with
    | ⟨0, _⟩ => show win5_0.index t (0 : Fin 2) * 5000 + 1 * (j 0).val = win5_5.index t (0 : Fin 2) * 5000 + (j 0).val; omega
    | ⟨1, _⟩ => show win5_0.index t (1 : Fin 2) * 96 + 1 * (j 1).val = (j 1).val; omega
  exact key

/-- An index of the output array is in point t's block iff each coordinate is in the block's range on its axis. -/
theorem mem_block5 (t : Fin cfg5.N) (i : S50000x96.Idx) :
    i ∈ ((cfg5.win 5).blk t).view.set ↔ ∀ a : Fin 2, win5_5.index t a * S5000x96.size a ≤ (i a).val ∧ (i a).val < win5_5.index t a * S5000x96.size a + S5000x96.size a := by
  show i ∈ ((View.whole main_v105).slice (win5_5.rect t)).set ↔ _
  rw [View.set_slice_whole, Rect.mem_set_unit]
  exact Iff.rfl

/-- The ten blocks tile the array: row r is in block r / 5000. -/
theorem covered5 (i : S50000x96.Idx) : ∃ t : Fin cfg5.N, (cfg5.win 5).flush t = true ∧ i ∈ ((cfg5.win 5).blk t).view.set := by
  have hi0 : (i 0).val < 50000 := (i 0).isLt
  have hi1 : (i 1).val < 96 := (i 1).isLt
  obtain ⟨t, ht⟩ := index_onto5 ⟨(i 0).val / 5000, by omega⟩
  have q0 : win5_5.index t (0 : Fin 2) = (i 0).val / 5000 := congrFun ht 0
  have q1 : win5_5.index t (1 : Fin 2) = 0 := congrFun ht 1
  refine ⟨t, flush5_5 t, ?_⟩
  rw [mem_block5]
  intro a
  match a with
  | ⟨0, _⟩ => show win5_5.index t (0 : Fin 2) * 5000 ≤ (i 0).val ∧ (i 0).val < win5_5.index t (0 : Fin 2) * 5000 + 5000; omega
  | ⟨1, _⟩ => show win5_5.index t (1 : Fin 2) * 96 ≤ (i 1).val ∧ (i 1).val < win5_5.index t (1 : Fin 2) * 96 + 96; omega

/-- The output array after the launch. -/
theorem out5 (c : Dev nD) : (dat5 V c).arrAt 5 cfg5.N
    = Cert.Gin.affine (V c main_v92) (V c main_v101) (V c main_v102) (V c main_v103) (V c main_v104) :=
  (dat5 V c).arrAt_eq_of_cover 5 _ (fun t _ => flushed5 V c t) (covered5)

end Cert.KernelIdeal.KVal

end
-- ==== Proof.KValue.lean ====
/-
  What the six-kernel program leaves in its result array, as one function of its argument arrays.

  The buffer contents at the eighteen segment boundaries are followed from the launch memory: a stretch of array
  operations computes the aggregation, the layer's parameters, the column statistics and their rows from buffers the
  earlier segments left (and keeps every buffer it does not write); a perceptron launch leaves the perceptron of its
  operands, a normalisation launch the normalised (and, in the first two layers, rectified) matrix.  Layer by layer this
  is the network of the specification, over the program's own aggregation and column statistics.
-/
import proofs.«164872_j81217831568100_1_alg».proof.Proof.Gen.KernelIdeal.Frame
import proofs.«164872_j81217831568100_1_alg».proof.Proof.KKeeps
import proofs.«164872_j81217831568100_1_alg».proof.Proof.KStretch
import proofs.«164872_j81217831568100_1_alg».proof.Proof.KLaunch0
import proofs.«164872_j81217831568100_1_alg».proof.Proof.KLaunch1
import proofs.«164872_j81217831568100_1_alg».proof.Proof.KLaunch2
import proofs.«164872_j81217831568100_1_alg».proof.Proof.KLaunch3
import proofs.«164872_j81217831568100_1_alg».proof.Proof.KLaunch4
import proofs.«164872_j81217831568100_1_alg».proof.Proof.KLaunch5

set_option maxRecDepth 16384

noncomputable section

namespace Cert.KernelIdeal.KVal

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg) (c : Dev nD)

/-- The argument arrays as launched. -/
abbrev xK : Cert.Gin.Mat 50000 := W0 (F := Ideal) m ρ c (Proc.devRef .tc main_arg0)
abbrev eiK : Edges := W0 (F := Ideal) m ρ c (Proc.devRef .tc main_arg1)
abbrev a2K : Mats := W0 (F := Ideal) m ρ c (Proc.devRef .tc main_arg2)
abbrev a3K : Vecs := W0 (F := Ideal) m ρ c (Proc.devRef .tc main_arg3)
abbrev a4K : Mats := W0 (F := Ideal) m ρ c (Proc.devRef .tc main_arg4)
abbrev a5K : Vecs := W0 (F := Ideal) m ρ c (Proc.devRef .tc main_arg5)
abbrev a6K : Vecs := W0 (F := Ideal) m ρ c (Proc.devRef .tc main_arg6)
abbrev a7K : Vecs := W0 (F := Ideal) m ρ c (Proc.devRef .tc main_arg7)

/-- The aggregation along the program's edges. -/
def aggK (ei : Edges) (h : Cert.Gin.Mat 50000) : Cert.Gin.Mat 50000 := aggOf (srcK ei) (dstK ei) h
/-- The row of column means and the row of column variances (correction zero). -/
def meanRowK (z : Cert.Gin.Mat 50000) : Cert.Gin.Row := rowK (meanVecK z)
def varRowK (z : Cert.Gin.Mat 50000) : Cert.Gin.Row := rowK (varVecK z (constantI S_ 32 0#32))

theorem e1_h : V1 (F := Ideal) m ρ c main_arg0 = xK m ρ c := (hostOps0_keeps (W0 (F := Ideal) m ρ c) main_arg0 (by decide))

theorem e1_agg : V1 (F := Ideal) m ρ c main_v13 = aggK (eiK m ρ c) (xK m ρ c) := s0_agg (W0 (F := Ideal) m ρ c)

theorem e1_w1 : V1 (F := Ideal) m ρ c main_v15 = mat0 (a2K m ρ c) := s0_w1 (W0 (F := Ideal) m ρ c)

theorem e1_b1 : V1 (F := Ideal) m ρ c main_v22 = rowK (vec0 (a3K m ρ c)) := s0_b1 (W0 (F := Ideal) m ρ c)

theorem e1_w2 : V1 (F := Ideal) m ρ c main_v19 = mat0 (a4K m ρ c) := s0_w2 (W0 (F := Ideal) m ρ c)

theorem e1_b2 : V1 (F := Ideal) m ρ c main_v23 = rowK (vec0 (a5K m ρ c)) := s0_b2 (W0 (F := Ideal) m ρ c)

/-- The first perceptron's output. -/
def z0 : Cert.Gin.Mat 50000 :=
  Cert.Gin.mlp (xK m ρ c) (aggK (eiK m ρ c) (xK m ρ c)) (mat0 (a2K m ρ c)) (rowK (vec0 (a3K m ρ c))) (mat0 (a4K m ρ c)) (rowK (vec0 (a5K m ρ c)))

theorem f2_z : (W2 (F := Ideal) m ρ c) (Proc.devRef .tc main_v24) = z0 m ρ c :=
  (W2_arr (F := Ideal) m ρ c 6).trans ((out0 (V1 (F := Ideal) m ρ) c).trans (by rw [e1_h, e1_agg, e1_w1, e1_b1, e1_w2, e1_b2]; rfl))

theorem f3_mean : (W3 (F := Ideal) m ρ c) (Proc.devRef .tc main_v27) = meanVecK (z0 m ρ c) := (s0_mean (W2 (F := Ideal) m ρ c)).trans (congrArg meanVecK (f2_z m ρ c))

theorem f3_ddof : (W3 (F := Ideal) m ρ c) (Proc.devRef .tc main_c_3) = (constantI S_ 32 0#32 : Int0) := s0_ddof (W2 (F := Ideal) m ρ c)

theorem f3_z : (W3 (F := Ideal) m ρ c) (Proc.devRef .tc main_v24) = z0 m ρ c := (hostOps1_keeps (W2 (F := Ideal) m ρ c) main_v24 (by decide)).trans (f2_z m ρ c)

theorem f4_var : (W4 (F := Ideal) m ρ c) (Proc.devRef .tc main_v28) = varVecK (z0 m ρ c) (constantI S_ 32 0#32) :=
  (s0_var (W3 (F := Ideal) m ρ c)).trans (by rw [f3_z, f3_ddof])

theorem f4_mean : (W4 (F := Ideal) m ρ c) (Proc.devRef .tc main_v27) = meanVecK (z0 m ρ c) := (hostOps1_1_keeps (W3 (F := Ideal) m ρ c) main_v27 (by decide)).trans (f3_mean m ρ c)

theorem e5_z : V5 (F := Ideal) m ρ c main_v24 = z0 m ρ c := ((hostOps1_2_keeps (W4 (F := Ideal) m ρ c) main_v24 (by decide)).trans ((hostOps1_1_keeps (W3 (F := Ideal) m ρ c) main_v24 (by decide)).trans (hostOps1_keeps (W2 (F := Ideal) m ρ c) main_v24 (by decide)))).trans (f2_z m ρ c)

theorem e5_mean : V5 (F := Ideal) m ρ c main_v33 = meanRowK (z0 m ρ c) := (s0_meanRow (W4 (F := Ideal) m ρ c)).trans (congrArg rowK (f4_mean m ρ c))

theorem e5_var : V5 (F := Ideal) m ρ c main_v34 = varRowK (z0 m ρ c) := (s0_varRow (W4 (F := Ideal) m ρ c)).trans (congrArg rowK (f4_var m ρ c))

theorem e5_gamma : V5 (F := Ideal) m ρ c main_v35 = rowK (vec0 (a6K m ρ c)) := (s0_gamma (W4 (F := Ideal) m ρ c)).trans (congrArg (fun t => rowK (vec0 t)) ((hostOps1_1_keeps (W3 (F := Ideal) m ρ c) main_arg6 (by decide)).trans ((hostOps1_keeps (W2 (F := Ideal) m ρ c) main_arg6 (by decide)).trans ((W2_of_ne (F := Ideal) m ρ c main_arg6 (by decide)).trans (hostOps0_keeps (W0 (F := Ideal) m ρ c) main_arg6 (by decide))))))

theorem e5_beta : V5 (F := Ideal) m ρ c main_v36 = rowK (vec0 (a7K m ρ c)) := (s0_beta (W4 (F := Ideal) m ρ c)).trans (congrArg (fun t => rowK (vec0 t)) ((hostOps1_1_keeps (W3 (F := Ideal) m ρ c) main_arg7 (by decide)).trans ((hostOps1_keeps (W2 (F := Ideal) m ρ c) main_arg7 (by decide)).trans ((W2_of_ne (F := Ideal) m ρ c main_arg7 (by decide)).trans (hostOps0_keeps (W0 (F := Ideal) m ρ c) main_arg7 (by decide))))))

/-- The first layer's output. -/
def h1 : Cert.Gin.Mat 50000 :=
  Cert.Gin.rect (Cert.Gin.affine (z0 m ρ c) (meanRowK (z0 m ρ c)) (varRowK (z0 m ρ c)) (rowK (vec0 (a6K m ρ c))) (rowK (vec0 (a7K m ρ c))))

theorem f6_h : (W6 (F := Ideal) m ρ c) (Proc.devRef .tc main_v37) = h1 m ρ c :=
  (W6_arr (F := Ideal) m ρ c 5).trans ((out1 (V5 (F := Ideal) m ρ) c).trans (by rw [e5_z, e5_mean, e5_var, e5_gamma, e5_beta]; rfl))

theorem g6_src : (W6 (F := Ideal) m ρ c) (Proc.devRef .tc main_v1) = srcK (eiK m ρ c) := ((W6_of_ne (F := Ideal) m ρ c main_v1 (by decide)).trans ((hostOps1_2_keeps (W4 (F := Ideal) m ρ c) main_v1 (by decide)).trans ((hostOps1_1_keeps (W3 (F := Ideal) m ρ c) main_v1 (by decide)).trans ((hostOps1_keeps (W2 (F := Ideal) m ρ c) main_v1 (by decide)).trans (W2_of_ne (F := Ideal) m ρ c main_v1 (by decide)))))).trans (s0_src (W0 (F := Ideal) m ρ c))

theorem g6_dst : (W6 (F := Ideal) m ρ c) (Proc.devRef .tc main_v3) = dstK (eiK m ρ c) := ((W6_of_ne (F := Ideal) m ρ c main_v3 (by decide)).trans ((hostOps1_2_keeps (W4 (F := Ideal) m ρ c) main_v3 (by decide)).trans ((hostOps1_1_keeps (W3 (F := Ideal) m ρ c) main_v3 (by decide)).trans ((hostOps1_keeps (W2 (F := Ideal) m ρ c) main_v3 (by decide)).trans (W2_of_ne (F := Ideal) m ρ c main_v3 (by decide)))))).trans (s0_dst (W0 (F := Ideal) m ρ c))

theorem e7_h : V7 (F := Ideal) m ρ c main_v37 = h1 m ρ c := (hostOps2_keeps (W6 (F := Ideal) m ρ c) main_v37 (by decide)).trans (f6_h m ρ c)

theorem e7_agg : V7 (F := Ideal) m ρ c main_v47 = aggK (eiK m ρ c) (h1 m ρ c) :=
  (s1_agg (W6 (F := Ideal) m ρ c)).trans (by rw [g6_src, g6_dst, f6_h]; rfl)

theorem e7_w1 : V7 (F := Ideal) m ρ c main_v49 = mat1 (a2K m ρ c) := (s1_w1 (W6 (F := Ideal) m ρ c)).trans (congrArg (fun t => mat1 t) ((W6_of_ne (F := Ideal) m ρ c main_arg2 (by decide)).trans ((hostOps1_2_keeps (W4 (F := Ideal) m ρ c) main_arg2 (by decide)).trans ((hostOps1_1_keeps (W3 (F := Ideal) m ρ c) main_arg2 (by decide)).trans ((hostOps1_keeps (W2 (F := Ideal) m ρ c) main_arg2 (by decide)).trans ((W2_of_ne (F := Ideal) m ρ c main_arg2 (by decide)).trans (hostOps0_keeps (W0 (F := Ideal) m ρ c) main_arg2 (by decide))))))))

theorem e7_b1 : V7 (F := Ideal) m ρ c main_v56 = rowK (vec1 (a3K m ρ c)) := (s1_b1 (W6 (F := Ideal) m ρ c)).trans (congrArg (fun t => rowK (vec1 t)) ((W6_of_ne (F := Ideal) m ρ c main_arg3 (by decide)).trans ((hostOps1_2_keeps (W4 (F := Ideal) m ρ c) main_arg3 (by decide)).trans ((hostOps1_1_keeps (W3 (F := Ideal) m ρ c) main_arg3 (by decide)).trans ((hostOps1_keeps (W2 (F := Ideal) m ρ c) main_arg3 (by decide)).trans ((W2_of_ne (F := Ideal) m ρ c main_arg3 (by decide)).trans (hostOps0_keeps (W0 (F := Ideal) m ρ c) main_arg3 (by decide))))))))

theorem e7_w2 : V7 (F := Ideal) m ρ c main_v53 = mat1 (a4K m ρ c) := (s1_w2 (W6 (F := Ideal) m ρ c)).trans (congrArg (fun t => mat1 t) ((W6_of_ne (F := Ideal) m ρ c main_arg4 (by decide)).trans ((hostOps1_2_keeps (W4 (F := Ideal) m ρ c) main_arg4 (by decide)).trans ((hostOps1_1_keeps (W3 (F := Ideal) m ρ c) main_arg4 (by decide)).trans ((hostOps1_keeps (W2 (F := Ideal) m ρ c) main_arg4 (by decide)).trans ((W2_of_ne (F := Ideal) m ρ c main_arg4 (by decide)).trans (hostOps0_keeps (W0 (F := Ideal) m ρ c) main_arg4 (by decide))))))))

theorem e7_b2 : V7 (F := Ideal) m ρ c main_v57 = rowK (vec1 (a5K m ρ c)) := (s1_b2 (W6 (F := Ideal) m ρ c)).trans (congrArg (fun t => rowK (vec1 t)) ((W6_of_ne (F := Ideal) m ρ c main_arg5 (by decide)).trans ((hostOps1_2_keeps (W4 (F := Ideal) m ρ c) main_arg5 (by decide)).trans ((hostOps1_1_keeps (W3 (F := Ideal) m ρ c) main_arg5 (by decide)).trans ((hostOps1_keeps (W2 (F := Ideal) m ρ c) main_arg5 (by decide)).trans ((W2_of_ne (F := Ideal) m ρ c main_arg5 (by decide)).trans (hostOps0_keeps (W0 (F := Ideal) m ρ c) main_arg5 (by decide))))))))

/-- The second perceptron's output. -/
def z1 : Cert.Gin.Mat 50000 :=
  Cert.Gin.mlp (h1 m ρ c) (aggK (eiK m ρ c) (h1 m ρ c)) (mat1 (a2K m ρ c)) (rowK (vec1 (a3K m ρ c))) (mat1 (a4K m ρ c)) (rowK (vec1 (a5K m ρ c)))

theorem f8_z : (W8 (F := Ideal) m ρ c) (Proc.devRef .tc main_v58) = z1 m ρ c :=
  (W8_arr (F := Ideal) m ρ c 6).trans ((out2 (V7 (F := Ideal) m ρ) c).trans (by rw [e7_h, e7_agg, e7_w1, e7_b1, e7_w2, e7_b2]; rfl))

theorem f9_mean : (W9 (F := Ideal) m ρ c) (Proc.devRef .tc main_v61) = meanVecK (z1 m ρ c) := (s1_mean (W8 (F := Ideal) m ρ c)).trans (congrArg meanVecK (f8_z m ρ c))

theorem f9_ddof : (W9 (F := Ideal) m ρ c) (Proc.devRef .tc main_c_9) = (constantI S_ 32 0#32 : Int0) := s1_ddof (W8 (F := Ideal) m ρ c)

theorem f9_z : (W9 (F := Ideal) m ρ c) (Proc.devRef .tc main_v58) = z1 m ρ c := (hostOps3_keeps (W8 (F := Ideal) m ρ c) main_v58 (by decide)).trans (f8_z m ρ c)

theorem f10_var : (W10 (F := Ideal) m ρ c) (Proc.devRef .tc main_v62) = varVecK (z1 m ρ c) (constantI S_ 32 0#32) :=
  (s1_var (W9 (F := Ideal) m ρ c)).trans (by rw [f9_z, f9_ddof])

theorem f10_mean : (W10 (F := Ideal) m ρ c) (Proc.devRef .tc main_v61) = meanVecK (z1 m ρ c) := (hostOps3_1_keeps (W9 (F := Ideal) m ρ c) main_v61 (by decide)).trans (f9_mean m ρ c)

theorem e11_z : V11 (F := Ideal) m ρ c main_v58 = z1 m ρ c := ((hostOps3_2_keeps (W10 (F := Ideal) m ρ c) main_v58 (by decide)).trans ((hostOps3_1_keeps (W9 (F := Ideal) m ρ c) main_v58 (by decide)).trans (hostOps3_keeps (W8 (F := Ideal) m ρ c) main_v58 (by decide)))).trans (f8_z m ρ c)

theorem e11_mean : V11 (F := Ideal) m ρ c main_v67 = meanRowK (z1 m ρ c) := (s1_meanRow (W10 (F := Ideal) m ρ c)).trans (congrArg rowK (f10_mean m ρ c))

theorem e11_var : V11 (F := Ideal) m ρ c main_v68 = varRowK (z1 m ρ c) := (s1_varRow (W10 (F := Ideal) m ρ c)).trans (congrArg rowK (f10_var m ρ c))

theorem e11_gamma : V11 (F := Ideal) m ρ c main_v69 = rowK (vec1 (a6K m ρ c)) := (s1_gamma (W10 (F := Ideal) m ρ c)).trans (congrArg (fun t => rowK (vec1 t)) ((hostOps3_1_keeps (W9 (F := Ideal) m ρ c) main_arg6 (by decide)).trans ((hostOps3_keeps (W8 (F := Ideal) m ρ c) main_arg6 (by decide)).trans ((W8_of_ne (F := Ideal) m ρ c main_arg6 (by decide)).trans ((hostOps2_keeps (W6 (F := Ideal) m ρ c) main_arg6 (by decide)).trans ((W6_of_ne (F := Ideal) m ρ c main_arg6 (by decide)).trans ((hostOps1_2_keeps (W4 (F := Ideal) m ρ c) main_arg6 (by decide)).trans ((hostOps1_1_keeps (W3 (F := Ideal) m ρ c) main_arg6 (by decide)).trans ((hostOps1_keeps (W2 (F := Ideal) m ρ c) main_arg6 (by decide)).trans ((W2_of_ne (F := Ideal) m ρ c main_arg6 (by decide)).trans (hostOps0_keeps (W0 (F := Ideal) m ρ c) main_arg6 (by decide))))))))))))

theorem e11_beta : V11 (F := Ideal) m ρ c main_v70 = rowK (vec1 (a7K m ρ c)) := (s1_beta (W10 (F := Ideal) m ρ c)).trans (congrArg (fun t => rowK (vec1 t)) ((hostOps3_1_keeps (W9 (F := Ideal) m ρ c) main_arg7 (by decide)).trans ((hostOps3_keeps (W8 (F := Ideal) m ρ c) main_arg7 (by decide)).trans ((W8_of_ne (F := Ideal) m ρ c main_arg7 (by decide)).trans ((hostOps2_keeps (W6 (F := Ideal) m ρ c) main_arg7 (by decide)).trans ((W6_of_ne (F := Ideal) m ρ c main_arg7 (by decide)).trans ((hostOps1_2_keeps (W4 (F := Ideal) m ρ c) main_arg7 (by decide)).trans ((hostOps1_1_keeps (W3 (F := Ideal) m ρ c) main_arg7 (by decide)).trans ((hostOps1_keeps (W2 (F := Ideal) m ρ c) main_arg7 (by decide)).trans ((W2_of_ne (F := Ideal) m ρ c main_arg7 (by decide)).trans (hostOps0_keeps (W0 (F := Ideal) m ρ c) main_arg7 (by decide))))))))))))

/-- The second layer's output. -/
def h2 : Cert.Gin.Mat 50000 :=
  Cert.Gin.rect (Cert.Gin.affine (z1 m ρ c) (meanRowK (z1 m ρ c)) (varRowK (z1 m ρ c)) (rowK (vec1 (a6K m ρ c))) (rowK (vec1 (a7K m ρ c))))

theorem f12_h : (W12 (F := Ideal) m ρ c) (Proc.devRef .tc main_v71) = h2 m ρ c :=
  (W12_arr (F := Ideal) m ρ c 5).trans ((out3 (V11 (F := Ideal) m ρ) c).trans (by rw [e11_z, e11_mean, e11_var, e11_gamma, e11_beta]; rfl))

theorem g12_src : (W12 (F := Ideal) m ρ c) (Proc.devRef .tc main_v1) = srcK (eiK m ρ c) := ((W12_of_ne (F := Ideal) m ρ c main_v1 (by decide)).trans ((hostOps3_2_keeps (W10 (F := Ideal) m ρ c) main_v1 (by decide)).trans ((hostOps3_1_keeps (W9 (F := Ideal) m ρ c) main_v1 (by decide)).trans ((hostOps3_keeps (W8 (F := Ideal) m ρ c) main_v1 (by decide)).trans ((W8_of_ne (F := Ideal) m ρ c main_v1 (by decide)).trans ((hostOps2_keeps (W6 (F := Ideal) m ρ c) main_v1 (by decide)).trans ((W6_of_ne (F := Ideal) m ρ c main_v1 (by decide)).trans ((hostOps1_2_keeps (W4 (F := Ideal) m ρ c) main_v1 (by decide)).trans ((hostOps1_1_keeps (W3 (F := Ideal) m ρ c) main_v1 (by decide)).trans ((hostOps1_keeps (W2 (F := Ideal) m ρ c) main_v1 (by decide)).trans (W2_of_ne (F := Ideal) m ρ c main_v1 (by decide)))))))))))).trans (s0_src (W0 (F := Ideal) m ρ c))

theorem g12_dst : (W12 (F := Ideal) m ρ c) (Proc.devRef .tc main_v3) = dstK (eiK m ρ c) := ((W12_of_ne (F := Ideal) m ρ c main_v3 (by decide)).trans ((hostOps3_2_keeps (W10 (F := Ideal) m ρ c) main_v3 (by decide)).trans ((hostOps3_1_keeps (W9 (F := Ideal) m ρ c) main_v3 (by decide)).trans ((hostOps3_keeps (W8 (F := Ideal) m ρ c) main_v3 (by decide)).trans ((W8_of_ne (F := Ideal) m ρ c main_v3 (by decide)).trans ((hostOps2_keeps (W6 (F := Ideal) m ρ c) main_v3 (by decide)).trans ((W6_of_ne (F := Ideal) m ρ c main_v3 (by decide)).trans ((hostOps1_2_keeps (W4 (F := Ideal) m ρ c) main_v3 (by decide)).trans ((hostOps1_1_keeps (W3 (F := Ideal) m ρ c) main_v3 (by decide)).trans ((hostOps1_keeps (W2 (F := Ideal) m ρ c) main_v3 (by decide)).trans (W2_of_ne (F := Ideal) m ρ c main_v3 (by decide)))))))))))).trans (s0_dst (W0 (F := Ideal) m ρ c))

theorem e13_h : V13 (F := Ideal) m ρ c main_v71 = h2 m ρ c := (hostOps4_keeps (W12 (F := Ideal) m ρ c) main_v71 (by decide)).trans (f12_h m ρ c)

theorem e13_agg : V13 (F := Ideal) m ρ c main_v81 = aggK (eiK m ρ c) (h2 m ρ c) :=
  (s2_agg (W12 (F := Ideal) m ρ c)).trans (by rw [g12_src, g12_dst, f12_h]; rfl)

theorem e13_w1 : V13 (F := Ideal) m ρ c main_v83 = mat2 (a2K m ρ c) := (s2_w1 (W12 (F := Ideal) m ρ c)).trans (congrArg (fun t => mat2 t) ((W12_of_ne (F := Ideal) m ρ c main_arg2 (by decide)).trans ((hostOps3_2_keeps (W10 (F := Ideal) m ρ c) main_arg2 (by decide)).trans ((hostOps3_1_keeps (W9 (F := Ideal) m ρ c) main_arg2 (by decide)).trans ((hostOps3_keeps (W8 (F := Ideal) m ρ c) main_arg2 (by decide)).trans ((W8_of_ne (F := Ideal) m ρ c main_arg2 (by decide)).trans ((hostOps2_keeps (W6 (F := Ideal) m ρ c) main_arg2 (by decide)).trans ((W6_of_ne (F := Ideal) m ρ c main_arg2 (by decide)).trans ((hostOps1_2_keeps (W4 (F := Ideal) m ρ c) main_arg2 (by decide)).trans ((hostOps1_1_keeps (W3 (F := Ideal) m ρ c) main_arg2 (by decide)).trans ((hostOps1_keeps (W2 (F := Ideal) m ρ c) main_arg2 (by decide)).trans ((W2_of_ne (F := Ideal) m ρ c main_arg2 (by decide)).trans (hostOps0_keeps (W0 (F := Ideal) m ρ c) main_arg2 (by decide))))))))))))))

theorem e13_b1 : V13 (F := Ideal) m ρ c main_v90 = rowK (vec2 (a3K m ρ c)) := (s2_b1 (W12 (F := Ideal) m ρ c)).trans (congrArg (fun t => rowK (vec2 t)) ((W12_of_ne (F := Ideal) m ρ c main_arg3 (by decide)).trans ((hostOps3_2_keeps (W10 (F := Ideal) m ρ c) main_arg3 (by decide)).trans ((hostOps3_1_keeps (W9 (F := Ideal) m ρ c) main_arg3 (by decide)).trans ((hostOps3_keeps (W8 (F := Ideal) m ρ c) main_arg3 (by decide)).trans ((W8_of_ne (F := Ideal) m ρ c main_arg3 (by decide)).trans ((hostOps2_keeps (W6 (F := Ideal) m ρ c) main_arg3 (by decide)).trans ((W6_of_ne (F := Ideal) m ρ c main_arg3 (by decide)).trans ((hostOps1_2_keeps (W4 (F := Ideal) m ρ c) main_arg3 (by decide)).trans ((hostOps1_1_keeps (W3 (F := Ideal) m ρ c) main_arg3 (by decide)).trans ((hostOps1_keeps (W2 (F := Ideal) m ρ c) main_arg3 (by decide)).trans ((W2_of_ne (F := Ideal) m ρ c main_arg3 (by decide)).trans (hostOps0_keeps (W0 (F := Ideal) m ρ c) main_arg3 (by decide))))))))))))))

theorem e13_w2 : V13 (F := Ideal) m ρ c main_v87 = mat2 (a4K m ρ c) := (s2_w2 (W12 (F := Ideal) m ρ c)).trans (congrArg (fun t => mat2 t) ((W12_of_ne (F := Ideal) m ρ c main_arg4 (by decide)).trans ((hostOps3_2_keeps (W10 (F := Ideal) m ρ c) main_arg4 (by decide)).trans ((hostOps3_1_keeps (W9 (F := Ideal) m ρ c) main_arg4 (by decide)).trans ((hostOps3_keeps (W8 (F := Ideal) m ρ c) main_arg4 (by decide)).trans ((W8_of_ne (F := Ideal) m ρ c main_arg4 (by decide)).trans ((hostOps2_keeps (W6 (F := Ideal) m ρ c) main_arg4 (by decide)).trans ((W6_of_ne (F := Ideal) m ρ c main_arg4 (by decide)).trans ((hostOps1_2_keeps (W4 (F := Ideal) m ρ c) main_arg4 (by decide)).trans ((hostOps1_1_keeps (W3 (F := Ideal) m ρ c) main_arg4 (by decide)).trans ((hostOps1_keeps (W2 (F := Ideal) m ρ c) main_arg4 (by decide)).trans ((W2_of_ne (F := Ideal) m ρ c main_arg4 (by decide)).trans (hostOps0_keeps (W0 (F := Ideal) m ρ c) main_arg4 (by decide))))))))))))))

theorem e13_b2 : V13 (F := Ideal) m ρ c main_v91 = rowK (vec2 (a5K m ρ c)) := (s2_b2 (W12 (F := Ideal) m ρ c)).trans (congrArg (fun t => rowK (vec2 t)) ((W12_of_ne (F := Ideal) m ρ c main_arg5 (by decide)).trans ((hostOps3_2_keeps (W10 (F := Ideal) m ρ c) main_arg5 (by decide)).trans ((hostOps3_1_keeps (W9 (F := Ideal) m ρ c) main_arg5 (by decide)).trans ((hostOps3_keeps (W8 (F := Ideal) m ρ c) main_arg5 (by decide)).trans ((W8_of_ne (F := Ideal) m ρ c main_arg5 (by decide)).trans ((hostOps2_keeps (W6 (F := Ideal) m ρ c) main_arg5 (by decide)).trans ((W6_of_ne (F := Ideal) m ρ c main_arg5 (by decide)).trans ((hostOps1_2_keeps (W4 (F := Ideal) m ρ c) main_arg5 (by decide)).trans ((hostOps1_1_keeps (W3 (F := Ideal) m ρ c) main_arg5 (by decide)).trans ((hostOps1_keeps (W2 (F := Ideal) m ρ c) main_arg5 (by decide)).trans ((W2_of_ne (F := Ideal) m ρ c main_arg5 (by decide)).trans (hostOps0_keeps (W0 (F := Ideal) m ρ c) main_arg5 (by decide))))))))))))))

/-- The third perceptron's output. -/
def z2 : Cert.Gin.Mat 50000 :=
  Cert.Gin.mlp (h2 m ρ c) (aggK (eiK m ρ c) (h2 m ρ c)) (mat2 (a2K m ρ c)) (rowK (vec2 (a3K m ρ c))) (mat2 (a4K m ρ c)) (rowK (vec2 (a5K m ρ c)))

theorem f14_z : (W14 (F := Ideal) m ρ c) (Proc.devRef .tc main_v92) = z2 m ρ c :=
  (W14_arr (F := Ideal) m ρ c 6).trans ((out4 (V13 (F := Ideal) m ρ) c).trans (by rw [e13_h, e13_agg, e13_w1, e13_b1, e13_w2, e13_b2]; rfl))

theorem f15_mean : (W15 (F := Ideal) m ρ c) (Proc.devRef .tc main_v95) = meanVecK (z2 m ρ c) := (s2_mean (W14 (F := Ideal) m ρ c)).trans (congrArg meanVecK (f14_z m ρ c))

theorem f15_ddof : (W15 (F := Ideal) m ρ c) (Proc.devRef .tc main_c_15) = (constantI S_ 32 0#32 : Int0) := s2_ddof (W14 (F := Ideal) m ρ c)

theorem f15_z : (W15 (F := Ideal) m ρ c) (Proc.devRef .tc main_v92) = z2 m ρ c := (hostOps5_keeps (W14 (F := Ideal) m ρ c) main_v92 (by decide)).trans (f14_z m ρ c)

theorem f16_var : (W16 (F := Ideal) m ρ c) (Proc.devRef .tc main_v96) = varVecK (z2 m ρ c) (constantI S_ 32 0#32) :=
  (s2_var (W15 (F := Ideal) m ρ c)).trans (by rw [f15_z, f15_ddof])

theorem f16_mean : (W16 (F := Ideal) m ρ c) (Proc.devRef .tc main_v95) = meanVecK (z2 m ρ c) := (hostOps5_1_keeps (W15 (F := Ideal) m ρ c) main_v95 (by decide)).trans (f15_mean m ρ c)

theorem e17_z : V17 (F := Ideal) m ρ c main_v92 = z2 m ρ c := ((hostOps5_2_keeps (W16 (F := Ideal) m ρ c) main_v92 (by decide)).trans ((hostOps5_1_keeps (W15 (F := Ideal) m ρ c) main_v92 (by decide)).trans (hostOps5_keeps (W14 (F := Ideal) m ρ c) main_v92 (by decide)))).trans (f14_z m ρ c)

theorem e17_mean : V17 (F := Ideal) m ρ c main_v101 = meanRowK (z2 m ρ c) := (s2_meanRow (W16 (F := Ideal) m ρ c)).trans (congrArg rowK (f16_mean m ρ c))

theorem e17_var : V17 (F := Ideal) m ρ c main_v102 = varRowK (z2 m ρ c) := (s2_varRow (W16 (F := Ideal) m ρ c)).trans (congrArg rowK (f16_var m ρ c))

theorem e17_gamma : V17 (F := Ideal) m ρ c main_v103 = rowK (vec2 (a6K m ρ c)) := (s2_gamma (W16 (F := Ideal) m ρ c)).trans (congrArg (fun t => rowK (vec2 t)) ((hostOps5_1_keeps (W15 (F := Ideal) m ρ c) main_arg6 (by decide)).trans ((hostOps5_keeps (W14 (F := Ideal) m ρ c) main_arg6 (by decide)).trans ((W14_of_ne (F := Ideal) m ρ c main_arg6 (by decide)).trans ((hostOps4_keeps (W12 (F := Ideal) m ρ c) main_arg6 (by decide)).trans ((W12_of_ne (F := Ideal) m ρ c main_arg6 (by decide)).trans ((hostOps3_2_keeps (W10 (F := Ideal) m ρ c) main_arg6 (by decide)).trans ((hostOps3_1_keeps (W9 (F := Ideal) m ρ c) main_arg6 (by decide)).trans ((hostOps3_keeps (W8 (F := Ideal) m ρ c) main_arg6 (by decide)).trans ((W8_of_ne (F := Ideal) m ρ c main_arg6 (by decide)).trans ((hostOps2_keeps (W6 (F := Ideal) m ρ c) main_arg6 (by decide)).trans ((W6_of_ne (F := Ideal) m ρ c main_arg6 (by decide)).trans ((hostOps1_2_keeps (W4 (F := Ideal) m ρ c) main_arg6 (by decide)).trans ((hostOps1_1_keeps (W3 (F := Ideal) m ρ c) main_arg6 (by decide)).trans ((hostOps1_keeps (W2 (F := Ideal) m ρ c) main_arg6 (by decide)).trans ((W2_of_ne (F := Ideal) m ρ c main_arg6 (by decide)).trans (hostOps0_keeps (W0 (F := Ideal) m ρ c) main_arg6 (by decide))))))))))))))))))

theorem e17_beta : V17 (F := Ideal) m ρ c main_v104 = rowK (vec2 (a7K m ρ c)) := (s2_beta (W16 (F := Ideal) m ρ c)).trans (congrArg (fun t => rowK (vec2 t)) ((hostOps5_1_keeps (W15 (F := Ideal) m ρ c) main_arg7 (by decide)).trans ((hostOps5_keeps (W14 (F := Ideal) m ρ c) main_arg7 (by decide)).trans ((W14_of_ne (F := Ideal) m ρ c main_arg7 (by decide)).trans ((hostOps4_keeps (W12 (F := Ideal) m ρ c) main_arg7 (by decide)).trans ((W12_of_ne (F := Ideal) m ρ c main_arg7 (by decide)).trans ((hostOps3_2_keeps (W10 (F := Ideal) m ρ c) main_arg7 (by decide)).trans ((hostOps3_1_keeps (W9 (F := Ideal) m ρ c) main_arg7 (by decide)).trans ((hostOps3_keeps (W8 (F := Ideal) m ρ c) main_arg7 (by decide)).trans ((W8_of_ne (F := Ideal) m ρ c main_arg7 (by decide)).trans ((hostOps2_keeps (W6 (F := Ideal) m ρ c) main_arg7 (by decide)).trans ((W6_of_ne (F := Ideal) m ρ c main_arg7 (by decide)).trans ((hostOps1_2_keeps (W4 (F := Ideal) m ρ c) main_arg7 (by decide)).trans ((hostOps1_1_keeps (W3 (F := Ideal) m ρ c) main_arg7 (by decide)).trans ((hostOps1_keeps (W2 (F := Ideal) m ρ c) main_arg7 (by decide)).trans ((W2_of_ne (F := Ideal) m ρ c main_arg7 (by decide)).trans (hostOps0_keeps (W0 (F := Ideal) m ρ c) main_arg7 (by decide))))))))))))))))))

/-- The third layer's output. -/
def h3 : Cert.Gin.Mat 50000 :=
  Cert.Gin.affine (z2 m ρ c) (meanRowK (z2 m ρ c)) (varRowK (z2 m ρ c)) (rowK (vec2 (a6K m ρ c))) (rowK (vec2 (a7K m ρ c)))

theorem f18_h : (W18 (F := Ideal) m ρ c) (Proc.devRef .tc main_v105) = h3 m ρ c :=
  (W18_arr (F := Ideal) m ρ c 5).trans ((out5 (V17 (F := Ideal) m ρ) c).trans (by rw [e17_z, e17_mean, e17_var, e17_gamma, e17_beta]; rfl))

/-! ## The result as the network -/

/-- Layer k's parameters cut out of the stacked arrays. -/
def PK0 (W1 : Mats) (b1 : Vecs) (W2 : Mats) (b2 gamma beta : Vecs) : Cert.Gin.Params :=
  ⟨mat0 W1, rowK (vec0 b1), mat0 W2, rowK (vec0 b2), rowK (vec0 gamma), rowK (vec0 beta)⟩
def PK1 (W1 : Mats) (b1 : Vecs) (W2 : Mats) (b2 gamma beta : Vecs) : Cert.Gin.Params :=
  ⟨mat1 W1, rowK (vec1 b1), mat1 W2, rowK (vec1 b2), rowK (vec1 gamma), rowK (vec1 beta)⟩
def PK2 (W1 : Mats) (b1 : Vecs) (W2 : Mats) (b2 gamma beta : Vecs) : Cert.Gin.Params :=
  ⟨mat2 W1, rowK (vec2 b1), mat2 W2, rowK (vec2 b2), rowK (vec2 gamma), rowK (vec2 beta)⟩

/-- The first layer's output is the specification's layer, rectified. -/
theorem h1_layer : h1 m ρ c = Cert.Gin.rect (Cert.Gin.layer (aggK (eiK m ρ c)) meanRowK varRowK
    (PK0 (a2K m ρ c) (a3K m ρ c) (a4K m ρ c) (a5K m ρ c) (a6K m ρ c) (a7K m ρ c)) (xK m ρ c)) := rfl

theorem h2_layer : h2 m ρ c = Cert.Gin.rect (Cert.Gin.layer (aggK (eiK m ρ c)) meanRowK varRowK
    (PK1 (a2K m ρ c) (a3K m ρ c) (a4K m ρ c) (a5K m ρ c) (a6K m ρ c) (a7K m ρ c)) (h1 m ρ c)) := rfl

theorem h3_layer : h3 m ρ c = Cert.Gin.layer (aggK (eiK m ρ c)) meanRowK varRowK
    (PK2 (a2K m ρ c) (a3K m ρ c) (a4K m ρ c) (a5K m ρ c) (a6K m ρ c) (a7K m ρ c)) (h2 m ρ c) := rfl

/-- The result array after the run is the network of the argument arrays as launched. -/
theorem result_eq : W18 (F := Ideal) m ρ c (Proc.devRef .tc main_v105)
    = Cert.Gin.net (aggK (m ((c.tc : Thread nD τ).loc main_arg1))) meanRowK varRowK
        (PK0 (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)))
        (PK1 (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)))
        (PK2 (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)))
        (m ((c.tc : Thread nD τ).loc main_arg0)) := by
  rw [f18_h, h3_layer, h2_layer, h1_layer]
  rfl

end Cert.KernelIdeal.KVal

end
-- ==== Proof.RefOps.lean ====
/-
  The reference network's program as one straight line of array operations.

  The program is three layers; each layer is an aggregation over the edges, a two-layer perceptron, column statistics
  (a mean, and a variance computed by an outlined function that itself calls a select), a normalisation, and — after
  the first two layers — a rectifier (an outlined function).  Every call stands for the callee's operations at the
  call site, over the buffers of that call.  The list is cut into pieces, each inside one window of the printed program and inside one layer: a layer is its aggregation
  and perceptron, then its column statistics, then its normalisation (and rectifier).
-/
import proofs.«164872_j81217831568100_1_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The edge ends, and layer 0 through its perceptron. -/
abbrev opsA1 : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.nullary main_c (constantI S_ 32 0#32),
    StableHlo.unary main_c main_v4 (broadcastInDim S800000 ![] bcast_S_S800000 : (⟨S_, .i32⟩ : BufTy).Contents (Elt F) → (⟨S800000, .i32⟩ : BufTy).Contents (Elt F)),
    StableHlo.binary main_v1 main_v4 main_v5 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v6 (broadcastInDim S800000 ![] bcast_S_S800000 : (⟨S_, .i32⟩ : BufTy).Contents (Elt F) → (⟨S800000, .i32⟩ : BufTy).Contents (Elt F)),
    StableHlo.binary main_v1 main_v6 main_v7 (addi : (⟨S800000, .i32⟩ : BufTy).Contents (Elt F) → (⟨S800000, .i32⟩ : BufTy).Contents (Elt F) → (⟨S800000, .i32⟩ : BufTy).Contents (Elt F)),
    StableHlo.ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v8 main_v9 (broadcastInDim S800000x1 ![0] bcast_S800000_S800000x1_0 : (⟨S800000, .i32⟩ : BufTy).Contents (Elt F) → (⟨S800000x1, .i32⟩ : BufTy).Contents (Elt F)),
    StableHlo.binary main_arg0 main_v9 main_v10 ((fun x i => Host.gather gather_S50000x96_S800000x1_S800000x96_1_0_n_n_0_1_196 x i) : (⟨S50000x96, .f32⟩ : BufTy).Contents (Elt F) → (⟨S800000x1, .i32⟩ : BufTy).Contents (Elt F) → (⟨S800000x96, .f32⟩ : BufTy).Contents (Elt F)),
    StableHlo.nullary main_cst (constant S_ .f32 0x00000000#32),
    StableHlo.unary main_cst main_v11 (broadcastInDim S50000x96 ![] bcast_S_S50000x96 : (⟨S_, .f32⟩ : BufTy).Contents (Elt F) → (⟨S50000x96, .f32⟩ : BufTy).Contents (Elt F)),
    StableHlo.unary main_v3 main_v12 (broadcastInDim S800000x1 ![0] bcast_S800000_S800000x1_0 : (⟨S800000, .i32⟩ : BufTy).Contents (Elt F) → (⟨S800000x1, .i32⟩ : BufTy).Contents (Elt F)),
    StableHlo.ternary main_v11 main_v12 main_v10 main_v13 ((fun x i u => Host.scatterAdd scatter_S50000x96_S800000x1_S800000x96_1_0_0_1 x i u) : (⟨S50000x96, .f32⟩ : BufTy).Contents (Elt F) → (⟨S800000x1, .i32⟩ : BufTy).Contents (Elt F) → (⟨S800000x96, .f32⟩ : BufTy).Contents (Elt F) → (⟨S50000x96, .f32⟩ : BufTy).Contents (Elt F)),
    StableHlo.binary main_arg0 main_v13 main_v14 (addf : (⟨S50000x96, .f32⟩ : BufTy).Contents (Elt F) → (⟨S50000x96, .f32⟩ : BufTy).Contents (Elt F) → (⟨S50000x96, .f32⟩ : BufTy).Contents (Elt F)),
    StableHlo.unary main_arg2 main_v15 ((extractStridedSlice S1x96x96 ![0, 0, 0] · slices_S3x96x96_S1x96x96_0_0_0) : (⟨S3x96x96, .f32⟩ : BufTy).Contents (Elt F) → (⟨S1x96x96, .f32⟩ : BufTy).Contents (Elt F)),
    StableHlo.reshape main_v15 main_v16 rfl shapeCasts_S1x96x96_S96x96,
    StableHlo.binary main_v14 main_v16 main_v17 ((fun l r => Host.dotGeneral dot_S50000x96_S96x96_S50000x96_1_0_0_1_n_n none l r) : (⟨S50000x96, .f32⟩ : BufTy).Contents (Elt F) → (⟨S96x96, .f32⟩ : BufTy).Contents (Elt F) → (⟨S50000x96, .f32⟩ : BufTy).Contents (Elt F)),
    StableHlo.unary main_arg3 main_v18 ((extractStridedSlice S1x96 ![0, 0] · slices_S3x96_S1x96_0_0) : (⟨S3x96, .f32⟩ : BufTy).Contents (Elt F) → (⟨S1x96, .f32⟩ : BufTy).Contents (Elt F)),
    StableHlo.reshape main_v18 main_v19 rfl shapeCasts_S1x96_S96,
    StableHlo.unary main_v19 main_v20 (broadcastInDim S1x96 ![1] bcast_S96_S1x96_1 : (⟨S96, .f32⟩ : BufTy).Contents (Elt F) → (⟨S1x96, .f32⟩ : BufTy).Contents (Elt F)),
    StableHlo.unary main_v20 main_v21 (broadcastInDim S50000x96 ![0, 1] bcast_S1x96_S50000x96_0_1 : (⟨S1x96, .f32⟩ : BufTy).Contents (Elt F) → (⟨S50000x96, .f32⟩ : BufTy).Contents (Elt F)),
    StableHlo.binary main_v17 main_v21 main_v22 (addf : (⟨S50000x96, .f32⟩ : BufTy).Contents (Elt F) → (⟨S50000x96, .f32⟩ : BufTy).Contents (Elt F) → (⟨S50000x96, .f32⟩ : BufTy).Contents (Elt F)),
    StableHlo.TRef.nullary main_call0.cst (constant S_ .f32 0x00000000#32),
    StableHlo.TRef.unary main_call0.cst main_call0.v0 (broadcastInDim S50000x96 ![] bcast_S_S50000x96),
    StableHlo.TRef.binary (.of main_v22) main_call0.v0 main_call0.v1 maximumf,
    StableHlo.unary main_arg4 main_v24 ((extractStridedSlice S1x96x96 ![0, 0, 0] · slices_S3x96x96_S1x96x96_0_0_0) : (⟨S3x96x96, .f32⟩ : BufTy).Contents (Elt F) → (⟨S1x96x96, .f32⟩ : BufTy).Contents (Elt F)),
    StableHlo.reshape main_v24 main_v25 rfl shapeCasts_S1x96x96_S96x96,
    StableHlo.binary main_v23 main_v25 main_v26 ((fun l r => Host.dotGeneral dot_S50000x96_S96x96_S50000x96_1_0_0_1_n_n none l r) : (⟨S50000x96, .f32⟩ : BufTy).Contents (Elt F) → (⟨S96x96, .f32⟩ : BufTy).Contents (Elt F) → (⟨S50000x96, .f32⟩ : BufTy).Contents (Elt F)),
    StableHlo.unary main_arg5 main_v27 ((extractStridedSlice S1x96 ![0, 0] · slices_S3x96_S1x96_0_0) : (⟨S3x96, .f32⟩ : BufTy).Contents (Elt F) → (⟨S1x96, .f32⟩ : BufTy).Contents (Elt F)),
    StableHlo.reshape main_v27 main_v28 rfl shapeCasts_S1x96_S96,
    StableHlo.unary main_v28 main_v29 (broadcastInDim S1x96 ![1] bcast_S96_S1x96_1 : (⟨S96, .f32⟩ : BufTy).Contents (Elt F) → (⟨S1x96, .f32⟩ : BufTy).Contents (Elt F)),
    StableHlo.unary main_v29 main_v30 (broadcastInDim S50000x96 ![0, 1] bcast_S1x96_S50000x96_0_1 : (⟨S1x96, .f32⟩ : BufTy).Contents (Elt F) → (⟨S50000x96, .f32⟩ : BufTy).Contents (Elt F)),
    StableHlo.binary main_v26 main_v30 main_v31 (addf : (⟨S50000x96, .f32⟩ : BufTy).Contents (Elt F) → (⟨S50000x96, .f32⟩ : BufTy).Contents (Elt F) → (⟨S50000x96, .f32⟩ : BufTy).Contents (Elt F)) ]

/-- Layer 0's column statistics: the mean, then the variance with its select. -/
abbrev opsA2 : List (HloOp τ sig (Elt F)) :=
  [ StableHlo.nullary main_cst_1 (constant S_ .f32 0x00000000#32),
    StableHlo.binary main_v31 main_cst_1 main_v32 ((fun x v => Host.reduceAdd x v reducesTo_S50000x96_S96_d0 h_S_) : (⟨S50000x96, .f32⟩ : BufTy).Contents (Elt F) → (⟨S_, .f32⟩ : BufTy).Contents (Elt F) → (⟨S96, .f32⟩ : BufTy).Contents (Elt F)),
    StableHlo.nullary main_cst_2 (constant S_ .f32 0x47435000#32),
    StableHlo.unary main_cst_2 main_v33 (broadcastInDim S96 ![] bcast_S_S96 : (⟨S_, .f32⟩ : BufTy).Contents (Elt F) → (⟨S96, .f32⟩ : BufTy).Contents (Elt F)),
    StableHlo.binary main_v32 main_v33 main_v34 (Host.divf : (⟨S96, .f32⟩ : BufTy).Contents (Elt F) → (⟨S96, .f32⟩ : BufTy).Contents (Elt F) → (⟨S96, .f32⟩ : BufTy).Contents (Elt F)),
    StableHlo.nullary main_c_3 (constantI S_ 32 0#32),
    StableHlo.TRef.nullary main_call1.cst (constant S_ .f32 0x00000000#32),
    StableHlo.TRef.binary (.of main_v31) main_call1.cst main_call1.v0 (fun x v => Host.reduceAdd x v reducesTo_S50000x96_S96_d0 h_S_),
    StableHlo.TRef.unary main_call1.v0 main_call1.v1 (broadcastInDim S1x96 ![1] bcast_S96_S1x96_1),
    StableHlo.TRef.nullary main_call1.cst_0 (constant S_ .f32 0x47435000#32),
    StableHlo.TRef.unary main_call1.cst_0 main_call1.v2 (broadcastInDim S1x96 ![] bcast_S_S1x96),
    StableHlo.TRef.binary main_call1.v1 main_call1.v2 main_call1.v3 Host.divf,
    StableHlo.TRef.unary main_call1.v3 main_call1.v4 (broadcastInDim S50000x96 ![0, 1] bcast_S1x96_S50000x96_0_1),
    StableHlo.TRef.binary (.of main_v31) main_call1.v4 main_call1.v5 subf,
    StableHlo.TRef.binary main_call1.v5 main_call1.v5 main_call1.v6 mulf,
    StableHlo.TRef.unary (.of main_c_3) main_call1.v7 (sitofp .f32),
    StableHlo.TRef.nullary main_call1.cst_1 (constant S_ .f32 0x47435000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S50000x96_S96_d0 h_S_),
    StableHlo.TRef.unary main_call1.v8 main_call1.v10 (broadcastInDim S96 ![] bcast_S_S96),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S96 ![] bcast_S_S96),
    StableHlo.TRef.ternary main_call1.v12 main_call1.v11 main_call1.call0.v1 main_call1.call0.v2 (fun p a b => select (broadcastInDim S96 ![] bcast_S_S96 p) a b) ]

/-- Layer 0's normalisation up to the last broadcast of its offset. -/
abbrev opsA3 : List (HloOp τ sig (Elt F)) :=
  [ StableHlo.unary main_v34 main_v36 (broadcastInDim S1x96 ![1] bcast_S96_S1x96_1 : (⟨S96, .f32⟩ : BufTy).Contents (Elt F) → (⟨S1x96, .f32⟩ : BufTy).Contents (Elt F)),
    StableHlo.unary main_v36 main_v37 (broadcastInDim S50000x96 ![0, 1] bcast_S1x96_S50000x96_0_1 : (⟨S1x96, .f32⟩ : BufTy).Contents (Elt F) → (⟨S50000x96, .f32⟩ : BufTy).Contents (Elt F)),
    StableHlo.binary main_v31 main_v37 main_v38 (subf : (⟨S50000x96, .f32⟩ : BufTy).Contents (Elt F) → (⟨S50000x96, .f32⟩ : BufTy).Contents (Elt F) → (⟨S50000x96, .f32⟩ : BufTy).Contents (Elt F)),
    StableHlo.nullary main_cst_4 (constant S_ .f32 0x3727C5AC#32),
    StableHlo.unary main_cst_4 main_v39 (broadcastInDim S96 ![] bcast_S_S96 : (⟨S_, .f32⟩ : BufTy).Contents (Elt F) → (⟨S96, .f32⟩ : BufTy).Contents (Elt F)),
    StableHlo.binary main_v35 main_v39 main_v40 (addf : (⟨S96, .f32⟩ : BufTy).Contents (Elt F) → (⟨S96, .f32⟩ : BufTy).Contents (Elt F) → (⟨S96, .f32⟩ : BufTy).Contents (Elt F)),
    StableHlo.unary main_v40 main_v41 (Host.rsqrt : (⟨S96, .f32⟩ : BufTy).Contents (Elt F) → (⟨S96, .f32⟩ : BufTy).Contents (Elt F)),
    StableHlo.unary main_v41 main_v42 (broadcastInDim S1x96 ![1] bcast_S96_S1x96_1 : (⟨S96, .f32⟩ : BufTy).Contents (Elt F) → (⟨S1x96, .f32⟩ : BufTy).Contents (Elt F)),
    StableHlo.unary main_v42 main_v43 (broadcastInDim S50000x96 ![0, 1] bcast_S1x96_S50000x96_0_1 : (⟨S1x96, .f32⟩ : BufTy).Contents (Elt F) → (⟨S50000x96, .f32⟩ : BufTy).Contents (Elt F)),
    StableHlo.binary main_v38 main_v43 main_v44 (mulf : (⟨S50000x96, .f32⟩ : BufTy).Contents (Elt F) → (⟨S50000x96, .f32⟩ : BufTy).Contents (Elt F) → (⟨S50000x96, .f32⟩ : BufTy).Contents (Elt F)),
    StableHlo.unary main_arg6 main_v45 ((extractStridedSlice S1x96 ![0, 0] · slices_S3x96_S1x96_0_0) : (⟨S3x96, .f32⟩ : BufTy).Contents (Elt F) → (⟨S1x96, .f32⟩ : BufTy).Contents (Elt F)),
    StableHlo.reshape main_v45 main_v46 rfl shapeCasts_S1x96_S96,
    StableHlo.unary main_v46 main_v47 (broadcastInDim S1x96 ![1] bcast_S96_S1x96_1 : (⟨S96, .f32⟩ : BufTy).Contents (Elt F) → (⟨S1x96, .f32⟩ : BufTy).Contents (Elt F)),
    StableHlo.unary main_v47 main_v48 (broadcastInDim S50000x96 ![0, 1] bcast_S1x96_S50000x96_0_1 : (⟨S1x96, .f32⟩ : BufTy).Contents (Elt F) → (⟨S50000x96, .f32⟩ : BufTy).Contents (Elt F)),
    StableHlo.binary main_v44 main_v48 main_v49 (mulf : (⟨S50000x96, .f32⟩ : BufTy).Contents (Elt F) → (⟨S50000x96, .f32⟩ : BufTy).Contents (Elt F) → (⟨S50000x96, .f32⟩ : BufTy).Contents (Elt F)),
    StableHlo.unary main_arg7 main_v50 ((extractStridedSlice S1x96 ![0, 0] · slices_S3x96_S1x96_0_0) : (⟨S3x96, .f32⟩ : BufTy).Contents (Elt F) → (⟨S1x96, .f32⟩ : BufTy).Contents (Elt F)),
    StableHlo.reshape main_v50 main_v51 rfl shapeCasts_S1x96_S96,
    StableHlo.unary main_v51 main_v52 (broadcastInDim S1x96 ![1] bcast_S96_S1x96_1 : (⟨S96, .f32⟩ : BufTy).Contents (Elt F) → (⟨S1x96, .f32⟩ : BufTy).Contents (Elt F)) ]

/-- The end of layer 0: the offset added, then the rectifier. -/
abbrev opsB1 : List (HloOp τ sig (Elt F)) :=
  [ StableHlo.unary main_v52 main_v53 (broadcastInDim S50000x96 ![0, 1] bcast_S1x96_S50000x96_0_1 : (⟨S1x96, .f32⟩ : BufTy).Contents (Elt F) → (⟨S50000x96, .f32⟩ : BufTy).Contents (Elt F)),
    StableHlo.binary main_v49 main_v53 main_v54 (addf : (⟨S50000x96, .f32⟩ : BufTy).Contents (Elt F) → (⟨S50000x96, .f32⟩ : BufTy).Contents (Elt F) → (⟨S50000x96, .f32⟩ : BufTy).Contents (Elt F)),
    StableHlo.TRef.nullary main_call2.cst (constant S_ .f32 0x00000000#32),
    StableHlo.TRef.unary main_call2.cst main_call2.v0 (broadcastInDim S50000x96 ![] bcast_S_S50000x96),
    StableHlo.TRef.binary (.of main_v54) main_call2.v0 main_call2.v1 maximumf ]

/-- Layer 1 through its perceptron. -/
abbrev opsB2a : List (HloOp τ sig (Elt F)) :=
  [ StableHlo.nullary main_c_5 (constantI S_ 32 0#32),
    StableHlo.unary main_c_5 main_v56 (broadcastInDim S800000 ![] bcast_S_S800000 : (⟨S_, .i32⟩ : BufTy).Contents (Elt F) → (⟨S800000, .i32⟩ : BufTy).Contents (Elt F)),
    StableHlo.binary main_v1 main_v56 main_v57 (cmpi .slt : (⟨S800000, .i32⟩ : BufTy).Contents (Elt F) → (⟨S800000, .i32⟩ : BufTy).Contents (Elt F) → (⟨S800000, .i1⟩ : BufTy).Contents (Elt F)),
    StableHlo.nullary main_c_6 (constantI S_ 32 50000#32),
    StableHlo.unary main_c_6 main_v58 (broadcastInDim S800000 ![] bcast_S_S800000 : (⟨S_, .i32⟩ : BufTy).Contents (Elt F) → (⟨S800000, .i32⟩ : BufTy).Contents (Elt F)),
    StableHlo.binary main_v1 main_v58 main_v59 (addi : (⟨S800000, .i32⟩ : BufTy).Contents (Elt F) → (⟨S800000, .i32⟩ : BufTy).Contents (Elt F) → (⟨S800000, .i32⟩ : BufTy).Contents (Elt F)),
    StableHlo.ternary main_v57 main_v59 main_v1 main_v60 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v60 main_v61 (broadcastInDim S800000x1 ![0] bcast_S800000_S800000x1_0 : (⟨S800000, .i32⟩ : BufTy).Contents (Elt F) → (⟨S800000x1, .i32⟩ : BufTy).Contents (Elt F)),
    StableHlo.binary main_v55 main_v61 main_v62 ((fun x i => Host.gather gather_S50000x96_S800000x1_S800000x96_1_0_n_n_0_1_196 x i) : (⟨S50000x96, .f32⟩ : BufTy).Contents (Elt F) → (⟨S800000x1, .i32⟩ : BufTy).Contents (Elt F) → (⟨S800000x96, .f32⟩ : BufTy).Contents (Elt F)),
    StableHlo.nullary main_cst_7 (constant S_ .f32 0x00000000#32),
    StableHlo.unary main_cst_7 main_v63 (broadcastInDim S50000x96 ![] bcast_S_S50000x96 : (⟨S_, .f32⟩ : BufTy).Contents (Elt F) → (⟨S50000x96, .f32⟩ : BufTy).Contents (Elt F)),
    StableHlo.unary main_v3 main_v64 (broadcastInDim S800000x1 ![0] bcast_S800000_S800000x1_0 : (⟨S800000, .i32⟩ : BufTy).Contents (Elt F) → (⟨S800000x1, .i32⟩ : BufTy).Contents (Elt F)),
    StableHlo.ternary main_v63 main_v64 main_v62 main_v65 ((fun x i u => Host.scatterAdd scatter_S50000x96_S800000x1_S800000x96_1_0_0_1 x i u) : (⟨S50000x96, .f32⟩ : BufTy).Contents (Elt F) → (⟨S800000x1, .i32⟩ : BufTy).Contents (Elt F) → (⟨S800000x96, .f32⟩ : BufTy).Contents (Elt F) → (⟨S50000x96, .f32⟩ : BufTy).Contents (Elt F)),
    StableHlo.binary main_v55 main_v65 main_v66 (addf : (⟨S50000x96, .f32⟩ : BufTy).Contents (Elt F) → (⟨S50000x96, .f32⟩ : BufTy).Contents (Elt F) → (⟨S50000x96, .f32⟩ : BufTy).Contents (Elt F)),
    StableHlo.unary main_arg2 main_v67 ((extractStridedSlice S1x96x96 ![1, 0, 0] · slices_S3x96x96_S1x96x96_1_0_0) : (⟨S3x96x96, .f32⟩ : BufTy).Contents (Elt F) → (⟨S1x96x96, .f32⟩ : BufTy).Contents (Elt F)),
    StableHlo.reshape main_v67 main_v68 rfl shapeCasts_S1x96x96_S96x96,
    StableHlo.binary main_v66 main_v68 main_v69 ((fun l r => Host.dotGeneral dot_S50000x96_S96x96_S50000x96_1_0_0_1_n_n none l r) : (⟨S50000x96, .f32⟩ : BufTy).Contents (Elt F) → (⟨S96x96, .f32⟩ : BufTy).Contents (Elt F) → (⟨S50000x96, .f32⟩ : BufTy).Contents (Elt F)),
    StableHlo.unary main_arg3 main_v70 ((extractStridedSlice S1x96 ![1, 0] · slices_S3x96_S1x96_1_0) : (⟨S3x96, .f32⟩ : BufTy).Contents (Elt F) → (⟨S1x96, .f32⟩ : BufTy).Contents (Elt F)),
    StableHlo.reshape main_v70 main_v71 rfl shapeCasts_S1x96_S96,
    StableHlo.unary main_v71 main_v72 (broadcastInDim S1x96 ![1] bcast_S96_S1x96_1 : (⟨S96, .f32⟩ : BufTy).Contents (Elt F) → (⟨S1x96, .f32⟩ : BufTy).Contents (Elt F)),
    StableHlo.unary main_v72 main_v73 (broadcastInDim S50000x96 ![0, 1] bcast_S1x96_S50000x96_0_1 : (⟨S1x96, .f32⟩ : BufTy).Contents (Elt F) → (⟨S50000x96, .f32⟩ : BufTy).Contents (Elt F)),
    StableHlo.binary main_v69 main_v73 main_v74 (addf : (⟨S50000x96, .f32⟩ : BufTy).Contents (Elt F) → (⟨S50000x96, .f32⟩ : BufTy).Contents (Elt F) → (⟨S50000x96, .f32⟩ : BufTy).Contents (Elt F)),
    StableHlo.TRef.nullary main_call3.cst (constant S_ .f32 0x00000000#32),
    StableHlo.TRef.unary main_call3.cst main_call3.v0 (broadcastInDim S50000x96 ![] bcast_S_S50000x96),
    StableHlo.TRef.binary (.of main_v74) main_call3.v0 main_call3.v1 maximumf,
    StableHlo.unary main_arg4 main_v76 ((extractStridedSlice S1x96x96 ![1, 0, 0] · slices_S3x96x96_S1x96x96_1_0_0) : (⟨S3x96x96, .f32⟩ : BufTy).Contents (Elt F) → (⟨S1x96x96, .f32⟩ : BufTy).Contents (Elt F)),
    StableHlo.reshape main_v76 main_v77 rfl shapeCasts_S1x96x96_S96x96,
    StableHlo.binary main_v75 main_v77 main_v78 ((fun l r => Host.dotGeneral dot_S50000x96_S96x96_S50000x96_1_0_0_1_n_n none l r) : (⟨S50000x96, .f32⟩ : BufTy).Contents (Elt F) → (⟨S96x96, .f32⟩ : BufTy).Contents (Elt F) → (⟨S50000x96, .f32⟩ : BufTy).Contents (Elt F)),
    StableHlo.unary main_arg5 main_v79 ((extractStridedSlice S1x96 ![1, 0] · slices_S3x96_S1x96_1_0) : (⟨S3x96, .f32⟩ : BufTy).Contents (Elt F) → (⟨S1x96, .f32⟩ : BufTy).Contents (Elt F)),
    StableHlo.reshape main_v79 main_v80 rfl shapeCasts_S1x96_S96,
    StableHlo.unary main_v80 main_v81 (broadcastInDim S1x96 ![1] bcast_S96_S1x96_1 : (⟨S96, .f32⟩ : BufTy).Contents (Elt F) → (⟨S1x96, .f32⟩ : BufTy).Contents (Elt F)),
    StableHlo.unary main_v81 main_v82 (broadcastInDim S50000x96 ![0, 1] bcast_S1x96_S50000x96_0_1 : (⟨S1x96, .f32⟩ : BufTy).Contents (Elt F) → (⟨S50000x96, .f32⟩ : BufTy).Contents (Elt F)),
    StableHlo.binary main_v78 main_v82 main_v83 (addf : (⟨S50000x96, .f32⟩ : BufTy).Contents (Elt F) → (⟨S50000x96, .f32⟩ : BufTy).Contents (Elt F) → (⟨S50000x96, .f32⟩ : BufTy).Contents (Elt F)) ]

/-- Layer 1's column statistics. -/
abbrev opsB2b : List (HloOp τ sig (Elt F)) :=
  [ StableHlo.nullary main_cst_8 (constant S_ .f32 0x00000000#32),
    StableHlo.binary main_v83 main_cst_8 main_v84 ((fun x v => Host.reduceAdd x v reducesTo_S50000x96_S96_d0 h_S_) : (⟨S50000x96, .f32⟩ : BufTy).Contents (Elt F) → (⟨S_, .f32⟩ : BufTy).Contents (Elt F) → (⟨S96, .f32⟩ : BufTy).Contents (Elt F)),
    StableHlo.nullary main_cst_9 (constant S_ .f32 0x47435000#32),
    StableHlo.unary main_cst_9 main_v85 (broadcastInDim S96 ![] bcast_S_S96 : (⟨S_, .f32⟩ : BufTy).Contents (Elt F) → (⟨S96, .f32⟩ : BufTy).Contents (Elt F)),
    StableHlo.binary main_v84 main_v85 main_v86 (Host.divf : (⟨S96, .f32⟩ : BufTy).Contents (Elt F) → (⟨S96, .f32⟩ : BufTy).Contents (Elt F) → (⟨S96, .f32⟩ : BufTy).Contents (Elt F)),
    StableHlo.nullary main_c_10 (constantI S_ 32 0#32),
    StableHlo.TRef.nullary main_call4.cst (constant S_ .f32 0x00000000#32),
    StableHlo.TRef.binary (.of main_v83) main_call4.cst main_call4.v0 (fun x v => Host.reduceAdd x v reducesTo_S50000x96_S96_d0 h_S_),
    StableHlo.TRef.unary main_call4.v0 main_call4.v1 (broadcastInDim S1x96 ![1] bcast_S96_S1x96_1),
    StableHlo.TRef.nullary main_call4.cst_0 (constant S_ .f32 0x47435000#32),
    StableHlo.TRef.unary main_call4.cst_0 main_call4.v2 (broadcastInDim S1x96 ![] bcast_S_S1x96),
    StableHlo.TRef.binary main_call4.v1 main_call4.v2 main_call4.v3 Host.divf,
    StableHlo.TRef.unary main_call4.v3 main_call4.v4 (broadcastInDim S50000x96 ![0, 1] bcast_S1x96_S50000x96_0_1),
    StableHlo.TRef.binary (.of main_v83) main_call4.v4 main_call4.v5 subf,
    StableHlo.TRef.binary main_call4.v5 main_call4.v5 main_call4.v6 mulf,
    StableHlo.TRef.unary (.of main_c_10) main_call4.v7 (sitofp .f32),
    StableHlo.TRef.nullary main_call4.cst_1 (constant S_ .f32 0x47435000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S50000x96_S96_d0 h_S_),
    StableHlo.TRef.unary main_call4.v8 main_call4.v10 (broadcastInDim S96 ![] bcast_S_S96),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S96 ![] bcast_S_S96),
    StableHlo.TRef.ternary main_call4.v12 main_call4.v11 main_call4.call0.v1 main_call4.call0.v2 (fun p a b => select (broadcastInDim S96 ![] bcast_S_S96 p) a b) ]

/-- Layer 1's normalisation up to the last broadcast of its offset. -/
abbrev opsB2c : List (HloOp τ sig (Elt F)) :=
  [ StableHlo.unary main_v86 main_v88 (broadcastInDim S1x96 ![1] bcast_S96_S1x96_1 : (⟨S96, .f32⟩ : BufTy).Contents (Elt F) → (⟨S1x96, .f32⟩ : BufTy).Contents (Elt F)),
    StableHlo.unary main_v88 main_v89 (broadcastInDim S50000x96 ![0, 1] bcast_S1x96_S50000x96_0_1 : (⟨S1x96, .f32⟩ : BufTy).Contents (Elt F) → (⟨S50000x96, .f32⟩ : BufTy).Contents (Elt F)),
    StableHlo.binary main_v83 main_v89 main_v90 (subf : (⟨S50000x96, .f32⟩ : BufTy).Contents (Elt F) → (⟨S50000x96, .f32⟩ : BufTy).Contents (Elt F) → (⟨S50000x96, .f32⟩ : BufTy).Contents (Elt F)),
    StableHlo.nullary main_cst_11 (constant S_ .f32 0x3727C5AC#32),
    StableHlo.unary main_cst_11 main_v91 (broadcastInDim S96 ![] bcast_S_S96 : (⟨S_, .f32⟩ : BufTy).Contents (Elt F) → (⟨S96, .f32⟩ : BufTy).Contents (Elt F)),
    StableHlo.binary main_v87 main_v91 main_v92 (addf : (⟨S96, .f32⟩ : BufTy).Contents (Elt F) → (⟨S96, .f32⟩ : BufTy).Contents (Elt F) → (⟨S96, .f32⟩ : BufTy).Contents (Elt F)),
    StableHlo.unary main_v92 main_v93 (Host.rsqrt : (⟨S96, .f32⟩ : BufTy).Contents (Elt F) → (⟨S96, .f32⟩ : BufTy).Contents (Elt F)),
    StableHlo.unary main_v93 main_v94 (broadcastInDim S1x96 ![1] bcast_S96_S1x96_1 : (⟨S96, .f32⟩ : BufTy).Contents (Elt F) → (⟨S1x96, .f32⟩ : BufTy).Contents (Elt F)),
    StableHlo.unary main_v94 main_v95 (broadcastInDim S50000x96 ![0, 1] bcast_S1x96_S50000x96_0_1 : (⟨S1x96, .f32⟩ : BufTy).Contents (Elt F) → (⟨S50000x96, .f32⟩ : BufTy).Contents (Elt F)),
    StableHlo.binary main_v90 main_v95 main_v96 (mulf : (⟨S50000x96, .f32⟩ : BufTy).Contents (Elt F) → (⟨S50000x96, .f32⟩ : BufTy).Contents (Elt F) → (⟨S50000x96, .f32⟩ : BufTy).Contents (Elt F)),
    StableHlo.unary main_arg6 main_v97 ((extractStridedSlice S1x96 ![1, 0] · slices_S3x96_S1x96_1_0) : (⟨S3x96, .f32⟩ : BufTy).Contents (Elt F) → (⟨S1x96, .f32⟩ : BufTy).Contents (Elt F)),
    StableHlo.reshape main_v97 main_v98 rfl shapeCasts_S1x96_S96,
    StableHlo.unary main_v98 main_v99 (broadcastInDim S1x96 ![1] bcast_S96_S1x96_1 : (⟨S96, .f32⟩ : BufTy).Contents (Elt F) → (⟨S1x96, .f32⟩ : BufTy).Contents (Elt F)),
    StableHlo.unary main_v99 main_v100 (broadcastInDim S50000x96 ![0, 1] bcast_S1x96_S50000x96_0_1 : (⟨S1x96, .f32⟩ : BufTy).Contents (Elt F) → (⟨S50000x96, .f32⟩ : BufTy).Contents (Elt F)),
    StableHlo.binary main_v96 main_v100 main_v101 (mulf : (⟨S50000x96, .f32⟩ : BufTy).Contents (Elt F) → (⟨S50000x96, .f32⟩ : BufTy).Contents (Elt F) → (⟨S50000x96, .f32⟩ : BufTy).Contents (Elt F)),
    StableHlo.unary main_arg7 main_v102 ((extractStridedSlice S1x96 ![1, 0] · slices_S3x96_S1x96_1_0) : (⟨S3x96, .f32⟩ : BufTy).Contents (Elt F) → (⟨S1x96, .f32⟩ : BufTy).Contents (Elt F)),
    StableHlo.reshape main_v102 main_v103 rfl shapeCasts_S1x96_S96,
    StableHlo.unary main_v103 main_v104 (broadcastInDim S1x96 ![1] bcast_S96_S1x96_1 : (⟨S96, .f32⟩ : BufTy).Contents (Elt F) → (⟨S1x96, .f32⟩ : BufTy).Contents (Elt F)),
    StableHlo.unary main_v104 main_v105 (broadcastInDim S50000x96 ![0, 1] bcast_S1x96_S50000x96_0_1 : (⟨S1x96, .f32⟩ : BufTy).Contents (Elt F) → (⟨S50000x96, .f32⟩ : BufTy).Contents (Elt F)) ]

/-- The end of layer 1: the offset added, then the rectifier. -/
abbrev opsC1 : List (HloOp τ sig (Elt F)) :=
  [ StableHlo.binary main_v101 main_v105 main_v106 (addf : (⟨S50000x96, .f32⟩ : BufTy).Contents (Elt F) → (⟨S50000x96, .f32⟩ : BufTy).Contents (Elt F) → (⟨S50000x96, .f32⟩ : BufTy).Contents (Elt F)),
    StableHlo.TRef.nullary main_call5.cst (constant S_ .f32 0x00000000#32),
    StableHlo.TRef.unary main_call5.cst main_call5.v0 (broadcastInDim S50000x96 ![] bcast_S_S50000x96),
    StableHlo.TRef.binary (.of main_v106) main_call5.v0 main_call5.v1 maximumf ]

/-- Layer 2 through its perceptron. -/
abbrev opsC2a : List (HloOp τ sig (Elt F)) :=
  [ StableHlo.nullary main_c_12 (constantI S_ 32 0#32),
    StableHlo.unary main_c_12 main_v108 (broadcastInDim S800000 ![] bcast_S_S800000 : (⟨S_, .i32⟩ : BufTy).Contents (Elt F) → (⟨S800000, .i32⟩ : BufTy).Contents (Elt F)),
    StableHlo.binary main_v1 main_v108 main_v109 (cmpi .slt : (⟨S800000, .i32⟩ : BufTy).Contents (Elt F) → (⟨S800000, .i32⟩ : BufTy).Contents (Elt F) → (⟨S800000, .i1⟩ : BufTy).Contents (Elt F)),
    StableHlo.nullary main_c_13 (constantI S_ 32 50000#32),
    StableHlo.unary main_c_13 main_v110 (broadcastInDim S800000 ![] bcast_S_S800000 : (⟨S_, .i32⟩ : BufTy).Contents (Elt F) → (⟨S800000, .i32⟩ : BufTy).Contents (Elt F)),
    StableHlo.binary main_v1 main_v110 main_v111 (addi : (⟨S800000, .i32⟩ : BufTy).Contents (Elt F) → (⟨S800000, .i32⟩ : BufTy).Contents (Elt F) → (⟨S800000, .i32⟩ : BufTy).Contents (Elt F)),
    StableHlo.ternary main_v109 main_v111 main_v1 main_v112 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v112 main_v113 (broadcastInDim S800000x1 ![0] bcast_S800000_S800000x1_0 : (⟨S800000, .i32⟩ : BufTy).Contents (Elt F) → (⟨S800000x1, .i32⟩ : BufTy).Contents (Elt F)),
    StableHlo.binary main_v107 main_v113 main_v114 ((fun x i => Host.gather gather_S50000x96_S800000x1_S800000x96_1_0_n_n_0_1_196 x i) : (⟨S50000x96, .f32⟩ : BufTy).Contents (Elt F) → (⟨S800000x1, .i32⟩ : BufTy).Contents (Elt F) → (⟨S800000x96, .f32⟩ : BufTy).Contents (Elt F)),
    StableHlo.nullary main_cst_14 (constant S_ .f32 0x00000000#32),
    StableHlo.unary main_cst_14 main_v115 (broadcastInDim S50000x96 ![] bcast_S_S50000x96 : (⟨S_, .f32⟩ : BufTy).Contents (Elt F) → (⟨S50000x96, .f32⟩ : BufTy).Contents (Elt F)),
    StableHlo.unary main_v3 main_v116 (broadcastInDim S800000x1 ![0] bcast_S800000_S800000x1_0 : (⟨S800000, .i32⟩ : BufTy).Contents (Elt F) → (⟨S800000x1, .i32⟩ : BufTy).Contents (Elt F)),
    StableHlo.ternary main_v115 main_v116 main_v114 main_v117 ((fun x i u => Host.scatterAdd scatter_S50000x96_S800000x1_S800000x96_1_0_0_1 x i u) : (⟨S50000x96, .f32⟩ : BufTy).Contents (Elt F) → (⟨S800000x1, .i32⟩ : BufTy).Contents (Elt F) → (⟨S800000x96, .f32⟩ : BufTy).Contents (Elt F) → (⟨S50000x96, .f32⟩ : BufTy).Contents (Elt F)),
    StableHlo.binary main_v107 main_v117 main_v118 (addf : (⟨S50000x96, .f32⟩ : BufTy).Contents (Elt F) → (⟨S50000x96, .f32⟩ : BufTy).Contents (Elt F) → (⟨S50000x96, .f32⟩ : BufTy).Contents (Elt F)),
    StableHlo.unary main_arg2 main_v119 ((extractStridedSlice S1x96x96 ![2, 0, 0] · slices_S3x96x96_S1x96x96_2_0_0) : (⟨S3x96x96, .f32⟩ : BufTy).Contents (Elt F) → (⟨S1x96x96, .f32⟩ : BufTy).Contents (Elt F)),
    StableHlo.reshape main_v119 main_v120 rfl shapeCasts_S1x96x96_S96x96,
    StableHlo.binary main_v118 main_v120 main_v121 ((fun l r => Host.dotGeneral dot_S50000x96_S96x96_S50000x96_1_0_0_1_n_n none l r) : (⟨S50000x96, .f32⟩ : BufTy).Contents (Elt F) → (⟨S96x96, .f32⟩ : BufTy).Contents (Elt F) → (⟨S50000x96, .f32⟩ : BufTy).Contents (Elt F)),
    StableHlo.unary main_arg3 main_v122 ((extractStridedSlice S1x96 ![2, 0] · slices_S3x96_S1x96_2_0) : (⟨S3x96, .f32⟩ : BufTy).Contents (Elt F) → (⟨S1x96, .f32⟩ : BufTy).Contents (Elt F)),
    StableHlo.reshape main_v122 main_v123 rfl shapeCasts_S1x96_S96,
    StableHlo.unary main_v123 main_v124 (broadcastInDim S1x96 ![1] bcast_S96_S1x96_1 : (⟨S96, .f32⟩ : BufTy).Contents (Elt F) → (⟨S1x96, .f32⟩ : BufTy).Contents (Elt F)),
    StableHlo.unary main_v124 main_v125 (broadcastInDim S50000x96 ![0, 1] bcast_S1x96_S50000x96_0_1 : (⟨S1x96, .f32⟩ : BufTy).Contents (Elt F) → (⟨S50000x96, .f32⟩ : BufTy).Contents (Elt F)),
    StableHlo.binary main_v121 main_v125 main_v126 (addf : (⟨S50000x96, .f32⟩ : BufTy).Contents (Elt F) → (⟨S50000x96, .f32⟩ : BufTy).Contents (Elt F) → (⟨S50000x96, .f32⟩ : BufTy).Contents (Elt F)),
    StableHlo.TRef.nullary main_call6.cst (constant S_ .f32 0x00000000#32),
    StableHlo.TRef.unary main_call6.cst main_call6.v0 (broadcastInDim S50000x96 ![] bcast_S_S50000x96),
    StableHlo.TRef.binary (.of main_v126) main_call6.v0 main_call6.v1 maximumf,
    StableHlo.unary main_arg4 main_v128 ((extractStridedSlice S1x96x96 ![2, 0, 0] · slices_S3x96x96_S1x96x96_2_0_0) : (⟨S3x96x96, .f32⟩ : BufTy).Contents (Elt F) → (⟨S1x96x96, .f32⟩ : BufTy).Contents (Elt F)),
    StableHlo.reshape main_v128 main_v129 rfl shapeCasts_S1x96x96_S96x96,
    StableHlo.binary main_v127 main_v129 main_v130 ((fun l r => Host.dotGeneral dot_S50000x96_S96x96_S50000x96_1_0_0_1_n_n none l r) : (⟨S50000x96, .f32⟩ : BufTy).Contents (Elt F) → (⟨S96x96, .f32⟩ : BufTy).Contents (Elt F) → (⟨S50000x96, .f32⟩ : BufTy).Contents (Elt F)),
    StableHlo.unary main_arg5 main_v131 ((extractStridedSlice S1x96 ![2, 0] · slices_S3x96_S1x96_2_0) : (⟨S3x96, .f32⟩ : BufTy).Contents (Elt F) → (⟨S1x96, .f32⟩ : BufTy).Contents (Elt F)),
    StableHlo.reshape main_v131 main_v132 rfl shapeCasts_S1x96_S96,
    StableHlo.unary main_v132 main_v133 (broadcastInDim S1x96 ![1] bcast_S96_S1x96_1 : (⟨S96, .f32⟩ : BufTy).Contents (Elt F) → (⟨S1x96, .f32⟩ : BufTy).Contents (Elt F)),
    StableHlo.unary main_v133 main_v134 (broadcastInDim S50000x96 ![0, 1] bcast_S1x96_S50000x96_0_1 : (⟨S1x96, .f32⟩ : BufTy).Contents (Elt F) → (⟨S50000x96, .f32⟩ : BufTy).Contents (Elt F)),
    StableHlo.binary main_v130 main_v134 main_v135 (addf : (⟨S50000x96, .f32⟩ : BufTy).Contents (Elt F) → (⟨S50000x96, .f32⟩ : BufTy).Contents (Elt F) → (⟨S50000x96, .f32⟩ : BufTy).Contents (Elt F)) ]

/-- Layer 2's column statistics. -/
abbrev opsC2b : List (HloOp τ sig (Elt F)) :=
  [ StableHlo.nullary main_cst_15 (constant S_ .f32 0x00000000#32),
    StableHlo.binary main_v135 main_cst_15 main_v136 ((fun x v => Host.reduceAdd x v reducesTo_S50000x96_S96_d0 h_S_) : (⟨S50000x96, .f32⟩ : BufTy).Contents (Elt F) → (⟨S_, .f32⟩ : BufTy).Contents (Elt F) → (⟨S96, .f32⟩ : BufTy).Contents (Elt F)),
    StableHlo.nullary main_cst_16 (constant S_ .f32 0x47435000#32),
    StableHlo.unary main_cst_16 main_v137 (broadcastInDim S96 ![] bcast_S_S96 : (⟨S_, .f32⟩ : BufTy).Contents (Elt F) → (⟨S96, .f32⟩ : BufTy).Contents (Elt F)),
    StableHlo.binary main_v136 main_v137 main_v138 (Host.divf : (⟨S96, .f32⟩ : BufTy).Contents (Elt F) → (⟨S96, .f32⟩ : BufTy).Contents (Elt F) → (⟨S96, .f32⟩ : BufTy).Contents (Elt F)),
    StableHlo.nullary main_c_17 (constantI S_ 32 0#32),
    StableHlo.TRef.nullary main_call7.cst (constant S_ .f32 0x00000000#32),
    StableHlo.TRef.binary (.of main_v135) main_call7.cst main_call7.v0 (fun x v => Host.reduceAdd x v reducesTo_S50000x96_S96_d0 h_S_),
    StableHlo.TRef.unary main_call7.v0 main_call7.v1 (broadcastInDim S1x96 ![1] bcast_S96_S1x96_1),
    StableHlo.TRef.nullary main_call7.cst_0 (constant S_ .f32 0x47435000#32),
    StableHlo.TRef.unary main_call7.cst_0 main_call7.v2 (broadcastInDim S1x96 ![] bcast_S_S1x96),
    StableHlo.TRef.binary main_call7.v1 main_call7.v2 main_call7.v3 Host.divf,
    StableHlo.TRef.unary main_call7.v3 main_call7.v4 (broadcastInDim S50000x96 ![0, 1] bcast_S1x96_S50000x96_0_1),
    StableHlo.TRef.binary (.of main_v135) main_call7.v4 main_call7.v5 subf,
    StableHlo.TRef.binary main_call7.v5 main_call7.v5 main_call7.v6 mulf,
    StableHlo.TRef.unary (.of main_c_17) main_call7.v7 (sitofp .f32),
    StableHlo.TRef.nullary main_call7.cst_1 (constant S_ .f32 0x47435000#32),
    StableHlo.TRef.binary main_call7.cst_1 main_call7.v7 main_call7.v8 subf,
    StableHlo.TRef.nullary main_call7.cst_2 (constant S_ .f32 0x00000000#32),
    StableHlo.TRef.binary main_call7.v6 main_call7.cst_2 main_call7.v9 (fun x v => Host.reduceAdd x v reducesTo_S50000x96_S96_d0 h_S_),
    StableHlo.TRef.unary main_call7.v8 main_call7.v10 (broadcastInDim S96 ![] bcast_S_S96),
    StableHlo.TRef.binary main_call7.v9 main_call7.v10 main_call7.v11 Host.divf,
    StableHlo.TRef.nullary main_call7.cst_3 (constant S_ .f32 0x00000000#32),
    StableHlo.TRef.binary main_call7.v8 main_call7.cst_3 main_call7.v12 (cmpf .ogt),
    StableHlo.TRef.nullary main_call7.cst_4 (constant S_ .f32 0x7FC00000#32),
    StableHlo.TRef.unary main_call7.cst_4 main_call7.call0.v0 id,
    StableHlo.TRef.unary main_call7.call0.v0 main_call7.call0.v1 (broadcastInDim S96 ![] bcast_S_S96),
    StableHlo.TRef.ternary main_call7.v12 main_call7.v11 main_call7.call0.v1 main_call7.call0.v2 (fun p a b => select (broadcastInDim S96 ![] bcast_S_S96 p) a b) ]

/-- Layer 2's normalisation. -/
abbrev opsC2c : List (HloOp τ sig (Elt F)) :=
  [ StableHlo.unary main_v138 main_v140 (broadcastInDim S1x96 ![1] bcast_S96_S1x96_1 : (⟨S96, .f32⟩ : BufTy).Contents (Elt F) → (⟨S1x96, .f32⟩ : BufTy).Contents (Elt F)),
    StableHlo.unary main_v140 main_v141 (broadcastInDim S50000x96 ![0, 1] bcast_S1x96_S50000x96_0_1 : (⟨S1x96, .f32⟩ : BufTy).Contents (Elt F) → (⟨S50000x96, .f32⟩ : BufTy).Contents (Elt F)),
    StableHlo.binary main_v135 main_v141 main_v142 (subf : (⟨S50000x96, .f32⟩ : BufTy).Contents (Elt F) → (⟨S50000x96, .f32⟩ : BufTy).Contents (Elt F) → (⟨S50000x96, .f32⟩ : BufTy).Contents (Elt F)),
    StableHlo.nullary main_cst_18 (constant S_ .f32 0x3727C5AC#32),
    StableHlo.unary main_cst_18 main_v143 (broadcastInDim S96 ![] bcast_S_S96 : (⟨S_, .f32⟩ : BufTy).Contents (Elt F) → (⟨S96, .f32⟩ : BufTy).Contents (Elt F)),
    StableHlo.binary main_v139 main_v143 main_v144 (addf : (⟨S96, .f32⟩ : BufTy).Contents (Elt F) → (⟨S96, .f32⟩ : BufTy).Contents (Elt F) → (⟨S96, .f32⟩ : BufTy).Contents (Elt F)),
    StableHlo.unary main_v144 main_v145 (Host.rsqrt : (⟨S96, .f32⟩ : BufTy).Contents (Elt F) → (⟨S96, .f32⟩ : BufTy).Contents (Elt F)),
    StableHlo.unary main_v145 main_v146 (broadcastInDim S1x96 ![1] bcast_S96_S1x96_1 : (⟨S96, .f32⟩ : BufTy).Contents (Elt F) → (⟨S1x96, .f32⟩ : BufTy).Contents (Elt F)),
    StableHlo.unary main_v146 main_v147 (broadcastInDim S50000x96 ![0, 1] bcast_S1x96_S50000x96_0_1 : (⟨S1x96, .f32⟩ : BufTy).Contents (Elt F) → (⟨S50000x96, .f32⟩ : BufTy).Contents (Elt F)),
    StableHlo.binary main_v142 main_v147 main_v148 (mulf : (⟨S50000x96, .f32⟩ : BufTy).Contents (Elt F) → (⟨S50000x96, .f32⟩ : BufTy).Contents (Elt F) → (⟨S50000x96, .f32⟩ : BufTy).Contents (Elt F)),
    StableHlo.unary main_arg6 main_v149 ((extractStridedSlice S1x96 ![2, 0] · slices_S3x96_S1x96_2_0) : (⟨S3x96, .f32⟩ : BufTy).Contents (Elt F) → (⟨S1x96, .f32⟩ : BufTy).Contents (Elt F)),
    StableHlo.reshape main_v149 main_v150 rfl shapeCasts_S1x96_S96,
    StableHlo.unary main_v150 main_v151 (broadcastInDim S1x96 ![1] bcast_S96_S1x96_1 : (⟨S96, .f32⟩ : BufTy).Contents (Elt F) → (⟨S1x96, .f32⟩ : BufTy).Contents (Elt F)),
    StableHlo.unary main_v151 main_v152 (broadcastInDim S50000x96 ![0, 1] bcast_S1x96_S50000x96_0_1 : (⟨S1x96, .f32⟩ : BufTy).Contents (Elt F) → (⟨S50000x96, .f32⟩ : BufTy).Contents (Elt F)),
    StableHlo.binary main_v148 main_v152 main_v153 (mulf : (⟨S50000x96, .f32⟩ : BufTy).Contents (Elt F) → (⟨S50000x96, .f32⟩ : BufTy).Contents (Elt F) → (⟨S50000x96, .f32⟩ : BufTy).Contents (Elt F)),
    StableHlo.unary main_arg7 main_v154 ((extractStridedSlice S1x96 ![2, 0] · slices_S3x96_S1x96_2_0) : (⟨S3x96, .f32⟩ : BufTy).Contents (Elt F) → (⟨S1x96, .f32⟩ : BufTy).Contents (Elt F)),
    StableHlo.reshape main_v154 main_v155 rfl shapeCasts_S1x96_S96,
    StableHlo.unary main_v155 main_v156 (broadcastInDim S1x96 ![1] bcast_S96_S1x96_1 : (⟨S96, .f32⟩ : BufTy).Contents (Elt F) → (⟨S1x96, .f32⟩ : BufTy).Contents (Elt F)),
    StableHlo.unary main_v156 main_v157 (broadcastInDim S50000x96 ![0, 1] bcast_S1x96_S50000x96_0_1 : (⟨S1x96, .f32⟩ : BufTy).Contents (Elt F) → (⟨S50000x96, .f32⟩ : BufTy).Contents (Elt F)),
    StableHlo.binary main_v153 main_v157 main_v158 (addf : (⟨S50000x96, .f32⟩ : BufTy).Contents (Elt F) → (⟨S50000x96, .f32⟩ : BufTy).Contents (Elt F) → (⟨S50000x96, .f32⟩ : BufTy).Contents (Elt F)) ]

/-- The first window of the program: layer 0 up to the last broadcast of its offset. -/
abbrev opsA : List (HloOp τ sig (Elt F)) := opsA1 ++ (opsA2 ++ opsA3)
/-- Layer 1 up to the last broadcast of its offset. -/
abbrev opsB2 : List (HloOp τ sig (Elt F)) := opsB2a ++ (opsB2b ++ opsB2c)
/-- Layer 2. -/
abbrev opsC2 : List (HloOp τ sig (Elt F)) := opsC2a ++ (opsC2b ++ opsC2c)
/-- The whole program: the pieces in order. -/
abbrev ops : List (HloOp τ sig (Elt F)) := opsA ++ ((opsB1 ++ opsB2) ++ (opsC1 ++ opsC2))

set_option maxRecDepth 16384 in
set_option maxHeartbeats 4000000 in
/-- The first window is piece A: both are the same chain of steps once the calls are unfolded. -/
theorem part0_eq (c : Dev nD) : main_part0 (F := F) c = seq opsA := rfl

set_option maxRecDepth 16384 in
set_option maxHeartbeats 4000000 in
/-- The second window is B1 then B2. -/
theorem part1_eq (c : Dev nD) : main_part1 (F := F) c = seq (opsB1 ++ opsB2) := rfl

set_option maxRecDepth 16384 in
set_option maxHeartbeats 4000000 in
/-- The third window is C1 then C2. -/
theorem part2_eq (c : Dev nD) : main_part2 (F := F) c = seq (opsC1 ++ opsC2) := rfl

/-- The last window only returns. -/
theorem part3_eq (c : Dev nD) : main_part3 (F := F) c = seq [] := rfl

/-- The program is the straight line of its operations: window by window, joined by the rule for a concatenation. -/
theorem main_eq (c : Dev nD) : main (F := F) c = seq ops := by
  have e : (opsC1 ++ opsC2 : List (HloOp τ sig (Elt F))) = (opsC1 ++ opsC2) ++ [] := (List.append_nil _).symm
  show main (F := F) c = seq (opsA ++ ((opsB1 ++ opsB2) ++ (opsC1 ++ opsC2)))
  rw [e, seq_append opsA _, seq_append (opsB1 ++ opsB2) _, seq_append (opsC1 ++ opsC2) [],
    ← part0_eq c, ← part1_eq c, ← part2_eq c, ← part3_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 16384 in
theorem opsA1_sub : (opsA1 : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., binary_bufs_sub ..,
    unary_bufs_sub .., reshape_bufs_sub .., binary_bufs_sub .., unary_bufs_sub .., reshape_bufs_sub .., unary_bufs_sub ..,
    unary_bufs_sub .., binary_bufs_sub .., nullary_bufs_sub .., unary_bufs_sub .., binary_bufs_sub .., unary_bufs_sub ..,
    reshape_bufs_sub .., binary_bufs_sub .., unary_bufs_sub .., reshape_bufs_sub .., unary_bufs_sub .., unary_bufs_sub ..,
    binary_bufs_sub ..⟩

set_option maxRecDepth 16384 in
theorem opsA2_sub : (opsA2 : List (HloOp τ sig (Elt F))).Forall fun op => op.bufs ⊆ tcRefs τ sig :=
  ⟨nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub ..⟩

set_option maxRecDepth 16384 in
theorem opsA3_sub : (opsA3 : List (HloOp τ sig (Elt F))).Forall fun op => op.bufs ⊆ tcRefs τ sig :=
  ⟨unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., reshape_bufs_sub ..,
    unary_bufs_sub .., unary_bufs_sub .., binary_bufs_sub .., unary_bufs_sub .., reshape_bufs_sub .., unary_bufs_sub ..⟩

set_option maxRecDepth 16384 in
theorem opsB1_sub : (opsB1 : List (HloOp τ sig (Elt F))).Forall fun op => op.bufs ⊆ tcRefs τ sig :=
  ⟨unary_bufs_sub .., binary_bufs_sub .., nullary_bufs_sub .., unary_bufs_sub .., binary_bufs_sub ..⟩

set_option maxRecDepth 16384 in
theorem opsB2a_sub : (opsB2a : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., binary_bufs_sub .., unary_bufs_sub .., reshape_bufs_sub .., binary_bufs_sub .., unary_bufs_sub ..,
    reshape_bufs_sub .., unary_bufs_sub .., unary_bufs_sub .., binary_bufs_sub .., nullary_bufs_sub .., unary_bufs_sub ..,
    binary_bufs_sub .., unary_bufs_sub .., reshape_bufs_sub .., binary_bufs_sub .., unary_bufs_sub .., reshape_bufs_sub ..,
    unary_bufs_sub .., unary_bufs_sub .., binary_bufs_sub ..⟩

set_option maxRecDepth 16384 in
theorem opsB2b_sub : (opsB2b : List (HloOp τ sig (Elt F))).Forall fun op => op.bufs ⊆ tcRefs τ sig :=
  ⟨nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub ..⟩

set_option maxRecDepth 16384 in
theorem opsB2c_sub : (opsB2c : List (HloOp τ sig (Elt F))).Forall fun op => op.bufs ⊆ tcRefs τ sig :=
  ⟨unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., reshape_bufs_sub ..,
    unary_bufs_sub .., unary_bufs_sub .., binary_bufs_sub .., unary_bufs_sub .., reshape_bufs_sub .., unary_bufs_sub ..,
    unary_bufs_sub ..⟩

set_option maxRecDepth 16384 in
theorem opsC1_sub : (opsC1 : List (HloOp τ sig (Elt F))).Forall fun op => op.bufs ⊆ tcRefs τ sig :=
  ⟨binary_bufs_sub .., nullary_bufs_sub .., unary_bufs_sub .., binary_bufs_sub ..⟩

set_option maxRecDepth 16384 in
theorem opsC2a_sub : (opsC2a : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., binary_bufs_sub .., unary_bufs_sub .., reshape_bufs_sub .., binary_bufs_sub .., unary_bufs_sub ..,
    reshape_bufs_sub .., unary_bufs_sub .., unary_bufs_sub .., binary_bufs_sub .., nullary_bufs_sub .., unary_bufs_sub ..,
    binary_bufs_sub .., unary_bufs_sub .., reshape_bufs_sub .., binary_bufs_sub .., unary_bufs_sub .., reshape_bufs_sub ..,
    unary_bufs_sub .., unary_bufs_sub .., binary_bufs_sub ..⟩

set_option maxRecDepth 16384 in
theorem opsC2b_sub : (opsC2b : List (HloOp τ sig (Elt F))).Forall fun op => op.bufs ⊆ tcRefs τ sig :=
  ⟨nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub ..⟩

set_option maxRecDepth 16384 in
theorem opsC2c_sub : (opsC2c : List (HloOp τ sig (Elt F))).Forall fun op => op.bufs ⊆ tcRefs τ sig :=
  ⟨unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., reshape_bufs_sub ..,
    unary_bufs_sub .., unary_bufs_sub .., binary_bufs_sub .., unary_bufs_sub .., reshape_bufs_sub .., unary_bufs_sub ..,
    unary_bufs_sub .., binary_bufs_sub ..⟩

/-- Every operation touches buffers of the core's own memory only. -/
theorem ops_sub : (ops : List (HloOp τ sig (Elt F))).Forall fun op => op.bufs ⊆ tcRefs τ sig :=
  List.forall_iff_forall_mem.mpr fun op h => by
    simp only [ops, opsA, opsB2, opsC2, List.mem_append] at h
    rcases h with (h | h | h) | (h | h | h | h) | (h | h | h | h)
    exacts [List.forall_iff_forall_mem.mp opsA1_sub op h, List.forall_iff_forall_mem.mp opsA2_sub op h,
      List.forall_iff_forall_mem.mp opsA3_sub op h, List.forall_iff_forall_mem.mp opsB1_sub op h,
      List.forall_iff_forall_mem.mp opsB2a_sub op h, List.forall_iff_forall_mem.mp opsB2b_sub op h,
      List.forall_iff_forall_mem.mp opsB2c_sub op h, List.forall_iff_forall_mem.mp opsC1_sub op h,
      List.forall_iff_forall_mem.mp opsC2a_sub op h, List.forall_iff_forall_mem.mp opsC2b_sub op h,
      List.forall_iff_forall_mem.mp opsC2c_sub op h]

/-- From any memory with zero counters, every weakly fair execution of the program terminates, and every final state
    has each buffer of the core at the operations' fold over the contents at launch. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefValue

end
-- ==== Proof.RefTerms.lean ====
/-
  What the reference network computes, as functions of its argument arrays, spelt in the program's own array operations,
  and the same read as the network of rows on the extended reals.

  The aggregation sums, for every node, the rows of its neighbours: the rows are gathered at the source end of each edge
  (a negative index wrapped by the number of nodes) and added into a zero matrix at the destination end.  The column mean
  is the column sum divided by the number of rows; the column variance is the mean of the squared deviations from the
  column mean, divided by the number of rows less a correction that is zero here, and selected against a not-a-number
  row when that divisor is not positive.  Neither is opened: both programs compute them by these operations.  What is
  proved is that the perceptron, the normalisation and the rectifier, read at an index, are the network's.
-/
import proofs.«164872_j81217831568100_1_alg».proof.Proof.Gen.ReferenceIdeal
import proofs.«164872_j81217831568100_1_alg».proof.Proof.Net

noncomputable section

namespace Cert.ReferenceIdeal.RefValue

open Cert.ReferenceIdeal Cert.ReferenceIdeal.Gen Idealize.ShloMosaic Idealize.ShloMosaic.ValueIdx
open Cert.Gin (Mat Sq Row Params)

/-! ## The edge lists and the aggregation -/

/-- The source end of every edge: row 0 of the edge array. -/
def src (ei : IVec S2x800000 32) : IVec S800000 32 :=
  shapeCast S800000 (extractStridedSlice S1x800000 ![0, 0] ei slices_S2x800000_S1x800000_0_0) shapeCasts_S1x800000_S800000

/-- The destination end of every edge: row 1 of the edge array. -/
def dst (ei : IVec S2x800000 32) : IVec S800000 32 :=
  shapeCast S800000 (extractStridedSlice S1x800000 ![1, 0] ei slices_S2x800000_S1x800000_1_0) shapeCasts_S1x800000_S800000

/-- A node index wrapped: a negative one has the number of nodes added. -/
def wrap (s : IVec S800000 32) : IVec S800000 32 :=
  select (cmpi .slt s (broadcastInDim S800000 ![] bcast_S_S800000 (constantI S_ 32 0#32)))
    (addi s (broadcastInDim S800000 ![] bcast_S_S800000 (constantI S_ 32 50000#32))) s

/-- The aggregation over edges with source ends s and destination ends d: the rows of h gathered at the wrapped source
    ends, added into a zero matrix at the destination ends. -/
def aggOf (s d : IVec S800000 32) (h : Mat 50000) : Mat 50000 :=
  Host.scatterAdd scatter_S50000x96_S800000x1_S800000x96_1_0_0_1
    (broadcastInDim S50000x96 ![] bcast_S_S50000x96 (constant (F := Ideal) S_ .f32 0x00000000#32))
    (broadcastInDim S800000x1 ![0] bcast_S800000_S800000x1_0 d)
    (Host.gather gather_S50000x96_S800000x1_S800000x96_1_0_n_n_0_1_196 h
      (broadcastInDim S800000x1 ![0] bcast_S800000_S800000x1_0 (wrap s)))

/-- The aggregation over the edges of an edge array. -/
def aggR (ei : IVec S2x800000 32) : Mat 50000 → Mat 50000 := aggOf (src ei) (dst ei)

/-! ## The column statistics -/

/-- The column mean: the column sums over the number of rows. -/
def meanVec (z : Mat 50000) : FVec Ideal S96 .f32 :=
  Host.divf (Host.reduceAdd z (constant (F := Ideal) S_ .f32 0x00000000#32) reducesTo_S50000x96_S96_d0 h_S_)
    (broadcastInDim S96 ![] bcast_S_S96 (constant (F := Ideal) S_ .f32 0x47435000#32))

/-- The variance's divisor: the number of rows less the correction, which is the integer zero converted. -/
def varCount : FVec Ideal S_ .f32 :=
  subf (constant (F := Ideal) S_ .f32 0x47435000#32) (sitofp .f32 (constantI S_ 32 0#32))

/-- The column means spread back over the rows, as the variance computes them. -/
def varCentre (z : Mat 50000) : Mat 50000 :=
  broadcastInDim S50000x96 ![0, 1] bcast_S1x96_S50000x96_0_1
    (Host.divf
      (broadcastInDim S1x96 ![1] bcast_S96_S1x96_1
        (Host.reduceAdd z (constant (F := Ideal) S_ .f32 0x00000000#32) reducesTo_S50000x96_S96_d0 h_S_))
      (broadcastInDim S1x96 ![] bcast_S_S1x96 (constant (F := Ideal) S_ .f32 0x47435000#32)))

/-- The column variance: the column sums of the squared deviations over the divisor, selected against a not-a-number
    row by the test that the divisor is positive. -/
def varVec (z : Mat 50000) : FVec Ideal S96 .f32 :=
  select (broadcastInDim S96 ![] bcast_S_S96 (cmpf .ogt varCount (constant (F := Ideal) S_ .f32 0x00000000#32)))
    (Host.divf
      (Host.reduceAdd (mulf (subf z (varCentre z)) (subf z (varCentre z))) (constant (F := Ideal) S_ .f32 0x00000000#32)
        reducesTo_S50000x96_S96_d0 h_S_)
      (broadcastInDim S96 ![] bcast_S_S96 varCount))
    (broadcastInDim S96 ![] bcast_S_S96 (constant (F := Ideal) S_ .f32 0x7FC00000#32))

/-- The column mean as a row. -/
def meanR (z : Mat 50000) : Row := broadcastInDim S1x96 ![1] bcast_S96_S1x96_1 (meanVec z)

/-- The column variance as a row. -/
def varR (z : Mat 50000) : Row := broadcastInDim S1x96 ![1] bcast_S96_S1x96_1 (varVec z)

/-! ## The parameters of a layer -/

/-- One 96 by 96 weight out of the three stacked ones: the slice at an offset, its unit axis dropped. -/
def sqOf (off : Fin S3x96x96.rank → Nat) (hs : S3x96x96.Slices off S1x96x96) (W : FVec Ideal S3x96x96 .f32) : Sq :=
  shapeCast S96x96 (extractStridedSlice S1x96x96 off W hs) shapeCasts_S1x96x96_S96x96

/-- One row of 96 out of the three stacked ones: the slice at an offset, its unit axis dropped and put back in front. -/
def rowOf (off : Fin S3x96.rank → Nat) (hs : S3x96.Slices off S1x96) (b : FVec Ideal S3x96 .f32) : Row :=
  broadcastInDim S1x96 ![1] bcast_S96_S1x96_1 (shapeCast S96 (extractStridedSlice S1x96 off b hs) shapeCasts_S1x96_S96)

/-- The parameters of the layer whose slices start at the given offsets. -/
def paramsAt (o3 : Fin S3x96x96.rank → Nat) (h3 : S3x96x96.Slices o3 S1x96x96) (o2 : Fin S3x96.rank → Nat)
    (h2 : S3x96.Slices o2 S1x96) (W1 : FVec Ideal S3x96x96 .f32) (b1 : FVec Ideal S3x96 .f32)
    (W2 : FVec Ideal S3x96x96 .f32) (b2 gamma beta : FVec Ideal S3x96 .f32) : Params where
  w1 := sqOf o3 h3 W1
  b1 := rowOf o2 h2 b1
  w2 := sqOf o3 h3 W2
  b2 := rowOf o2 h2 b2
  gamma := rowOf o2 h2 gamma
  beta := rowOf o2 h2 beta

/-- Layer 0's parameters. -/
def PR0 (W1 : FVec Ideal S3x96x96 .f32) (b1 : FVec Ideal S3x96 .f32) (W2 : FVec Ideal S3x96x96 .f32)
    (b2 gamma beta : FVec Ideal S3x96 .f32) : Params :=
  paramsAt ![0, 0, 0] slices_S3x96x96_S1x96x96_0_0_0 ![0, 0] slices_S3x96_S1x96_0_0 W1 b1 W2 b2 gamma beta

/-- Layer 1's parameters. -/
def PR1 (W1 : FVec Ideal S3x96x96 .f32) (b1 : FVec Ideal S3x96 .f32) (W2 : FVec Ideal S3x96x96 .f32)
    (b2 gamma beta : FVec Ideal S3x96 .f32) : Params :=
  paramsAt ![1, 0, 0] slices_S3x96x96_S1x96x96_1_0_0 ![1, 0] slices_S3x96_S1x96_1_0 W1 b1 W2 b2 gamma beta

/-- Layer 2's parameters. -/
def PR2 (W1 : FVec Ideal S3x96x96 .f32) (b1 : FVec Ideal S3x96 .f32) (W2 : FVec Ideal S3x96x96 .f32)
    (b2 gamma beta : FVec Ideal S3x96 .f32) : Params :=
  paramsAt ![2, 0, 0] slices_S3x96x96_S1x96x96_2_0_0 ![2, 0] slices_S3x96_S1x96_2_0 W1 b1 W2 b2 gamma beta

/-! ## One layer in the program's operations -/

/-- The perceptron in array operations: two matrix products, each followed by its bias row spread over the rows, a
    maximum with a spread zero between them. -/
def zOf (h agg : Mat 50000) (w1 : Sq) (b1 : Row) (w2 : Sq) (b2 : Row) : Mat 50000 :=
  addf
    (Host.dotGeneral dot_S50000x96_S96x96_S50000x96_1_0_0_1_n_n none
      (maximumf
        (addf (Host.dotGeneral dot_S50000x96_S96x96_S50000x96_1_0_0_1_n_n none (addf h agg) w1)
          (broadcastInDim S50000x96 ![0, 1] bcast_S1x96_S50000x96_0_1 b1))
        (broadcastInDim S50000x96 ![] bcast_S_S50000x96 (constant (F := Ideal) S_ .f32 0x00000000#32)))
      w2)
    (broadcastInDim S50000x96 ![0, 1] bcast_S1x96_S50000x96_0_1 b2)

/-- The normalisation in array operations, over the column statistics as vectors of 96. -/
def normOf (z : Mat 50000) (meanv varv : FVec Ideal S96 .f32) (gamma beta : Row) : Mat 50000 :=
  addf
    (mulf
      (mulf
        (subf z (broadcastInDim S50000x96 ![0, 1] bcast_S1x96_S50000x96_0_1 (broadcastInDim S1x96 ![1] bcast_S96_S1x96_1 meanv)))
        (broadcastInDim S50000x96 ![0, 1] bcast_S1x96_S50000x96_0_1
          (broadcastInDim S1x96 ![1] bcast_S96_S1x96_1
            (Host.rsqrt (addf varv (broadcastInDim S96 ![] bcast_S_S96 (constant (F := Ideal) S_ .f32 0x3727C5AC#32)))))))
      (broadcastInDim S50000x96 ![0, 1] bcast_S1x96_S50000x96_0_1 gamma))
    (broadcastInDim S50000x96 ![0, 1] bcast_S1x96_S50000x96_0_1 beta)

/-- The rectifier in array operations: the maximum with a spread zero. -/
def reluOf (x : Mat 50000) : Mat 50000 :=
  maximumf x (broadcastInDim S50000x96 ![] bcast_S_S50000x96 (constant (F := Ideal) S_ .f32 0x00000000#32))

/-- One layer's perceptron in array operations, over edge ends s, d and parameters P. -/
def zL (s d : IVec S800000 32) (P : Params) (h : Mat 50000) : Mat 50000 :=
  zOf h (aggOf s d h) P.w1 P.b1 P.w2 P.b2

/-- One layer before its rectifier in array operations, over edge ends s, d and parameters P. -/
def layerOf (s d : IVec S800000 32) (P : Params) (h : Mat 50000) : Mat 50000 :=
  normOf (zL s d P h) (meanVec (zL s d P h)) (varVec (zL s d P h)) P.gamma P.beta

/-! ## The same, read at an index -/

theorem dot_plain : dot_S50000x96_S96x96_S50000x96_1_0_0_1_n_n = DotDims.plain 50000 96 96 := rfl

/-- The perceptron in array operations is the perceptron of rows. -/
theorem zOf_eq (h agg : Mat 50000) (w1 : Sq) (b1 : Row) (w2 : Sq) (b2 : Row) :
    zOf h agg w1 b1 w2 b2 = Cert.Gin.mlp h agg w1 b1 w2 b2 := by
  funext i
  obtain ⟨p, f, rfl⟩ : ∃ (p : Fin 50000) (f : Fin 96), i = ix2 p f := ⟨i 0, i 1, eq_ix2 i⟩
  unfold zOf
  rw [addf_apply, InnerProducts.dotGeneral_apply _ dot_plain none _ w2 p f,
    Cert.LibInDimRow.inDim_1b_ab_apply b2 bcast_S1x96_S50000x96_0_1 p f]
  show _ = Cert.LibRowLayers.inner (Cert.Gin.hidden h agg w1 b1) w2 p f + b2 (ix2 (0 : Fin 1) f)
  unfold Cert.LibRowLayers.inner
  congr 1
  refine Finset.sum_congr rfl fun d _ => ?_
  congr 1
  rw [maximumf_apply, addf_apply, InnerProducts.dotGeneral_apply _ dot_plain none (addf h agg) w1 p d,
    Cert.LibInDimRow.inDim_1b_ab_apply b1 bcast_S1x96_S50000x96_0_1 p d, Cert.LibRowLayers.host_scalar_apply]
  rfl

/-- The normalisation in array operations is the normalisation of rows, the statistics placed in rows. -/
theorem normOf_eq (z : Mat 50000) (meanv varv : FVec Ideal S96 .f32) (gamma beta : Row) :
    normOf z meanv varv gamma beta
      = Cert.Gin.affine z (broadcastInDim S1x96 ![1] bcast_S96_S1x96_1 meanv)
          (broadcastInDim S1x96 ![1] bcast_S96_S1x96_1 varv) gamma beta := by
  funext i
  obtain ⟨p, f, rfl⟩ : ∃ (p : Fin 50000) (f : Fin 96), i = ix2 p f := ⟨i 0, i 1, eq_ix2 i⟩
  unfold normOf
  rw [addf_apply, mulf_apply, mulf_apply, subf_apply,
    Cert.LibInDimRow.inDim_1b_ab_apply _ bcast_S1x96_S50000x96_0_1 p f,
    Cert.LibInDimRow.inDim_1b_ab_apply _ bcast_S1x96_S50000x96_0_1 p f,
    Cert.LibInDimRow.inDim_1b_ab_apply gamma bcast_S1x96_S50000x96_0_1 p f,
    Cert.LibInDimRow.inDim_1b_ab_apply beta bcast_S1x96_S50000x96_0_1 p f,
    Cert.LibInDimRow.inDim_b_1b_apply (Host.rsqrt _) bcast_S96_S1x96_1 0 f]
  show _ = ((z (ix2 p f) - broadcastInDim S1x96 ![1] bcast_S96_S1x96_1 meanv (ix2 (0 : Fin 1) f))
      * Ideal.rsqrt (broadcastInDim S1x96 ![1] bcast_S96_S1x96_1 varv (ix2 (0 : Fin 1) f) + Ideal.ofBits .f32 0x3727C5AC#32))
      * gamma (ix2 (0 : Fin 1) f) + beta (ix2 (0 : Fin 1) f)
  rw [Cert.LibInDimRow.inDim_b_1b_apply varv bcast_S96_S1x96_1 0 f]
  rfl

/-- The rectifier in array operations is the rectifier entry by entry. -/
theorem reluOf_eq (x : Mat 50000) : reluOf x = Cert.Gin.rect x := by
  funext i
  unfold reluOf
  rw [maximumf_apply, Cert.LibRowLayers.host_scalar_apply]
  rfl

/-- One layer in array operations is the network's layer, over this aggregation and these column statistics. -/
theorem layerOf_eq (s d : IVec S800000 32) (P : Params) (h : Mat 50000) :
    layerOf s d P h = Cert.Gin.layer (aggOf s d) meanR varR P h := by
  unfold layerOf zL Cert.Gin.layer meanR varR
  rw [zOf_eq, normOf_eq]

end Cert.ReferenceIdeal.RefValue

end
-- ==== Proof.RefLayer0.lean ====
/-
  Layer 0 of the reference network: what its operations leave in the buffers.

  The layer's operations are folded piece by piece — the aggregation and the perceptron, the column statistics, the
  normalisation and the rectifier — each piece's result read as the array operations of what the buffers held before the piece, the
  buffers a later piece or layer reads shown to be kept; the pieces are then composed.  The gather, the scatter-add, the
  column sums and the matrix products are never opened.
-/
import proofs.«164872_j81217831568100_1_alg».proof.Proof.RefOps
import proofs.«164872_j81217831568100_1_alg».proof.Proof.RefTerms
import Idealize.ShloMosaic.Lib.Pipeline.Frame

set_option Elab.async false

noncomputable section

namespace Cert.ReferenceIdeal.RefValue

open Cert.ReferenceIdeal Cert.ReferenceIdeal.Gen Idealize.ShloMosaic Idealize.ShloMosaic.TcCoe Idealize.SL.Sem Idealize.ShloMosaic.StableHlo

attribute [local irreducible] Host.gather Host.scatterAdd Host.reduceAdd Ideal.matmul Ideal.hostReduceAdd Ideal.hostScatterAdd

set_option maxRecDepth 16384 in
set_option maxHeartbeats 4000000 in
/-- The aggregation and the perceptron: the fold at the perceptron's result. -/
theorem blk0a_z (V : Valuation τ sig (Elt Ideal)) :
    after (opsA1 (F := Ideal)) V (main_v31 : DevRef τ sig) = zL (src (V (main_arg1 : DevRef τ sig))) (dst (V (main_arg1 : DevRef τ sig))) (PR0 (V (main_arg2 : DevRef τ sig)) (V (main_arg3 : DevRef τ sig)) (V (main_arg4 : DevRef τ sig)) (V (main_arg5 : DevRef τ sig)) (V (main_arg6 : DevRef τ sig)) (V (main_arg7 : DevRef τ sig))) (V (main_arg0 : DevRef τ sig)) := by
  after_results_simp
  first | rfl | done

set_option maxRecDepth 16384 in
set_option maxHeartbeats 4000000 in
theorem blk0a_v1 (V : Valuation τ sig (Elt Ideal)) :
    after (opsA1 (F := Ideal)) V (main_v1 : DevRef τ sig) = src (V (main_arg1 : DevRef τ sig)) := by
  after_results_simp
  first | rfl | done

set_option maxRecDepth 16384 in
set_option maxHeartbeats 4000000 in
theorem blk0a_v3 (V : Valuation τ sig (Elt Ideal)) :
    after (opsA1 (F := Ideal)) V (main_v3 : DevRef τ sig) = dst (V (main_arg1 : DevRef τ sig)) := by
  after_results_simp
  first | rfl | done

set_option maxRecDepth 16384 in
set_option maxHeartbeats 4000000 in
theorem blk0a_arg0 (V : Valuation τ sig (Elt Ideal)) :
    after (opsA1 (F := Ideal)) V (main_arg0 : DevRef τ sig) = (V (main_arg0 : DevRef τ sig)) := by
  after_results_simp
  first | rfl | done

set_option maxRecDepth 16384 in
set_option maxHeartbeats 4000000 in
theorem blk0a_arg1 (V : Valuation τ sig (Elt Ideal)) :
    after (opsA1 (F := Ideal)) V (main_arg1 : DevRef τ sig) = (V (main_arg1 : DevRef τ sig)) := by
  after_results_simp
  first | rfl | done

set_option maxRecDepth 16384 in
set_option maxHeartbeats 4000000 in
theorem blk0a_arg2 (V : Valuation τ sig (Elt Ideal)) :
    after (opsA1 (F := Ideal)) V (main_arg2 : DevRef τ sig) = (V (main_arg2 : DevRef τ sig)) := by
  after_results_simp
  first | rfl | done

set_option maxRecDepth 16384 in
set_option maxHeartbeats 4000000 in
theorem blk0a_arg3 (V : Valuation τ sig (Elt Ideal)) :
    after (opsA1 (F := Ideal)) V (main_arg3 : DevRef τ sig) = (V (main_arg3 : DevRef τ sig)) := by
  after_results_simp
  first | rfl | done

set_option maxRecDepth 16384 in
set_option maxHeartbeats 4000000 in
theorem blk0a_arg4 (V : Valuation τ sig (Elt Ideal)) :
    after (opsA1 (F := Ideal)) V (main_arg4 : DevRef τ sig) = (V (main_arg4 : DevRef τ sig)) := by
  after_results_simp
  first | rfl | done

set_option maxRecDepth 16384 in
set_option maxHeartbeats 4000000 in
theorem blk0a_arg5 (V : Valuation τ sig (Elt Ideal)) :
    after (opsA1 (F := Ideal)) V (main_arg5 : DevRef τ sig) = (V (main_arg5 : DevRef τ sig)) := by
  after_results_simp
  first | rfl | done

set_option maxRecDepth 16384 in
set_option maxHeartbeats 4000000 in
theorem blk0a_arg6 (V : Valuation τ sig (Elt Ideal)) :
    after (opsA1 (F := Ideal)) V (main_arg6 : DevRef τ sig) = (V (main_arg6 : DevRef τ sig)) := by
  after_results_simp
  first | rfl | done

set_option maxRecDepth 16384 in
set_option maxHeartbeats 4000000 in
theorem blk0a_arg7 (V : Valuation τ sig (Elt Ideal)) :
    after (opsA1 (F := Ideal)) V (main_arg7 : DevRef τ sig) = (V (main_arg7 : DevRef τ sig)) := by
  after_results_simp
  first | rfl | done

set_option maxRecDepth 16384 in
set_option maxHeartbeats 4000000 in
/-- The column mean of the perceptron's result. -/
theorem blk0b_mean (V : Valuation τ sig (Elt Ideal)) :
    after (opsA2 (F := Ideal)) V (main_v34 : DevRef τ sig) = meanVec (V (main_v31 : DevRef τ sig)) := by
  after_results_simp
  first | rfl | done

set_option maxRecDepth 16384 in
set_option maxHeartbeats 4000000 in
/-- The column variance of the perceptron's result. -/
theorem blk0b_var (V : Valuation τ sig (Elt Ideal)) :
    after (opsA2 (F := Ideal)) V (main_v35 : DevRef τ sig) = varVec (V (main_v31 : DevRef τ sig)) := by
  after_results_simp
  first | rfl | done

set_option maxRecDepth 16384 in
set_option maxHeartbeats 4000000 in
theorem blk0b_v31 (V : Valuation τ sig (Elt Ideal)) :
    after (opsA2 (F := Ideal)) V (main_v31 : DevRef τ sig) = (V (main_v31 : DevRef τ sig)) := by
  after_results_simp
  first | rfl | done

set_option maxRecDepth 16384 in
set_option maxHeartbeats 4000000 in
theorem blk0b_v1 (V : Valuation τ sig (Elt Ideal)) :
    after (opsA2 (F := Ideal)) V (main_v1 : DevRef τ sig) = (V (main_v1 : DevRef τ sig)) := by
  after_results_simp
  first | rfl | done

set_option maxRecDepth 16384 in
set_option maxHeartbeats 4000000 in
theorem blk0b_v3 (V : Valuation τ sig (Elt Ideal)) :
    after (opsA2 (F := Ideal)) V (main_v3 : DevRef τ sig) = (V (main_v3 : DevRef τ sig)) := by
  after_results_simp
  first | rfl | done

set_option maxRecDepth 16384 in
set_option maxHeartbeats 4000000 in
theorem blk0b_arg0 (V : Valuation τ sig (Elt Ideal)) :
    after (opsA2 (F := Ideal)) V (main_arg0 : DevRef τ sig) = (V (main_arg0 : DevRef τ sig)) := by
  after_results_simp
  first | rfl | done

set_option maxRecDepth 16384 in
set_option maxHeartbeats 4000000 in
theorem blk0b_arg1 (V : Valuation τ sig (Elt Ideal)) :
    after (opsA2 (F := Ideal)) V (main_arg1 : DevRef τ sig) = (V (main_arg1 : DevRef τ sig)) := by
  after_results_simp
  first | rfl | done

set_option maxRecDepth 16384 in
set_option maxHeartbeats 4000000 in
theorem blk0b_arg2 (V : Valuation τ sig (Elt Ideal)) :
    after (opsA2 (F := Ideal)) V (main_arg2 : DevRef τ sig) = (V (main_arg2 : DevRef τ sig)) := by
  after_results_simp
  first | rfl | done

set_option maxRecDepth 16384 in
set_option maxHeartbeats 4000000 in
theorem blk0b_arg3 (V : Valuation τ sig (Elt Ideal)) :
    after (opsA2 (F := Ideal)) V (main_arg3 : DevRef τ sig) = (V (main_arg3 : DevRef τ sig)) := by
  after_results_simp
  first | rfl | done

set_option maxRecDepth 16384 in
set_option maxHeartbeats 4000000 in
theorem blk0b_arg4 (V : Valuation τ sig (Elt Ideal)) :
    after (opsA2 (F := Ideal)) V (main_arg4 : DevRef τ sig) = (V (main_arg4 : DevRef τ sig)) := by
  after_results_simp
  first | rfl | done

set_option maxRecDepth 16384 in
set_option maxHeartbeats 4000000 in
theorem blk0b_arg5 (V : Valuation τ sig (Elt Ideal)) :
    after (opsA2 (F := Ideal)) V (main_arg5 : DevRef τ sig) = (V (main_arg5 : DevRef τ sig)) := by
  after_results_simp
  first | rfl | done

set_option maxRecDepth 16384 in
set_option maxHeartbeats 4000000 in
theorem blk0b_arg6 (V : Valuation τ sig (Elt Ideal)) :
    after (opsA2 (F := Ideal)) V (main_arg6 : DevRef τ sig) = (V (main_arg6 : DevRef τ sig)) := by
  after_results_simp
  first | rfl | done

set_option maxRecDepth 16384 in
set_option maxHeartbeats 4000000 in
theorem blk0b_arg7 (V : Valuation τ sig (Elt Ideal)) :
    after (opsA2 (F := Ideal)) V (main_arg7 : DevRef τ sig) = (V (main_arg7 : DevRef τ sig)) := by
  after_results_simp
  first | rfl | done

set_option maxRecDepth 16384 in
set_option maxHeartbeats 4000000 in
/-- The normalisation and the rectifier: the fold at the rectifier's result. -/
theorem blk0c_out (V : Valuation τ sig (Elt Ideal)) :
    after (opsB1 (F := Ideal)) (after (opsA3 (F := Ideal)) V) (main_v55 : DevRef τ sig) = reluOf (normOf (V (main_v31 : DevRef τ sig)) (V (main_v34 : DevRef τ sig)) (V (main_v35 : DevRef τ sig)) (rowOf ![0, 0] slices_S3x96_S1x96_0_0 (V (main_arg6 : DevRef τ sig))) (rowOf ![0, 0] slices_S3x96_S1x96_0_0 (V (main_arg7 : DevRef τ sig)))) := by
  after_results_simp
  first | rfl | done

set_option maxRecDepth 16384 in
set_option maxHeartbeats 4000000 in
theorem blk0c_v1 (V : Valuation τ sig (Elt Ideal)) :
    after (opsB1 (F := Ideal)) (after (opsA3 (F := Ideal)) V) (main_v1 : DevRef τ sig) = (V (main_v1 : DevRef τ sig)) := by
  after_results_simp
  first | rfl | done

set_option maxRecDepth 16384 in
set_option maxHeartbeats 4000000 in
theorem blk0c_v3 (V : Valuation τ sig (Elt Ideal)) :
    after (opsB1 (F := Ideal)) (after (opsA3 (F := Ideal)) V) (main_v3 : DevRef τ sig) = (V (main_v3 : DevRef τ sig)) := by
  after_results_simp
  first | rfl | done

set_option maxRecDepth 16384 in
set_option maxHeartbeats 4000000 in
theorem blk0c_arg0 (V : Valuation τ sig (Elt Ideal)) :
    after (opsB1 (F := Ideal)) (after (opsA3 (F := Ideal)) V) (main_arg0 : DevRef τ sig) = (V (main_arg0 : DevRef τ sig)) := by
  after_results_simp
  first | rfl | done

set_option maxRecDepth 16384 in
set_option maxHeartbeats 4000000 in
theorem blk0c_arg1 (V : Valuation τ sig (Elt Ideal)) :
    after (opsB1 (F := Ideal)) (after (opsA3 (F := Ideal)) V) (main_arg1 : DevRef τ sig) = (V (main_arg1 : DevRef τ sig)) := by
  after_results_simp
  first | rfl | done

set_option maxRecDepth 16384 in
set_option maxHeartbeats 4000000 in
theorem blk0c_arg2 (V : Valuation τ sig (Elt Ideal)) :
    after (opsB1 (F := Ideal)) (after (opsA3 (F := Ideal)) V) (main_arg2 : DevRef τ sig) = (V (main_arg2 : DevRef τ sig)) := by
  after_results_simp
  first | rfl | done

set_option maxRecDepth 16384 in
set_option maxHeartbeats 4000000 in
theorem blk0c_arg3 (V : Valuation τ sig (Elt Ideal)) :
    after (opsB1 (F := Ideal)) (after (opsA3 (F := Ideal)) V) (main_arg3 : DevRef τ sig) = (V (main_arg3 : DevRef τ sig)) := by
  after_results_simp
  first | rfl | done

set_option maxRecDepth 16384 in
set_option maxHeartbeats 4000000 in
theorem blk0c_arg4 (V : Valuation τ sig (Elt Ideal)) :
    after (opsB1 (F := Ideal)) (after (opsA3 (F := Ideal)) V) (main_arg4 : DevRef τ sig) = (V (main_arg4 : DevRef τ sig)) := by
  after_results_simp
  first | rfl | done

set_option maxRecDepth 16384 in
set_option maxHeartbeats 4000000 in
theorem blk0c_arg5 (V : Valuation τ sig (Elt Ideal)) :
    after (opsB1 (F := Ideal)) (after (opsA3 (F := Ideal)) V) (main_arg5 : DevRef τ sig) = (V (main_arg5 : DevRef τ sig)) := by
  after_results_simp
  first | rfl | done

set_option maxRecDepth 16384 in
set_option maxHeartbeats 4000000 in
theorem blk0c_arg6 (V : Valuation τ sig (Elt Ideal)) :
    after (opsB1 (F := Ideal)) (after (opsA3 (F := Ideal)) V) (main_arg6 : DevRef τ sig) = (V (main_arg6 : DevRef τ sig)) := by
  after_results_simp
  first | rfl | done

set_option maxRecDepth 16384 in
set_option maxHeartbeats 4000000 in
theorem blk0c_arg7 (V : Valuation τ sig (Elt Ideal)) :
    after (opsB1 (F := Ideal)) (after (opsA3 (F := Ideal)) V) (main_arg7 : DevRef τ sig) = (V (main_arg7 : DevRef τ sig)) := by
  after_results_simp
  first | rfl | done

/-- Layer 0 and its rectifier: the fold of its operations at the rectifier's result is the layer in array operations, of what the
    buffers held before. -/
theorem layer0_out (V : Valuation τ sig (Elt Ideal)) :
    after (opsB1 (F := Ideal)) (after (opsA (F := Ideal)) V) (main_v55 : DevRef τ sig) = reluOf (layerOf (src (V (main_arg1 : DevRef τ sig))) (dst (V (main_arg1 : DevRef τ sig))) (PR0 (V (main_arg2 : DevRef τ sig)) (V (main_arg3 : DevRef τ sig)) (V (main_arg4 : DevRef τ sig)) (V (main_arg5 : DevRef τ sig)) (V (main_arg6 : DevRef τ sig)) (V (main_arg7 : DevRef τ sig))) (V (main_arg0 : DevRef τ sig))) := by
  show after (opsB1 (F := Ideal)) (after ((opsA1 (F := Ideal)) ++ ((opsA2 (F := Ideal)) ++ (opsA3 (F := Ideal)))) V) _ = _
  rw [after_append, after_append, blk0c_out, blk0b_mean, blk0b_var, blk0b_v31, blk0b_arg6, blk0b_arg7,
    blk0a_z, blk0a_arg6, blk0a_arg7]
  rfl

theorem layer0_v1 (V : Valuation τ sig (Elt Ideal)) :
    after (opsB1 (F := Ideal)) (after (opsA (F := Ideal)) V) (main_v1 : DevRef τ sig) = src (V (main_arg1 : DevRef τ sig)) := by
  show after (opsB1 (F := Ideal)) (after ((opsA1 (F := Ideal)) ++ ((opsA2 (F := Ideal)) ++ (opsA3 (F := Ideal)))) V) _ = _
  rw [after_append, after_append, blk0c_v1, blk0b_v1, blk0a_v1]

theorem layer0_v3 (V : Valuation τ sig (Elt Ideal)) :
    after (opsB1 (F := Ideal)) (after (opsA (F := Ideal)) V) (main_v3 : DevRef τ sig) = dst (V (main_arg1 : DevRef τ sig)) := by
  show after (opsB1 (F := Ideal)) (after ((opsA1 (F := Ideal)) ++ ((opsA2 (F := Ideal)) ++ (opsA3 (F := Ideal)))) V) _ = _
  rw [after_append, after_append, blk0c_v3, blk0b_v3, blk0a_v3]

theorem layer0_arg0 (V : Valuation τ sig (Elt Ideal)) :
    after (opsB1 (F := Ideal)) (after (opsA (F := Ideal)) V) (main_arg0 : DevRef τ sig) = (V (main_arg0 : DevRef τ sig)) := by
  show after (opsB1 (F := Ideal)) (after ((opsA1 (F := Ideal)) ++ ((opsA2 (F := Ideal)) ++ (opsA3 (F := Ideal)))) V) _ = _
  rw [after_append, after_append, blk0c_arg0, blk0b_arg0, blk0a_arg0]

theorem layer0_arg1 (V : Valuation τ sig (Elt Ideal)) :
    after (opsB1 (F := Ideal)) (after (opsA (F := Ideal)) V) (main_arg1 : DevRef τ sig) = (V (main_arg1 : DevRef τ sig)) := by
  show after (opsB1 (F := Ideal)) (after ((opsA1 (F := Ideal)) ++ ((opsA2 (F := Ideal)) ++ (opsA3 (F := Ideal)))) V) _ = _
  rw [after_append, after_append, blk0c_arg1, blk0b_arg1, blk0a_arg1]

theorem layer0_arg2 (V : Valuation τ sig (Elt Ideal)) :
    after (opsB1 (F := Ideal)) (after (opsA (F := Ideal)) V) (main_arg2 : DevRef τ sig) = (V (main_arg2 : DevRef τ sig)) := by
  show after (opsB1 (F := Ideal)) (after ((opsA1 (F := Ideal)) ++ ((opsA2 (F := Ideal)) ++ (opsA3 (F := Ideal)))) V) _ = _
  rw [after_append, after_append, blk0c_arg2, blk0b_arg2, blk0a_arg2]

theorem layer0_arg3 (V : Valuation τ sig (Elt Ideal)) :
    after (opsB1 (F := Ideal)) (after (opsA (F := Ideal)) V) (main_arg3 : DevRef τ sig) = (V (main_arg3 : DevRef τ sig)) := by
  show after (opsB1 (F := Ideal)) (after ((opsA1 (F := Ideal)) ++ ((opsA2 (F := Ideal)) ++ (opsA3 (F := Ideal)))) V) _ = _
  rw [after_append, after_append, blk0c_arg3, blk0b_arg3, blk0a_arg3]

theorem layer0_arg4 (V : Valuation τ sig (Elt Ideal)) :
    after (opsB1 (F := Ideal)) (after (opsA (F := Ideal)) V) (main_arg4 : DevRef τ sig) = (V (main_arg4 : DevRef τ sig)) := by
  show after (opsB1 (F := Ideal)) (after ((opsA1 (F := Ideal)) ++ ((opsA2 (F := Ideal)) ++ (opsA3 (F := Ideal)))) V) _ = _
  rw [after_append, after_append, blk0c_arg4, blk0b_arg4, blk0a_arg4]

theorem layer0_arg5 (V : Valuation τ sig (Elt Ideal)) :
    after (opsB1 (F := Ideal)) (after (opsA (F := Ideal)) V) (main_arg5 : DevRef τ sig) = (V (main_arg5 : DevRef τ sig)) := by
  show after (opsB1 (F := Ideal)) (after ((opsA1 (F := Ideal)) ++ ((opsA2 (F := Ideal)) ++ (opsA3 (F := Ideal)))) V) _ = _
  rw [after_append, after_append, blk0c_arg5, blk0b_arg5, blk0a_arg5]

theorem layer0_arg6 (V : Valuation τ sig (Elt Ideal)) :
    after (opsB1 (F := Ideal)) (after (opsA (F := Ideal)) V) (main_arg6 : DevRef τ sig) = (V (main_arg6 : DevRef τ sig)) := by
  show after (opsB1 (F := Ideal)) (after ((opsA1 (F := Ideal)) ++ ((opsA2 (F := Ideal)) ++ (opsA3 (F := Ideal)))) V) _ = _
  rw [after_append, after_append, blk0c_arg6, blk0b_arg6, blk0a_arg6]

theorem layer0_arg7 (V : Valuation τ sig (Elt Ideal)) :
    after (opsB1 (F := Ideal)) (after (opsA (F := Ideal)) V) (main_arg7 : DevRef τ sig) = (V (main_arg7 : DevRef τ sig)) := by
  show after (opsB1 (F := Ideal)) (after ((opsA1 (F := Ideal)) ++ ((opsA2 (F := Ideal)) ++ (opsA3 (F := Ideal)))) V) _ = _
  rw [after_append, after_append, blk0c_arg7, blk0b_arg7, blk0a_arg7]

end Cert.ReferenceIdeal.RefValue

end
-- ==== Proof.RefLayer1.lean ====
/-
  Layer 1 of the reference network: what its operations leave in the buffers.

  The layer's operations are folded piece by piece — the aggregation and the perceptron, the column statistics, the
  normalisation and the rectifier — each piece's result read as the array operations of what the buffers held before the piece, the
  buffers a later piece or layer reads shown to be kept; the pieces are then composed.  The gather, the scatter-add, the
  column sums and the matrix products are never opened.
-/
import proofs.«164872_j81217831568100_1_alg».proof.Proof.RefOps
import proofs.«164872_j81217831568100_1_alg».proof.Proof.RefTerms
import Idealize.ShloMosaic.Lib.Pipeline.Frame

set_option Elab.async false

noncomputable section

namespace Cert.ReferenceIdeal.RefValue

open Cert.ReferenceIdeal Cert.ReferenceIdeal.Gen Idealize.ShloMosaic Idealize.ShloMosaic.TcCoe Idealize.SL.Sem Idealize.ShloMosaic.StableHlo

attribute [local irreducible] Host.gather Host.scatterAdd Host.reduceAdd Ideal.matmul Ideal.hostReduceAdd Ideal.hostScatterAdd

set_option maxRecDepth 16384 in
set_option maxHeartbeats 4000000 in
/-- The aggregation and the perceptron: the fold at the perceptron's result. -/
theorem blk1a_z (V : Valuation τ sig (Elt Ideal)) :
    after (opsB2a (F := Ideal)) V (main_v83 : DevRef τ sig) = zL (V (main_v1 : DevRef τ sig)) (V (main_v3 : DevRef τ sig)) (PR1 (V (main_arg2 : DevRef τ sig)) (V (main_arg3 : DevRef τ sig)) (V (main_arg4 : DevRef τ sig)) (V (main_arg5 : DevRef τ sig)) (V (main_arg6 : DevRef τ sig)) (V (main_arg7 : DevRef τ sig))) (V (main_v55 : DevRef τ sig)) := by
  after_results_simp
  first | rfl | done

set_option maxRecDepth 16384 in
set_option maxHeartbeats 4000000 in
theorem blk1a_v1 (V : Valuation τ sig (Elt Ideal)) :
    after (opsB2a (F := Ideal)) V (main_v1 : DevRef τ sig) = (V (main_v1 : DevRef τ sig)) := by
  after_results_simp
  first | rfl | done

set_option maxRecDepth 16384 in
set_option maxHeartbeats 4000000 in
theorem blk1a_v3 (V : Valuation τ sig (Elt Ideal)) :
    after (opsB2a (F := Ideal)) V (main_v3 : DevRef τ sig) = (V (main_v3 : DevRef τ sig)) := by
  after_results_simp
  first | rfl | done

set_option maxRecDepth 16384 in
set_option maxHeartbeats 4000000 in
theorem blk1a_arg0 (V : Valuation τ sig (Elt Ideal)) :
    after (opsB2a (F := Ideal)) V (main_arg0 : DevRef τ sig) = (V (main_arg0 : DevRef τ sig)) := by
  after_results_simp
  first | rfl | done

set_option maxRecDepth 16384 in
set_option maxHeartbeats 4000000 in
theorem blk1a_arg1 (V : Valuation τ sig (Elt Ideal)) :
    after (opsB2a (F := Ideal)) V (main_arg1 : DevRef τ sig) = (V (main_arg1 : DevRef τ sig)) := by
  after_results_simp
  first | rfl | done

set_option maxRecDepth 16384 in
set_option maxHeartbeats 4000000 in
theorem blk1a_arg2 (V : Valuation τ sig (Elt Ideal)) :
    after (opsB2a (F := Ideal)) V (main_arg2 : DevRef τ sig) = (V (main_arg2 : DevRef τ sig)) := by
  after_results_simp
  first | rfl | done

set_option maxRecDepth 16384 in
set_option maxHeartbeats 4000000 in
theorem blk1a_arg3 (V : Valuation τ sig (Elt Ideal)) :
    after (opsB2a (F := Ideal)) V (main_arg3 : DevRef τ sig) = (V (main_arg3 : DevRef τ sig)) := by
  after_results_simp
  first | rfl | done

set_option maxRecDepth 16384 in
set_option maxHeartbeats 4000000 in
theorem blk1a_arg4 (V : Valuation τ sig (Elt Ideal)) :
    after (opsB2a (F := Ideal)) V (main_arg4 : DevRef τ sig) = (V (main_arg4 : DevRef τ sig)) := by
  after_results_simp
  first | rfl | done

set_option maxRecDepth 16384 in
set_option maxHeartbeats 4000000 in
theorem blk1a_arg5 (V : Valuation τ sig (Elt Ideal)) :
    after (opsB2a (F := Ideal)) V (main_arg5 : DevRef τ sig) = (V (main_arg5 : DevRef τ sig)) := by
  after_results_simp
  first | rfl | done

set_option maxRecDepth 16384 in
set_option maxHeartbeats 4000000 in
theorem blk1a_arg6 (V : Valuation τ sig (Elt Ideal)) :
    after (opsB2a (F := Ideal)) V (main_arg6 : DevRef τ sig) = (V (main_arg6 : DevRef τ sig)) := by
  after_results_simp
  first | rfl | done

set_option maxRecDepth 16384 in
set_option maxHeartbeats 4000000 in
theorem blk1a_arg7 (V : Valuation τ sig (Elt Ideal)) :
    after (opsB2a (F := Ideal)) V (main_arg7 : DevRef τ sig) = (V (main_arg7 : DevRef τ sig)) := by
  after_results_simp
  first | rfl | done

set_option maxRecDepth 16384 in
set_option maxHeartbeats 4000000 in
/-- The column mean of the perceptron's result. -/
theorem blk1b_mean (V : Valuation τ sig (Elt Ideal)) :
    after (opsB2b (F := Ideal)) V (main_v86 : DevRef τ sig) = meanVec (V (main_v83 : DevRef τ sig)) := by
  after_results_simp
  first | rfl | done

set_option maxRecDepth 16384 in
set_option maxHeartbeats 4000000 in
/-- The column variance of the perceptron's result. -/
theorem blk1b_var (V : Valuation τ sig (Elt Ideal)) :
    after (opsB2b (F := Ideal)) V (main_v87 : DevRef τ sig) = varVec (V (main_v83 : DevRef τ sig)) := by
  after_results_simp
  first | rfl | done

set_option maxRecDepth 16384 in
set_option maxHeartbeats 4000000 in
theorem blk1b_v83 (V : Valuation τ sig (Elt Ideal)) :
    after (opsB2b (F := Ideal)) V (main_v83 : DevRef τ sig) = (V (main_v83 : DevRef τ sig)) := by
  after_results_simp
  first | rfl | done

set_option maxRecDepth 16384 in
set_option maxHeartbeats 4000000 in
theorem blk1b_v1 (V : Valuation τ sig (Elt Ideal)) :
    after (opsB2b (F := Ideal)) V (main_v1 : DevRef τ sig) = (V (main_v1 : DevRef τ sig)) := by
  after_results_simp
  first | rfl | done

set_option maxRecDepth 16384 in
set_option maxHeartbeats 4000000 in
theorem blk1b_v3 (V : Valuation τ sig (Elt Ideal)) :
    after (opsB2b (F := Ideal)) V (main_v3 : DevRef τ sig) = (V (main_v3 : DevRef τ sig)) := by
  after_results_simp
  first | rfl | done

set_option maxRecDepth 16384 in
set_option maxHeartbeats 4000000 in
theorem blk1b_arg0 (V : Valuation τ sig (Elt Ideal)) :
    after (opsB2b (F := Ideal)) V (main_arg0 : DevRef τ sig) = (V (main_arg0 : DevRef τ sig)) := by
  after_results_simp
  first | rfl | done

set_option maxRecDepth 16384 in
set_option maxHeartbeats 4000000 in
theorem blk1b_arg1 (V : Valuation τ sig (Elt Ideal)) :
    after (opsB2b (F := Ideal)) V (main_arg1 : DevRef τ sig) = (V (main_arg1 : DevRef τ sig)) := by
  after_results_simp
  first | rfl | done

set_option maxRecDepth 16384 in
set_option maxHeartbeats 4000000 in
theorem blk1b_arg2 (V : Valuation τ sig (Elt Ideal)) :
    after (opsB2b (F := Ideal)) V (main_arg2 : DevRef τ sig) = (V (main_arg2 : DevRef τ sig)) := by
  after_results_simp
  first | rfl | done

set_option maxRecDepth 16384 in
set_option maxHeartbeats 4000000 in
theorem blk1b_arg3 (V : Valuation τ sig (Elt Ideal)) :
    after (opsB2b (F := Ideal)) V (main_arg3 : DevRef τ sig) = (V (main_arg3 : DevRef τ sig)) := by
  after_results_simp
  first | rfl | done

set_option maxRecDepth 16384 in
set_option maxHeartbeats 4000000 in
theorem blk1b_arg4 (V : Valuation τ sig (Elt Ideal)) :
    after (opsB2b (F := Ideal)) V (main_arg4 : DevRef τ sig) = (V (main_arg4 : DevRef τ sig)) := by
  after_results_simp
  first | rfl | done

set_option maxRecDepth 16384 in
set_option maxHeartbeats 4000000 in
theorem blk1b_arg5 (V : Valuation τ sig (Elt Ideal)) :
    after (opsB2b (F := Ideal)) V (main_arg5 : DevRef τ sig) = (V (main_arg5 : DevRef τ sig)) := by
  after_results_simp
  first | rfl | done

set_option maxRecDepth 16384 in
set_option maxHeartbeats 4000000 in
theorem blk1b_arg6 (V : Valuation τ sig (Elt Ideal)) :
    after (opsB2b (F := Ideal)) V (main_arg6 : DevRef τ sig) = (V (main_arg6 : DevRef τ sig)) := by
  after_results_simp
  first | rfl | done

set_option maxRecDepth 16384 in
set_option maxHeartbeats 4000000 in
theorem blk1b_arg7 (V : Valuation τ sig (Elt Ideal)) :
    after (opsB2b (F := Ideal)) V (main_arg7 : DevRef τ sig) = (V (main_arg7 : DevRef τ sig)) := by
  after_results_simp
  first | rfl | done

set_option maxRecDepth 16384 in
set_option maxHeartbeats 4000000 in
/-- The normalisation and the rectifier: the fold at the rectifier's result. -/
theorem blk1c_out (V : Valuation τ sig (Elt Ideal)) :
    after (opsC1 (F := Ideal)) (after (opsB2c (F := Ideal)) V) (main_v107 : DevRef τ sig) = reluOf (normOf (V (main_v83 : DevRef τ sig)) (V (main_v86 : DevRef τ sig)) (V (main_v87 : DevRef τ sig)) (rowOf ![1, 0] slices_S3x96_S1x96_1_0 (V (main_arg6 : DevRef τ sig))) (rowOf ![1, 0] slices_S3x96_S1x96_1_0 (V (main_arg7 : DevRef τ sig)))) := by
  after_results_simp
  first | rfl | done

set_option maxRecDepth 16384 in
set_option maxHeartbeats 4000000 in
theorem blk1c_v1 (V : Valuation τ sig (Elt Ideal)) :
    after (opsC1 (F := Ideal)) (after (opsB2c (F := Ideal)) V) (main_v1 : DevRef τ sig) = (V (main_v1 : DevRef τ sig)) := by
  after_results_simp
  first | rfl | done

set_option maxRecDepth 16384 in
set_option maxHeartbeats 4000000 in
theorem blk1c_v3 (V : Valuation τ sig (Elt Ideal)) :
    after (opsC1 (F := Ideal)) (after (opsB2c (F := Ideal)) V) (main_v3 : DevRef τ sig) = (V (main_v3 : DevRef τ sig)) := by
  after_results_simp
  first | rfl | done

set_option maxRecDepth 16384 in
set_option maxHeartbeats 4000000 in
theorem blk1c_arg0 (V : Valuation τ sig (Elt Ideal)) :
    after (opsC1 (F := Ideal)) (after (opsB2c (F := Ideal)) V) (main_arg0 : DevRef τ sig) = (V (main_arg0 : DevRef τ sig)) := by
  after_results_simp
  first | rfl | done

set_option maxRecDepth 16384 in
set_option maxHeartbeats 4000000 in
theorem blk1c_arg1 (V : Valuation τ sig (Elt Ideal)) :
    after (opsC1 (F := Ideal)) (after (opsB2c (F := Ideal)) V) (main_arg1 : DevRef τ sig) = (V (main_arg1 : DevRef τ sig)) := by
  after_results_simp
  first | rfl | done

set_option maxRecDepth 16384 in
set_option maxHeartbeats 4000000 in
theorem blk1c_arg2 (V : Valuation τ sig (Elt Ideal)) :
    after (opsC1 (F := Ideal)) (after (opsB2c (F := Ideal)) V) (main_arg2 : DevRef τ sig) = (V (main_arg2 : DevRef τ sig)) := by
  after_results_simp
  first | rfl | done

set_option maxRecDepth 16384 in
set_option maxHeartbeats 4000000 in
theorem blk1c_arg3 (V : Valuation τ sig (Elt Ideal)) :
    after (opsC1 (F := Ideal)) (after (opsB2c (F := Ideal)) V) (main_arg3 : DevRef τ sig) = (V (main_arg3 : DevRef τ sig)) := by
  after_results_simp
  first | rfl | done

set_option maxRecDepth 16384 in
set_option maxHeartbeats 4000000 in
theorem blk1c_arg4 (V : Valuation τ sig (Elt Ideal)) :
    after (opsC1 (F := Ideal)) (after (opsB2c (F := Ideal)) V) (main_arg4 : DevRef τ sig) = (V (main_arg4 : DevRef τ sig)) := by
  after_results_simp
  first | rfl | done

set_option maxRecDepth 16384 in
set_option maxHeartbeats 4000000 in
theorem blk1c_arg5 (V : Valuation τ sig (Elt Ideal)) :
    after (opsC1 (F := Ideal)) (after (opsB2c (F := Ideal)) V) (main_arg5 : DevRef τ sig) = (V (main_arg5 : DevRef τ sig)) := by
  after_results_simp
  first | rfl | done

set_option maxRecDepth 16384 in
set_option maxHeartbeats 4000000 in
theorem blk1c_arg6 (V : Valuation τ sig (Elt Ideal)) :
    after (opsC1 (F := Ideal)) (after (opsB2c (F := Ideal)) V) (main_arg6 : DevRef τ sig) = (V (main_arg6 : DevRef τ sig)) := by
  after_results_simp
  first | rfl | done

set_option maxRecDepth 16384 in
set_option maxHeartbeats 4000000 in
theorem blk1c_arg7 (V : Valuation τ sig (Elt Ideal)) :
    after (opsC1 (F := Ideal)) (after (opsB2c (F := Ideal)) V) (main_arg7 : DevRef τ sig) = (V (main_arg7 : DevRef τ sig)) := by
  after_results_simp
  first | rfl | done

/-- Layer 1 and its rectifier: the fold of its operations at the rectifier's result is the layer in array operations, of what the
    buffers held before. -/
theorem layer1_out (V : Valuation τ sig (Elt Ideal)) :
    after (opsC1 (F := Ideal)) (after (opsB2 (F := Ideal)) V) (main_v107 : DevRef τ sig) = reluOf (layerOf (V (main_v1 : DevRef τ sig)) (V (main_v3 : DevRef τ sig)) (PR1 (V (main_arg2 : DevRef τ sig)) (V (main_arg3 : DevRef τ sig)) (V (main_arg4 : DevRef τ sig)) (V (main_arg5 : DevRef τ sig)) (V (main_arg6 : DevRef τ sig)) (V (main_arg7 : DevRef τ sig))) (V (main_v55 : DevRef τ sig))) := by
  show after (opsC1 (F := Ideal)) (after ((opsB2a (F := Ideal)) ++ ((opsB2b (F := Ideal)) ++ (opsB2c (F := Ideal)))) V) _ = _
  rw [after_append, after_append, blk1c_out, blk1b_mean, blk1b_var, blk1b_v83, blk1b_arg6, blk1b_arg7,
    blk1a_z, blk1a_arg6, blk1a_arg7]
  rfl

theorem layer1_v1 (V : Valuation τ sig (Elt Ideal)) :
    after (opsC1 (F := Ideal)) (after (opsB2 (F := Ideal)) V) (main_v1 : DevRef τ sig) = (V (main_v1 : DevRef τ sig)) := by
  show after (opsC1 (F := Ideal)) (after ((opsB2a (F := Ideal)) ++ ((opsB2b (F := Ideal)) ++ (opsB2c (F := Ideal)))) V) _ = _
  rw [after_append, after_append, blk1c_v1, blk1b_v1, blk1a_v1]

theorem layer1_v3 (V : Valuation τ sig (Elt Ideal)) :
    after (opsC1 (F := Ideal)) (after (opsB2 (F := Ideal)) V) (main_v3 : DevRef τ sig) = (V (main_v3 : DevRef τ sig)) := by
  show after (opsC1 (F := Ideal)) (after ((opsB2a (F := Ideal)) ++ ((opsB2b (F := Ideal)) ++ (opsB2c (F := Ideal)))) V) _ = _
  rw [after_append, after_append, blk1c_v3, blk1b_v3, blk1a_v3]

theorem layer1_arg0 (V : Valuation τ sig (Elt Ideal)) :
    after (opsC1 (F := Ideal)) (after (opsB2 (F := Ideal)) V) (main_arg0 : DevRef τ sig) = (V (main_arg0 : DevRef τ sig)) := by
  show after (opsC1 (F := Ideal)) (after ((opsB2a (F := Ideal)) ++ ((opsB2b (F := Ideal)) ++ (opsB2c (F := Ideal)))) V) _ = _
  rw [after_append, after_append, blk1c_arg0, blk1b_arg0, blk1a_arg0]

theorem layer1_arg1 (V : Valuation τ sig (Elt Ideal)) :
    after (opsC1 (F := Ideal)) (after (opsB2 (F := Ideal)) V) (main_arg1 : DevRef τ sig) = (V (main_arg1 : DevRef τ sig)) := by
  show after (opsC1 (F := Ideal)) (after ((opsB2a (F := Ideal)) ++ ((opsB2b (F := Ideal)) ++ (opsB2c (F := Ideal)))) V) _ = _
  rw [after_append, after_append, blk1c_arg1, blk1b_arg1, blk1a_arg1]

theorem layer1_arg2 (V : Valuation τ sig (Elt Ideal)) :
    after (opsC1 (F := Ideal)) (after (opsB2 (F := Ideal)) V) (main_arg2 : DevRef τ sig) = (V (main_arg2 : DevRef τ sig)) := by
  show after (opsC1 (F := Ideal)) (after ((opsB2a (F := Ideal)) ++ ((opsB2b (F := Ideal)) ++ (opsB2c (F := Ideal)))) V) _ = _
  rw [after_append, after_append, blk1c_arg2, blk1b_arg2, blk1a_arg2]

theorem layer1_arg3 (V : Valuation τ sig (Elt Ideal)) :
    after (opsC1 (F := Ideal)) (after (opsB2 (F := Ideal)) V) (main_arg3 : DevRef τ sig) = (V (main_arg3 : DevRef τ sig)) := by
  show after (opsC1 (F := Ideal)) (after ((opsB2a (F := Ideal)) ++ ((opsB2b (F := Ideal)) ++ (opsB2c (F := Ideal)))) V) _ = _
  rw [after_append, after_append, blk1c_arg3, blk1b_arg3, blk1a_arg3]

theorem layer1_arg4 (V : Valuation τ sig (Elt Ideal)) :
    after (opsC1 (F := Ideal)) (after (opsB2 (F := Ideal)) V) (main_arg4 : DevRef τ sig) = (V (main_arg4 : DevRef τ sig)) := by
  show after (opsC1 (F := Ideal)) (after ((opsB2a (F := Ideal)) ++ ((opsB2b (F := Ideal)) ++ (opsB2c (F := Ideal)))) V) _ = _
  rw [after_append, after_append, blk1c_arg4, blk1b_arg4, blk1a_arg4]

theorem layer1_arg5 (V : Valuation τ sig (Elt Ideal)) :
    after (opsC1 (F := Ideal)) (after (opsB2 (F := Ideal)) V) (main_arg5 : DevRef τ sig) = (V (main_arg5 : DevRef τ sig)) := by
  show after (opsC1 (F := Ideal)) (after ((opsB2a (F := Ideal)) ++ ((opsB2b (F := Ideal)) ++ (opsB2c (F := Ideal)))) V) _ = _
  rw [after_append, after_append, blk1c_arg5, blk1b_arg5, blk1a_arg5]

theorem layer1_arg6 (V : Valuation τ sig (Elt Ideal)) :
    after (opsC1 (F := Ideal)) (after (opsB2 (F := Ideal)) V) (main_arg6 : DevRef τ sig) = (V (main_arg6 : DevRef τ sig)) := by
  show after (opsC1 (F := Ideal)) (after ((opsB2a (F := Ideal)) ++ ((opsB2b (F := Ideal)) ++ (opsB2c (F := Ideal)))) V) _ = _
  rw [after_append, after_append, blk1c_arg6, blk1b_arg6, blk1a_arg6]

theorem layer1_arg7 (V : Valuation τ sig (Elt Ideal)) :
    after (opsC1 (F := Ideal)) (after (opsB2 (F := Ideal)) V) (main_arg7 : DevRef τ sig) = (V (main_arg7 : DevRef τ sig)) := by
  show after (opsC1 (F := Ideal)) (after ((opsB2a (F := Ideal)) ++ ((opsB2b (F := Ideal)) ++ (opsB2c (F := Ideal)))) V) _ = _
  rw [after_append, after_append, blk1c_arg7, blk1b_arg7, blk1a_arg7]

end Cert.ReferenceIdeal.RefValue

end
-- ==== Proof.RefLayer2.lean ====
/-
  Layer 2 of the reference network: what its operations leave in the buffers.

  The layer's operations are folded piece by piece — the aggregation and the perceptron, the column statistics, the
  normalisation — each piece's result read as the array operations of what the buffers held before the piece, the
  buffers a later piece or layer reads shown to be kept; the pieces are then composed.  The gather, the scatter-add, the
  column sums and the matrix products are never opened.
-/
import proofs.«164872_j81217831568100_1_alg».proof.Proof.RefOps
import proofs.«164872_j81217831568100_1_alg».proof.Proof.RefTerms
import Idealize.ShloMosaic.Lib.Pipeline.Frame

set_option Elab.async false

noncomputable section

namespace Cert.ReferenceIdeal.RefValue

open Cert.ReferenceIdeal Cert.ReferenceIdeal.Gen Idealize.ShloMosaic Idealize.ShloMosaic.TcCoe Idealize.SL.Sem Idealize.ShloMosaic.StableHlo

attribute [local irreducible] Host.gather Host.scatterAdd Host.reduceAdd Ideal.matmul Ideal.hostReduceAdd Ideal.hostScatterAdd

set_option maxRecDepth 16384 in
set_option maxHeartbeats 4000000 in
/-- The aggregation and the perceptron: the fold at the perceptron's result. -/
theorem blk2a_z (V : Valuation τ sig (Elt Ideal)) :
    after (opsC2a (F := Ideal)) V (main_v135 : DevRef τ sig) = zL (V (main_v1 : DevRef τ sig)) (V (main_v3 : DevRef τ sig)) (PR2 (V (main_arg2 : DevRef τ sig)) (V (main_arg3 : DevRef τ sig)) (V (main_arg4 : DevRef τ sig)) (V (main_arg5 : DevRef τ sig)) (V (main_arg6 : DevRef τ sig)) (V (main_arg7 : DevRef τ sig))) (V (main_v107 : DevRef τ sig)) := by
  after_results_simp
  first | rfl | done

set_option maxRecDepth 16384 in
set_option maxHeartbeats 4000000 in
theorem blk2a_v1 (V : Valuation τ sig (Elt Ideal)) :
    after (opsC2a (F := Ideal)) V (main_v1 : DevRef τ sig) = (V (main_v1 : DevRef τ sig)) := by
  after_results_simp
  first | rfl | done

set_option maxRecDepth 16384 in
set_option maxHeartbeats 4000000 in
theorem blk2a_v3 (V : Valuation τ sig (Elt Ideal)) :
    after (opsC2a (F := Ideal)) V (main_v3 : DevRef τ sig) = (V (main_v3 : DevRef τ sig)) := by
  after_results_simp
  first | rfl | done

set_option maxRecDepth 16384 in
set_option maxHeartbeats 4000000 in
theorem blk2a_arg0 (V : Valuation τ sig (Elt Ideal)) :
    after (opsC2a (F := Ideal)) V (main_arg0 : DevRef τ sig) = (V (main_arg0 : DevRef τ sig)) := by
  after_results_simp
  first | rfl | done

set_option maxRecDepth 16384 in
set_option maxHeartbeats 4000000 in
theorem blk2a_arg1 (V : Valuation τ sig (Elt Ideal)) :
    after (opsC2a (F := Ideal)) V (main_arg1 : DevRef τ sig) = (V (main_arg1 : DevRef τ sig)) := by
  after_results_simp
  first | rfl | done

set_option maxRecDepth 16384 in
set_option maxHeartbeats 4000000 in
theorem blk2a_arg2 (V : Valuation τ sig (Elt Ideal)) :
    after (opsC2a (F := Ideal)) V (main_arg2 : DevRef τ sig) = (V (main_arg2 : DevRef τ sig)) := by
  after_results_simp
  first | rfl | done

set_option maxRecDepth 16384 in
set_option maxHeartbeats 4000000 in
theorem blk2a_arg3 (V : Valuation τ sig (Elt Ideal)) :
    after (opsC2a (F := Ideal)) V (main_arg3 : DevRef τ sig) = (V (main_arg3 : DevRef τ sig)) := by
  after_results_simp
  first | rfl | done

set_option maxRecDepth 16384 in
set_option maxHeartbeats 4000000 in
theorem blk2a_arg4 (V : Valuation τ sig (Elt Ideal)) :
    after (opsC2a (F := Ideal)) V (main_arg4 : DevRef τ sig) = (V (main_arg4 : DevRef τ sig)) := by
  after_results_simp
  first | rfl | done

set_option maxRecDepth 16384 in
set_option maxHeartbeats 4000000 in
theorem blk2a_arg5 (V : Valuation τ sig (Elt Ideal)) :
    after (opsC2a (F := Ideal)) V (main_arg5 : DevRef τ sig) = (V (main_arg5 : DevRef τ sig)) := by
  after_results_simp
  first | rfl | done

set_option maxRecDepth 16384 in
set_option maxHeartbeats 4000000 in
theorem blk2a_arg6 (V : Valuation τ sig (Elt Ideal)) :
    after (opsC2a (F := Ideal)) V (main_arg6 : DevRef τ sig) = (V (main_arg6 : DevRef τ sig)) := by
  after_results_simp
  first | rfl | done

set_option maxRecDepth 16384 in
set_option maxHeartbeats 4000000 in
theorem blk2a_arg7 (V : Valuation τ sig (Elt Ideal)) :
    after (opsC2a (F := Ideal)) V (main_arg7 : DevRef τ sig) = (V (main_arg7 : DevRef τ sig)) := by
  after_results_simp
  first | rfl | done

set_option maxRecDepth 16384 in
set_option maxHeartbeats 4000000 in
/-- The column mean of the perceptron's result. -/
theorem blk2b_mean (V : Valuation τ sig (Elt Ideal)) :
    after (opsC2b (F := Ideal)) V (main_v138 : DevRef τ sig) = meanVec (V (main_v135 : DevRef τ sig)) := by
  after_results_simp
  first | rfl | done

set_option maxRecDepth 16384 in
set_option maxHeartbeats 4000000 in
/-- The column variance of the perceptron's result. -/
theorem blk2b_var (V : Valuation τ sig (Elt Ideal)) :
    after (opsC2b (F := Ideal)) V (main_v139 : DevRef τ sig) = varVec (V (main_v135 : DevRef τ sig)) := by
  after_results_simp
  first | rfl | done

set_option maxRecDepth 16384 in
set_option maxHeartbeats 4000000 in
theorem blk2b_v135 (V : Valuation τ sig (Elt Ideal)) :
    after (opsC2b (F := Ideal)) V (main_v135 : DevRef τ sig) = (V (main_v135 : DevRef τ sig)) := by
  after_results_simp
  first | rfl | done

set_option maxRecDepth 16384 in
set_option maxHeartbeats 4000000 in
theorem blk2b_v1 (V : Valuation τ sig (Elt Ideal)) :
    after (opsC2b (F := Ideal)) V (main_v1 : DevRef τ sig) = (V (main_v1 : DevRef τ sig)) := by
  after_results_simp
  first | rfl | done

set_option maxRecDepth 16384 in
set_option maxHeartbeats 4000000 in
theorem blk2b_v3 (V : Valuation τ sig (Elt Ideal)) :
    after (opsC2b (F := Ideal)) V (main_v3 : DevRef τ sig) = (V (main_v3 : DevRef τ sig)) := by
  after_results_simp
  first | rfl | done

set_option maxRecDepth 16384 in
set_option maxHeartbeats 4000000 in
theorem blk2b_arg0 (V : Valuation τ sig (Elt Ideal)) :
    after (opsC2b (F := Ideal)) V (main_arg0 : DevRef τ sig) = (V (main_arg0 : DevRef τ sig)) := by
  after_results_simp
  first | rfl | done

set_option maxRecDepth 16384 in
set_option maxHeartbeats 4000000 in
theorem blk2b_arg1 (V : Valuation τ sig (Elt Ideal)) :
    after (opsC2b (F := Ideal)) V (main_arg1 : DevRef τ sig) = (V (main_arg1 : DevRef τ sig)) := by
  after_results_simp
  first | rfl | done

set_option maxRecDepth 16384 in
set_option maxHeartbeats 4000000 in
theorem blk2b_arg2 (V : Valuation τ sig (Elt Ideal)) :
    after (opsC2b (F := Ideal)) V (main_arg2 : DevRef τ sig) = (V (main_arg2 : DevRef τ sig)) := by
  after_results_simp
  first | rfl | done

set_option maxRecDepth 16384 in
set_option maxHeartbeats 4000000 in
theorem blk2b_arg3 (V : Valuation τ sig (Elt Ideal)) :
    after (opsC2b (F := Ideal)) V (main_arg3 : DevRef τ sig) = (V (main_arg3 : DevRef τ sig)) := by
  after_results_simp
  first | rfl | done

set_option maxRecDepth 16384 in
set_option maxHeartbeats 4000000 in
theorem blk2b_arg4 (V : Valuation τ sig (Elt Ideal)) :
    after (opsC2b (F := Ideal)) V (main_arg4 : DevRef τ sig) = (V (main_arg4 : DevRef τ sig)) := by
  after_results_simp
  first | rfl | done

set_option maxRecDepth 16384 in
set_option maxHeartbeats 4000000 in
theorem blk2b_arg5 (V : Valuation τ sig (Elt Ideal)) :
    after (opsC2b (F := Ideal)) V (main_arg5 : DevRef τ sig) = (V (main_arg5 : DevRef τ sig)) := by
  after_results_simp
  first | rfl | done

set_option maxRecDepth 16384 in
set_option maxHeartbeats 4000000 in
theorem blk2b_arg6 (V : Valuation τ sig (Elt Ideal)) :
    after (opsC2b (F := Ideal)) V (main_arg6 : DevRef τ sig) = (V (main_arg6 : DevRef τ sig)) := by
  after_results_simp
  first | rfl | done

set_option maxRecDepth 16384 in
set_option maxHeartbeats 4000000 in
theorem blk2b_arg7 (V : Valuation τ sig (Elt Ideal)) :
    after (opsC2b (F := Ideal)) V (main_arg7 : DevRef τ sig) = (V (main_arg7 : DevRef τ sig)) := by
  after_results_simp
  first | rfl | done

set_option maxRecDepth 16384 in
set_option maxHeartbeats 4000000 in
/-- The normalisation: the fold at its result. -/
theorem blk2c_out (V : Valuation τ sig (Elt Ideal)) :
    after (opsC2c (F := Ideal)) V (main_v158 : DevRef τ sig) = normOf (V (main_v135 : DevRef τ sig)) (V (main_v138 : DevRef τ sig)) (V (main_v139 : DevRef τ sig)) (rowOf ![2, 0] slices_S3x96_S1x96_2_0 (V (main_arg6 : DevRef τ sig))) (rowOf ![2, 0] slices_S3x96_S1x96_2_0 (V (main_arg7 : DevRef τ sig))) := by
  after_results_simp
  first | rfl | done

set_option maxRecDepth 16384 in
set_option maxHeartbeats 4000000 in
theorem blk2c_v1 (V : Valuation τ sig (Elt Ideal)) :
    after (opsC2c (F := Ideal)) V (main_v1 : DevRef τ sig) = (V (main_v1 : DevRef τ sig)) := by
  after_results_simp
  first | rfl | done

set_option maxRecDepth 16384 in
set_option maxHeartbeats 4000000 in
theorem blk2c_v3 (V : Valuation τ sig (Elt Ideal)) :
    after (opsC2c (F := Ideal)) V (main_v3 : DevRef τ sig) = (V (main_v3 : DevRef τ sig)) := by
  after_results_simp
  first | rfl | done

set_option maxRecDepth 16384 in
set_option maxHeartbeats 4000000 in
theorem blk2c_arg0 (V : Valuation τ sig (Elt Ideal)) :
    after (opsC2c (F := Ideal)) V (main_arg0 : DevRef τ sig) = (V (main_arg0 : DevRef τ sig)) := by
  after_results_simp
  first | rfl | done

set_option maxRecDepth 16384 in
set_option maxHeartbeats 4000000 in
theorem blk2c_arg1 (V : Valuation τ sig (Elt Ideal)) :
    after (opsC2c (F := Ideal)) V (main_arg1 : DevRef τ sig) = (V (main_arg1 : DevRef τ sig)) := by
  after_results_simp
  first | rfl | done

set_option maxRecDepth 16384 in
set_option maxHeartbeats 4000000 in
theorem blk2c_arg2 (V : Valuation τ sig (Elt Ideal)) :
    after (opsC2c (F := Ideal)) V (main_arg2 : DevRef τ sig) = (V (main_arg2 : DevRef τ sig)) := by
  after_results_simp
  first | rfl | done

set_option maxRecDepth 16384 in
set_option maxHeartbeats 4000000 in
theorem blk2c_arg3 (V : Valuation τ sig (Elt Ideal)) :
    after (opsC2c (F := Ideal)) V (main_arg3 : DevRef τ sig) = (V (main_arg3 : DevRef τ sig)) := by
  after_results_simp
  first | rfl | done

set_option maxRecDepth 16384 in
set_option maxHeartbeats 4000000 in
theorem blk2c_arg4 (V : Valuation τ sig (Elt Ideal)) :
    after (opsC2c (F := Ideal)) V (main_arg4 : DevRef τ sig) = (V (main_arg4 : DevRef τ sig)) := by
  after_results_simp
  first | rfl | done

set_option maxRecDepth 16384 in
set_option maxHeartbeats 4000000 in
theorem blk2c_arg5 (V : Valuation τ sig (Elt Ideal)) :
    after (opsC2c (F := Ideal)) V (main_arg5 : DevRef τ sig) = (V (main_arg5 : DevRef τ sig)) := by
  after_results_simp
  first | rfl | done

set_option maxRecDepth 16384 in
set_option maxHeartbeats 4000000 in
theorem blk2c_arg6 (V : Valuation τ sig (Elt Ideal)) :
    after (opsC2c (F := Ideal)) V (main_arg6 : DevRef τ sig) = (V (main_arg6 : DevRef τ sig)) := by
  after_results_simp
  first | rfl | done

set_option maxRecDepth 16384 in
set_option maxHeartbeats 4000000 in
theorem blk2c_arg7 (V : Valuation τ sig (Elt Ideal)) :
    after (opsC2c (F := Ideal)) V (main_arg7 : DevRef τ sig) = (V (main_arg7 : DevRef τ sig)) := by
  after_results_simp
  first | rfl | done

/-- Layer 2: the fold of its operations at its result is the layer in array operations, of what the
    buffers held before. -/
theorem layer2_out (V : Valuation τ sig (Elt Ideal)) :
    after (opsC2 (F := Ideal)) V (main_v158 : DevRef τ sig) = layerOf (V (main_v1 : DevRef τ sig)) (V (main_v3 : DevRef τ sig)) (PR2 (V (main_arg2 : DevRef τ sig)) (V (main_arg3 : DevRef τ sig)) (V (main_arg4 : DevRef τ sig)) (V (main_arg5 : DevRef τ sig)) (V (main_arg6 : DevRef τ sig)) (V (main_arg7 : DevRef τ sig))) (V (main_v107 : DevRef τ sig)) := by
  show after ((opsC2a (F := Ideal)) ++ ((opsC2b (F := Ideal)) ++ (opsC2c (F := Ideal)))) V _ = _
  rw [after_append, after_append, blk2c_out, blk2b_mean, blk2b_var, blk2b_v135, blk2b_arg6, blk2b_arg7,
    blk2a_z, blk2a_arg6, blk2a_arg7]
  rfl

theorem layer2_arg0 (V : Valuation τ sig (Elt Ideal)) :
    after (opsC2 (F := Ideal)) V (main_arg0 : DevRef τ sig) = (V (main_arg0 : DevRef τ sig)) := by
  show after ((opsC2a (F := Ideal)) ++ ((opsC2b (F := Ideal)) ++ (opsC2c (F := Ideal)))) V _ = _
  rw [after_append, after_append, blk2c_arg0, blk2b_arg0, blk2a_arg0]

theorem layer2_arg1 (V : Valuation τ sig (Elt Ideal)) :
    after (opsC2 (F := Ideal)) V (main_arg1 : DevRef τ sig) = (V (main_arg1 : DevRef τ sig)) := by
  show after ((opsC2a (F := Ideal)) ++ ((opsC2b (F := Ideal)) ++ (opsC2c (F := Ideal)))) V _ = _
  rw [after_append, after_append, blk2c_arg1, blk2b_arg1, blk2a_arg1]

theorem layer2_arg2 (V : Valuation τ sig (Elt Ideal)) :
    after (opsC2 (F := Ideal)) V (main_arg2 : DevRef τ sig) = (V (main_arg2 : DevRef τ sig)) := by
  show after ((opsC2a (F := Ideal)) ++ ((opsC2b (F := Ideal)) ++ (opsC2c (F := Ideal)))) V _ = _
  rw [after_append, after_append, blk2c_arg2, blk2b_arg2, blk2a_arg2]

theorem layer2_arg3 (V : Valuation τ sig (Elt Ideal)) :
    after (opsC2 (F := Ideal)) V (main_arg3 : DevRef τ sig) = (V (main_arg3 : DevRef τ sig)) := by
  show after ((opsC2a (F := Ideal)) ++ ((opsC2b (F := Ideal)) ++ (opsC2c (F := Ideal)))) V _ = _
  rw [after_append, after_append, blk2c_arg3, blk2b_arg3, blk2a_arg3]

theorem layer2_arg4 (V : Valuation τ sig (Elt Ideal)) :
    after (opsC2 (F := Ideal)) V (main_arg4 : DevRef τ sig) = (V (main_arg4 : DevRef τ sig)) := by
  show after ((opsC2a (F := Ideal)) ++ ((opsC2b (F := Ideal)) ++ (opsC2c (F := Ideal)))) V _ = _
  rw [after_append, after_append, blk2c_arg4, blk2b_arg4, blk2a_arg4]

theorem layer2_arg5 (V : Valuation τ sig (Elt Ideal)) :
    after (opsC2 (F := Ideal)) V (main_arg5 : DevRef τ sig) = (V (main_arg5 : DevRef τ sig)) := by
  show after ((opsC2a (F := Ideal)) ++ ((opsC2b (F := Ideal)) ++ (opsC2c (F := Ideal)))) V _ = _
  rw [after_append, after_append, blk2c_arg5, blk2b_arg5, blk2a_arg5]

theorem layer2_arg6 (V : Valuation τ sig (Elt Ideal)) :
    after (opsC2 (F := Ideal)) V (main_arg6 : DevRef τ sig) = (V (main_arg6 : DevRef τ sig)) := by
  show after ((opsC2a (F := Ideal)) ++ ((opsC2b (F := Ideal)) ++ (opsC2c (F := Ideal)))) V _ = _
  rw [after_append, after_append, blk2c_arg6, blk2b_arg6, blk2a_arg6]

theorem layer2_arg7 (V : Valuation τ sig (Elt Ideal)) :
    after (opsC2 (F := Ideal)) V (main_arg7 : DevRef τ sig) = (V (main_arg7 : DevRef τ sig)) := by
  show after ((opsC2a (F := Ideal)) ++ ((opsC2b (F := Ideal)) ++ (opsC2c (F := Ideal)))) V _ = _
  rw [after_append, after_append, blk2c_arg7, blk2b_arg7, blk2a_arg7]

end Cert.ReferenceIdeal.RefValue

end
-- ==== Proof.RefValue.lean ====
/-
  The reference network's run, read as the network of rows.

  The program's operations are the three layers in order; each layer's fold is that layer in array operations of what
  the buffers held before it, and keeps the edge ends and the arguments.  Composed, the result buffer holds the three
  layers of the argument arrays, which read at an index are the network of rows over this aggregation and these column
  statistics; and every argument is kept.
-/
import proofs.«164872_j81217831568100_1_alg».proof.Proof.RefLayer0
import proofs.«164872_j81217831568100_1_alg».proof.Proof.RefLayer1
import proofs.«164872_j81217831568100_1_alg».proof.Proof.RefLayer2

noncomputable section

namespace Cert.ReferenceIdeal.RefValue

open Cert.ReferenceIdeal Cert.ReferenceIdeal.Gen Idealize.ShloMosaic Idealize.ShloMosaic.TcCoe Idealize.SL.Sem Idealize.ShloMosaic.StableHlo

/-- The fold of the whole program at its result: the network of rows, of the arguments' contents. -/
theorem out_eq (V : Valuation τ sig (Elt Ideal)) :
    after (ops (F := Ideal)) V (main_v158 : DevRef τ sig)
      = Cert.Gin.net (aggR (V (main_arg1 : DevRef τ sig))) meanR varR (PR0 (V (main_arg2 : DevRef τ sig)) (V (main_arg3 : DevRef τ sig)) (V (main_arg4 : DevRef τ sig)) (V (main_arg5 : DevRef τ sig)) (V (main_arg6 : DevRef τ sig)) (V (main_arg7 : DevRef τ sig)))
          (PR1 (V (main_arg2 : DevRef τ sig)) (V (main_arg3 : DevRef τ sig)) (V (main_arg4 : DevRef τ sig)) (V (main_arg5 : DevRef τ sig)) (V (main_arg6 : DevRef τ sig)) (V (main_arg7 : DevRef τ sig)))
          (PR2 (V (main_arg2 : DevRef τ sig)) (V (main_arg3 : DevRef τ sig)) (V (main_arg4 : DevRef τ sig)) (V (main_arg5 : DevRef τ sig)) (V (main_arg6 : DevRef τ sig)) (V (main_arg7 : DevRef τ sig))) (V (main_arg0 : DevRef τ sig)) := by
  show after ((opsA (F := Ideal)) ++ (((opsB1 (F := Ideal)) ++ (opsB2 (F := Ideal))) ++ ((opsC1 (F := Ideal)) ++ (opsC2 (F := Ideal))))) V _ = _
  rw [after_append (opsA (F := Ideal)) _ V, after_append ((opsB1 (F := Ideal)) ++ (opsB2 (F := Ideal))) ((opsC1 (F := Ideal)) ++ (opsC2 (F := Ideal))) _,
    after_append (opsB1 (F := Ideal)) (opsB2 (F := Ideal)) _, after_append (opsC1 (F := Ideal)) (opsC2 (F := Ideal)) _, layer2_out,
    layer1_v1, layer1_v3, layer1_arg2, layer1_arg3, layer1_arg4, layer1_arg5, layer1_arg6, layer1_arg7, layer1_out,
    layer0_v1, layer0_v3, layer0_arg2, layer0_arg3, layer0_arg4, layer0_arg5, layer0_arg6, layer0_arg7, layer0_out]
  simp only [layerOf_eq, reluOf_eq]
  rfl

/-- Argument 0 is kept by the whole program. -/
theorem arg0_eq (V : Valuation τ sig (Elt Ideal)) :
    after (ops (F := Ideal)) V (main_arg0 : DevRef τ sig) = (V (main_arg0 : DevRef τ sig)) := by
  show after ((opsA (F := Ideal)) ++ (((opsB1 (F := Ideal)) ++ (opsB2 (F := Ideal))) ++ ((opsC1 (F := Ideal)) ++ (opsC2 (F := Ideal))))) V _ = _
  rw [after_append (opsA (F := Ideal)) _ V, after_append ((opsB1 (F := Ideal)) ++ (opsB2 (F := Ideal))) ((opsC1 (F := Ideal)) ++ (opsC2 (F := Ideal))) _,
    after_append (opsB1 (F := Ideal)) (opsB2 (F := Ideal)) _, after_append (opsC1 (F := Ideal)) (opsC2 (F := Ideal)) _, layer2_arg0, layer1_arg0, layer0_arg0]

/-- Argument 1 is kept by the whole program. -/
theorem arg1_eq (V : Valuation τ sig (Elt Ideal)) :
    after (ops (F := Ideal)) V (main_arg1 : DevRef τ sig) = (V (main_arg1 : DevRef τ sig)) := by
  show after ((opsA (F := Ideal)) ++ (((opsB1 (F := Ideal)) ++ (opsB2 (F := Ideal))) ++ ((opsC1 (F := Ideal)) ++ (opsC2 (F := Ideal))))) V _ = _
  rw [after_append (opsA (F := Ideal)) _ V, after_append ((opsB1 (F := Ideal)) ++ (opsB2 (F := Ideal))) ((opsC1 (F := Ideal)) ++ (opsC2 (F := Ideal))) _,
    after_append (opsB1 (F := Ideal)) (opsB2 (F := Ideal)) _, after_append (opsC1 (F := Ideal)) (opsC2 (F := Ideal)) _, layer2_arg1, layer1_arg1, layer0_arg1]

/-- Argument 2 is kept by the whole program. -/
theorem arg2_eq (V : Valuation τ sig (Elt Ideal)) :
    after (ops (F := Ideal)) V (main_arg2 : DevRef τ sig) = (V (main_arg2 : DevRef τ sig)) := by
  show after ((opsA (F := Ideal)) ++ (((opsB1 (F := Ideal)) ++ (opsB2 (F := Ideal))) ++ ((opsC1 (F := Ideal)) ++ (opsC2 (F := Ideal))))) V _ = _
  rw [after_append (opsA (F := Ideal)) _ V, after_append ((opsB1 (F := Ideal)) ++ (opsB2 (F := Ideal))) ((opsC1 (F := Ideal)) ++ (opsC2 (F := Ideal))) _,
    after_append (opsB1 (F := Ideal)) (opsB2 (F := Ideal)) _, after_append (opsC1 (F := Ideal)) (opsC2 (F := Ideal)) _, layer2_arg2, layer1_arg2, layer0_arg2]

/-- Argument 3 is kept by the whole program. -/
theorem arg3_eq (V : Valuation τ sig (Elt Ideal)) :
    after (ops (F := Ideal)) V (main_arg3 : DevRef τ sig) = (V (main_arg3 : DevRef τ sig)) := by
  show after ((opsA (F := Ideal)) ++ (((opsB1 (F := Ideal)) ++ (opsB2 (F := Ideal))) ++ ((opsC1 (F := Ideal)) ++ (opsC2 (F := Ideal))))) V _ = _
  rw [after_append (opsA (F := Ideal)) _ V, after_append ((opsB1 (F := Ideal)) ++ (opsB2 (F := Ideal))) ((opsC1 (F := Ideal)) ++ (opsC2 (F := Ideal))) _,
    after_append (opsB1 (F := Ideal)) (opsB2 (F := Ideal)) _, after_append (opsC1 (F := Ideal)) (opsC2 (F := Ideal)) _, layer2_arg3, layer1_arg3, layer0_arg3]

/-- Argument 4 is kept by the whole program. -/
theorem arg4_eq (V : Valuation τ sig (Elt Ideal)) :
    after (ops (F := Ideal)) V (main_arg4 : DevRef τ sig) = (V (main_arg4 : DevRef τ sig)) := by
  show after ((opsA (F := Ideal)) ++ (((opsB1 (F := Ideal)) ++ (opsB2 (F := Ideal))) ++ ((opsC1 (F := Ideal)) ++ (opsC2 (F := Ideal))))) V _ = _
  rw [after_append (opsA (F := Ideal)) _ V, after_append ((opsB1 (F := Ideal)) ++ (opsB2 (F := Ideal))) ((opsC1 (F := Ideal)) ++ (opsC2 (F := Ideal))) _,
    after_append (opsB1 (F := Ideal)) (opsB2 (F := Ideal)) _, after_append (opsC1 (F := Ideal)) (opsC2 (F := Ideal)) _, layer2_arg4, layer1_arg4, layer0_arg4]

/-- Argument 5 is kept by the whole program. -/
theorem arg5_eq (V : Valuation τ sig (Elt Ideal)) :
    after (ops (F := Ideal)) V (main_arg5 : DevRef τ sig) = (V (main_arg5 : DevRef τ sig)) := by
  show after ((opsA (F := Ideal)) ++ (((opsB1 (F := Ideal)) ++ (opsB2 (F := Ideal))) ++ ((opsC1 (F := Ideal)) ++ (opsC2 (F := Ideal))))) V _ = _
  rw [after_append (opsA (F := Ideal)) _ V, after_append ((opsB1 (F := Ideal)) ++ (opsB2 (F := Ideal))) ((opsC1 (F := Ideal)) ++ (opsC2 (F := Ideal))) _,
    after_append (opsB1 (F := Ideal)) (opsB2 (F := Ideal)) _, after_append (opsC1 (F := Ideal)) (opsC2 (F := Ideal)) _, layer2_arg5, layer1_arg5, layer0_arg5]

/-- Argument 6 is kept by the whole program. -/
theorem arg6_eq (V : Valuation τ sig (Elt Ideal)) :
    after (ops (F := Ideal)) V (main_arg6 : DevRef τ sig) = (V (main_arg6 : DevRef τ sig)) := by
  show after ((opsA (F := Ideal)) ++ (((opsB1 (F := Ideal)) ++ (opsB2 (F := Ideal))) ++ ((opsC1 (F := Ideal)) ++ (opsC2 (F := Ideal))))) V _ = _
  rw [after_append (opsA (F := Ideal)) _ V, after_append ((opsB1 (F := Ideal)) ++ (opsB2 (F := Ideal))) ((opsC1 (F := Ideal)) ++ (opsC2 (F := Ideal))) _,
    after_append (opsB1 (F := Ideal)) (opsB2 (F := Ideal)) _, after_append (opsC1 (F := Ideal)) (opsC2 (F := Ideal)) _, layer2_arg6, layer1_arg6, layer0_arg6]

/-- Argument 7 is kept by the whole program. -/
theorem arg7_eq (V : Valuation τ sig (Elt Ideal)) :
    after (ops (F := Ideal)) V (main_arg7 : DevRef τ sig) = (V (main_arg7 : DevRef τ sig)) := by
  show after ((opsA (F := Ideal)) ++ (((opsB1 (F := Ideal)) ++ (opsB2 (F := Ideal))) ++ ((opsC1 (F := Ideal)) ++ (opsC2 (F := Ideal))))) V _ = _
  rw [after_append (opsA (F := Ideal)) _ V, after_append ((opsB1 (F := Ideal)) ++ (opsB2 (F := Ideal))) ((opsC1 (F := Ideal)) ++ (opsC2 (F := Ideal))) _,
    after_append (opsB1 (F := Ideal)) (opsB2 (F := Ideal)) _, after_append (opsC1 (F := Ideal)) (opsC2 (F := Ideal)) _, layer2_arg7, layer1_arg7, layer0_arg7]

/-- From any memory with zero counters, every weakly fair execution of the reference program terminates; every final
    state has the result buffer at the network of rows of the arguments' contents at launch — over the aggregation along
    the edge array, the column mean and the column variance — and every argument as it was. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v158)
          = Cert.Gin.net (aggR (m ((c.tc : Thread nD τ).loc main_arg1))) meanR varR
              (PR0 (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)))
              (PR1 (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)))
              (PR2 (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)))
              (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v158).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c)),
      (h c main_arg6).trans (arg6_eq (launchContents m c)),
      (h c main_arg7).trans (arg7_eq (launchContents m c))⟩)
    (run_main m ρ)

end Cert.ReferenceIdeal.RefValue

end
-- ==== Proof.Bridge.lean ====
/-
  The two programs' array operations are the same functions.

  Both programs cut the edge ends, the weights and the vectors out of their arguments, aggregate along the edges and take
  the column statistics by the same operations, so those functions are equal as they stand.  The one difference is how a
  vector of 96 becomes a row [1, 96]: one program recasts it, the other places it on axis 1 of the row; either way entry
  (0, j) of the row is entry j of the vector.
-/
import proofs.«164872_j81217831568100_1_alg».proof.Proof.KValue
import proofs.«164872_j81217831568100_1_alg».proof.Proof.RefTerms
import proofs.«164872_j81217831568100_1_alg».proof.Proof.LibInDimRow
import Idealize.ShloMosaic.Lib.ValueLayout

noncomputable section

namespace Cert.Proof.Bridge

open Idealize.ShloMosaic Idealize.ShloMosaic.ValueIdx
open Cert.KernelIdeal.KVal Cert.ReferenceIdeal.RefValue

/-- A vector recast to a row is the vector placed on axis 1 of the row. -/
theorem row_cast (v : FVec Ideal ⟨1, ![96]⟩ .f32) (h : (⟨1, ![96]⟩ : Shape).ShapeCasts ⟨2, ![1, 96]⟩)
    (h' : (⟨1, ![96]⟩ : Shape).BroadcastsInDim ⟨2, ![1, 96]⟩ ![1]) :
    shapeCast ⟨2, ![1, 96]⟩ v h = broadcastInDim ⟨2, ![1, 96]⟩ ![1] h' v := by
  funext i
  obtain ⟨u, j, rfl⟩ : ∃ (u : Fin 1) (j : Fin 96), i = ix2 u j := ⟨i 0, i 1, eq_ix2 i⟩
  rw [shapeCast_a_1a_apply v h u j, Cert.LibInDimRow.inDim_b_1b_apply v h' u j]

theorem rowK_eq (v : FVec Ideal ⟨1, ![96]⟩ .f32) :
    rowK v = broadcastInDim Cert.ReferenceIdeal.S1x96 ![1] Cert.ReferenceIdeal.Facts₀.bcast_S96_S1x96_1 v :=
  row_cast v _ _

/-- The aggregation. -/
theorem agg_eq (ei : Edges) : aggK ei = aggR ei := rfl

/-- The row of column means. -/
theorem mean_eq : meanRowK = meanR := funext fun z => (rowK_eq (meanVecK z)).trans rfl

/-- The row of column variances. -/
theorem var_eq : varRowK = varR := funext fun z => (rowK_eq (varVecK z (constantI Cert.KernelIdeal.S_ 32 0#32))).trans rfl

/-- The layers' parameters. -/
theorem P0_eq (W1 : Mats) (b1 : Vecs) (W2 : Mats) (b2 gamma beta : Vecs) : PK0 W1 b1 W2 b2 gamma beta = PR0 W1 b1 W2 b2 gamma beta := by
  unfold PK0 PR0 paramsAt rowOf sqOf
  rw [rowK_eq, rowK_eq, rowK_eq, rowK_eq]
  rfl

theorem P1_eq (W1 : Mats) (b1 : Vecs) (W2 : Mats) (b2 gamma beta : Vecs) : PK1 W1 b1 W2 b2 gamma beta = PR1 W1 b1 W2 b2 gamma beta := by
  unfold PK1 PR1 paramsAt rowOf sqOf
  rw [rowK_eq, rowK_eq, rowK_eq, rowK_eq]
  rfl

theorem P2_eq (W1 : Mats) (b1 : Vecs) (W2 : Mats) (b2 gamma beta : Vecs) : PK2 W1 b1 W2 b2 gamma beta = PR2 W1 b1 W2 b2 gamma beta := by
  unfold PK2 PR2 paramsAt rowOf sqOf
  rw [rowK_eq, rowK_eq, rowK_eq, rowK_eq]
  rfl

end Cert.Proof.Bridge

end
-- ==== Proof.lean ====
/-
  A three-layer graph network on 50000 nodes and 96 channels: six kernel launches among array operations, against the same
  network written in array operations alone.

  In each layer both programs aggregate the node features along the 800000 edges (a gather at the source ends, a sum into
  the destination ends), apply a two-layer perceptron to every row of h + agg, take the column mean and variance of the
  result, and normalise: (z - mean) * rsqrt (var + eps) * gamma + beta, rectified in the first two layers.  The kernel
  program computes the perceptron and the normalisation in launches over ten blocks of 5000 rows, with the biases and the
  statistics as rows [1, 96]; the reference computes them on whole arrays.  On the extended reals a matrix product is the
  plain sum of products, so a block of 5000 rows of the product is the product of the block, and the ten blocks tile the
  array: both programs end at the same network of their arguments (Proof/Net.lean), over the same aggregation and the same
  column statistics, which are never opened.  No law of arithmetic beyond this rearrangement of rows is used, so the
  precondition is not needed for the equality.

  The frames of the two kernel programs are the generated ones; the reference's frame is its run with the result dropped.
  The pass that idealizes the kernel rewrote nothing, so there is nothing to preserve.
-/
import proofs.«164872_j81217831568100_1_alg».proof.Defs
import proofs.«164872_j81217831568100_1_alg».proof.Proof.Gen.Kernel
import proofs.«164872_j81217831568100_1_alg».proof.Proof.Gen.Kernel.Frame
import proofs.«164872_j81217831568100_1_alg».proof.Proof.Gen.KernelIdeal
import proofs.«164872_j81217831568100_1_alg».proof.Proof.Gen.KernelIdeal.Frame
import proofs.«164872_j81217831568100_1_alg».proof.Proof.Gen.ReferenceIdeal
import proofs.«164872_j81217831568100_1_alg».proof.Proof.Gen.Pre_finite_inputs
import proofs.«164872_j81217831568100_1_alg».proof.Proof.KRun
import proofs.«164872_j81217831568100_1_alg».proof.Proof.KValue
import proofs.«164872_j81217831568100_1_alg».proof.Proof.RefValue
import proofs.«164872_j81217831568100_1_alg».proof.Proof.Bridge
import Idealize.ShloMosaic.Adequacy
import Idealize.ShloMosaic.Init

noncomputable section

namespace Cert.Proof

open Idealize.ShloMosaic Idealize.SL.Sem

/-- The kernel program runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run, the result dropped. -/
theorem frame_reference : Cert.frame_ReferenceIdeal := fun m ρ _ =>
  (θ_run Cert.ReferenceIdeal.defs _ _).mono (fun _ h c => (h c).2) (Cert.ReferenceIdeal.RefValue.run m ρ)

/-- Both programs end at the network of their arguments. -/
theorem algebraic : Cert.algebraic_KernelIdeal_ReferenceIdeal := by
  intro m ρ m' ρ' _ hagree
  refine ⟨fun c => Cert.Gin.net (Cert.ReferenceIdeal.RefValue.aggR (m' ((c.tc : Thread Cert.ReferenceIdeal.nD Cert.ReferenceIdeal.τ).loc Cert.ReferenceIdeal.main_arg1))) Cert.ReferenceIdeal.RefValue.meanR Cert.ReferenceIdeal.RefValue.varR
      (Cert.ReferenceIdeal.RefValue.PR0 (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)))
      (Cert.ReferenceIdeal.RefValue.PR1 (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)))
      (Cert.ReferenceIdeal.RefValue.PR2 (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)))
      (m' ((c.tc : Thread Cert.ReferenceIdeal.nD Cert.ReferenceIdeal.τ).loc Cert.ReferenceIdeal.main_arg0)), ?_, Cert.ReferenceIdeal.RefValue.run m' ρ'⟩
  refine (θ_run Cert.KernelIdeal.defs _ _).mono (fun r h c => ⟨(h c).1.trans ?_, (h c).2⟩) (Cert.KernelIdeal.KRun.run_out (F := Ideal) m ρ)
  obtain ⟨e0, e1, e2, e3, e4, e5, e6, e7⟩ := hagree c
  rw [Cert.KernelIdeal.KVal.result_eq m ρ c]
  beta_reduce
  rw [e0, e1, e2, e3, e4, e5, e6, e7, Cert.Proof.Bridge.agg_eq, Cert.Proof.Bridge.mean_eq,
    Cert.Proof.Bridge.var_eq, Cert.Proof.Bridge.P0_eq, Cert.Proof.Bridge.P1_eq, Cert.Proof.Bridge.P2_eq]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
